-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v124)) (v1 : (c : Dev Cert.KernelIdeal.nD) → Buf (Elt Ideal) ((c.tc : Thread Cert.KernelIdeal.nD Cert.KernelIdeal.τ).loc Cert.KernelIdeal.main_v123_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_v123_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S1x4 : Shape := ⟨2, ![1, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S4x1 .f32) (main_arg13 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x1 .f32 := Host.absf main_arg12
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S1x4 .f32) (main_arg9 : FVec F S4 .f32) (main_arg10 : FVec F S4x4 .f32) (main_arg11 : FVec F S4 .f32) (main_arg12 : FVec F S4x1 .f32) (main_arg13 : FVec F S1 .f32) (main_v33 : IVec S_ 1) : IVec S_ 1 :=
  let main_v34 : FVec F S1x4 .f32 := Host.absf main_arg8
  let main_cst_12 : FVec F S_ .f32 := constant S_ .f32 0x7F800000#32
  let main_v35 : FVec F S1x4 .f32 := broadcastInDim S1x4 ![] bcast_S_S1x4 main_cst_12
  let main_v36 : IVec S1x4 1 := cmpf .olt main_v34 main_v35
  let main_c_13 : IVec S_ 1 := constantI S_ 1 1#1
  let main_v37 : IVec S_ 1 := (fun x v => Host.reduce IntOp.andi x v reducesTo_S1x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x4 .f32 := Host.absf main_arg10
  let main_cst_16 : FVec F S_ .f32 := constant S_ .f32 0x7F800000#32
  let main_v45 : FVec F S4x4 .f32 := broadcastInDim S4x4 ![] bcast_S_S4x4 main_cst_16
  let main_v46 : IVec S4x4 1 := cmpf .olt main_v44 main_v45
  let main_c_17 : IVec S_ 1 := constantI S_ 1 1#1
  let main_v47 : IVec S_ 1 := (fun x v => Host.reduce IntOp.andi x v reducesTo_S4x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_arg12 main_arg13 main_v48 main_v49 main_v50

def fn_part1 {F : FTy → Type} [FloatOps F] (main_arg5 : FVec F S4 .f32) (main_arg6 : FVec F S4x1 .f32) (main_arg7 : FVec F S1 .f32) (main_arg8 : FVec F S1x4 .f32) (main_arg9 : FVec F S4 .f32) (main_arg10 : FVec F S4x4 .f32) (main_arg11 : FVec F S4 .f32) (main_arg12 : FVec F S4x1 .f32) (main_arg13 : FVec F S1 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x1 .f32 := Host.absf main_arg6
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x1 .f32) (main_arg1 : IVec S2x6400000 32) (main_arg2 : FVec F S1x4 .f32) (main_arg3 : FVec F S4 .f32) (main_arg4 : FVec F S4x4 .f32) (main_arg5 : FVec F S4 .f32) (main_arg6 : FVec F S4x1 .f32) (main_arg7 : FVec F S1 .f32) (main_arg8 : FVec F S1x4 .f32) (main_arg9 : FVec F S4 .f32) (main_arg10 : FVec F S4x4 .f32) (main_arg11 : FVec F S4 .f32) (main_arg12 : FVec F S4x1 .f32) (main_arg13 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_arg10 main_arg11 main_arg12 main_arg13 main_v13 main_v16
-- ==== Kernel.lean ====
abbrev S100000x1 : Shape := ⟨2, ![100000, 1]⟩
abbrev S2x6400000 : Shape := ⟨2, ![2, 6400000]⟩
abbrev S1x4 : Shape := ⟨2, ![1, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x4 : Shape := ⟨2, ![100000, 4]⟩
abbrev S10000x1 : Shape := ⟨2, ![10000, 1]⟩
abbrev S10000x4 : Shape := ⟨2, ![10000, 4]⟩
abbrev S6500000x4 : Shape := ⟨2, ![6500000, 4]⟩
abbrev S1x1 : Shape := ⟨2, ![1, 1]⟩
abbrev S100000x2 : Shape := ⟨2, ![100000, 2]⟩
abbrev S1x2 : Shape := ⟨2, ![1, 2]⟩
abbrev S10000x2 : Shape := ⟨2, ![10000, 2]⟩
abbrev S2 : Shape := ⟨1, ![2]⟩

abbrev nBuf : Space → Nat
  | .hbm => 165
  | .vmem => 68
  | .smem => 0
  | _ => 0

abbrev hbmTy0_0 (i : Nat) : BufTy := match i % 128 with
  | 0 => ⟨S100000x1, .f32⟩
  | 1 => ⟨S2x6400000, .i32⟩
  | 2 => ⟨S1x4, .f32⟩
  | 3 => ⟨S4, .f32⟩
  | 4 => ⟨S4x4, .f32⟩
  | 5 => ⟨S4, .f32⟩
  | 6 => ⟨S4x1, .f32⟩
  | 7 => ⟨S1, .f32⟩
  | 8 => ⟨S1x4, .f32⟩
  | 9 => ⟨S4, .f32⟩
  | 10 => ⟨S4x4, .f32⟩
  | 11 => ⟨S4, .f32⟩
  | 12 => ⟨S4x1, .f32⟩
  | 13 => ⟨S1, .f32⟩
  | 14 => ⟨S100000, .i32⟩
  | 15 => ⟨S1x6400000, .i32⟩
  | 16 => ⟨S6400000, .i32⟩
  | 17 => ⟨S6500000, .i32⟩
  | 18 => ⟨S1x6400000, .i32⟩
  | 19 => ⟨S6400000, .i32⟩
  | 20 => ⟨S6500000, .i32⟩
  | 21 => ⟨S_, .f32⟩
  | 22 => ⟨S6500000, .f32⟩
  | 23 => ⟨S_, .f32⟩
  | 24 => ⟨S100000, .f32⟩
  | 25 => ⟨S6500000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S6500000, .i32⟩
  | 33 => ⟨S6500000, .i1⟩
  | 34 => ⟨S_, .i32⟩
  | 35 => ⟨S6500000, .i32⟩
  | 36 => ⟨S6500000, .i32⟩
  | 37 => ⟨S6500000, .i32⟩
  | 38 => ⟨S6500000x1, .i32⟩
  | 39 => ⟨S6500000, .f32⟩
  | 40 => ⟨S_, .i32⟩
  | 41 => ⟨S6500000, .i32⟩
  | 42 => ⟨S6500000, .i1⟩
  | 43 => ⟨S_, .i32⟩
  | 44 => ⟨S6500000, .i32⟩
  | 45 => ⟨S6500000, .i32⟩
  | 46 => ⟨S6500000, .i32⟩
  | 47 => ⟨S6500000x1, .i32⟩
  | 48 => ⟨S6500000, .f32⟩
  | 49 => ⟨S6500000, .f32⟩
  | 50 => ⟨S100000x4, .f32⟩
  | 51 => ⟨S6500000x1, .f32⟩
  | 52 => ⟨S_, .i32⟩
  | 53 => ⟨S6500000, .i32⟩
  | 54 => ⟨S6500000, .i1⟩
  | 55 => ⟨S_, .i32⟩
  | 56 => ⟨S6500000, .i32⟩
  | 57 => ⟨S6500000, .i32⟩
  | 58 => ⟨S6500000, .i32⟩
  | 59 => ⟨S6500000x1, .i32⟩
  | 60 => ⟨S6500000x4, .f32⟩
  | 61 => ⟨S6500000x4, .f32⟩
  | 62 => ⟨S6500000x4, .f32⟩
  | 63 => ⟨S_, .f32⟩
  | 64 => ⟨S100000x4, .f32⟩
  | 65 => ⟨S6500000x1, .i32⟩
  | 66 => ⟨S100000x4, .f32⟩
  | 67 => ⟨S1x4, .f32⟩
  | 68 => ⟨S100000x4, .f32⟩
  | 69 => ⟨S100000x4, .f32⟩
  | 70 => ⟨S6500000x1, .f32⟩
  | 71 => ⟨S_, .i32⟩
  | 72 => ⟨S6500000, .i32⟩
  | 73 => ⟨S6500000, .i1⟩
  | 74 => ⟨S_, .i32⟩
  | 75 => ⟨S6500000, .i32⟩
  | 76 => ⟨S6500000, .i32⟩
  | 77 => ⟨S6500000, .i32⟩
  | 78 => ⟨S6500000x1, .i32⟩
  | 79 => ⟨S6500000x4, .f32⟩
  | 80 => ⟨S6500000x4, .f32⟩
  | 81 => ⟨S6500000x4, .f32⟩
  | 82 => ⟨S_, .f32⟩
  | 83 => ⟨S100000x4, .f32⟩
  | 84 => ⟨S6500000x1, .i32⟩
  | 85 => ⟨S100000x4, .f32⟩
  | 86 => ⟨S1x4, .f32⟩
  | 87 => ⟨S100000x4, .f32⟩
  | 88 => ⟨S100000x1, .f32⟩
  | 89 => ⟨S6500000x1, .f32⟩
  | 90 => ⟨S_, .i32⟩
  | 91 => ⟨S6500000, .i32⟩
  | 92 => ⟨S6500000, .i1⟩
  | 93 => ⟨S_, .i32⟩
  | 94 => ⟨S6500000, .i32⟩
  | 95 => ⟨S6500000, .i32⟩
  | 96 => ⟨S6500000, .i32⟩
  | 97 => ⟨S6500000x1, .i32⟩
  | 98 => ⟨S6500000x1, .f32⟩
  | 99 => ⟨S6500000x1, .f32⟩
  | 100 => ⟨S_, .f32⟩
  | 101 => ⟨S100000x1, .f32⟩
  | 102 => ⟨S6500000x1, .i32⟩
  | 103 => ⟨S100000x1, .f32⟩
  | 104 => ⟨S1x1, .f32⟩
  | 105 => ⟨S100000x1, .f32⟩
  | 106 => ⟨S100000x4, .f32⟩
  | 107 => ⟨S6500000x1, .f32⟩
  | 108 => ⟨S_, .i32⟩
  | 109 => ⟨S6500000, .i32⟩
  | 110 => ⟨S6500000, .i1⟩
  | 111 => ⟨S_, .i32⟩
  | 112 => ⟨S6500000, .i32⟩
  | 113 => ⟨S6500000, .i32⟩
  | 114 => ⟨S6500000, .i32⟩
  | 115 => ⟨S6500000x1, .i32⟩
  | 116 => ⟨S6500000x4, .f32⟩
  | 117 => ⟨S6500000x4, .f32⟩
  | 118 => ⟨S6500000x4, .f32⟩
  | 119 => ⟨S_, .f32⟩
  | 120 => ⟨S100000x4, .f32⟩
  | 121 => ⟨S6500000x1, .i32⟩
  | 122 => ⟨S100000x4, .f32⟩
  | 123 => ⟨S1x4, .f32⟩
  | 124 => ⟨S100000x4, .f32⟩
  | 125 => ⟨S100000x4, .f32⟩
  | 126 => ⟨S6500000x1, .f32⟩
  | 127 => ⟨S_, .i32⟩
  | _ => ⟨S100000x1, .f32⟩

abbrev hbmTy0_1 (i : Nat) : BufTy := match i % 128 with
  | 0 => ⟨S6500000, .i32⟩
  | 1 => ⟨S6500000, .i1⟩
  | 2 => ⟨S_, .i32⟩
  | 3 => ⟨S6500000, .i32⟩
  | 4 => ⟨S6500000, .i32⟩
  | 5 => ⟨S6500000, .i32⟩
  | 6 => ⟨S6500000x1, .i32⟩
  | 7 => ⟨S6500000x4, .f32⟩
  | 8 => ⟨S6500000x4, .f32⟩
  | 9 => ⟨S6500000x4, .f32⟩
  | 10 => ⟨S_, .f32⟩
  | 11 => ⟨S100000x4, .f32⟩
  | 12 => ⟨S6500000x1, .i32⟩
  | 13 => ⟨S100000x4, .f32⟩
  | 14 => ⟨S1x4, .f32⟩
  | 15 => ⟨S100000x4, .f32⟩
  | 16 => ⟨S100000x1, .f32⟩
  | 17 => ⟨S6500000x1, .f32⟩
  | 18 => ⟨S_, .i32⟩
  | 19 => ⟨S6500000, .i32⟩
  | 20 => ⟨S6500000, .i1⟩
  | 21 => ⟨S_, .i32⟩
  | 22 => ⟨S6500000, .i32⟩
  | 23 => ⟨S6500000, .i32⟩
  | 24 => ⟨S6500000, .i32⟩
  | 25 => ⟨S6500000x1, .i32⟩
  | 26 => ⟨S6500000x1, .f32⟩
  | 27 => ⟨S6500000x1, .f32⟩
  | 28 => ⟨S_, .f32⟩
  | 29 => ⟨S100000x1, .f32⟩
  | 30 => ⟨S6500000x1, .i32⟩
  | 31 => ⟨S100000x1, .f32⟩
  | 32 => ⟨S1x1, .f32⟩
  | 33 => ⟨S100000x1, .f32⟩
  | 34 => ⟨S100000x2, .f32⟩
  | 35 => ⟨S1x2, .f32⟩
  | 36 => ⟨S2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S1x4, .f32⟩
  | .local _ .vmem, ⟨8, _⟩ => ⟨S10000x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S4x4, .f32⟩
  | .local _ .vmem, ⟨13, _⟩ => ⟨S10000x4, .f32⟩
  | .local _ .vmem, ⟨14, _⟩ => ⟨S10000x4, .f32⟩
  | .local _ .vmem, ⟨15, _⟩ => ⟨S10000x4, .f32⟩
  | .local _ .vmem, ⟨16, _⟩ => ⟨S10000x4, .f32⟩
  | .local _ .vmem, ⟨17, _⟩ => ⟨S1x4, .f32⟩
  | .local _ .vmem, ⟨18, _⟩ => ⟨S10000x4, .f32⟩
  | .local _ .vmem, ⟨19, _⟩ => ⟨S10000x4, .f32⟩
  | .local _ .vmem, ⟨20, _⟩ => ⟨S10000x4, .f32⟩
  | .local _ .vmem, ⟨21, _⟩ => ⟨S10000x4, .f32⟩
  | .local _ .vmem, ⟨22, _⟩ => ⟨S4x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | .local _ .vmem, ⟨30, _⟩ => ⟨S10000x1, .f32⟩
  | .local _ .vmem, ⟨31, _⟩ => ⟨S10000x1, .f32⟩
  | .local _ .vmem, ⟨32, _⟩ => ⟨S1x4, .f32⟩
  | .local _ .vmem, ⟨33, _⟩ => ⟨S10000x4, .f32⟩
  | .local _ .vmem, ⟨34, _⟩ => ⟨S10000x4, .f32⟩
  | .local _ .vmem, ⟨35, _⟩ => ⟨S10000x4, .f32⟩
  | .local _ .vmem, ⟨36, _⟩ => ⟨S10000x4, .f32⟩
  | .local _ .vmem, ⟨37, _⟩ => ⟨S1x4, .f32⟩
  | .local _ .vmem, ⟨38, _⟩ => ⟨S10000x4, .f32⟩
  | .local _ .vmem, ⟨39, _⟩ => ⟨S10000x4, .f32⟩
  | .local _ .vmem, ⟨40, _⟩ => ⟨S10000x4, .f32⟩
  | .local _ .vmem, ⟨41, _⟩ => ⟨S10000x4, .f32⟩
  | .local _ .vmem, ⟨42, _⟩ => ⟨S4x4, .f32⟩
  | .local _ .vmem, ⟨43, _⟩ => ⟨S10000x4, .f32⟩
  | .local _ .vmem, ⟨44, _⟩ => ⟨S10000x4, .f32⟩
  | .local _ .vmem, ⟨45, _⟩ => ⟨S10000x4, .f32⟩
  | .local _ .vmem, ⟨46, _⟩ => ⟨S10000x4, .f32⟩
  | .local _ .vmem, ⟨47, _⟩ => ⟨S1x4, .f32⟩
  | .local _ .vmem, ⟨48, _⟩ => ⟨S10000x4, .f32⟩
  | .local _ .vmem, ⟨49, _⟩ => ⟨S10000x4, .f32⟩
  | .local _ .vmem, ⟨50, _⟩ => ⟨S10000x4, .f32⟩
  | .local _ .vmem, ⟨51, _⟩ => ⟨S10000x4, .f32⟩
  | .local _ .vmem, ⟨52, _⟩ => ⟨S4x1, .f32⟩
  | .local _ .vmem, ⟨53, _⟩ => ⟨S10000x1, .f32⟩
  | .local _ .vmem, ⟨54, _⟩ => ⟨S10000x1, .f32⟩
  | .local _ .vmem, ⟨55, _⟩ => ⟨S10000x1, .f32⟩
  | .local _ .vmem, ⟨56, _⟩ => ⟨S10000x1, .f32⟩
  | .local _ .vmem, ⟨57, _⟩ => ⟨S1x1, .f32⟩
  | .local _ .vmem, ⟨58, _⟩ => ⟨S10000x1, .f32⟩
  | .local _ .vmem, ⟨59, _⟩ => ⟨S10000x1, .f32⟩
  | .local _ .vmem, ⟨60, _⟩ => ⟨S10000x1, .f32⟩
  | .local _ .vmem, ⟨61, _⟩ => ⟨S10000x1, .f32⟩
  | .local _ .vmem, ⟨62, _⟩ => ⟨S10000x1, .f32⟩
  | .local _ .vmem, ⟨63, _⟩ => ⟨S10000x1, .f32⟩
  | .local _ .vmem, ⟨64, _⟩ => ⟨S10000x2, .f32⟩
  | .local _ .vmem, ⟨65, _⟩ => ⟨S10000x2, .f32⟩
  | .local _ .vmem, ⟨66, _⟩ => ⟨S1x2, .f32⟩
  | .local _ .vmem, ⟨67, _⟩ => ⟨S1x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_17 : Ref sig .tc := ⟨.hbm, 127, rfl⟩
abbrev main_v94 : Ref sig .tc := ⟨.hbm, 128, rfl⟩
abbrev main_v95 : Ref sig .tc := ⟨.hbm, 129, rfl⟩
abbrev main_c_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_20 : Ref sig .tc := ⟨.hbm, 146, rfl⟩
abbrev main_v110 : Ref sig .tc := ⟨.hbm, 147, rfl⟩
abbrev main_v111 : Ref sig .tc := ⟨.hbm, 148, rfl⟩
abbrev main_c_21 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123_0 : Ref sig .tc := ⟨.hbm, 162, rfl⟩
abbrev main_v123_1 : Ref sig .tc := ⟨.hbm, 163, rfl⟩
abbrev main_v124 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc12_stg2_1 : Ref sig .tc := ⟨.vmem, 65, rfl⟩
abbrev cc12_stg3_0 : Ref sig .tc := ⟨.vmem, 66, rfl⟩
abbrev cc12_scratch0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc12_sem2_1 : DmaSem sig := 65
abbrev cc12_sem3_0 : DmaSem sig := 66

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x4 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x4 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x4 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x4 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4x4 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x4 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x4 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x4 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x4 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x4 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S4x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def k12_cond2 (i : grid12.Coords) : BitVec 1 :=
  let arg0 : BitVec 32 := BitVec.ofNat 32 (i 0).val
  let c9_i32 : BitVec 32 := 9#32
  let v23 : BitVec 1 := Scalar.cmpi .eq arg0 c9_i32
  let v24 : BitVec 32 := Scalar.extui v23
  let c0_i32_16 : BitVec 32 := 0#32
  let v25 : BitVec 1 := Scalar.cmpi .ne v24 c0_i32_16
  v25

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S10000x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x2 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x2 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x1_S10000x1_0_0 : ∀ a, (![0, 0] : Fin 2 → Nat) a + S10000x1.size a ≤ S10000x1.size a
  h_S10000x1 : 0 < S10000x1.numel
  inb_S1x4_S1x4_0_0 : ∀ a, (![0, 0] : Fin 2 → Nat) a + S1x4.size a ≤ S1x4.size a
  h_S1x4 : 0 < S1x4.numel
  broadcasts_S10000x1_S10000x4 : S10000x1.Broadcasts S10000x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  bcast_S6500000x1_S6500000x4_0_1 : S6500000x1.BroadcastsInDim S6500000x4 (![0, 1] : Fin 2 → Fin S6500000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  shapeCasts_S1x4_S1x4 : S1x4.ShapeCasts S1x4
  inb_S4x4_S4x4_0_0 : ∀ a, (![0, 0] : Fin 2 → Nat) a + S4x4.size a ≤ S4x4.size a
  h_S4x4 : 0 < S4x4.numel
  slices_S10000x4_o0_0_S10000x1 : S10000x4.Slices ![0, 0] S10000x1
  slices_S4x4_o0_0_S1x4 : S4x4.Slices ![0, 0] S1x4
  slices_S10000x4_o0_1_S10000x1 : S10000x4.Slices ![0, 1] S10000x1
  slices_S4x4_o1_0_S1x4 : S4x4.Slices ![1, 0] S1x4
  slices_S10000x4_o0_2_S10000x1 : S10000x4.Slices ![0, 2] S10000x1
  slices_S4x4_o2_0_S1x4 : S4x4.Slices ![2, 0] S1x4
  slices_S10000x4_o0_3_S10000x1 : S10000x4.Slices ![0, 3] S10000x1
  slices_S4x4_o3_0_S1x4 : S4x4.Slices ![3, 0] S1x4
  inb_S4x1_S4x1_0_0 : ∀ a, (![0, 0] : Fin 2 → Nat) a + S4x1.size a ≤ S4x1.size a
  h_S4x1 : 0 < S4x1.numel
  slices_S4x1_o0_0_S1x1 : S4x1.Slices ![0, 0] S1x1
  broadcasts_S1x1_S10000x1 : S1x1.Broadcasts S10000x1
  slices_S4x1_o1_0_S1x1 : S4x1.Slices ![1, 0] S1x1
  slices_S4x1_o2_0_S1x1 : S4x1.Slices ![2, 0] S1x1
  slices_S4x1_o3_0_S1x1 : S4x1.Slices ![3, 0] S1x1
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S10000x2_S10000x1_0_0 : ∀ a, (![0, 0] : Fin 2 → Nat) a + S10000x1.size a ≤ S10000x2.size a
  inb_S10000x2_S10000x1_0_1 : ∀ a, (![0, 1] : Fin 2 → Nat) a + S10000x1.size a ≤ S10000x2.size a
  inb_S1x2_S1x1_0_0 : ∀ a, (![0, 0] : Fin 2 → Nat) a + S1x1.size a ≤ S1x2.size a
  reduces_S10000x1_S1 : S10000x1.Reduces [0] S1
  inb_S1x2_S1x1_0_1 : ∀ a, (![0, 1] : Fin 2 → Nat) a + S1x1.size a ≤ S1x2.size a
  shapeCasts_S1x2_S2 : S1x2.ShapeCasts S2
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S100000x4.size a
  hwx1_0 : ∀ i : grid1.Coords, EltTy.bits .f32 = 32 ∨ (Rect.block (s := S100000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x4.size a ≤ S100000x4.size a
  hwx1_2 : ∀ i : grid1.Coords, EltTy.bits .f32 = 32 ∨ (Rect.block (s := S100000x4) S10000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S100000x4.size a
  hwx3_0 : ∀ i : grid3.Coords, EltTy.bits .f32 = 32 ∨ (Rect.block (s := S100000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x4.size a ≤ S100000x4.size a
  hwx3_2 : ∀ i : grid3.Coords, EltTy.bits .f32 = 32 ∨ (Rect.block (s := S100000x4) S10000x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S100000x4.size a
  hwx4_0 : ∀ i : grid4.Coords, EltTy.bits .f32 = 32 ∨ (Rect.block (s := S100000x4) S10000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x1.size a ≤ S4x1.size a
  hwx4_1 : ∀ i : grid4.Coords, EltTy.bits .f32 = 32 ∨ (Rect.block (s := S4x1) S4x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .f32 = 32 ∨ (Rect.block (s := S100000x1) S10000x1.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x4.size a ≤ S1x4.size a
  hwx6_1 : ∀ i : grid6.Coords, EltTy.bits .f32 = 32 ∨ (Rect.block (s := S1x4) S1x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x4.size a ≤ S100000x4.size a
  hwx6_2 : ∀ i : grid6.Coords, EltTy.bits .f32 = 32 ∨ (Rect.block (s := S100000x4) S10000x4.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x4.size a ≤ S100000x4.size a
  hwx7_0 : ∀ i : grid7.Coords, EltTy.bits .f32 = 32 ∨ (Rect.block (s := S100000x4) S10000x4.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x4.size a ≤ S1x4.size a
  hwx7_1 : ∀ i : grid7.Coords, EltTy.bits .f32 = 32 ∨ (Rect.block (s := S1x4) S1x4.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x4.size a ≤ S100000x4.size a
  hwx7_2 : ∀ i : grid7.Coords, EltTy.bits .f32 = 32 ∨ (Rect.block (s := S100000x4) S10000x4.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x4.size a ≤ S100000x4.size a
  hwx8_0 : ∀ i : grid8.Coords, EltTy.bits .f32 = 32 ∨ (Rect.block (s := S100000x4) S10000x4.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S4x4.size a ≤ S4x4.size a
  hwx8_1 : ∀ i : grid8.Coords, EltTy.bits .f32 = 32 ∨ (Rect.block (s := S4x4) S4x4.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x4.size a ≤ S100000x4.size a
  hwx8_2 : ∀ i : grid8.Coords, EltTy.bits .f32 = 32 ∨ (Rect.block (s := S100000x4) S10000x4.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x4.size a ≤ S100000x4.size a
  hwx9_0 : ∀ i : grid9.Coords, EltTy.bits .f32 = 32 ∨ (Rect.block (s := S100000x4) S10000x4.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x4.size a ≤ S1x4.size a
  hwx9_1 : ∀ i : grid9.Coords, EltTy.bits .f32 = 32 ∨ (Rect.block (s := S1x4) S1x4.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x4.size a ≤ S100000x4.size a
  hwx9_2 : ∀ i : grid9.Coords, EltTy.bits .f32 = 32 ∨ (Rect.block (s := S100000x4) S10000x4.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x4.size a ≤ S100000x4.size a
  hwx10_0 : ∀ i : grid10.Coords, EltTy.bits .f32 = 32 ∨ (Rect.block (s := S100000x4) S10000x4.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S4x1.size a ≤ S4x1.size a
  hwx10_1 : ∀ i : grid10.Coords, EltTy.bits .f32 = 32 ∨ (Rect.block (s := S4x1) S4x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x1.size a ≤ S100000x1.size a
  hwx10_2 : ∀ i : grid10.Coords, EltTy.bits .f32 = 32 ∨ (Rect.block (s := S100000x1) S10000x1.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x1.size a ≤ S100000x1.size a
  hwx11_0 : ∀ i : grid11.Coords, EltTy.bits .f32 = 32 ∨ (Rect.block (s := S100000x1) S10000x1.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x1.size a ≤ S1x1.size a
  hwx11_1 : ∀ i : grid11.Coords, EltTy.bits .f32 = 32 ∨ (Rect.block (s := S1x1) S1x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x1.size a ≤ S100000x1.size a
  hwx11_2 : ∀ i : grid11.Coords, EltTy.bits .f32 = 32 ∨ (Rect.block (s := S100000x1) S10000x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x1.size a ≤ S100000x1.size a
  hwx12_0 : ∀ i : grid12.Coords, EltTy.bits .f32 = 32 ∨ (Rect.block (s := S100000x1) S10000x1.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x1.size a ≤ S100000x1.size a
  hwx12_1 : ∀ i : grid12.Coords, EltTy.bits .f32 = 32 ∨ (Rect.block (s := S100000x1) S10000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x2.size a ≤ S100000x2.size a
  hwx12_2 : ∀ i : grid12.Coords, EltTy.bits .f32 = 32 ∨ (Rect.block (s := S100000x2) S10000x2.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x2.size a ≤ S1x2.size a
  hwx12_3 : ∀ i : grid12.Coords, EltTy.bits .f32 = 32 ∨ (Rect.block (s := S1x2) S1x2.size (cc12_transform_3 i) (hinb12_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S4x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S1x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S10000x4.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v89) S10000x4.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S1x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S10000x4.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v91) S10000x4.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S4x4.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v92) S10000x4.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v105) S10000x4.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v106) S1x4.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v107) S10000x4.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v107) S10000x4.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S4x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v108) S10000x1.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v120) S10000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v121) S1x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v122) S10000x1.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v75) S10000x1.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v122) S10000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v123_0) S10000x2.size cc12_transform_2 reads12_2 true false 2 stage12_2 sem12_2
    hrank12 hreads12_2 hinb12_2 nbuf12_2 (Memref.isWhole_whole _) hwx12_2 hstage12_2

abbrev win12_3 : Pipeline.Window sig grid12 :=
  Pipeline.Window.ofSpec (Memref.whole main_v123_1) S1x2.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun _ => false | 3 => fun i => !(k12_cond2 i == 1#1) | ⟨_ + 4, h⟩ => absurd h (Nat.not_lt.2 (Nat.le_add_left _ _))

class Facts : Prop extends Facts₀ where

variable [Facts]
-- ==== ReferenceIdeal.lean ====
abbrev S100000x1 : Shape := ⟨2, ![100000, 1]⟩
abbrev S2x6400000 : Shape := ⟨2, ![2, 6400000]⟩
abbrev S1x4 : Shape := ⟨2, ![1, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x4 : Shape := ⟨2, ![100000, 4]⟩
abbrev S6500000x4 : Shape := ⟨2, ![6500000, 4]⟩
abbrev S1x1 : Shape := ⟨2, ![1, 1]⟩
abbrev S100000x2 : Shape := ⟨2, ![100000, 2]⟩
abbrev S2 : Shape := ⟨1, ![2]⟩

abbrev nBuf : Space → Nat
  | .hbm => 193
  | .vmem => 0
  | .smem => 0
  | _ => 0

abbrev hbmTy0_0 (i : Nat) : BufTy := match i % 128 with
  | 0 => ⟨S100000x1, .f32⟩
  | 1 => ⟨S2x6400000, .i32⟩
  | 2 => ⟨S1x4, .f32⟩
  | 3 => ⟨S4, .f32⟩
  | 4 => ⟨S4x4, .f32⟩
  | 5 => ⟨S4, .f32⟩
  | 6 => ⟨S4x1, .f32⟩
  | 7 => ⟨S1, .f32⟩
  | 8 => ⟨S1x4, .f32⟩
  | 9 => ⟨S4, .f32⟩
  | 10 => ⟨S4x4, .f32⟩
  | 11 => ⟨S4, .f32⟩
  | 12 => ⟨S4x1, .f32⟩
  | 13 => ⟨S1, .f32⟩
  | 14 => ⟨S100000, .i32⟩
  | 15 => ⟨S1x6400000, .i32⟩
  | 16 => ⟨S6400000, .i32⟩
  | 17 => ⟨S6500000, .i32⟩
  | 18 => ⟨S1x6400000, .i32⟩
  | 19 => ⟨S6400000, .i32⟩
  | 20 => ⟨S6500000, .i32⟩
  | 21 => ⟨S_, .f32⟩
  | 22 => ⟨S6500000, .f32⟩
  | 23 => ⟨S_, .f32⟩
  | 24 => ⟨S100000, .f32⟩
  | 25 => ⟨S6500000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S6500000, .i32⟩
  | 33 => ⟨S6500000, .i1⟩
  | 34 => ⟨S_, .i32⟩
  | 35 => ⟨S6500000, .i32⟩
  | 36 => ⟨S6500000, .i32⟩
  | 37 => ⟨S6500000, .i32⟩
  | 38 => ⟨S6500000x1, .i32⟩
  | 39 => ⟨S6500000, .f32⟩
  | 40 => ⟨S_, .i32⟩
  | 41 => ⟨S6500000, .i32⟩
  | 42 => ⟨S6500000, .i1⟩
  | 43 => ⟨S_, .i32⟩
  | 44 => ⟨S6500000, .i32⟩
  | 45 => ⟨S6500000, .i32⟩
  | 46 => ⟨S6500000, .i32⟩
  | 47 => ⟨S6500000x1, .i32⟩
  | 48 => ⟨S6500000, .f32⟩
  | 49 => ⟨S6500000, .f32⟩
  | 50 => ⟨S_, .f32⟩
  | 51 => ⟨S100000x1, .f32⟩
  | 52 => ⟨S100000x1, .f32⟩
  | 53 => ⟨S100000x4, .f32⟩
  | 54 => ⟨S6500000x1, .f32⟩
  | 55 => ⟨S_, .i32⟩
  | 56 => ⟨S6500000, .i32⟩
  | 57 => ⟨S6500000, .i1⟩
  | 58 => ⟨S_, .i32⟩
  | 59 => ⟨S6500000, .i32⟩
  | 60 => ⟨S6500000, .i32⟩
  | 61 => ⟨S6500000, .i32⟩
  | 62 => ⟨S6500000x1, .i32⟩
  | 63 => ⟨S6500000x4, .f32⟩
  | 64 => ⟨S6500000x4, .f32⟩
  | 65 => ⟨S6500000x4, .f32⟩
  | 66 => ⟨S_, .f32⟩
  | 67 => ⟨S100000x4, .f32⟩
  | 68 => ⟨S6500000x1, .i32⟩
  | 69 => ⟨S100000x4, .f32⟩
  | 70 => ⟨S1x4, .f32⟩
  | 71 => ⟨S100000x4, .f32⟩
  | 72 => ⟨S100000x4, .f32⟩
  | 73 => ⟨S_, .f32⟩
  | 74 => ⟨S100000x4, .f32⟩
  | 75 => ⟨S100000x4, .f32⟩
  | 76 => ⟨S100000x4, .f32⟩
  | 77 => ⟨S6500000x1, .f32⟩
  | 78 => ⟨S_, .i32⟩
  | 79 => ⟨S6500000, .i32⟩
  | 80 => ⟨S6500000, .i1⟩
  | 81 => ⟨S_, .i32⟩
  | 82 => ⟨S6500000, .i32⟩
  | 83 => ⟨S6500000, .i32⟩
  | 84 => ⟨S6500000, .i32⟩
  | 85 => ⟨S6500000x1, .i32⟩
  | 86 => ⟨S6500000x4, .f32⟩
  | 87 => ⟨S6500000x4, .f32⟩
  | 88 => ⟨S6500000x4, .f32⟩
  | 89 => ⟨S_, .f32⟩
  | 90 => ⟨S100000x4, .f32⟩
  | 91 => ⟨S6500000x1, .i32⟩
  | 92 => ⟨S100000x4, .f32⟩
  | 93 => ⟨S1x4, .f32⟩
  | 94 => ⟨S100000x4, .f32⟩
  | 95 => ⟨S100000x4, .f32⟩
  | 96 => ⟨S_, .f32⟩
  | 97 => ⟨S100000x4, .f32⟩
  | 98 => ⟨S100000x4, .f32⟩
  | 99 => ⟨S100000x1, .f32⟩
  | 100 => ⟨S6500000x1, .f32⟩
  | 101 => ⟨S_, .i32⟩
  | 102 => ⟨S6500000, .i32⟩
  | 103 => ⟨S6500000, .i1⟩
  | 104 => ⟨S_, .i32⟩
  | 105 => ⟨S6500000, .i32⟩
  | 106 => ⟨S6500000, .i32⟩
  | 107 => ⟨S6500000, .i32⟩
  | 108 => ⟨S6500000x1, .i32⟩
  | 109 => ⟨S6500000x1, .f32⟩
  | 110 => ⟨S6500000x1, .f32⟩
  | 111 => ⟨S_, .f32⟩
  | 112 => ⟨S100000x1, .f32⟩
  | 113 => ⟨S6500000x1, .i32⟩
  | 114 => ⟨S100000x1, .f32⟩
  | 115 => ⟨S1x1, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x1, .f32⟩
  | 122 => ⟨S100000x4, .f32⟩
  | 123 => ⟨S6500000x1, .f32⟩
  | 124 => ⟨S_, .i32⟩
  | 125 => ⟨S6500000, .i32⟩
  | 126 => ⟨S6500000, .i1⟩
  | 127 => ⟨S_, .i32⟩
  | _ => ⟨S100000x1, .f32⟩

abbrev hbmTy0_1 (i : Nat) : BufTy := match i % 128 with
  | 0 => ⟨S6500000, .i32⟩
  | 1 => ⟨S6500000, .i32⟩
  | 2 => ⟨S6500000, .i32⟩
  | 3 => ⟨S6500000x1, .i32⟩
  | 4 => ⟨S6500000x4, .f32⟩
  | 5 => ⟨S6500000x4, .f32⟩
  | 6 => ⟨S6500000x4, .f32⟩
  | 7 => ⟨S_, .f32⟩
  | 8 => ⟨S100000x4, .f32⟩
  | 9 => ⟨S6500000x1, .i32⟩
  | 10 => ⟨S100000x4, .f32⟩
  | 11 => ⟨S1x4, .f32⟩
  | 12 => ⟨S100000x4, .f32⟩
  | 13 => ⟨S100000x4, .f32⟩
  | 14 => ⟨S_, .f32⟩
  | 15 => ⟨S100000x4, .f32⟩
  | 16 => ⟨S100000x4, .f32⟩
  | 17 => ⟨S100000x4, .f32⟩
  | 18 => ⟨S6500000x1, .f32⟩
  | 19 => ⟨S_, .i32⟩
  | 20 => ⟨S6500000, .i32⟩
  | 21 => ⟨S6500000, .i1⟩
  | 22 => ⟨S_, .i32⟩
  | 23 => ⟨S6500000, .i32⟩
  | 24 => ⟨S6500000, .i32⟩
  | 25 => ⟨S6500000, .i32⟩
  | 26 => ⟨S6500000x1, .i32⟩
  | 27 => ⟨S6500000x4, .f32⟩
  | 28 => ⟨S6500000x4, .f32⟩
  | 29 => ⟨S6500000x4, .f32⟩
  | 30 => ⟨S_, .f32⟩
  | 31 => ⟨S100000x4, .f32⟩
  | 32 => ⟨S6500000x1, .i32⟩
  | 33 => ⟨S100000x4, .f32⟩
  | 34 => ⟨S1x4, .f32⟩
  | 35 => ⟨S100000x4, .f32⟩
  | 36 => ⟨S100000x4, .f32⟩
  | 37 => ⟨S_, .f32⟩
  | 38 => ⟨S100000x4, .f32⟩
  | 39 => ⟨S100000x4, .f32⟩
  | 40 => ⟨S100000x1, .f32⟩
  | 41 => ⟨S6500000x1, .f32⟩
  | 42 => ⟨S_, .i32⟩
  | 43 => ⟨S6500000, .i32⟩
  | 44 => ⟨S6500000, .i1⟩
  | 45 => ⟨S_, .i32⟩
  | 46 => ⟨S6500000, .i32⟩
  | 47 => ⟨S6500000, .i32⟩
  | 48 => ⟨S6500000, .i32⟩
  | 49 => ⟨S6500000x1, .i32⟩
  | 50 => ⟨S6500000x1, .f32⟩
  | 51 => ⟨S6500000x1, .f32⟩
  | 52 => ⟨S_, .f32⟩
  | 53 => ⟨S100000x1, .f32⟩
  | 54 => ⟨S6500000x1, .i32⟩
  | 55 => ⟨S100000x1, .f32⟩
  | 56 => ⟨S1x1, .f32⟩
  | 57 => ⟨S100000x1, .f32⟩
  | 58 => ⟨S100000x1, .f32⟩
  | 59 => ⟨S100000x2, .f32⟩
  | 60 => ⟨S_, .f32⟩
  | 61 => ⟨S2, .f32⟩
  | 62 => ⟨S_, .f32⟩
  | 63 => ⟨S2, .f32⟩
  | 64 => ⟨S2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call0_cst : Ref sig .tc := ⟨.hbm, 73, rfl⟩
abbrev main_call0_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call1_cst : Ref sig .tc := ⟨.hbm, 96, rfl⟩
abbrev main_call1_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_16 : Ref sig .tc := ⟨.hbm, 124, rfl⟩
abbrev main_v88 : Ref sig .tc := ⟨.hbm, 125, rfl⟩
abbrev main_v89 : Ref sig .tc := ⟨.hbm, 126, rfl⟩
abbrev main_c_17 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call2_cst : Ref sig .tc := ⟨.hbm, 142, rfl⟩
abbrev main_call2_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_19 : Ref sig .tc := ⟨.hbm, 147, rfl⟩
abbrev main_v106 : Ref sig .tc := ⟨.hbm, 148, rfl⟩
abbrev main_v107 : Ref sig .tc := ⟨.hbm, 149, rfl⟩
abbrev main_c_20 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_21 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_call3_cst : Ref sig .tc := ⟨.hbm, 165, rfl⟩
abbrev main_call3_v0 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_c_22 : Ref sig .tc := ⟨.hbm, 170, rfl⟩
abbrev main_v124 : Ref sig .tc := ⟨.hbm, 171, rfl⟩
abbrev main_v125 : Ref sig .tc := ⟨.hbm, 172, rfl⟩
abbrev main_c_23 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_24 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_25 : Ref sig .tc := ⟨.hbm, 188, rfl⟩
abbrev main_v139 : Ref sig .tc := ⟨.hbm, 189, rfl⟩
abbrev main_cst_26 : Ref sig .tc := ⟨.hbm, 190, rfl⟩
abbrev main_v140 : Ref sig .tc := ⟨.hbm, 191, rfl⟩
abbrev main_v141 : Ref sig .tc := ⟨.hbm, 192, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S100000x1 : S_.BroadcastsInDim S100000x1 (![] : Fin 0 → Fin S100000x1.rank)
  bcast_S6500000x1_S6500000x4_0_1 : S6500000x1.BroadcastsInDim S6500000x4 (![0, 1] : Fin 2 → Fin S6500000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x1_S100000x1_S100000x2_d1 : Shape.Concatenates [S100000x1, S100000x1] S100000x2 1
  reducesTo_S100000x2_S2_d0 : S100000x2.ReducesTo [0] S2
  h_S_ : 0 < S_.numel
  bcast_S_S2 : S_.BroadcastsInDim S2 (![] : Fin 0 → Fin S2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x1_S1x4_S100000x4_1_0_0_1_n_n_wf : DotDims.WF S100000x1 S1x4 S100000x4 [1] [0] [0] [1] [] []
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  dot_S100000x4_S4x4_S100000x4_1_0_0_1_n_n_wf : DotDims.WF S100000x4 S4x4 S100000x4 [1] [0] [0] [1] [] []
  dot_S100000x4_S4x1_S100000x1_1_0_0_1_n_n_wf : DotDims.WF S100000x4 S4x1 S100000x1 [1] [0] [0] [1] [] []
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x1_S1x4_S100000x4_1_0_0_1_n_n : DotDims S100000x1 S1x4 S100000x4 where
  lhsContracting := [1]
  rhsContracting := [0]
  lhsNonContracting := [0]
  rhsNonContracting := [1]
  lhsBatch := []
  rhsBatch := []
  wf := dot_S100000x1_S1x4_S100000x4_1_0_0_1_n_n_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x1_S100000x1_1_0_0_1_n_n : DotDims S100000x4 S4x1 S100000x1 where
  lhsContracting := [1]
  rhsContracting := [0]
  lhsNonContracting := [0]
  rhsNonContracting := [1]
  lhsBatch := []
  rhsBatch := []
  wf := dot_S100000x4_S4x1_S100000x1_1_0_0_1_n_n_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

class Facts : Prop extends Facts₀ where

variable [Facts]
-- ==== Proof.K.A0.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__dense_matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 likewise: it is fetched at the first point only, and its block index is constant over the grid, so
    at every later point the buffer still holds that one block, which is the point's own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_0 : Rect S10000x1 := Rect.unit (s := S10000x1) ![0, 0] S10000x1.size inb_S10000x1_S10000x1_0_0
abbrev r0_1 : Rect S1x4 := Rect.unit (s := S1x4) ![0, 0] S1x4.size inb_S1x4_S1x4_0_0
abbrev r0_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out0_2 (x0 : Vec F S10000x1 .f32) (x1 : Vec F S1x4 .f32) : Vec F S10000x4 .f32 :=
  View.canon [⟨r0_2, k0_pay1 (View.ld x0 r0_0) (View.ld x1 r0_1)⟩]

/-- The one store's rectangle is the whole buffer, so it covers it. -/
theorem cover0_2 (p0 : Vec F S10000x4 .f32) (y : S10000x4.Idx) :
    ∃ pc ∈ ([⟨r0_2, p0⟩] : List (View.Piece (Elt F) S10000x4 .f32)), y ∈ pc.1.set :=
  View.cover_of_tiled [⟨r0_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out0_2 x0 x1`: the two loads read
    `x0` and `x1` through the whole rectangles, the load of the output memref reads a value no payload uses, and the
    store overwrites the whole output buffer. -/
theorem sound_kernel0 (c : Dev nD) (E : Set ℕ) (i : grid0.Coords) (arg1 : Memref sig .tc .vmem S10000x1 .f32) (harg1 : arg1.IsWhole) (arg2 : Memref sig .tc .vmem S1x4 .f32) (harg2 : arg2.IsWhole) (arg3 : Memref sig .tc .vmem S10000x4 .f32) (harg3 : arg3.IsWhole)
    (x0 : Vec F S10000x1 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.A1.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: `cc1__bias_act_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise: it is fetched at the first point only, and its block index is constant over the grid, so
    at every later point the buffer still holds that one block, which is the point's own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref whole -/

abbrev r1_0 : Rect S10000x4 := Rect.unit (s := S10000x4) ![0, 0] S10000x4.size inb_S10000x4_S10000x4_0_0
abbrev r1_1 : Rect S1x4 := Rect.unit (s := S1x4) ![0, 0] S1x4.size inb_S1x4_S1x4_0_0
abbrev r1_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out1_2 (x0 : Vec F S10000x4 .f32) (x1 : Vec F S1x4 .f32) : Vec F S10000x4 .f32 :=
  View.canon [⟨r1_2, k1_pay1 (View.ld x0 r1_0) (View.ld x1 r1_1)⟩]

/-- The one store's rectangle is the whole buffer, so it covers it. -/
theorem cover1_2 (p0 : Vec F S10000x4 .f32) (y : S10000x4.Idx) :
    ∃ pc ∈ ([⟨r1_2, p0⟩] : List (View.Piece (Elt F) S10000x4 .f32)), y ∈ pc.1.set :=
  View.cover_of_tiled [⟨r1_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out1_2 x0 x1`: the two loads read
    `x0` and `x1` through the whole rectangles, the load of the output memref reads a value no payload uses, and the
    store overwrites the whole output buffer. -/
theorem sound_kernel1 (c : Dev nD) (E : Set ℕ) (i : grid1.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.A2.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__dense_matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 likewise: it is fetched at the first point only, and its block index is constant over the grid, so
    at every later point the buffer still holds that one block, which is the point's own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev r2_0 : Rect S10000x4 := Rect.unit (s := S10000x4) ![0, 0] S10000x4.size inb_S10000x4_S10000x4_0_0
abbrev r2_1 : Rect S4x4 := Rect.unit (s := S4x4) ![0, 0] S4x4.size inb_S4x4_S4x4_0_0
abbrev r2_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out2_2 (x0 : Vec F S10000x4 .f32) (x1 : Vec F S4x4 .f32) : Vec F S10000x4 .f32 :=
  View.canon [⟨r2_2, k2_pay1 (View.ld x0 r2_0) (View.ld x1 r2_1)⟩]

/-- The one store's rectangle is the whole buffer, so it covers it. -/
theorem cover2_2 (p0 : Vec F S10000x4 .f32) (y : S10000x4.Idx) :
    ∃ pc ∈ ([⟨r2_2, p0⟩] : List (View.Piece (Elt F) S10000x4 .f32)), y ∈ pc.1.set :=
  View.cover_of_tiled [⟨r2_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out2_2 x0 x1`: the two loads read
    `x0` and `x1` through the whole rectangles, the load of the output memref reads a value no payload uses, and the
    store overwrites the whole output buffer. -/
theorem sound_kernel2 (c : Dev nD) (E : Set ℕ) (i : grid2.Coords) (arg1 : Memref sig .tc .vmem S10000x4 .f32) (harg1 : arg1.IsWhole) (arg2 : Memref sig .tc .vmem S4x4 .f32) (harg2 : arg2.IsWhole) (arg3 : Memref sig .tc .vmem S10000x4 .f32) (harg3 : arg3.IsWhole)
    (x0 : Vec F S10000x4 .f32) (x1 : Vec F S4x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.A3.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `cc3__bias_act_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 likewise: it is fetched at the first point only, and its block index is constant over the grid, so
    at every later point the buffer still holds that one block, which is the point's own. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref whole -/

abbrev r3_0 : Rect S10000x4 := Rect.unit (s := S10000x4) ![0, 0] S10000x4.size inb_S10000x4_S10000x4_0_0
abbrev r3_1 : Rect S1x4 := Rect.unit (s := S1x4) ![0, 0] S1x4.size inb_S1x4_S1x4_0_0
abbrev r3_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out3_2 (x0 : Vec F S10000x4 .f32) (x1 : Vec F S1x4 .f32) : Vec F S10000x4 .f32 :=
  View.canon [⟨r3_2, k3_pay1 (View.ld x0 r3_0) (View.ld x1 r3_1)⟩]

/-- The one store's rectangle is the whole buffer, so it covers it. -/
theorem cover3_2 (p0 : Vec F S10000x4 .f32) (y : S10000x4.Idx) :
    ∃ pc ∈ ([⟨r3_2, p0⟩] : List (View.Piece (Elt F) S10000x4 .f32)), y ∈ pc.1.set :=
  View.cover_of_tiled [⟨r3_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out3_2 x0 x1`: the two loads read
    `x0` and `x1` through the whole rectangles, the load of the output memref reads a value no payload uses, and the
    store overwrites the whole output buffer. -/
theorem sound_kernel3 (c : Dev nD) (E : Set ℕ) (i : grid3.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.A4.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: `cc4__dense_matmul_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 likewise: it is fetched at the first point only, and its block index is constant over the grid, so
    at every later point the buffer still holds that one block, which is the point's own. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each memref whole -/

abbrev r4_0 : Rect S10000x4 := Rect.unit (s := S10000x4) ![0, 0] S10000x4.size inb_S10000x4_S10000x4_0_0
abbrev r4_1 : Rect S4x1 := Rect.unit (s := S4x1) ![0, 0] S4x1.size inb_S4x1_S4x1_0_0
abbrev r4_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out4_2 (x0 : Vec F S10000x4 .f32) (x1 : Vec F S4x1 .f32) : Vec F S10000x1 .f32 :=
  View.canon [⟨r4_2, k4_pay1 (View.ld x0 r4_0) (View.ld x1 r4_1)⟩]

/-- The one store's rectangle is the whole buffer, so it covers it. -/
theorem cover4_2 (p0 : Vec F S10000x1 .f32) (y : S10000x1.Idx) :
    ∃ pc ∈ ([⟨r4_2, p0⟩] : List (View.Piece (Elt F) S10000x1 .f32)), y ∈ pc.1.set :=
  View.cover_of_tiled [⟨r4_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out4_2 x0 x1`: the two loads read
    `x0` and `x1` through the whole rectangles, the load of the output memref reads a value no payload uses, and the
    store overwrites the whole output buffer. -/
theorem sound_kernel4 (c : Dev nD) (E : Set ℕ) (i : grid4.Coords) (arg1 : Memref sig .tc .vmem S10000x4 .f32) (harg1 : arg1.IsWhole) (arg2 : Memref sig .tc .vmem S4x1 .f32) (harg2 : arg2.IsWhole) (arg3 : Memref sig .tc .vmem S10000x1 .f32) (harg3 : arg3.IsWhole)
    (x0 : Vec F S10000x4 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dense_matmul_kernel i arg1 harg1 arg2 harg2 arg3 harg3) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.A5.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: `cc5__bias_act_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 likewise: it is fetched at the first point only, and its block index is constant over the grid, so
    at every later point the buffer still holds that one block, which is the point's own. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref whole -/

abbrev r5_0 : Rect S10000x1 := Rect.unit (s := S10000x1) ![0, 0] S10000x1.size inb_S10000x1_S10000x1_0_0
abbrev r5_1 : Rect S1x1 := Rect.unit (s := S1x1) ![0, 0] S1x1.size inb_S1x1_S1x1_0_0
abbrev r5_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out5_2 (x0 : Vec F S10000x1 .f32) (x1 : Vec F S1x1 .f32) : Vec F S10000x1 .f32 :=
  View.canon [⟨r5_2, k5_pay1 (View.ld x0 r5_0) (View.ld x1 r5_1)⟩]

/-- The one store's rectangle is the whole buffer, so it covers it. -/
theorem cover5_2 (p0 : Vec F S10000x1 .f32) (y : S10000x1.Idx) :
    ∃ pc ∈ ([⟨r5_2, p0⟩] : List (View.Piece (Elt F) S10000x1 .f32)), y ∈ pc.1.set :=
  View.cover_of_tiled [⟨r5_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out5_2 x0 x1`: the two loads read
    `x0` and `x1` through the whole rectangles, the load of the output memref reads a value no payload uses, and the
    store overwrites the whole output buffer. -/
theorem sound_kernel5 (c : Dev nD) (E : Set ℕ) (i : grid5.Coords) (arg1 : Memref sig .tc .vmem S10000x1 .f32) (harg1 : arg1.IsWhole) (arg2 : Memref sig .tc .vmem S1x1 .f32) (harg2 : arg2.IsWhole) (arg3 : Memref sig .tc .vmem S10000x1 .f32) (harg3 : arg3.IsWhole)
    (x0 : Vec F S10000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t`
    each input's buffer at its block and the output's at `out5_2` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.A6.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `cc6__dense_matmul_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 likewise: it is fetched at the first point only, and its block index is constant over the grid, so
    at every later point the buffer still holds that one block, which is the point's own. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref whole -/

abbrev r6_0 : Rect S10000x1 := Rect.unit (s := S10000x1) ![0, 0] S10000x1.size inb_S10000x1_S10000x1_0_0
abbrev r6_1 : Rect S1x4 := Rect.unit (s := S1x4) ![0, 0] S1x4.size inb_S1x4_S1x4_0_0
abbrev r6_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out6_2 (x0 : Vec F S10000x1 .f32) (x1 : Vec F S1x4 .f32) : Vec F S10000x4 .f32 :=
  View.canon [⟨r6_2, k6_pay1 (View.ld x0 r6_0) (View.ld x1 r6_1)⟩]

/-- The one store's rectangle is the whole buffer, so it covers it. -/
theorem cover6_2 (p0 : Vec F S10000x4 .f32) (y : S10000x4.Idx) :
    ∃ pc ∈ ([⟨r6_2, p0⟩] : List (View.Piece (Elt F) S10000x4 .f32)), y ∈ pc.1.set :=
  View.cover_of_tiled [⟨r6_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out6_2 x0 x1`: the two loads read
    `x0` and `x1` through the whole rectangles, the load of the output memref reads a value no payload uses, and the
    store overwrites the whole output buffer. -/
theorem sound_kernel6 (c : Dev nD) (E : Set ℕ) (i : grid6.Coords) (arg1 : Memref sig .tc .vmem S10000x1 .f32) (harg1 : arg1.IsWhole) (arg2 : Memref sig .tc .vmem S1x4 .f32) (harg2 : arg2.IsWhole) (arg3 : Memref sig .tc .vmem S10000x4 .f32) (harg3 : arg3.IsWhole)
    (x0 : Vec F S10000x1 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point `t`
    each input's buffer at its block and the output's at `out6_2` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.A7.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: `cc7__bias_act_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 likewise: it is fetched at the first point only, and its block index is constant over the grid, so
    at every later point the buffer still holds that one block, which is the point's own. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each memref whole -/

abbrev r7_0 : Rect S10000x4 := Rect.unit (s := S10000x4) ![0, 0] S10000x4.size inb_S10000x4_S10000x4_0_0
abbrev r7_1 : Rect S1x4 := Rect.unit (s := S1x4) ![0, 0] S1x4.size inb_S1x4_S1x4_0_0
abbrev r7_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out7_2 (x0 : Vec F S10000x4 .f32) (x1 : Vec F S1x4 .f32) : Vec F S10000x4 .f32 :=
  View.canon [⟨r7_2, k7_pay1 (View.ld x0 r7_0) (View.ld x1 r7_1)⟩]

/-- The one store's rectangle is the whole buffer, so it covers it. -/
theorem cover7_2 (p0 : Vec F S10000x4 .f32) (y : S10000x4.Idx) :
    ∃ pc ∈ ([⟨r7_2, p0⟩] : List (View.Piece (Elt F) S10000x4 .f32)), y ∈ pc.1.set :=
  View.cover_of_tiled [⟨r7_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out7_2 x0 x1`: the two loads read
    `x0` and `x1` through the whole rectangles, the load of the output memref reads a value no payload uses, and the
    store overwrites the whole output buffer. -/
theorem sound_kernel7 (c : Dev nD) (E : Set ℕ) (i : grid7.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_act_kernel i arg1 harg1 arg2 harg2 arg3 harg3) K := by
  simp only [cc7__bias_act_kernel_eq_skeleton]; unfold cc7__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point `t`
    each input's buffer at its block and the output's at `out7_2` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.A8.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: `cc8__dense_matmul_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block index
    has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1 likewise: it is fetched at the first point only, and its block index is constant over the grid, so
    at every later point the buffer still holds that one block, which is the point's own. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each memref whole -/

abbrev r8_0 : Rect S10000x4 := Rect.unit (s := S10000x4) ![0, 0] S10000x4.size inb_S10000x4_S10000x4_0_0
abbrev r8_1 : Rect S4x4 := Rect.unit (s := S4x4) ![0, 0] S4x4.size inb_S4x4_S4x4_0_0
abbrev r8_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out8_2 (x0 : Vec F S10000x4 .f32) (x1 : Vec F S4x4 .f32) : Vec F S10000x4 .f32 :=
  View.canon [⟨r8_2, k8_pay1 (View.ld x0 r8_0) (View.ld x1 r8_1)⟩]

/-- The one store's rectangle is the whole buffer, so it covers it. -/
theorem cover8_2 (p0 : Vec F S10000x4 .f32) (y : S10000x4.Idx) :
    ∃ pc ∈ ([⟨r8_2, p0⟩] : List (View.Piece (Elt F) S10000x4 .f32)), y ∈ pc.1.set :=
  View.cover_of_tiled [⟨r8_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out8_2 x0 x1`: the two loads read
    `x0` and `x1` through the whole rectangles, the load of the output memref reads a value no payload uses, and the
    store overwrites the whole output buffer. -/
theorem sound_kernel8 (c : Dev nD) (E : Set ℕ) (i : grid8.Coords) (arg1 : Memref sig .tc .vmem S10000x4 .f32) (harg1 : arg1.IsWhole) (arg2 : Memref sig .tc .vmem S4x4 .f32) (harg2 : arg2.IsWhole) (arg3 : Memref sig .tc .vmem S10000x4 .f32) (harg3 : arg3.IsWhole)
    (x0 : Vec F S10000x4 .f32) (x1 : Vec F S4x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point `t`
    each input's buffer at its block and the output's at `out8_2` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.A9.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: `cc9__bias_act_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 likewise: it is fetched at the first point only, and its block index is constant over the grid, so
    at every later point the buffer still holds that one block, which is the point's own. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each memref whole -/

abbrev r9_0 : Rect S10000x4 := Rect.unit (s := S10000x4) ![0, 0] S10000x4.size inb_S10000x4_S10000x4_0_0
abbrev r9_1 : Rect S1x4 := Rect.unit (s := S1x4) ![0, 0] S1x4.size inb_S1x4_S1x4_0_0
abbrev r9_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out9_2 (x0 : Vec F S10000x4 .f32) (x1 : Vec F S1x4 .f32) : Vec F S10000x4 .f32 :=
  View.canon [⟨r9_2, k9_pay1 (View.ld x0 r9_0) (View.ld x1 r9_1)⟩]

/-- The one store's rectangle is the whole buffer, so it covers it. -/
theorem cover9_2 (p0 : Vec F S10000x4 .f32) (y : S10000x4.Idx) :
    ∃ pc ∈ ([⟨r9_2, p0⟩] : List (View.Piece (Elt F) S10000x4 .f32)), y ∈ pc.1.set :=
  View.cover_of_tiled [⟨r9_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out9_2 x0 x1`: the two loads read
    `x0` and `x1` through the whole rectangles, the load of the output memref reads a value no payload uses, and the
    store overwrites the whole output buffer. -/
theorem sound_kernel9 (c : Dev nD) (E : Set ℕ) (i : grid9.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__bias_act_kernel i arg1 harg1 arg2 harg2 arg3 harg3) K := by
  simp only [cc9__bias_act_kernel_eq_skeleton]; unfold cc9__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them (`V`); after the body at point `t`
    each input's buffer at its block and the output's at `out9_2` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K.A10.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 10: `cc10__dense_matmul_kernel` (pipeline 10), at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block index
    has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1 likewise: it is fetched at the first point only, and its block index is constant over the grid, so
    at every later point the buffer still holds that one block, which is the point's own. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each memref whole -/

abbrev r10_0 : Rect S10000x4 := Rect.unit (s := S10000x4) ![0, 0] S10000x4.size inb_S10000x4_S10000x4_0_0
abbrev r10_1 : Rect S4x1 := Rect.unit (s := S4x1) ![0, 0] S4x1.size inb_S4x1_S4x1_0_0
abbrev r10_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out10_2 (x0 : Vec F S10000x4 .f32) (x1 : Vec F S4x1 .f32) : Vec F S10000x1 .f32 :=
  View.canon [⟨r10_2, k10_pay1 (View.ld x0 r10_0) (View.ld x1 r10_1)⟩]

/-- The one store's rectangle is the whole buffer, so it covers it. -/
theorem cover10_2 (p0 : Vec F S10000x1 .f32) (y : S10000x1.Idx) :
    ∃ pc ∈ ([⟨r10_2, p0⟩] : List (View.Piece (Elt F) S10000x1 .f32)), y ∈ pc.1.set :=
  View.cover_of_tiled [⟨r10_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out10_2 x0 x1`: the two loads read
    `x0` and `x1` through the whole rectangles, the load of the output memref reads a value no payload uses, and the
    store overwrites the whole output buffer. -/
theorem sound_kernel10 (c : Dev nD) (E : Set ℕ) (i : grid10.Coords) (arg1 : Memref sig .tc .vmem S10000x4 .f32) (harg1 : arg1.IsWhole) (arg2 : Memref sig .tc .vmem S4x1 .f32) (harg2 : arg2.IsWhole) (arg3 : Memref sig .tc .vmem S10000x1 .f32) (harg3 : arg3.IsWhole)
    (x0 : Vec F S10000x4 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant is the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the proof data's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand
-- ==== Proof.K.A11.lean ====
/- The class-A half of one kernel region of the program `Kernel`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 11: `cc11__bias_act_kernel` (pipeline 11), at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block index
    has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 likewise: it is fetched at the first point only, and its block index is constant over the grid, so
    at every later point the buffer still holds that one block, which is the point's own. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each memref whole -/

abbrev r11_0 : Rect S10000x1 := Rect.unit (s := S10000x1) ![0, 0] S10000x1.size inb_S10000x1_S10000x1_0_0
abbrev r11_1 : Rect S1x1 := Rect.unit (s := S1x1) ![0, 0] S1x1.size inb_S1x1_S1x1_0_0
abbrev r11_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out11_2 (x0 : Vec F S10000x1 .f32) (x1 : Vec F S1x1 .f32) : Vec F S10000x1 .f32 :=
  View.canon [⟨r11_2, k11_pay1 (View.ld x0 r11_0) (View.ld x1 r11_1)⟩]

/-- The one store's rectangle is the whole buffer, so it covers it. -/
theorem cover11_2 (p0 : Vec F S10000x1 .f32) (y : S10000x1.Idx) :
    ∃ pc ∈ ([⟨r11_2, p0⟩] : List (View.Piece (Elt F) S10000x1 .f32)), y ∈ pc.1.set :=
  View.cover_of_tiled [⟨r11_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out11_2 x0 x1`: the two loads read
    `x0` and `x1` through the whole rectangles, the load of the output memref reads a value no payload uses, and the
    store overwrites the whole output buffer. -/
theorem sound_kernel11 (c : Dev nD) (E : Set ℕ) (i : grid11.Coords) (arg1 : Memref sig .tc .vmem S10000x1 .f32) (harg1 : arg1.IsWhole) (arg2 : Memref sig .tc .vmem S1x1 .f32) (harg2 : arg2.IsWhole) (arg3 : Memref sig .tc .vmem S10000x1 .f32) (harg3 : arg3.IsWhole)
    (x0 : Vec F S10000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__bias_act_kernel i arg1 harg1 arg2 harg2 arg3 harg3) K := by
  simp only [cc11__bias_act_kernel_eq_skeleton]; unfold cc11__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-! ## The pipeline's proof data -/

/-- The proof data of pipeline 11 on core `c`: the arrays as the region finds them (`V`); after the body at point `t`
    each input's buffer at its block and the output's at `out11_2` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.R12Body.lean ====
/- Region 12 of the program `Kernel` (the concatenation and column means): the rectangles of the body's
   accesses, what its stores leave in the node block, in the scratch accumulator and in the graph block as closed
   functions of the input blocks and of the accumulator's prior contents, and the body's triple in each of its three
   control cases (first point, middle point, last point). -/
import proofs.«147273_j88914412962548_1_alg».proof.Proof.Gen.Kernel.Launch
import proofs.«147273_j88914412962548_1_alg».proof.Proof.Gen.Kernel.Skeleton
import proofs.«147273_j88914412962548_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 12 (the concatenation and column means): the body's runs

The body stores the two input blocks as the two columns of the node block, adds each block's column sum to the
matching entry of a 1x2 accumulator kept in scratch across the grid points (zeroed at the first point), and at the
last point stores the accumulator scaled by the reciprocal of the row count into the 1x2 graph block. -/

/-- The first-point condition (the accumulator is zeroed under it), as the body computes it. -/
abbrev cond12_0 (i : grid12.Coords) : Prop := (Scalar.cmpi .ne (Scalar.extui (Scalar.cmpi .eq (BitVec.ofNat 32 (i 0).val) 0#32)) 0#32) = 1#1
/-- The last-point condition (the graph block is stored under it). -/
abbrev cond12_1 (i : grid12.Coords) : Prop := k12_cond2 i = 1#1

/-- The whole 10000x1 input block. -/
abbrev r12_in : Rect S10000x1 := Rect.unit (s := S10000x1) ![0, 0] S10000x1.size inb_S10000x1_S10000x1_0_0
/-- Columns 0 and 1 of the 10000x2 node block. -/
abbrev r12_c0 : Rect S10000x2 := Rect.unit (s := S10000x2) ![0, 0] S10000x1.size inb_S10000x2_S10000x1_0_0
abbrev r12_c1 : Rect S10000x2 := Rect.unit (s := S10000x2) ![0, 1] S10000x1.size inb_S10000x2_S10000x1_0_1
/-- The whole 1x2 accumulator, and its entries 0 and 1. -/
abbrev rs12_w : Rect S1x2 := Rect.unit (s := S1x2) ![0, 0] S1x2.size inb_S1x2_S1x2_0_0
abbrev rs12_0 : Rect S1x2 := Rect.unit (s := S1x2) ![0, 0] S1x1.size inb_S1x2_S1x1_0_0
abbrev rs12_1 : Rect S1x2 := Rect.unit (s := S1x2) ![0, 1] S1x1.size inb_S1x2_S1x1_0_1

theorem off00 : (![0, 0] : Fin 2 → ℕ) = fun _ => 0 := by
  funext a; fin_cases a <;> rfl

/-- The node block after the body: column 0 the first input block, column 1 the second (last store first). -/
def out12_2 (x0 x1 : Vec F S10000x1 .f32) : Vec F S10000x2 .f32 :=
  View.canon [⟨r12_c1, k12_pay3 x1⟩, ⟨r12_c0, k12_pay2 x0⟩]

/-- One point's update of the accumulator `a`: entry 0 increased by the first block's column sum, entry 1 by the
    second's (last store first). -/
def step12 (x0 x1 : Vec F S10000x1 .f32) (a : Vec F S1x2 .f32) : Vec F S1x2 .f32 :=
  View.canon [⟨rs12_1, k12_pay5 x1 (View.ld a rs12_1)⟩, ⟨rs12_0, k12_pay4 x0 (View.ld a rs12_0)⟩]

/-- The two column stores tile the node block. -/
theorem cover12_2 (p1 p0 : Vec F S10000x1 .f32) (y : S10000x2.Idx) :
    ∃ pc ∈ ([⟨r12_c1, p1⟩, ⟨r12_c0, p0⟩] : List (View.Piece (Elt F) S10000x2 .f32)), y ∈ pc.1.set :=
  View.cover_of_tiled [⟨r12_c1, p1⟩, ⟨r12_c0, p0⟩] S10000x1.size (by rfl) y

/-- The two entry stores tile the accumulator. -/
theorem cover12_s (p1 p0 : Vec F S1x1 .f32) (y : S1x2.Idx) :
    ∃ pc ∈ ([⟨rs12_1, p1⟩, ⟨rs12_0, p0⟩] : List (View.Piece (Elt F) S1x2 .f32)), y ∈ pc.1.set :=
  View.cover_of_tiled [⟨rs12_1, p1⟩, ⟨rs12_0, p0⟩] S1x1.size (by rfl) y

/-- A whole store covers the 1x2 buffer. -/
theorem cover12_w (p : Vec F S1x2 .f32) (y : S1x2.Idx) :
    ∃ pc ∈ ([⟨rs12_w, p⟩] : List (View.Piece (Elt F) S1x2 .f32)), y ∈ pc.1.set :=
  ⟨_, List.mem_singleton_self _, View.mem_set_unit_zero off00 inb_S1x2_S1x2_0_0 y⟩

section Reads
variable {sg : RefSig} {κ κ1 κ2 κ5 : Kind} {sp sp1 sp2 sp5 : Space}

/-- A load through the whole input block reads the block. -/
theorem readAt_in (v : View sg κ sp S10000x1 .f32) (f : v.ty.Contents (Elt F)) :
    View.readAt (Elt F) v r12_in.toLoadRect f = v.read (Elt F) f := by
  rw [View.readAt_eq_ld]; exact View.ld_unit_zero (S := S10000x1) off00 _ _

/-- What the two column stores leave in the node block, read through any view over any prior contents. -/
theorem read_out12_2 (v : View sg κ sp S10000x2 .f32) (g : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) g
        [⟨r12_c1, k12_pay3 (View.readAt (Elt F) v2 r12_in.toLoadRect f1)⟩,
         ⟨r12_c0, k12_pay2 (View.readAt (Elt F) v1 r12_in.toLoadRect f0)⟩])
      = out12_2 (v1.read (Elt F) f0) (v2.read (Elt F) f1) := by
  rw [readAt_in, readAt_in]
  exact View.read_writes_eq_canon _ _ _ (cover12_2 _ _)

/-- What the two entry stores leave in the accumulator when the entries they add to were loaded from the
    accumulator's prior contents `fs`. -/
theorem read_step12 (v : View sg κ sp S1x2 .f32) (fs : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) fs
        [⟨rs12_1, k12_pay5 (View.readAt (Elt F) v2 r12_in.toLoadRect f1) (View.readAt (Elt F) v rs12_1.toLoadRect fs)⟩,
         ⟨rs12_0, k12_pay4 (View.readAt (Elt F) v1 r12_in.toLoadRect f0) (View.readAt (Elt F) v rs12_0.toLoadRect fs)⟩])
      = step12 (v1.read (Elt F) f0) (v2.read (Elt F) f1) (v.read (Elt F) fs) := by
  rw [readAt_in, readAt_in, View.readAt_eq_ld, View.readAt_eq_ld]
  exact View.read_writes_eq_canon _ _ _ (cover12_s _ _)

/-- The entries loaded back after the zero fill are the fill's. -/
theorem readCov_zero_0 (v : View sg κ sp S1x2 .f32) :
    v.readCov [(⟨rs12_w, k12_pay1⟩ : View.Piece (Elt F) S1x2 .f32)] rs12_0.toLoadRect = View.ld (k12_pay1 (F := F)) rs12_0 := by
  rw [View.readCov_eq_canon_ld _ _ _ (cover12_w _), View.canon_unit_zero (S := S1x2) off00]

theorem disj12 : Disjoint rs12_0.set rs12_1.toLoadRect.set :=
  Rect.unit_disjoint (s := S1x2) (off := ![0, 0]) (size := S1x1.size) (off' := ![0, 1]) (size' := S1x1.size) (show Fin S1x2.rank from 1)
    (Or.inl (show (![0, 0] : Fin 2 → ℕ) 1 + S1x1.size 1 ≤ (![0, 1] : Fin 2 → ℕ) 1 by decide))

theorem readCov_zero_1 (v : View sg κ sp S1x2 .f32) (p0 : Vec F S1x1 .f32) :
    v.readCov [(⟨rs12_0, p0⟩ : View.Piece (Elt F) S1x2 .f32), ⟨rs12_w, k12_pay1⟩] rs12_1.toLoadRect = View.ld (k12_pay1 (F := F)) rs12_1 := by
  rw [View.readCov_cons_of_disjoint v (⟨rs12_0, p0⟩ : View.Piece (Elt F) S1x2 .f32) [⟨rs12_w, k12_pay1⟩] rs12_1.toLoadRect disj12,
    View.readCov_eq_canon_ld _ _ _ (cover12_w _), View.canon_unit_zero (S := S1x2) off00]

/-- The FIRST point's stores into the accumulator (the zero fill, then the two entry updates): what they leave. -/
theorem read_step12_first (v : View sg κ sp S1x2 .f32) (fs : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) fs
        [⟨rs12_1, k12_pay5 (View.readAt (Elt F) v2 r12_in.toLoadRect f1)
            (v.readCov [⟨rs12_0, k12_pay4 (View.readAt (Elt F) v1 r12_in.toLoadRect f0) (v.readCov [⟨rs12_w, k12_pay1⟩] rs12_0.toLoadRect)⟩,
                        ⟨rs12_w, k12_pay1⟩] rs12_1.toLoadRect)⟩,
         ⟨rs12_0, k12_pay4 (View.readAt (Elt F) v1 r12_in.toLoadRect f0) (v.readCov [⟨rs12_w, k12_pay1⟩] rs12_0.toLoadRect)⟩,
         ⟨rs12_w, k12_pay1⟩])
      = step12 (v1.read (Elt F) f0) (v2.read (Elt F) f1) (k12_pay1 (F := F)) := by
  rw [readAt_in, readAt_in, readCov_zero_1, readCov_zero_0]
  exact View.read_writes_eq_canon v (v.writes (Elt F) fs [⟨rs12_w, k12_pay1⟩]) _ (cover12_s _ _)

/-- The graph block's store at the last point: the scaled accumulator, loaded back whole after the two entry updates. -/
theorem read_out12_3 (v : View sg κ sp S1x2 .f32) (g : v.ty.Contents (Elt F)) (v5 : View sg κ5 sp5 S1x2 .f32) (fs : v5.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) g
        [⟨rs12_w, k12_pay6 (v5.readCov
            [⟨rs12_1, k12_pay5 (View.readAt (Elt F) v2 r12_in.toLoadRect f1) (View.readAt (Elt F) v5 rs12_1.toLoadRect fs)⟩,
             ⟨rs12_0, k12_pay4 (View.readAt (Elt F) v1 r12_in.toLoadRect f0) (View.readAt (Elt F) v5 rs12_0.toLoadRect fs)⟩]
            rs12_w.toLoadRect)⟩])
      = k12_pay6 (step12 (v1.read (Elt F) f0) (v2.read (Elt F) f1) (v5.read (Elt F) fs)) := by
  rw [View.read_writes_eq_canon _ _ _ (cover12_w _), View.canon_unit_zero (S := S1x2) off00,
    View.readCov_eq_canon_ld _ _ _ (cover12_s _ _), View.ld_unit_zero (S := S1x2) off00,
    readAt_in, readAt_in, View.readAt_eq_ld, View.readAt_eq_ld]
  rfl

end Reads

/-! ## The body's triple, case by case -/

set_option maxHeartbeats 1000000 in
/-- The FIRST point: the accumulator, at anything, is zeroed and then updated; the graph block, at `y`, is untouched.
    The body runs to the continuation holding the inputs as they were, the node block at `out12_2 x0 x1`, the graph
    block at `y`, the accumulator at `step12 x0 x1` of the zero fill. -/
theorem run12_A (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : cond12_0 i) (hc1 : ¬cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y ∗ (∃ d, owns (c : Thread nD τ) arg5 fullShare d)
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare y ∗ owns (c : Thread nD τ) arg5 fullShare (step12 x0 x1 (k12_pay1 (F := F)))) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  subst hf0; subst hf1; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists f3; isplitr; · ipureintro; rfl
    iexact H3
  iexists _; isplitr
  swap; · iexact HS
  ipureintro
  exact read_step12_first _ _ _ _ _ _

set_option maxHeartbeats 1000000 in
/-- A MIDDLE point (neither first nor last): the accumulator, at `a`, is updated; the graph block, at `y`, is
    untouched. The body runs to the continuation holding the inputs as they were, the node block at `out12_2 x0 x1`,
    the graph block at `y`, the accumulator at `step12 x0 x1 a`. -/
theorem run12_B (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : ¬cond12_0 i) (hc1 : ¬cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y ∗ owns (c : Thread nD τ) arg5 fullShare a
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare y ∗ owns (c : Thread nD τ) arg5 fullShare (step12 x0 x1 a)) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  subst hf0; subst hf1; subst hf3; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists f3; isplitr; · ipureintro; rfl
    iexact H3
  iexists _; isplitr
  swap; · iexact HS
  ipureintro
  exact read_step12 _ _ _ _ _ _

set_option maxHeartbeats 1000000 in
/-- The LAST point: the accumulator, at `a`, is updated and then stored, scaled, into the graph block (at anything
    before). The body runs to the continuation holding the inputs as they were, the node block at `out12_2 x0 x1`, the
    graph block at the scaled `step12 x0 x1 a`, the accumulator at `step12 x0 x1 a`. -/
theorem run12_C (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : ¬cond12_0 i) (hc1 : cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare (k12_pay6 (step12 x0 x1 a)) ∗ owns (c : Thread nD τ) arg5 fullShare (step12 x0 x1 a)) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists _; isplitr
    swap; · iexact H3
    ipureintro
    exact read_out12_3 _ _ _ _ _ _ _ _
  iexists _; isplitr
  swap; · iexact HS
  ipureintro
  exact read_step12 _ _ _ _ _ _

end Cert.Kernel.Hand
end
-- ==== Proof.K.R12.lean ====
/- Region 12 of the program `Kernel` (the concatenation and column means), stated at a parameter `V` (the
   TensorCore's buffer contents when the region is entered): each window's block at a point, the scratch accumulator's
   contents after the first `n` points by recursion on `n`, the pipeline's proof data (whose invariant holds the
   accumulator whole at those contents beside the rest of the scoped buffers and the generator register), the body
   obligation at every point of the grid by cases on the point (first, middle, last), and what the invariant is at the
   region's two ends. -/
import proofs.«147273_j88914412962548_1_alg».proof.Proof.K.R12Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, for any proof data whose array is `V`'s
    (`hA`) and whose body leaves the block in place (`hafter`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The accumulator, point by point -/

/-- The scratch accumulator's contents after the first `n` points: the zero fill, then one `step12` per point over
    that point's two input blocks. (The first point zeroes the accumulator before adding to it, so its contents
    before the first point do not matter: `acc12 V c 0` is the fill itself.) -/
def acc12 (c : Dev nD) : ℕ → Vec F S1x2 .f32
  | 0 => k12_pay1
  | n + 1 => if h : n < cfg12.N then step12 (iblk12 V c 0 ⟨n, h⟩) (iblk12 V c 1 ⟨n, h⟩) (acc12 c n) else acc12 c n

theorem acc12_zero (c : Dev nD) : acc12 V c 0 = k12_pay1 (F := F) := rfl

/-- After point `t`: one step over its blocks from what the points before it left. -/
theorem acc12_succ (c : Dev nD) (t : Fin cfg12.N) :
    acc12 V c (t.val + 1) = step12 (iblk12 V c 0 t) (iblk12 V c 1 t) (acc12 V c t.val) := by
  rw [acc12, dif_pos t.isLt]

/-! ## The branch conditions and the graph window's idle points, over the grid -/

/-- The first-point condition holds at point 0 only, -/
theorem hcond12_0 : ∀ t : Fin cfg12.N, cond12_0 (grid12.coords t) ↔ t.val = 0 :=
  (by decide +kernel : ∀ t : Fin grid12.N, cond12_0 (grid12.coords t) ↔ t.val = 0)
/-- the last-point condition at point 9 only. -/
theorem hcond12_1 : ∀ t : Fin cfg12.N, cond12_1 (grid12.coords t) ↔ t.val = 9 :=
  (by decide +kernel : ∀ t : Fin grid12.N, cond12_1 (grid12.coords t) ↔ t.val = 9)

/-- Windows 0, 1, 2 are never idle. -/
theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl
/-- Before the last point the graph window is idle (the body stores nothing into it) and is not written back; -/
theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
/-- at the last point it is live. -/
theorem liveAt12_3 : ∀ t : Fin cfg12.N, cond12_1 (grid12.coords t) → cfg12.idle 3 (grid12.coords t) = false := by decide +kernel

/-! ## The invariant -/

/-- The scratch operand: a whole scoped buffer of the kernel's own, passed beside the windows. -/
abbrev scM12 : Memref sig .tc .vmem S1x2 .f32 := Memref.whole cc12_scratch0

/-- The region invariant before position `n`: before the first point the class's (every scoped buffer that is no
    staging buffer at anything, the generator register at some state); afterwards the accumulator whole at
    `acc12 V c n`, the other such buffers at anything, the generator register at some state. -/
def PhiS12 (c : Dev nD) : ℕ → sProp 𝕄
  | 0 => Pipeline.ΦA spec12 c
  | n + 1 => iprop(owns (c : Thread nD τ) scM12 fullShare (acc12 V c (n + 1))
      ∗ Pipeline.scopedRestBut (Ix := Unit) (Name := ℕ) (U := UR sig nD τ) (Lvl := ℕ) (Val := Elt F) spec12 c [cc12_scratch0]
      ∗ ∃ r, prngReg c r)

theorem PhiS12_zero (c : Dev nD) : PhiS12 V c 0 = Pipeline.ΦA spec12 c := rfl

theorem PhiS12_pos (c : Dev nD) (n : ℕ) (hz : n ≠ 0) :
    PhiS12 V c n = iprop(owns (c : Thread nD τ) scM12 fullShare (acc12 V c n)
      ∗ Pipeline.scopedRestBut (Ix := Unit) (Name := ℕ) (U := UR sig nD τ) (Lvl := ℕ) (Val := Elt F) spec12 c [cc12_scratch0]
      ∗ ∃ r, prngReg c r) := by
  cases n with
  | zero => exact absurd rfl hz
  | succ n => rfl

/-- The class's invariant with the accumulator split out of the scoped rest, as a memref owned at some contents. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0])
          ∗ ∃ r, prngReg c r) := by
  unfold Pipeline.ΦA; rw [scopedRest12_split]; simp only [scM12, owns_whole]; try rfl

/-! ## The pipeline's proof data -/

/-- The proof data of pipeline 12 on core `c`: the arrays as the region finds them (`V`); after the body at point `t`
    each input's buffer at its block, the node block's at `out12_2` of the input blocks, the graph block's at the
    scaled accumulator (consulted at the last point only: before it the window is idle and not written back); the
    invariant `PhiS12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
    | ⟨3, _⟩ => k12_pay6 (acc12 V c (t.val + 1))
  Φ n := PhiS12 V c n.val
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]
theorem after12_3 (c : Dev nD) (t : Fin cfg12.N) : (dat12 V c).after 3 t = k12_pay6 (acc12 V c (t.val + 1)) := by dsimp only [dat12]

/-- The invariant at a point's start and end, restated at `t.val`. -/
theorem Phi12_castSucc (c : Dev nD) (t : Fin cfg12.N) : (dat12 V c).Φ t.castSucc = PhiS12 V c t.val := by
  dsimp only [dat12]; simp only [Fin.coe_castSucc]
theorem Phi12_succ (c : Dev nD) (t : Fin cfg12.N) : (dat12 V c).Φ t.succ = PhiS12 V c (t.val + 1) := rfl

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t` (the obligation's precondition, the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

set_option maxHeartbeats 2000000 in
/-- The body at any point. The inputs' memrefs hold their blocks; the node block's buffer is overwritten whole; by
    cases on the point: at the first the invariant hands the accumulator at anything and the run zeroes it, at a later
    point it hands it at what the points before left; before the last point the graph block's buffer is handed back as
    found (the window is idle there), at the last it is stored whole. The invariant takes the accumulator back at
    `acc12 V c (t.val + 1)`; the other scoped buffers, the generator register and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [Phi12_succ, PhiS12_pos V c _ (Nat.succ_ne_zero _), acc12_succ, Phi12_castSucc]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  have hN : t.val < 10 := lt_of_lt_of_eq t.isLt (show cfg12.N = 10 from N_12)
  by_cases h0 : t.val = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [show PhiS12 V c t.val = Pipeline.ΦA spec12 c from by rw [h0]; rfl,
      show acc12 V c t.val = k12_pay1 (F := F) from by rw [h0]; rfl, PhiA12_eq]
    iintro ⟨⟨⟨⟨%ds, HS⟩, Hrest⟩, Hg⟩, Ho, ⟨%d0, H0⟩, ⟨%d1, H1⟩, ⟨%d2, H2⟩, ⟨%d3, H3⟩⟩
    iapply (run12_A c (grid12.coords t) _ _ _ _ _ _ _ _ _ _ hc0 hc1 (iblk12 V c 0 t) (iblk12 V c 1 t) ((dat12 V c).before 3 t d3) (k12_pay1 (F := F)) Set.univ _)
    isplitl [H0]; · iexact H0
    isplitl [H1]; · iexact H1
    isplitl [H2]; · iexists _; iexact H2
    isplitl [H3]; · iexact H3
    isplitl [HS]; · iexists _; iexact HS
    iintro ⟨H0, H1, H2, H3, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    iexists _; iexact H3
  · have hc0 : ¬cond12_0 (grid12.coords t) := fun h => h0 ((hcond12_0 t).mp h)
    rw [PhiS12_pos V c _ h0]
    by_cases h1 : t.val = 9
    · have hc1 : cond12_1 (grid12.coords t) := (hcond12_1 t).mpr h1
      rw [show (dat12 V c).leavesExact 3 t = owns (c : Thread nD τ) (st12_3 t) fullShare ((dat12 V c).after 3 t) from by
        unfold Dat.leavesExact; rw [liveAt12_3 t hc1], after12_3, acc12_succ]
      iintro ⟨⟨HS, Hrest, Hg⟩, Ho, ⟨%d0, H0⟩, ⟨%d1, H1⟩, ⟨%d2, H2⟩, ⟨%d3, H3⟩⟩
      iapply (run12_C c (grid12.coords t) _ _ _ _ _ _ _ _ _ _ hc0 hc1 (iblk12 V c 0 t) (iblk12 V c 1 t) (k12_pay1 (F := F)) (acc12 V c t.val) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · have hc1 : ¬cond12_1 (grid12.coords t) := fun h => h1 ((hcond12_1 t).mp h)
      rw [Dat.leavesExact_idle (dat12 V c) 3 t (idleAt12_3 t hc1) (noFlush12_3 t hc1)]
      iintro ⟨⟨HS, Hrest, Hg⟩, Ho, ⟨%d0, H0⟩, ⟨%d1, H1⟩, ⟨%d2, H2⟩, ⟨%d3, H3⟩⟩
      iapply (run12_B c (grid12.coords t) _ _ _ _ _ _ _ _ _ _ hc0 hc1 (iblk12 V c 0 t) (iblk12 V c 1 t) ((dat12 V c).before 3 t d3) (acc12 V c t.val) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's two ends -/

/-- What the launch hands the region (the class's invariant) is the invariant before the first point. -/
theorem Phi12_in (c : Dev nD) : Pipeline.ΦA spec12 c ⊢ (dat12 V c).Φ 0 := by
  rw [show (dat12 V c).Φ 0 = PhiS12 V c 0 from rfl, PhiS12_zero]

/-- After any point the invariant gives the class's back: the accumulator's named contents are forgotten. -/
theorem Phi12_out_of (c : Dev nD) (n : Fin (cfg12.N + 1)) (hn : n.val ≠ 0) : (dat12 V c).Φ n ⊢ Pipeline.ΦA spec12 c := by
  rw [show (dat12 V c).Φ n = PhiS12 V c n.val from rfl, PhiS12_pos V c _ hn, PhiA12_eq]
  iintro ⟨HS, Hrest, Hg⟩
  isplitl [HS Hrest]
  · isplitl [HS]; · iexists _; iexact HS
    iexact Hrest
  iexact Hg

/-- The same after the last point. -/
theorem Phi12_out (c : Dev nD) : (dat12 V c).Φ (Fin.last cfg12.N) ⊢ Pipeline.ΦA spec12 c :=
  Phi12_out_of V c _ (by rw [Fin.val_last]; have : cfg12.N = 10 := N_12; omega)

end Cert.Kernel.Hand
end
-- ==== Proof.K.Chain.lean ====
import proofs.«147273_j88914412962548_1_alg».proof.Proof.Gen.Kernel.Regions
import proofs.«147273_j88914412962548_1_alg».proof.Proof.K.A0
import proofs.«147273_j88914412962548_1_alg».proof.Proof.K.A1
import proofs.«147273_j88914412962548_1_alg».proof.Proof.K.A2
import proofs.«147273_j88914412962548_1_alg».proof.Proof.K.A3
import proofs.«147273_j88914412962548_1_alg».proof.Proof.K.A4
import proofs.«147273_j88914412962548_1_alg».proof.Proof.K.A5
import proofs.«147273_j88914412962548_1_alg».proof.Proof.K.A6
import proofs.«147273_j88914412962548_1_alg».proof.Proof.K.A7
import proofs.«147273_j88914412962548_1_alg».proof.Proof.K.A8
import proofs.«147273_j88914412962548_1_alg».proof.Proof.K.A9
import proofs.«147273_j88914412962548_1_alg».proof.Proof.K.A10
import proofs.«147273_j88914412962548_1_alg».proof.Proof.K.A11
import proofs.«147273_j88914412962548_1_alg».proof.Proof.K.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents between the items of @main

The contents of core `c`'s unscoped buffers after each item, as a chain from the launch memory `m`: a host stretch
applies its operations, a region replaces each of its output arrays by what its write-backs leave
(`Dat.arrAt … N` of that region's proof data at the region's entry contents). -/

variable (m : (ℓ : Loc nD τ sig) → Buf (Elt F) ℓ)

/-- a valuation read at the TensorCore's references -/
abbrev asTc (W : Dev nD → Valuation τ sig (Elt F)) : (c : Dev nD) → (b : Ref sig .tc) → Buf (Elt F) ((c : Thread nD τ).loc b) :=
  fun c b => W c b

/-- after the first host stretch -/
def W1 (c : Dev nD) : Valuation τ sig (Elt F) := StableHlo.after hostOps0 (fun b => m (c, b))
/-- what region 0 leaves in `main_v29` -/
def o2_2 (c : Dev nD) : Buf (Elt F) ((c : Thread nD τ).loc main_v29) := (dat0 (asTc (W1 m)) c).arrAt 2 cfg0.N
/-- after region 0 -/
def W2 (c : Dev nD) : Valuation τ sig (Elt F) := Function.update (W1 m c) main_v29 (o2_2 m c)
/-- after the host stretch `hostOps1` -/
def W3 (c : Dev nD) : Valuation τ sig (Elt F) := StableHlo.after hostOps1 (W2 m c)
/-- what region 1 leaves in `main_v44` -/
def o4_2 (c : Dev nD) : Buf (Elt F) ((c : Thread nD τ).loc main_v44) := (dat1 (asTc (W3 m)) c).arrAt 2 cfg1.N
/-- after region 1 -/
def W4 (c : Dev nD) : Valuation τ sig (Elt F) := Function.update (W3 m c) main_v44 (o4_2 m c)
/-- what region 2 leaves in `main_v45` -/
def o5_2 (c : Dev nD) : Buf (Elt F) ((c : Thread nD τ).loc main_v45) := (dat2 (asTc (W4 m)) c).arrAt 2 cfg2.N
/-- after region 2 -/
def W5 (c : Dev nD) : Valuation τ sig (Elt F) := Function.update (W4 m c) main_v45 (o5_2 m c)
/-- after the host stretch `hostOps3` -/
def W6 (c : Dev nD) : Valuation τ sig (Elt F) := StableHlo.after hostOps3 (W5 m c)
/-- what region 3 leaves in `main_v60` -/
def o7_2 (c : Dev nD) : Buf (Elt F) ((c : Thread nD τ).loc main_v60) := (dat3 (asTc (W6 m)) c).arrAt 2 cfg3.N
/-- after region 3 -/
def W7 (c : Dev nD) : Valuation τ sig (Elt F) := Function.update (W6 m c) main_v60 (o7_2 m c)
/-- what region 4 leaves in `main_v61` -/
def o8_2 (c : Dev nD) : Buf (Elt F) ((c : Thread nD τ).loc main_v61) := (dat4 (asTc (W7 m)) c).arrAt 2 cfg4.N
/-- after region 4 -/
def W8 (c : Dev nD) : Valuation τ sig (Elt F) := Function.update (W7 m c) main_v61 (o8_2 m c)
/-- after the host stretch `hostOps5` -/
def W9 (c : Dev nD) : Valuation τ sig (Elt F) := StableHlo.after hostOps5 (W8 m c)
/-- what region 5 leaves in `main_v75` -/
def o10_2 (c : Dev nD) : Buf (Elt F) ((c : Thread nD τ).loc main_v75) := (dat5 (asTc (W9 m)) c).arrAt 2 cfg5.N
/-- after region 5 -/
def W10 (c : Dev nD) : Valuation τ sig (Elt F) := Function.update (W9 m c) main_v75 (o10_2 m c)
/-- what region 6 leaves in `main_v76` -/
def o11_2 (c : Dev nD) : Buf (Elt F) ((c : Thread nD τ).loc main_v76) := (dat6 (asTc (W10 m)) c).arrAt 2 cfg6.N
/-- after region 6 -/
def W11 (c : Dev nD) : Valuation τ sig (Elt F) := Function.update (W10 m c) main_v76 (o11_2 m c)
/-- after the host stretch `hostOps7` -/
def W12 (c : Dev nD) : Valuation τ sig (Elt F) := StableHlo.after hostOps7 (W11 m c)
/-- what region 7 leaves in `main_v91` -/
def o13_2 (c : Dev nD) : Buf (Elt F) ((c : Thread nD τ).loc main_v91) := (dat7 (asTc (W12 m)) c).arrAt 2 cfg7.N
/-- after region 7 -/
def W13 (c : Dev nD) : Valuation τ sig (Elt F) := Function.update (W12 m c) main_v91 (o13_2 m c)
/-- what region 8 leaves in `main_v92` -/
def o14_2 (c : Dev nD) : Buf (Elt F) ((c : Thread nD τ).loc main_v92) := (dat8 (asTc (W13 m)) c).arrAt 2 cfg8.N
/-- after region 8 -/
def W14 (c : Dev nD) : Valuation τ sig (Elt F) := Function.update (W13 m c) main_v92 (o14_2 m c)
/-- after the host stretch `hostOps9` -/
def W15 (c : Dev nD) : Valuation τ sig (Elt F) := StableHlo.after hostOps9 (W14 m c)
/-- what region 9 leaves in `main_v107` -/
def o16_2 (c : Dev nD) : Buf (Elt F) ((c : Thread nD τ).loc main_v107) := (dat9 (asTc (W15 m)) c).arrAt 2 cfg9.N
/-- after region 9 -/
def W16 (c : Dev nD) : Valuation τ sig (Elt F) := Function.update (W15 m c) main_v107 (o16_2 m c)
/-- what region 10 leaves in `main_v108` -/
def o17_2 (c : Dev nD) : Buf (Elt F) ((c : Thread nD τ).loc main_v108) := (dat10 (asTc (W16 m)) c).arrAt 2 cfg10.N
/-- after region 10 -/
def W17 (c : Dev nD) : Valuation τ sig (Elt F) := Function.update (W16 m c) main_v108 (o17_2 m c)
/-- after the host stretch `hostOps11` -/
def W18 (c : Dev nD) : Valuation τ sig (Elt F) := StableHlo.after hostOps11 (W17 m c)
/-- what region 11 leaves in `main_v122` -/
def o19_2 (c : Dev nD) : Buf (Elt F) ((c : Thread nD τ).loc main_v122) := (dat11 (asTc (W18 m)) c).arrAt 2 cfg11.N
/-- after region 11 -/
def W19 (c : Dev nD) : Valuation τ sig (Elt F) := Function.update (W18 m c) main_v122 (o19_2 m c)
/-- what region 12 leaves in `main_v123_0` -/
def o20_2 (c : Dev nD) : Buf (Elt F) ((c : Thread nD τ).loc main_v123_0) := (dat12 (asTc (W19 m)) c).arrAt 2 cfg12.N
/-- what region 12 leaves in `main_v123_1` -/
def o20_3 (c : Dev nD) : Buf (Elt F) ((c : Thread nD τ).loc main_v123_1) := (dat12 (asTc (W19 m)) c).arrAt 3 cfg12.N
/-- after region 12 -/
def W20 (c : Dev nD) : Valuation τ sig (Elt F) := Function.update (Function.update (W19 m c) main_v123_0 (o20_2 m c)) main_v123_1 (o20_3 m c)
/-- after the last host stretch -/
def W21 (c : Dev nD) : Valuation τ sig (Elt F) := StableHlo.after hostOps13 (W20 m c)

/-- What each region leaves, as the family the conditional frame is stated over. -/
def outs : Outs (F := F) := fun J r c => match J with
  | 2 => Function.update (fun r' : Ref sig .tc => m ((c : Thread nD τ).loc r')) main_v29 (o2_2 m c) r
  | 4 => Function.update (fun r' : Ref sig .tc => m ((c : Thread nD τ).loc r')) main_v44 (o4_2 m c) r
  | 5 => Function.update (fun r' : Ref sig .tc => m ((c : Thread nD τ).loc r')) main_v45 (o5_2 m c) r
  | 7 => Function.update (fun r' : Ref sig .tc => m ((c : Thread nD τ).loc r')) main_v60 (o7_2 m c) r
  | 8 => Function.update (fun r' : Ref sig .tc => m ((c : Thread nD τ).loc r')) main_v61 (o8_2 m c) r
  | 10 => Function.update (fun r' : Ref sig .tc => m ((c : Thread nD τ).loc r')) main_v75 (o10_2 m c) r
  | 11 => Function.update (fun r' : Ref sig .tc => m ((c : Thread nD τ).loc r')) main_v76 (o11_2 m c) r
  | 13 => Function.update (fun r' : Ref sig .tc => m ((c : Thread nD τ).loc r')) main_v91 (o13_2 m c) r
  | 14 => Function.update (fun r' : Ref sig .tc => m ((c : Thread nD τ).loc r')) main_v92 (o14_2 m c) r
  | 16 => Function.update (fun r' : Ref sig .tc => m ((c : Thread nD τ).loc r')) main_v107 (o16_2 m c) r
  | 17 => Function.update (fun r' : Ref sig .tc => m ((c : Thread nD τ).loc r')) main_v108 (o17_2 m c) r
  | 19 => Function.update (fun r' : Ref sig .tc => m ((c : Thread nD τ).loc r')) main_v122 (o19_2 m c) r
  | 20 => Function.update (Function.update (fun r' : Ref sig .tc => m ((c : Thread nD τ).loc r')) main_v123_0 (o20_2 m c)) main_v123_1 (o20_3 m c) r
  | _ => m ((c : Thread nD τ).loc r)

theorem outs_2_2 (c : Dev nD) : outs m 2 main_v29 c = o2_2 m c := by
  exact Function.update_self main_v29 (o2_2 m c) (fun r' : Ref sig .tc => m ((c : Thread nD τ).loc r'))
theorem outs_4_2 (c : Dev nD) : outs m 4 main_v44 c = o4_2 m c := by
  exact Function.update_self main_v44 (o4_2 m c) (fun r' : Ref sig .tc => m ((c : Thread nD τ).loc r'))
theorem outs_5_2 (c : Dev nD) : outs m 5 main_v45 c = o5_2 m c := by
  exact Function.update_self main_v45 (o5_2 m c) (fun r' : Ref sig .tc => m ((c : Thread nD τ).loc r'))
theorem outs_7_2 (c : Dev nD) : outs m 7 main_v60 c = o7_2 m c := by
  exact Function.update_self main_v60 (o7_2 m c) (fun r' : Ref sig .tc => m ((c : Thread nD τ).loc r'))
theorem outs_8_2 (c : Dev nD) : outs m 8 main_v61 c = o8_2 m c := by
  exact Function.update_self main_v61 (o8_2 m c) (fun r' : Ref sig .tc => m ((c : Thread nD τ).loc r'))
theorem outs_10_2 (c : Dev nD) : outs m 10 main_v75 c = o10_2 m c := by
  exact Function.update_self main_v75 (o10_2 m c) (fun r' : Ref sig .tc => m ((c : Thread nD τ).loc r'))
theorem outs_11_2 (c : Dev nD) : outs m 11 main_v76 c = o11_2 m c := by
  exact Function.update_self main_v76 (o11_2 m c) (fun r' : Ref sig .tc => m ((c : Thread nD τ).loc r'))
theorem outs_13_2 (c : Dev nD) : outs m 13 main_v91 c = o13_2 m c := by
  exact Function.update_self main_v91 (o13_2 m c) (fun r' : Ref sig .tc => m ((c : Thread nD τ).loc r'))
theorem outs_14_2 (c : Dev nD) : outs m 14 main_v92 c = o14_2 m c := by
  exact Function.update_self main_v92 (o14_2 m c) (fun r' : Ref sig .tc => m ((c : Thread nD τ).loc r'))
theorem outs_16_2 (c : Dev nD) : outs m 16 main_v107 c = o16_2 m c := by
  exact Function.update_self main_v107 (o16_2 m c) (fun r' : Ref sig .tc => m ((c : Thread nD τ).loc r'))
theorem outs_17_2 (c : Dev nD) : outs m 17 main_v108 c = o17_2 m c := by
  exact Function.update_self main_v108 (o17_2 m c) (fun r' : Ref sig .tc => m ((c : Thread nD τ).loc r'))
theorem outs_19_2 (c : Dev nD) : outs m 19 main_v122 c = o19_2 m c := by
  exact Function.update_self main_v122 (o19_2 m c) (fun r' : Ref sig .tc => m ((c : Thread nD τ).loc r'))
theorem outs_20_2 (c : Dev nD) : outs m 20 main_v123_0 c = o20_2 m c := by
  exact (Function.update_of_ne (by decide : main_v123_0 ≠ main_v123_1) (o20_3 m c) (Function.update (fun r' : Ref sig .tc => m ((c : Thread nD τ).loc r')) main_v123_0 (o20_2 m c))).trans (Function.update_self main_v123_0 (o20_2 m c) (fun r' : Ref sig .tc => m ((c : Thread nD τ).loc r')))
theorem outs_20_3 (c : Dev nD) : outs m 20 main_v123_1 c = o20_3 m c := by
  exact Function.update_self main_v123_1 (o20_3 m c) (Function.update (fun r' : Ref sig .tc => m ((c : Thread nD τ).loc r')) main_v123_0 (o20_2 m c))

/-! The chain is the conditional frame's, at these contents. -/

theorem V1_eq (c : Dev nD) : V1 m c = W1 m c := rfl
theorem V2_eq (c : Dev nD) : V2 m (outs m) c = W2 m c := by
  unfold W2; show Function.update (V1 m c) main_v29 (outs m 2 main_v29 c) = _
  rw [outs_2_2, V1_eq]
theorem V3_eq (c : Dev nD) : V3 m (outs m) c = W3 m c := by
  unfold W3; exact congrArg (StableHlo.after hostOps1) (V2_eq m c)
theorem V4_eq (c : Dev nD) : V4 m (outs m) c = W4 m c := by
  unfold W4; show Function.update (V3 m (outs m) c) main_v44 (outs m 4 main_v44 c) = _
  rw [outs_4_2, V3_eq]
theorem V5_eq (c : Dev nD) : V5 m (outs m) c = W5 m c := by
  unfold W5; show Function.update (V4 m (outs m) c) main_v45 (outs m 5 main_v45 c) = _
  rw [outs_5_2, V4_eq]
theorem V6_eq (c : Dev nD) : V6 m (outs m) c = W6 m c := by
  unfold W6; exact congrArg (StableHlo.after hostOps3) (V5_eq m c)
theorem V7_eq (c : Dev nD) : V7 m (outs m) c = W7 m c := by
  unfold W7; show Function.update (V6 m (outs m) c) main_v60 (outs m 7 main_v60 c) = _
  rw [outs_7_2, V6_eq]
theorem V8_eq (c : Dev nD) : V8 m (outs m) c = W8 m c := by
  unfold W8; show Function.update (V7 m (outs m) c) main_v61 (outs m 8 main_v61 c) = _
  rw [outs_8_2, V7_eq]
theorem V9_eq (c : Dev nD) : V9 m (outs m) c = W9 m c := by
  unfold W9; exact congrArg (StableHlo.after hostOps5) (V8_eq m c)
theorem V10_eq (c : Dev nD) : V10 m (outs m) c = W10 m c := by
  unfold W10; show Function.update (V9 m (outs m) c) main_v75 (outs m 10 main_v75 c) = _
  rw [outs_10_2, V9_eq]
theorem V11_eq (c : Dev nD) : V11 m (outs m) c = W11 m c := by
  unfold W11; show Function.update (V10 m (outs m) c) main_v76 (outs m 11 main_v76 c) = _
  rw [outs_11_2, V10_eq]
theorem V12_eq (c : Dev nD) : V12 m (outs m) c = W12 m c := by
  unfold W12; exact congrArg (StableHlo.after hostOps7) (V11_eq m c)
theorem V13_eq (c : Dev nD) : V13 m (outs m) c = W13 m c := by
  unfold W13; show Function.update (V12 m (outs m) c) main_v91 (outs m 13 main_v91 c) = _
  rw [outs_13_2, V12_eq]
theorem V14_eq (c : Dev nD) : V14 m (outs m) c = W14 m c := by
  unfold W14; show Function.update (V13 m (outs m) c) main_v92 (outs m 14 main_v92 c) = _
  rw [outs_14_2, V13_eq]
theorem V15_eq (c : Dev nD) : V15 m (outs m) c = W15 m c := by
  unfold W15; exact congrArg (StableHlo.after hostOps9) (V14_eq m c)
theorem V16_eq (c : Dev nD) : V16 m (outs m) c = W16 m c := by
  unfold W16; show Function.update (V15 m (outs m) c) main_v107 (outs m 16 main_v107 c) = _
  rw [outs_16_2, V15_eq]
theorem V17_eq (c : Dev nD) : V17 m (outs m) c = W17 m c := by
  unfold W17; show Function.update (V16 m (outs m) c) main_v108 (outs m 17 main_v108 c) = _
  rw [outs_17_2, V16_eq]
theorem V18_eq (c : Dev nD) : V18 m (outs m) c = W18 m c := by
  unfold W18; exact congrArg (StableHlo.after hostOps11) (V17_eq m c)
theorem V19_eq (c : Dev nD) : V19 m (outs m) c = W19 m c := by
  unfold W19; show Function.update (V18 m (outs m) c) main_v122 (outs m 19 main_v122 c) = _
  rw [outs_19_2, V18_eq]
theorem V20_eq (c : Dev nD) : V20 m (outs m) c = W20 m c := by
  unfold W20; show Function.update (Function.update (V19 m (outs m) c) main_v123_0 (outs m 20 main_v123_0 c)) main_v123_1 (outs m 20 main_v123_1 c) = _
  rw [outs_20_2, outs_20_3, V19_eq]
theorem V21_eq (c : Dev nD) : V21 m (outs m) c = W21 m c := by
  unfold W21; exact congrArg (StableHlo.after hostOps13) (V20_eq m c)

end Cert.Kernel.Hand
end
-- ==== Proof.K.Regs.lean ====
import proofs.«147273_j88914412962548_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel regions as segments of @main over the thread state "every unscoped buffer at the boundary's
contents, the generator register at some state, nothing owed" -/

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state and the core's dues, at nothing. -/
abbrev Rr (c : Dev nD) : sProp 𝕄 := iprop((∃ r, prngReg c r) ∗ ∃ W, owes (c : Thread nD τ) (0 : CellTallies nD τ sig Unit) W)

/-- Every pipeline's proof data, each at its region's entry contents: a literal match on the pipeline's number. -/
def pdats : (p : Fin 13) → (c : Dev nD) → Dat τ (Elt F) Unit ℕ (UR sig nD τ) ℕ (Pipeline.pin (pcfgs (F := F)) adm p) c
  | ⟨0, _⟩ => fun c => dat0 (asTc (W1 m)) c
  | ⟨1, _⟩ => fun c => dat1 (asTc (W3 m)) c
  | ⟨2, _⟩ => fun c => dat2 (asTc (W4 m)) c
  | ⟨3, _⟩ => fun c => dat3 (asTc (W6 m)) c
  | ⟨4, _⟩ => fun c => dat4 (asTc (W7 m)) c
  | ⟨5, _⟩ => fun c => dat5 (asTc (W9 m)) c
  | ⟨6, _⟩ => fun c => dat6 (asTc (W10 m)) c
  | ⟨7, _⟩ => fun c => dat7 (asTc (W12 m)) c
  | ⟨8, _⟩ => fun c => dat8 (asTc (W13 m)) c
  | ⟨9, _⟩ => fun c => dat9 (asTc (W15 m)) c
  | ⟨10, _⟩ => fun c => dat10 (asTc (W16 m)) c
  | ⟨11, _⟩ => fun c => dat11 (asTc (W18 m)) c
  | ⟨12, _⟩ => fun c => dat12 (asTc (W19 m)) c

/-! ## Region 0 -/

/-- At region 0's exit each of its arrays holds what the pipeline leaves: the inputs as entered, the output's
    write-backs folded. -/
theorem hF0 (c : Dev nD) (w : Fin cfg0.W) : (dat0 (asTc (W1 m)) c).arrAt w cfg0.N = asTc (W2 m) c (Pipeline.arrRef spec0 w) := by
  match w with
  | ⟨0, _⟩ => exact (((dat0 (asTc (W1 m)) c).arrAt_in 0 rfl _).trans (A_eq0 (asTc (W1 m)) c 0)).trans (by unfold W2; exact (Function.update_of_ne (StableHlo.devRef_ne_of_ne (by decide : Pipeline.arrRef spec0 0 ≠ main_v29)) _ _).symm)
  | ⟨1, _⟩ => exact (((dat0 (asTc (W1 m)) c).arrAt_in 1 rfl _).trans (A_eq0 (asTc (W1 m)) c 1)).trans (by unfold W2; exact (Function.update_of_ne (StableHlo.devRef_ne_of_ne (by decide : Pipeline.arrRef spec0 1 ≠ main_v29)) _ _).symm)
  | ⟨2, _⟩ =>
    unfold W2
    show o2_2 m c = Function.update (W1 m c) (Proc.devRef .tc main_v29) (o2_2 m c) (Proc.devRef .tc main_v29)
    exact (Function.update_self (Proc.devRef .tc main_v29) (o2_2 m c) (W1 m c)).symm
/-- Every other buffer is as entered. -/
theorem hrest0 (c : Dev nD) : ∀ b, b ∉ Finset.univ.image (Pipeline.arrRef spec0) → asTc (W2 m) c b = asTc (W1 m) c b := by
  intro b hb
  unfold W2
  exact Function.update_of_ne (StableHlo.devRef_ne_of_ne fun e => hb (Finset.mem_image.mpr ⟨2, Finset.mem_univ _, by rw [e]⟩)) _ _

set_option backward.isDefEq.respectTransparency.types false in
/-- Region 0 over the thread state: entered from every unscoped buffer at `W1`, left at `W2`; its arrays split
    out of the unscoped buffers and put back at the exit contents; the generator register into the class invariant and
    out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (asTc (W1 m)) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (asTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asTc (W1 m) c) (asTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the inputs as entered, the output's
    write-backs folded. -/
theorem hF1 (c : Dev nD) (w : Fin cfg1.W) : (dat1 (asTc (W3 m)) c).arrAt w cfg1.N = asTc (W4 m) c (Pipeline.arrRef spec1 w) := by
  match w with
  | ⟨0, _⟩ => exact (((dat1 (asTc (W3 m)) c).arrAt_in 0 rfl _).trans (A_eq1 (asTc (W3 m)) c 0)).trans (by unfold W4; exact (Function.update_of_ne (StableHlo.devRef_ne_of_ne (by decide : Pipeline.arrRef spec1 0 ≠ main_v44)) _ _).symm)
  | ⟨1, _⟩ => exact (((dat1 (asTc (W3 m)) c).arrAt_in 1 rfl _).trans (A_eq1 (asTc (W3 m)) c 1)).trans (by unfold W4; exact (Function.update_of_ne (StableHlo.devRef_ne_of_ne (by decide : Pipeline.arrRef spec1 1 ≠ main_v44)) _ _).symm)
  | ⟨2, _⟩ =>
    unfold W4
    show o4_2 m c = Function.update (W3 m c) (Proc.devRef .tc main_v44) (o4_2 m c) (Proc.devRef .tc main_v44)
    exact (Function.update_self (Proc.devRef .tc main_v44) (o4_2 m c) (W3 m c)).symm
/-- Every other buffer is as entered. -/
theorem hrest1 (c : Dev nD) : ∀ b, b ∉ Finset.univ.image (Pipeline.arrRef spec1) → asTc (W4 m) c b = asTc (W3 m) c b := by
  intro b hb
  unfold W4
  exact Function.update_of_ne (StableHlo.devRef_ne_of_ne fun e => hb (Finset.mem_image.mpr ⟨2, Finset.mem_univ _, by rw [e]⟩)) _ _

set_option backward.isDefEq.respectTransparency.types false in
/-- Region 1 over the thread state: entered from every unscoped buffer at `W3`, left at `W4`; its arrays split
    out of the unscoped buffers and put back at the exit contents; the generator register into the class invariant and
    out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (asTc (W3 m)) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (asTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asTc (W3 m) c) (asTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the inputs as entered, the output's
    write-backs folded. -/
theorem hF2 (c : Dev nD) (w : Fin cfg2.W) : (dat2 (asTc (W4 m)) c).arrAt w cfg2.N = asTc (W5 m) c (Pipeline.arrRef spec2 w) := by
  match w with
  | ⟨0, _⟩ => exact (((dat2 (asTc (W4 m)) c).arrAt_in 0 rfl _).trans (A_eq2 (asTc (W4 m)) c 0)).trans (by unfold W5; exact (Function.update_of_ne (StableHlo.devRef_ne_of_ne (by decide : Pipeline.arrRef spec2 0 ≠ main_v45)) _ _).symm)
  | ⟨1, _⟩ => exact (((dat2 (asTc (W4 m)) c).arrAt_in 1 rfl _).trans (A_eq2 (asTc (W4 m)) c 1)).trans (by unfold W5; exact (Function.update_of_ne (StableHlo.devRef_ne_of_ne (by decide : Pipeline.arrRef spec2 1 ≠ main_v45)) _ _).symm)
  | ⟨2, _⟩ =>
    unfold W5
    show o5_2 m c = Function.update (W4 m c) (Proc.devRef .tc main_v45) (o5_2 m c) (Proc.devRef .tc main_v45)
    exact (Function.update_self (Proc.devRef .tc main_v45) (o5_2 m c) (W4 m c)).symm
/-- Every other buffer is as entered. -/
theorem hrest2 (c : Dev nD) : ∀ b, b ∉ Finset.univ.image (Pipeline.arrRef spec2) → asTc (W5 m) c b = asTc (W4 m) c b := by
  intro b hb
  unfold W5
  exact Function.update_of_ne (StableHlo.devRef_ne_of_ne fun e => hb (Finset.mem_image.mpr ⟨2, Finset.mem_univ _, by rw [e]⟩)) _ _

set_option backward.isDefEq.respectTransparency.types false in
/-- Region 2 over the thread state: entered from every unscoped buffer at `W4`, left at `W5`; its arrays split
    out of the unscoped buffers and put back at the exit contents; the generator register into the class invariant and
    out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (asTc (W4 m)) c).loose
  hwaits := Pipeline.hwaits_of_owed_zero _ _ _ _ Lz lvz 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (asTc (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asTc (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asTc (W4 m) c) (asTc (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: the inputs as entered, the output's
    write-backs folded. -/
theorem hF3 (c : Dev nD) (w : Fin cfg3.W) : (dat3 (asTc (W6 m)) c).arrAt w cfg3.N = asTc (W7 m) c (Pipeline.arrRef spec3 w) := by
  match w with
  | ⟨0, _⟩ => exact (((dat3 (asTc (W6 m)) c).arrAt_in 0 rfl _).trans (A_eq3 (asTc (W6 m)) c 0)).trans (by unfold W7; exact (Function.update_of_ne (StableHlo.devRef_ne_of_ne (by decide : Pipeline.arrRef spec3 0 ≠ main_v60)) _ _).symm)
  | ⟨1, _⟩ => exact (((dat3 (asTc (W6 m)) c).arrAt_in 1 rfl _).trans (A_eq3 (asTc (W6 m)) c 1)).trans (by unfold W7; exact (Function.update_of_ne (StableHlo.devRef_ne_of_ne (by decide : Pipeline.arrRef spec3 1 ≠ main_v60)) _ _).symm)
  | ⟨2, _⟩ =>
    unfold W7
    show o7_2 m c = Function.update (W6 m c) (Proc.devRef .tc main_v60) (o7_2 m c) (Proc.devRef .tc main_v60)
    exact (Function.update_self (Proc.devRef .tc main_v60) (o7_2 m c) (W6 m c)).symm
/-- Every other buffer is as entered. -/
theorem hrest3 (c : Dev nD) : ∀ b, b ∉ Finset.univ.image (Pipeline.arrRef spec3) → asTc (W7 m) c b = asTc (W6 m) c b := by
  intro b hb
  unfold W7
  exact Function.update_of_ne (StableHlo.devRef_ne_of_ne fun e => hb (Finset.mem_image.mpr ⟨2, Finset.mem_univ _, by rw [e]⟩)) _ _

set_option backward.isDefEq.respectTransparency.types false in
/-- Region 3 over the thread state: entered from every unscoped buffer at `W6`, left at `W7`; its arrays split
    out of the unscoped buffers and put back at the exit contents; the generator register into the class invariant and
    out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (asTc (W6 m)) c).loose
  hwaits := Pipeline.hwaits_of_owed_zero _ _ _ _ Lz lvz 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec3 c (asTc (W6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asTc (W6 m) c) (asTc (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the inputs as entered, the output's
    write-backs folded. -/
theorem hF4 (c : Dev nD) (w : Fin cfg4.W) : (dat4 (asTc (W7 m)) c).arrAt w cfg4.N = asTc (W8 m) c (Pipeline.arrRef spec4 w) := by
  match w with
  | ⟨0, _⟩ => exact (((dat4 (asTc (W7 m)) c).arrAt_in 0 rfl _).trans (A_eq4 (asTc (W7 m)) c 0)).trans (by unfold W8; exact (Function.update_of_ne (StableHlo.devRef_ne_of_ne (by decide : Pipeline.arrRef spec4 0 ≠ main_v61)) _ _).symm)
  | ⟨1, _⟩ => exact (((dat4 (asTc (W7 m)) c).arrAt_in 1 rfl _).trans (A_eq4 (asTc (W7 m)) c 1)).trans (by unfold W8; exact (Function.update_of_ne (StableHlo.devRef_ne_of_ne (by decide : Pipeline.arrRef spec4 1 ≠ main_v61)) _ _).symm)
  | ⟨2, _⟩ =>
    unfold W8
    show o8_2 m c = Function.update (W7 m c) (Proc.devRef .tc main_v61) (o8_2 m c) (Proc.devRef .tc main_v61)
    exact (Function.update_self (Proc.devRef .tc main_v61) (o8_2 m c) (W7 m c)).symm
/-- Every other buffer is as entered. -/
theorem hrest4 (c : Dev nD) : ∀ b, b ∉ Finset.univ.image (Pipeline.arrRef spec4) → asTc (W8 m) c b = asTc (W7 m) c b := by
  intro b hb
  unfold W8
  exact Function.update_of_ne (StableHlo.devRef_ne_of_ne fun e => hb (Finset.mem_image.mpr ⟨2, Finset.mem_univ _, by rw [e]⟩)) _ _

set_option backward.isDefEq.respectTransparency.types false in
/-- Region 4 over the thread state: entered from every unscoped buffer at `W7`, left at `W8`; its arrays split
    out of the unscoped buffers and put back at the exit contents; the generator register into the class invariant and
    out; nothing owed; no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (asTc (W7 m)) c).loose
  hwaits := Pipeline.hwaits_of_owed_zero _ _ _ _ Lz lvz 4 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec4 c (asTc (W7 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asTc (W7 m) c) (asTc (W8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- At region 5's exit each of its arrays holds what the pipeline leaves: the inputs as entered, the output's
    write-backs folded. -/
theorem hF5 (c : Dev nD) (w : Fin cfg5.W) : (dat5 (asTc (W9 m)) c).arrAt w cfg5.N = asTc (W10 m) c (Pipeline.arrRef spec5 w) := by
  match w with
  | ⟨0, _⟩ => exact (((dat5 (asTc (W9 m)) c).arrAt_in 0 rfl _).trans (A_eq5 (asTc (W9 m)) c 0)).trans (by unfold W10; exact (Function.update_of_ne (StableHlo.devRef_ne_of_ne (by decide : Pipeline.arrRef spec5 0 ≠ main_v75)) _ _).symm)
  | ⟨1, _⟩ => exact (((dat5 (asTc (W9 m)) c).arrAt_in 1 rfl _).trans (A_eq5 (asTc (W9 m)) c 1)).trans (by unfold W10; exact (Function.update_of_ne (StableHlo.devRef_ne_of_ne (by decide : Pipeline.arrRef spec5 1 ≠ main_v75)) _ _).symm)
  | ⟨2, _⟩ =>
    unfold W10
    show o10_2 m c = Function.update (W9 m c) (Proc.devRef .tc main_v75) (o10_2 m c) (Proc.devRef .tc main_v75)
    exact (Function.update_self (Proc.devRef .tc main_v75) (o10_2 m c) (W9 m c)).symm
/-- Every other buffer is as entered. -/
theorem hrest5 (c : Dev nD) : ∀ b, b ∉ Finset.univ.image (Pipeline.arrRef spec5) → asTc (W10 m) c b = asTc (W9 m) c b := by
  intro b hb
  unfold W10
  exact Function.update_of_ne (StableHlo.devRef_ne_of_ne fun e => hb (Finset.mem_image.mpr ⟨2, Finset.mem_univ _, by rw [e]⟩)) _ _

set_option backward.isDefEq.respectTransparency.types false in
/-- Region 5 over the thread state: entered from every unscoped buffer at `W9`, left at `W10`; its arrays split
    out of the unscoped buffers and put back at the exit contents; the generator register into the class invariant and
    out; nothing owed; no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (asTc (W9 m)) c).loose
  hwaits := Pipeline.hwaits_of_owed_zero _ _ _ _ Lz lvz 5 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec5 c (asTc (W9 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asTc (W9 m) c) (asTc (W10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

/-- At region 6's exit each of its arrays holds what the pipeline leaves: the inputs as entered, the output's
    write-backs folded. -/
theorem hF6 (c : Dev nD) (w : Fin cfg6.W) : (dat6 (asTc (W10 m)) c).arrAt w cfg6.N = asTc (W11 m) c (Pipeline.arrRef spec6 w) := by
  match w with
  | ⟨0, _⟩ => exact (((dat6 (asTc (W10 m)) c).arrAt_in 0 rfl _).trans (A_eq6 (asTc (W10 m)) c 0)).trans (by unfold W11; exact (Function.update_of_ne (StableHlo.devRef_ne_of_ne (by decide : Pipeline.arrRef spec6 0 ≠ main_v76)) _ _).symm)
  | ⟨1, _⟩ => exact (((dat6 (asTc (W10 m)) c).arrAt_in 1 rfl _).trans (A_eq6 (asTc (W10 m)) c 1)).trans (by unfold W11; exact (Function.update_of_ne (StableHlo.devRef_ne_of_ne (by decide : Pipeline.arrRef spec6 1 ≠ main_v76)) _ _).symm)
  | ⟨2, _⟩ =>
    unfold W11
    show o11_2 m c = Function.update (W10 m c) (Proc.devRef .tc main_v76) (o11_2 m c) (Proc.devRef .tc main_v76)
    exact (Function.update_self (Proc.devRef .tc main_v76) (o11_2 m c) (W10 m c)).symm
/-- Every other buffer is as entered. -/
theorem hrest6 (c : Dev nD) : ∀ b, b ∉ Finset.univ.image (Pipeline.arrRef spec6) → asTc (W11 m) c b = asTc (W10 m) c b := by
  intro b hb
  unfold W11
  exact Function.update_of_ne (StableHlo.devRef_ne_of_ne fun e => hb (Finset.mem_image.mpr ⟨2, Finset.mem_univ _, by rw [e]⟩)) _ _

set_option backward.isDefEq.respectTransparency.types false in
/-- Region 6 over the thread state: entered from every unscoped buffer at `W10`, left at `W11`; its arrays split
    out of the unscoped buffers and put back at the exit contents; the generator register into the class invariant and
    out; nothing owed; no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (asTc (W10 m)) c).loose
  hwaits := Pipeline.hwaits_of_owed_zero _ _ _ _ Lz lvz 6 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop(∃ r, prngReg c r)
  Z c := Pipeline.unscopedRest (Ix := Unit) (Name := ℕ) (U := UR sig nD τ) (Lvl := ℕ) spec6 c (asTc (W10 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (asTc (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (asTc (W10 m) c) (asTc (W11 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

/-- At region 7's exit each of its arrays holds what the pipeline leaves: the inputs as entered, the output's
    write-backs folded. -/
theorem hF7 (c : Dev nD) (w : Fin cfg7.W) : (dat7 (asTc (W12 m)) c).arrAt w cfg7.N = asTc (W13 m) c (Pipeline.arrRef spec7 w) := by
  match w with
  | ⟨0, _⟩ => exact (((dat7 (asTc (W12 m)) c).arrAt_in 0 rfl _).trans (A_eq7 (asTc (W12 m)) c 0)).trans (by unfold W13; exact (Function.update_of_ne (StableHlo.devRef_ne_of_ne (by decide : Pipeline.arrRef spec7 0 ≠ main_v91)) _ _).symm)
  | ⟨1, _⟩ => exact (((dat7 (asTc (W12 m)) c).arrAt_in 1 rfl _).trans (A_eq7 (asTc (W12 m)) c 1)).trans (by unfold W13; exact (Function.update_of_ne (StableHlo.devRef_ne_of_ne (by decide : Pipeline.arrRef spec7 1 ≠ main_v91)) _ _).symm)
  | ⟨2, _⟩ =>
    unfold W13
    show o13_2 m c = Function.update (W12 m c) (Proc.devRef .tc main_v91) (o13_2 m c) (Proc.devRef .tc main_v91)
    exact (Function.update_self (Proc.devRef .tc main_v91) (o13_2 m c) (W12 m c)).symm
/-- Every other buffer is as entered. -/
theorem hrest7 (c : Dev nD) : ∀ b, b ∉ Finset.univ.image (Pipeline.arrRef spec7) → asTc (W13 m) c b = asTc (W12 m) c b := by
  intro b hb
  unfold W13
  exact Function.update_of_ne (StableHlo.devRef_ne_of_ne fun e => hb (Finset.mem_image.mpr ⟨2, Finset.mem_univ _, by rw [e]⟩)) _ _

set_option backward.isDefEq.respectTransparency.types false in
/-- Region 7 over the thread state: entered from every unscoped buffer at `W12`, left at `W13`; its arrays split
    out of the unscoped buffers and put back at the exit contents; the generator register into the class invariant and
    out; nothing owed; no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (asTc (W12 m)) c).loose
  hwaits := Pipeline.hwaits_of_owed_zero _ _ _ _ Lz lvz 7 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop(∃ r, prngReg c r)
  Z c := Pipeline.unscopedRest (Ix := Unit) (Name := ℕ) (U := UR sig nD τ) (Lvl := ℕ) spec7 c (asTc (W12 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (asTc (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (asTc (W12 m) c) (asTc (W13 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 8 -/

/-- At region 8's exit each of its arrays holds what the pipeline leaves: the inputs as entered, the output's
    write-backs folded. -/
theorem hF8 (c : Dev nD) (w : Fin cfg8.W) : (dat8 (asTc (W13 m)) c).arrAt w cfg8.N = asTc (W14 m) c (Pipeline.arrRef spec8 w) := by
  match w with
  | ⟨0, _⟩ => exact (((dat8 (asTc (W13 m)) c).arrAt_in 0 rfl _).trans (A_eq8 (asTc (W13 m)) c 0)).trans (by unfold W14; exact (Function.update_of_ne (StableHlo.devRef_ne_of_ne (by decide : Pipeline.arrRef spec8 0 ≠ main_v92)) _ _).symm)
  | ⟨1, _⟩ => exact (((dat8 (asTc (W13 m)) c).arrAt_in 1 rfl _).trans (A_eq8 (asTc (W13 m)) c 1)).trans (by unfold W14; exact (Function.update_of_ne (StableHlo.devRef_ne_of_ne (by decide : Pipeline.arrRef spec8 1 ≠ main_v92)) _ _).symm)
  | ⟨2, _⟩ =>
    unfold W14
    show o14_2 m c = Function.update (W13 m c) (Proc.devRef .tc main_v92) (o14_2 m c) (Proc.devRef .tc main_v92)
    exact (Function.update_self (Proc.devRef .tc main_v92) (o14_2 m c) (W13 m c)).symm
/-- Every other buffer is as entered. -/
theorem hrest8 (c : Dev nD) : ∀ b, b ∉ Finset.univ.image (Pipeline.arrRef spec8) → asTc (W14 m) c b = asTc (W13 m) c b := by
  intro b hb
  unfold W14
  exact Function.update_of_ne (StableHlo.devRef_ne_of_ne fun e => hb (Finset.mem_image.mpr ⟨2, Finset.mem_univ _, by rw [e]⟩)) _ _

set_option backward.isDefEq.respectTransparency.types false in
/-- Region 8 over the thread state: entered from every unscoped buffer at `W13`, left at `W14`; its arrays split
    out of the unscoped buffers and put back at the exit contents; the generator register into the class invariant and
    out; nothing owed; no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (asTc (W13 m)) c).loose
  hwaits := Pipeline.hwaits_of_owed_zero _ _ _ _ Lz lvz 8 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec8 c (asTc (W13 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (asTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (asTc (W13 m) c) (asTc (W14 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 9 -/

/-- At region 9's exit each of its arrays holds what the pipeline leaves: the inputs as entered, the output's
    write-backs folded. -/
theorem hF9 (c : Dev nD) (w : Fin cfg9.W) : (dat9 (asTc (W15 m)) c).arrAt w cfg9.N = asTc (W16 m) c (Pipeline.arrRef spec9 w) := by
  match w with
  | ⟨0, _⟩ => exact (((dat9 (asTc (W15 m)) c).arrAt_in 0 rfl _).trans (A_eq9 (asTc (W15 m)) c 0)).trans (by unfold W16; exact (Function.update_of_ne (StableHlo.devRef_ne_of_ne (by decide : Pipeline.arrRef spec9 0 ≠ main_v107)) _ _).symm)
  | ⟨1, _⟩ => exact (((dat9 (asTc (W15 m)) c).arrAt_in 1 rfl _).trans (A_eq9 (asTc (W15 m)) c 1)).trans (by unfold W16; exact (Function.update_of_ne (StableHlo.devRef_ne_of_ne (by decide : Pipeline.arrRef spec9 1 ≠ main_v107)) _ _).symm)
  | ⟨2, _⟩ =>
    unfold W16
    show o16_2 m c = Function.update (W15 m c) (Proc.devRef .tc main_v107) (o16_2 m c) (Proc.devRef .tc main_v107)
    exact (Function.update_self (Proc.devRef .tc main_v107) (o16_2 m c) (W15 m c)).symm
/-- Every other buffer is as entered. -/
theorem hrest9 (c : Dev nD) : ∀ b, b ∉ Finset.univ.image (Pipeline.arrRef spec9) → asTc (W16 m) c b = asTc (W15 m) c b := by
  intro b hb
  unfold W16
  exact Function.update_of_ne (StableHlo.devRef_ne_of_ne fun e => hb (Finset.mem_image.mpr ⟨2, Finset.mem_univ _, by rw [e]⟩)) _ _

set_option backward.isDefEq.respectTransparency.types false in
/-- Region 9 over the thread state: entered from every unscoped buffer at `W15`, left at `W16`; its arrays split
    out of the unscoped buffers and put back at the exit contents; the generator register into the class invariant and
    out; nothing owed; no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (asTc (W15 m)) c).loose
  hwaits := Pipeline.hwaits_of_owed_zero _ _ _ _ Lz lvz 9 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec9 c (asTc (W15 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (asTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (asTc (W15 m) c) (asTc (W16 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 10 -/

/-- At region 10's exit each of its arrays holds what the pipeline leaves: the inputs as entered, the output's
    write-backs folded. -/
theorem hF10 (c : Dev nD) (w : Fin cfg10.W) : (dat10 (asTc (W16 m)) c).arrAt w cfg10.N = asTc (W17 m) c (Pipeline.arrRef spec10 w) := by
  match w with
  | ⟨0, _⟩ => exact (((dat10 (asTc (W16 m)) c).arrAt_in 0 rfl _).trans (A_eq10 (asTc (W16 m)) c 0)).trans (by unfold W17; exact (Function.update_of_ne (StableHlo.devRef_ne_of_ne (by decide : Pipeline.arrRef spec10 0 ≠ main_v108)) _ _).symm)
  | ⟨1, _⟩ => exact (((dat10 (asTc (W16 m)) c).arrAt_in 1 rfl _).trans (A_eq10 (asTc (W16 m)) c 1)).trans (by unfold W17; exact (Function.update_of_ne (StableHlo.devRef_ne_of_ne (by decide : Pipeline.arrRef spec10 1 ≠ main_v108)) _ _).symm)
  | ⟨2, _⟩ =>
    unfold W17
    show o17_2 m c = Function.update (W16 m c) (Proc.devRef .tc main_v108) (o17_2 m c) (Proc.devRef .tc main_v108)
    exact (Function.update_self (Proc.devRef .tc main_v108) (o17_2 m c) (W16 m c)).symm
/-- Every other buffer is as entered. -/
theorem hrest10 (c : Dev nD) : ∀ b, b ∉ Finset.univ.image (Pipeline.arrRef spec10) → asTc (W17 m) c b = asTc (W16 m) c b := by
  intro b hb
  unfold W17
  exact Function.update_of_ne (StableHlo.devRef_ne_of_ne fun e => hb (Finset.mem_image.mpr ⟨2, Finset.mem_univ _, by rw [e]⟩)) _ _

set_option backward.isDefEq.respectTransparency.types false in
/-- Region 10 over the thread state: entered from every unscoped buffer at `W16`, left at `W17`; its arrays split
    out of the unscoped buffers and put back at the exit contents; the generator register into the class invariant and
    out; nothing owed; no semaphore of the kernel's own. -/
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (asTc (W16 m)) c).loose
  hwaits := Pipeline.hwaits_of_owed_zero _ _ _ _ Lz lvz 10 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop(∃ r, prngReg c r)
  Z c := Pipeline.unscopedRest (Ix := Unit) (Name := ℕ) (U := UR sig nD τ) (Lvl := ℕ) spec10 c (asTc (W16 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (asTc (W16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (asTc (W16 m) c) (asTc (W17 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 11 -/

/-- At region 11's exit each of its arrays holds what the pipeline leaves: the inputs as entered, the output's
    write-backs folded. -/
theorem hF11 (c : Dev nD) (w : Fin cfg11.W) : (dat11 (asTc (W18 m)) c).arrAt w cfg11.N = asTc (W19 m) c (Pipeline.arrRef spec11 w) := by
  match w with
  | ⟨0, _⟩ => exact (((dat11 (asTc (W18 m)) c).arrAt_in 0 rfl _).trans (A_eq11 (asTc (W18 m)) c 0)).trans (by unfold W19; exact (Function.update_of_ne (StableHlo.devRef_ne_of_ne (by decide : Pipeline.arrRef spec11 0 ≠ main_v122)) _ _).symm)
  | ⟨1, _⟩ => exact (((dat11 (asTc (W18 m)) c).arrAt_in 1 rfl _).trans (A_eq11 (asTc (W18 m)) c 1)).trans (by unfold W19; exact (Function.update_of_ne (StableHlo.devRef_ne_of_ne (by decide : Pipeline.arrRef spec11 1 ≠ main_v122)) _ _).symm)
  | ⟨2, _⟩ =>
    unfold W19
    show o19_2 m c = Function.update (W18 m c) (Proc.devRef .tc main_v122) (o19_2 m c) (Proc.devRef .tc main_v122)
    exact (Function.update_self (Proc.devRef .tc main_v122) (o19_2 m c) (W18 m c)).symm
/-- Every other buffer is as entered. -/
theorem hrest11 (c : Dev nD) : ∀ b, b ∉ Finset.univ.image (Pipeline.arrRef spec11) → asTc (W19 m) c b = asTc (W18 m) c b := by
  intro b hb
  unfold W19
  exact Function.update_of_ne (StableHlo.devRef_ne_of_ne fun e => hb (Finset.mem_image.mpr ⟨2, Finset.mem_univ _, by rw [e]⟩)) _ _

set_option backward.isDefEq.respectTransparency.types false in
/-- Region 11 over the thread state: entered from every unscoped buffer at `W18`, left at `W19`; its arrays split
    out of the unscoped buffers and put back at the exit contents; the generator register into the class invariant and
    out; nothing owed; no semaphore of the kernel's own. -/
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (asTc (W18 m)) c).loose
  hwaits := Pipeline.hwaits_of_owed_zero _ _ _ _ Lz lvz 11 fun _ _ => rfl
  pre c := iprop(StableHlo.held (c : Thread nD τ) (Pipeline.ucRefs τ sig) (W18 m c) ∗ Rr c)
  post c := iprop(StableHlo.held (c : Thread nD τ) (Pipeline.ucRefs τ sig) (W19 m c) ∗ Rr c)
  X c := iprop(∃ r, prngReg c r)
  Y c := iprop(∃ r, prngReg c r)
  Z c := Pipeline.unscopedRest (Ix := Unit) (Name := ℕ) (U := UR sig nD τ) (Lvl := ℕ) spec11 c (asTc (W18 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (asTc (W18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (asTc (W18 m) c) (asTc (W19 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 12 -/

/-- At region 12's exit each of its arrays holds what the pipeline leaves: the inputs as entered, each output's
    write-backs folded. -/
theorem hF12 (c : Dev nD) (w : Fin cfg12.W) : (dat12 (asTc (W19 m)) c).arrAt w cfg12.N = asTc (W20 m) c (Pipeline.arrRef spec12 w) := by
  match w with
  | ⟨0, _⟩ => exact (((dat12 (asTc (W19 m)) c).arrAt_in 0 rfl _).trans (A_eq12 (asTc (W19 m)) c 0)).trans (by unfold W20; exact ((Function.update_of_ne (StableHlo.devRef_ne_of_ne (by decide : Pipeline.arrRef spec12 0 ≠ main_v123_1)) _ _).trans (Function.update_of_ne (StableHlo.devRef_ne_of_ne (by decide : Pipeline.arrRef spec12 0 ≠ main_v123_0)) _ _)).symm)
  | ⟨1, _⟩ => exact (((dat12 (asTc (W19 m)) c).arrAt_in 1 rfl _).trans (A_eq12 (asTc (W19 m)) c 1)).trans (by unfold W20; exact ((Function.update_of_ne (StableHlo.devRef_ne_of_ne (by decide : Pipeline.arrRef spec12 1 ≠ main_v123_1)) _ _).trans (Function.update_of_ne (StableHlo.devRef_ne_of_ne (by decide : Pipeline.arrRef spec12 1 ≠ main_v123_0)) _ _)).symm)
  | ⟨2, _⟩ =>
    unfold W20
    show o20_2 m c = Function.update (Function.update (W19 m c) (Proc.devRef .tc main_v123_0) (o20_2 m c)) (Proc.devRef .tc main_v123_1) (o20_3 m c) (Proc.devRef .tc main_v123_0)
    exact ((Function.update_of_ne (StableHlo.devRef_ne_of_ne (by decide : main_v123_0 ≠ main_v123_1)) _ _).trans
      (Function.update_self (Proc.devRef .tc main_v123_0) (o20_2 m c) (W19 m c))).symm
  | ⟨3, _⟩ =>
    unfold W20
    show o20_3 m c = Function.update (Function.update (W19 m c) (Proc.devRef .tc main_v123_0) (o20_2 m c)) (Proc.devRef .tc main_v123_1) (o20_3 m c) (Proc.devRef .tc main_v123_1)
    exact (Function.update_self (Proc.devRef .tc main_v123_1) (o20_3 m c) (Function.update (W19 m c) (Proc.devRef .tc main_v123_0) (o20_2 m c))).symm
/-- Every other buffer is as entered. -/
theorem hrest12 (c : Dev nD) : ∀ b, b ∉ Finset.univ.image (Pipeline.arrRef spec12) → asTc (W20 m) c b = asTc (W19 m) c b := by
  intro b hb
  unfold W20
  exact (Function.update_of_ne (StableHlo.devRef_ne_of_ne fun e => hb (Finset.mem_image.mpr ⟨3, Finset.mem_univ _, by rw [e]⟩)) _ _).trans
    (Function.update_of_ne (StableHlo.devRef_ne_of_ne fun e => hb (Finset.mem_image.mpr ⟨2, Finset.mem_univ _, by rw [e]⟩)) _ _)

set_option backward.isDefEq.respectTransparency.types false in
/-- Region 12 over the thread state: as the other regions, except that its invariant also carries the scratch
    accumulator, taken out of the scoped buffers at the first point and put back after the last. -/
def reg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (asTc (W19 m)) c).loose
  hwaits := Pipeline.hwaits_of_owed_zero _ _ _ _ Lz lvz 12 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec12 c (asTc (W19 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (asTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi12_in (asTc (W19 m)) c)
    unfold Pipeline.ΦA
    iintro ⟨Hp, -, Hr⟩
    isplitl [Hr]; · iexact Hr
    iexact Hp
  hout c := by
    refine (Phi12_out (asTc (W19 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (asTc (W19 m) c) (asTc (W20 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Frame.lean ====
import proofs.«147273_j88914412962548_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame: every weakly fair execution of @main terminates, nothing faulting, with the argument arrays as launched -/

variable (m : (ℓ : Loc nD τ sig) → Buf (Elt F) ℓ) (ρ : Dev nD → PrngReg)

/-- The rest beside the buffers, the same between any two items. -/
abbrev Er : Fin 14 → Dev nD → sProp 𝕄 := fun _ c => Rr c

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Er)
    (hE0 := by
      refine Pipeline.initEach Lz lvz fun c => ?_
      iintro ⟨⟨-, HO, -, Hp, -⟩, -⟩
      imodintro
      isplitl [Hp]; · iexists _; iexact Hp
      iexists ∅; iexact HO)
    (hE13 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V4_eq]; exact .rfl) (hpost2 := fun c => by rw [V5_eq]; exact .rfl)
    (R3 := reg3 m) (hpre3 := fun c => by rw [V6_eq]; exact .rfl) (hpost3 := fun c => by rw [V7_eq]; exact .rfl)
    (R4 := reg4 m) (hpre4 := fun c => by rw [V7_eq]; exact .rfl) (hpost4 := fun c => by rw [V8_eq]; exact .rfl)
    (R5 := reg5 m) (hpre5 := fun c => by rw [V9_eq]; exact .rfl) (hpost5 := fun c => by rw [V10_eq]; exact .rfl)
    (R6 := reg6 m) (hpre6 := fun c => by rw [V10_eq]; exact .rfl) (hpost6 := fun c => by rw [V11_eq]; exact .rfl)
    (R7 := reg7 m) (hpre7 := fun c => by rw [V12_eq]; exact .rfl) (hpost7 := fun c => by rw [V13_eq]; exact .rfl)
    (R8 := reg8 m) (hpre8 := fun c => by rw [V13_eq]; exact .rfl) (hpost8 := fun c => by rw [V14_eq]; exact .rfl)
    (R9 := reg9 m) (hpre9 := fun c => by rw [V15_eq]; exact .rfl) (hpost9 := fun c => by rw [V16_eq]; exact .rfl)
    (R10 := reg10 m) (hpre10 := fun c => by rw [V16_eq]; exact .rfl) (hpost10 := fun c => by rw [V17_eq]; exact .rfl)
    (R11 := reg11 m) (hpre11 := fun c => by rw [V18_eq]; exact .rfl) (hpost11 := fun c => by rw [V19_eq]; exact .rfl)
    (R12 := reg12 m) (hpre12 := fun c => by rw [V19_eq]; exact .rfl) (hpost12 := fun c => by rw [V20_eq]; exact .rfl)

end Cert.Kernel.Hand
end
-- ==== Proof.KI.A0.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__dense_matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 likewise: it is fetched at the first point only, and its block index is constant over the grid, so
    at every later point the buffer still holds that one block, which is the point's own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_0 : Rect S10000x1 := Rect.unit (s := S10000x1) ![0, 0] S10000x1.size inb_S10000x1_S10000x1_0_0
abbrev r0_1 : Rect S1x4 := Rect.unit (s := S1x4) ![0, 0] S1x4.size inb_S1x4_S1x4_0_0
abbrev r0_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out0_2 (x0 : Vec F S10000x1 .f32) (x1 : Vec F S1x4 .f32) : Vec F S10000x4 .f32 :=
  View.canon [⟨r0_2, k0_pay1 (View.ld x0 r0_0) (View.ld x1 r0_1)⟩]

/-- The one store's rectangle is the whole buffer, so it covers it. -/
theorem cover0_2 (p0 : Vec F S10000x4 .f32) (y : S10000x4.Idx) :
    ∃ pc ∈ ([⟨r0_2, p0⟩] : List (View.Piece (Elt F) S10000x4 .f32)), y ∈ pc.1.set :=
  View.cover_of_tiled [⟨r0_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out0_2 x0 x1`: the two loads read
    `x0` and `x1` through the whole rectangles, the load of the output memref reads a value no payload uses, and the
    store overwrites the whole output buffer. -/
theorem sound_kernel0 (c : Dev nD) (E : Set ℕ) (i : grid0.Coords) (arg1 : Memref sig .tc .vmem S10000x1 .f32) (harg1 : arg1.IsWhole) (arg2 : Memref sig .tc .vmem S1x4 .f32) (harg2 : arg2.IsWhole) (arg3 : Memref sig .tc .vmem S10000x4 .f32) (harg3 : arg3.IsWhole)
    (x0 : Vec F S10000x1 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.A1.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: `cc1__bias_act_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise: it is fetched at the first point only, and its block index is constant over the grid, so
    at every later point the buffer still holds that one block, which is the point's own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref whole -/

abbrev r1_0 : Rect S10000x4 := Rect.unit (s := S10000x4) ![0, 0] S10000x4.size inb_S10000x4_S10000x4_0_0
abbrev r1_1 : Rect S1x4 := Rect.unit (s := S1x4) ![0, 0] S1x4.size inb_S1x4_S1x4_0_0
abbrev r1_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out1_2 (x0 : Vec F S10000x4 .f32) (x1 : Vec F S1x4 .f32) : Vec F S10000x4 .f32 :=
  View.canon [⟨r1_2, k1_pay1 (View.ld x0 r1_0) (View.ld x1 r1_1)⟩]

/-- The one store's rectangle is the whole buffer, so it covers it. -/
theorem cover1_2 (p0 : Vec F S10000x4 .f32) (y : S10000x4.Idx) :
    ∃ pc ∈ ([⟨r1_2, p0⟩] : List (View.Piece (Elt F) S10000x4 .f32)), y ∈ pc.1.set :=
  View.cover_of_tiled [⟨r1_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out1_2 x0 x1`: the two loads read
    `x0` and `x1` through the whole rectangles, the load of the output memref reads a value no payload uses, and the
    store overwrites the whole output buffer. -/
theorem sound_kernel1 (c : Dev nD) (E : Set ℕ) (i : grid1.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.A2.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__dense_matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 likewise: it is fetched at the first point only, and its block index is constant over the grid, so
    at every later point the buffer still holds that one block, which is the point's own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev r2_0 : Rect S10000x4 := Rect.unit (s := S10000x4) ![0, 0] S10000x4.size inb_S10000x4_S10000x4_0_0
abbrev r2_1 : Rect S4x4 := Rect.unit (s := S4x4) ![0, 0] S4x4.size inb_S4x4_S4x4_0_0
abbrev r2_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out2_2 (x0 : Vec F S10000x4 .f32) (x1 : Vec F S4x4 .f32) : Vec F S10000x4 .f32 :=
  View.canon [⟨r2_2, k2_pay1 (View.ld x0 r2_0) (View.ld x1 r2_1)⟩]

/-- The one store's rectangle is the whole buffer, so it covers it. -/
theorem cover2_2 (p0 : Vec F S10000x4 .f32) (y : S10000x4.Idx) :
    ∃ pc ∈ ([⟨r2_2, p0⟩] : List (View.Piece (Elt F) S10000x4 .f32)), y ∈ pc.1.set :=
  View.cover_of_tiled [⟨r2_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out2_2 x0 x1`: the two loads read
    `x0` and `x1` through the whole rectangles, the load of the output memref reads a value no payload uses, and the
    store overwrites the whole output buffer. -/
theorem sound_kernel2 (c : Dev nD) (E : Set ℕ) (i : grid2.Coords) (arg1 : Memref sig .tc .vmem S10000x4 .f32) (harg1 : arg1.IsWhole) (arg2 : Memref sig .tc .vmem S4x4 .f32) (harg2 : arg2.IsWhole) (arg3 : Memref sig .tc .vmem S10000x4 .f32) (harg3 : arg3.IsWhole)
    (x0 : Vec F S10000x4 .f32) (x1 : Vec F S4x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.A3.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `cc3__bias_act_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 likewise: it is fetched at the first point only, and its block index is constant over the grid, so
    at every later point the buffer still holds that one block, which is the point's own. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref whole -/

abbrev r3_0 : Rect S10000x4 := Rect.unit (s := S10000x4) ![0, 0] S10000x4.size inb_S10000x4_S10000x4_0_0
abbrev r3_1 : Rect S1x4 := Rect.unit (s := S1x4) ![0, 0] S1x4.size inb_S1x4_S1x4_0_0
abbrev r3_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out3_2 (x0 : Vec F S10000x4 .f32) (x1 : Vec F S1x4 .f32) : Vec F S10000x4 .f32 :=
  View.canon [⟨r3_2, k3_pay1 (View.ld x0 r3_0) (View.ld x1 r3_1)⟩]

/-- The one store's rectangle is the whole buffer, so it covers it. -/
theorem cover3_2 (p0 : Vec F S10000x4 .f32) (y : S10000x4.Idx) :
    ∃ pc ∈ ([⟨r3_2, p0⟩] : List (View.Piece (Elt F) S10000x4 .f32)), y ∈ pc.1.set :=
  View.cover_of_tiled [⟨r3_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out3_2 x0 x1`: the two loads read
    `x0` and `x1` through the whole rectangles, the load of the output memref reads a value no payload uses, and the
    store overwrites the whole output buffer. -/
theorem sound_kernel3 (c : Dev nD) (E : Set ℕ) (i : grid3.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.A4.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: `cc4__dense_matmul_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 likewise: it is fetched at the first point only, and its block index is constant over the grid, so
    at every later point the buffer still holds that one block, which is the point's own. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each memref whole -/

abbrev r4_0 : Rect S10000x4 := Rect.unit (s := S10000x4) ![0, 0] S10000x4.size inb_S10000x4_S10000x4_0_0
abbrev r4_1 : Rect S4x1 := Rect.unit (s := S4x1) ![0, 0] S4x1.size inb_S4x1_S4x1_0_0
abbrev r4_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out4_2 (x0 : Vec F S10000x4 .f32) (x1 : Vec F S4x1 .f32) : Vec F S10000x1 .f32 :=
  View.canon [⟨r4_2, k4_pay1 (View.ld x0 r4_0) (View.ld x1 r4_1)⟩]

/-- The one store's rectangle is the whole buffer, so it covers it. -/
theorem cover4_2 (p0 : Vec F S10000x1 .f32) (y : S10000x1.Idx) :
    ∃ pc ∈ ([⟨r4_2, p0⟩] : List (View.Piece (Elt F) S10000x1 .f32)), y ∈ pc.1.set :=
  View.cover_of_tiled [⟨r4_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out4_2 x0 x1`: the two loads read
    `x0` and `x1` through the whole rectangles, the load of the output memref reads a value no payload uses, and the
    store overwrites the whole output buffer. -/
theorem sound_kernel4 (c : Dev nD) (E : Set ℕ) (i : grid4.Coords) (arg1 : Memref sig .tc .vmem S10000x4 .f32) (harg1 : arg1.IsWhole) (arg2 : Memref sig .tc .vmem S4x1 .f32) (harg2 : arg2.IsWhole) (arg3 : Memref sig .tc .vmem S10000x1 .f32) (harg3 : arg3.IsWhole)
    (x0 : Vec F S10000x4 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dense_matmul_kernel i arg1 harg1 arg2 harg2 arg3 harg3) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.A5.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: `cc5__bias_act_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 likewise: it is fetched at the first point only, and its block index is constant over the grid, so
    at every later point the buffer still holds that one block, which is the point's own. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref whole -/

abbrev r5_0 : Rect S10000x1 := Rect.unit (s := S10000x1) ![0, 0] S10000x1.size inb_S10000x1_S10000x1_0_0
abbrev r5_1 : Rect S1x1 := Rect.unit (s := S1x1) ![0, 0] S1x1.size inb_S1x1_S1x1_0_0
abbrev r5_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out5_2 (x0 : Vec F S10000x1 .f32) (x1 : Vec F S1x1 .f32) : Vec F S10000x1 .f32 :=
  View.canon [⟨r5_2, k5_pay1 (View.ld x0 r5_0) (View.ld x1 r5_1)⟩]

/-- The one store's rectangle is the whole buffer, so it covers it. -/
theorem cover5_2 (p0 : Vec F S10000x1 .f32) (y : S10000x1.Idx) :
    ∃ pc ∈ ([⟨r5_2, p0⟩] : List (View.Piece (Elt F) S10000x1 .f32)), y ∈ pc.1.set :=
  View.cover_of_tiled [⟨r5_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out5_2 x0 x1`: the two loads read
    `x0` and `x1` through the whole rectangles, the load of the output memref reads a value no payload uses, and the
    store overwrites the whole output buffer. -/
theorem sound_kernel5 (c : Dev nD) (E : Set ℕ) (i : grid5.Coords) (arg1 : Memref sig .tc .vmem S10000x1 .f32) (harg1 : arg1.IsWhole) (arg2 : Memref sig .tc .vmem S1x1 .f32) (harg2 : arg2.IsWhole) (arg3 : Memref sig .tc .vmem S10000x1 .f32) (harg3 : arg3.IsWhole)
    (x0 : Vec F S10000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t`
    each input's buffer at its block and the output's at `out5_2` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.A6.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `cc6__dense_matmul_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 likewise: it is fetched at the first point only, and its block index is constant over the grid, so
    at every later point the buffer still holds that one block, which is the point's own. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref whole -/

abbrev r6_0 : Rect S10000x1 := Rect.unit (s := S10000x1) ![0, 0] S10000x1.size inb_S10000x1_S10000x1_0_0
abbrev r6_1 : Rect S1x4 := Rect.unit (s := S1x4) ![0, 0] S1x4.size inb_S1x4_S1x4_0_0
abbrev r6_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out6_2 (x0 : Vec F S10000x1 .f32) (x1 : Vec F S1x4 .f32) : Vec F S10000x4 .f32 :=
  View.canon [⟨r6_2, k6_pay1 (View.ld x0 r6_0) (View.ld x1 r6_1)⟩]

/-- The one store's rectangle is the whole buffer, so it covers it. -/
theorem cover6_2 (p0 : Vec F S10000x4 .f32) (y : S10000x4.Idx) :
    ∃ pc ∈ ([⟨r6_2, p0⟩] : List (View.Piece (Elt F) S10000x4 .f32)), y ∈ pc.1.set :=
  View.cover_of_tiled [⟨r6_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out6_2 x0 x1`: the two loads read
    `x0` and `x1` through the whole rectangles, the load of the output memref reads a value no payload uses, and the
    store overwrites the whole output buffer. -/
theorem sound_kernel6 (c : Dev nD) (E : Set ℕ) (i : grid6.Coords) (arg1 : Memref sig .tc .vmem S10000x1 .f32) (harg1 : arg1.IsWhole) (arg2 : Memref sig .tc .vmem S1x4 .f32) (harg2 : arg2.IsWhole) (arg3 : Memref sig .tc .vmem S10000x4 .f32) (harg3 : arg3.IsWhole)
    (x0 : Vec F S10000x1 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point `t`
    each input's buffer at its block and the output's at `out6_2` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.A7.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: `cc7__bias_act_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 likewise: it is fetched at the first point only, and its block index is constant over the grid, so
    at every later point the buffer still holds that one block, which is the point's own. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each memref whole -/

abbrev r7_0 : Rect S10000x4 := Rect.unit (s := S10000x4) ![0, 0] S10000x4.size inb_S10000x4_S10000x4_0_0
abbrev r7_1 : Rect S1x4 := Rect.unit (s := S1x4) ![0, 0] S1x4.size inb_S1x4_S1x4_0_0
abbrev r7_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out7_2 (x0 : Vec F S10000x4 .f32) (x1 : Vec F S1x4 .f32) : Vec F S10000x4 .f32 :=
  View.canon [⟨r7_2, k7_pay1 (View.ld x0 r7_0) (View.ld x1 r7_1)⟩]

/-- The one store's rectangle is the whole buffer, so it covers it. -/
theorem cover7_2 (p0 : Vec F S10000x4 .f32) (y : S10000x4.Idx) :
    ∃ pc ∈ ([⟨r7_2, p0⟩] : List (View.Piece (Elt F) S10000x4 .f32)), y ∈ pc.1.set :=
  View.cover_of_tiled [⟨r7_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out7_2 x0 x1`: the two loads read
    `x0` and `x1` through the whole rectangles, the load of the output memref reads a value no payload uses, and the
    store overwrites the whole output buffer. -/
theorem sound_kernel7 (c : Dev nD) (E : Set ℕ) (i : grid7.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_act_kernel i arg1 harg1 arg2 harg2 arg3 harg3) K := by
  simp only [cc7__bias_act_kernel_eq_skeleton]; unfold cc7__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point `t`
    each input's buffer at its block and the output's at `out7_2` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.A8.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: `cc8__dense_matmul_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block index
    has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1 likewise: it is fetched at the first point only, and its block index is constant over the grid, so
    at every later point the buffer still holds that one block, which is the point's own. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each memref whole -/

abbrev r8_0 : Rect S10000x4 := Rect.unit (s := S10000x4) ![0, 0] S10000x4.size inb_S10000x4_S10000x4_0_0
abbrev r8_1 : Rect S4x4 := Rect.unit (s := S4x4) ![0, 0] S4x4.size inb_S4x4_S4x4_0_0
abbrev r8_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out8_2 (x0 : Vec F S10000x4 .f32) (x1 : Vec F S4x4 .f32) : Vec F S10000x4 .f32 :=
  View.canon [⟨r8_2, k8_pay1 (View.ld x0 r8_0) (View.ld x1 r8_1)⟩]

/-- The one store's rectangle is the whole buffer, so it covers it. -/
theorem cover8_2 (p0 : Vec F S10000x4 .f32) (y : S10000x4.Idx) :
    ∃ pc ∈ ([⟨r8_2, p0⟩] : List (View.Piece (Elt F) S10000x4 .f32)), y ∈ pc.1.set :=
  View.cover_of_tiled [⟨r8_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out8_2 x0 x1`: the two loads read
    `x0` and `x1` through the whole rectangles, the load of the output memref reads a value no payload uses, and the
    store overwrites the whole output buffer. -/
theorem sound_kernel8 (c : Dev nD) (E : Set ℕ) (i : grid8.Coords) (arg1 : Memref sig .tc .vmem S10000x4 .f32) (harg1 : arg1.IsWhole) (arg2 : Memref sig .tc .vmem S4x4 .f32) (harg2 : arg2.IsWhole) (arg3 : Memref sig .tc .vmem S10000x4 .f32) (harg3 : arg3.IsWhole)
    (x0 : Vec F S10000x4 .f32) (x1 : Vec F S4x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point `t`
    each input's buffer at its block and the output's at `out8_2` of the input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.A9.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: `cc9__bias_act_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 likewise: it is fetched at the first point only, and its block index is constant over the grid, so
    at every later point the buffer still holds that one block, which is the point's own. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each memref whole -/

abbrev r9_0 : Rect S10000x4 := Rect.unit (s := S10000x4) ![0, 0] S10000x4.size inb_S10000x4_S10000x4_0_0
abbrev r9_1 : Rect S1x4 := Rect.unit (s := S1x4) ![0, 0] S1x4.size inb_S1x4_S1x4_0_0
abbrev r9_2 : Rect S10000x4 := Rect.unit (s := S10000x4) ![0, 0] S10000x4.size inb_S10000x4_S10000x4_0_0

/-! ## What the body leaves in the output window's buffer -/

/-- Window 2's staging buffer after the body, from the input windows' blocks: its one store, of the payload at the
    two loaded values, over the whole buffer. -/
def out9_2 (x0 : Vec F S10000x4 .f32) (x1 : Vec F S1x4 .f32) : Vec F S10000x4 .f32 :=
  View.canon [⟨r9_2, k9_pay1 (View.ld x0 r9_0) (View.ld x1 r9_1)⟩]

/-- The one store's rectangle is the whole buffer, so it covers it. -/
theorem cover9_2 (p0 : Vec F S10000x4 .f32) (y : S10000x4.Idx) :
    ∃ pc ∈ ([⟨r9_2, p0⟩] : List (View.Piece (Elt F) S10000x4 .f32)), y ∈ pc.1.set :=
  View.cover_of_tiled [⟨r9_2, p0⟩] S10000x4.size (by rfl) y

/-! ## The body's triple -/

set_option maxHeartbeats 1000000 in
/-- The kernel body on whole staging memrefs, the inputs' at read contents `x0`, `x1` and the output's at anything,
    runs to the continuation holding the inputs' as they were and the output's at `out9_2 x0 x1`: the two loads read
    `x0` and `x1` through the whole rectangles, the load of the output memref reads a value no payload uses, and the
    store overwrites the whole output buffer. -/
theorem sound_kernel9 (c : Dev nD) (E : Set ℕ) (i : grid9.Coords) (arg1 : Memref sig .tc .vmem S10000x4 .f32) (harg1 : arg1.IsWhole) (arg2 : Memref sig .tc .vmem S1x4 .f32) (harg2 : arg2.IsWhole) (arg3 : Memref sig .tc .vmem S10000x4 .f32) (harg3 : arg3.IsWhole)
    (x0 : Vec F S10000x4 .f32) (x1 : Vec F S1x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__bias_act_kernel i arg1 harg1 arg2 harg2 arg3 harg3) K := by
  simp only [cc9__bias_act_kernel_eq_skeleton]; unfold cc9__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them (`V`); after the body at point `t`
    each input's buffer at its block and the output's at `out9_2` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.A10.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 10: `cc10__dense_matmul_kernel` (pipeline 10), at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block index
    has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1 likewise: it is fetched at the first point only, and its block index is constant over the grid, so
    at every later point the buffer still holds that one block, which is the point's own. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each memref whole -/

abbrev r10_0 : Rect S10000x4 := Rect.unit (s := S10000x4) ![0, 0] S10000x4.size inb_S10000x4_S10000x4_0_0
abbrev r10_1 : Rect S4x1 := Rect.unit (s := S4x1) ![0, 0] S4x1.size inb_S4x1_S4x1_0_0
abbrev r10_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out10_2 (x0 : Vec F S10000x4 .f32) (x1 : Vec F S4x1 .f32) : Vec F S10000x1 .f32 :=
  View.canon [⟨r10_2, k10_pay1 (View.ld x0 r10_0) (View.ld x1 r10_1)⟩]

/-- The one store's rectangle is the whole buffer, so it covers it. -/
theorem cover10_2 (p0 : Vec F S10000x1 .f32) (y : S10000x1.Idx) :
    ∃ pc ∈ ([⟨r10_2, p0⟩] : List (View.Piece (Elt F) S10000x1 .f32)), y ∈ pc.1.set :=
  View.cover_of_tiled [⟨r10_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out10_2 x0 x1`: the two loads read
    `x0` and `x1` through the whole rectangles, the load of the output memref reads a value no payload uses, and the
    store overwrites the whole output buffer. -/
theorem sound_kernel10 (c : Dev nD) (E : Set ℕ) (i : grid10.Coords) (arg1 : Memref sig .tc .vmem S10000x4 .f32) (harg1 : arg1.IsWhole) (arg2 : Memref sig .tc .vmem S4x1 .f32) (harg2 : arg2.IsWhole) (arg3 : Memref sig .tc .vmem S10000x1 .f32) (harg3 : arg3.IsWhole)
    (x0 : Vec F S10000x4 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant is the scoped
    rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the proof data's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand
-- ==== Proof.KI.A11.lean ====
/- The class-A half of one kernel region of the program `KernelIdeal`, stated at a parameter `V` (the TensorCore's
   buffer contents when the region is entered): each window's block at a point, what the body leaves in the output
   window's buffer as a closed function of the two input blocks, the body's triple, the pipeline's proof data and the
   body obligation at every point of the grid. -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 11: `cc11__bias_act_kernel` (pipeline 11), at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block index
    has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 likewise: it is fetched at the first point only, and its block index is constant over the grid, so
    at every later point the buffer still holds that one block, which is the point's own. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each memref whole -/

abbrev r11_0 : Rect S10000x1 := Rect.unit (s := S10000x1) ![0, 0] S10000x1.size inb_S10000x1_S10000x1_0_0
abbrev r11_1 : Rect S1x1 := Rect.unit (s := S1x1) ![0, 0] S1x1.size inb_S1x1_S1x1_0_0
abbrev r11_2 : Rect S10000x1 := Rect.unit (s := S10000x1) ![0, 0] S10000x1.size inb_S10000x1_S10000x1_0_0

/-! ## What the body leaves in the output window's buffer -/

/-- Window 2's staging buffer after the body, from the input windows' blocks: its one store, of the payload at the
    two loaded values, over the whole buffer. -/
def out11_2 (x0 : Vec F S10000x1 .f32) (x1 : Vec F S1x1 .f32) : Vec F S10000x1 .f32 :=
  View.canon [⟨r11_2, k11_pay1 (View.ld x0 r11_0) (View.ld x1 r11_1)⟩]

/-- The one store's rectangle is the whole buffer, so it covers it. -/
theorem cover11_2 (p0 : Vec F S10000x1 .f32) (y : S10000x1.Idx) :
    ∃ pc ∈ ([⟨r11_2, p0⟩] : List (View.Piece (Elt F) S10000x1 .f32)), y ∈ pc.1.set :=
  View.cover_of_tiled [⟨r11_2, p0⟩] S10000x1.size (by rfl) y

/-! ## The body's triple -/

set_option maxHeartbeats 1000000 in
/-- The kernel body on whole staging memrefs, the inputs' at read contents `x0`, `x1` and the output's at anything,
    runs to the continuation holding the inputs' as they were and the output's at `out11_2 x0 x1`: the two loads read
    `x0` and `x1` through the whole rectangles, the load of the output memref reads a value no payload uses, and the
    store overwrites the whole output buffer. -/
theorem sound_kernel11 (c : Dev nD) (E : Set ℕ) (i : grid11.Coords) (arg1 : Memref sig .tc .vmem S10000x1 .f32) (harg1 : arg1.IsWhole) (arg2 : Memref sig .tc .vmem S1x1 .f32) (harg2 : arg2.IsWhole) (arg3 : Memref sig .tc .vmem S10000x1 .f32) (harg3 : arg3.IsWhole)
    (x0 : Vec F S10000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__bias_act_kernel i arg1 harg1 arg2 harg2 arg3 harg3) K := by
  simp only [cc11__bias_act_kernel_eq_skeleton]; unfold cc11__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-! ## The pipeline's proof data -/

/-- The proof data of pipeline 11 on core `c`: the arrays as the region finds them (`V`); after the body at point `t`
    each input's buffer at its block and the output's at `out11_2` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.R12Body.lean ====
/- Region 12 of the program `KernelIdeal` (the concatenation and column means): the rectangles of the body's
   accesses, what its stores leave in the node block, in the scratch accumulator and in the graph block as closed
   functions of the input blocks and of the accumulator's prior contents, and the body's triple in each of its three
   control cases (first point, middle point, last point). -/
import proofs.«147273_j88914412962548_1_alg».proof.Proof.Gen.KernelIdeal.Launch
import proofs.«147273_j88914412962548_1_alg».proof.Proof.Gen.KernelIdeal.Skeleton
import proofs.«147273_j88914412962548_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 12 (the concatenation and column means): the body's runs

The body stores the two input blocks as the two columns of the node block, adds each block's column sum to the
matching entry of a 1x2 accumulator kept in scratch across the grid points (zeroed at the first point), and at the
last point stores the accumulator scaled by the reciprocal of the row count into the 1x2 graph block. -/

/-- The first-point condition (the accumulator is zeroed under it), as the body computes it. -/
abbrev cond12_0 (i : grid12.Coords) : Prop := (Scalar.cmpi .ne (Scalar.extui (Scalar.cmpi .eq (BitVec.ofNat 32 (i 0).val) 0#32)) 0#32) = 1#1
/-- The last-point condition (the graph block is stored under it). -/
abbrev cond12_1 (i : grid12.Coords) : Prop := k12_cond2 i = 1#1

/-- The whole 10000x1 input block. -/
abbrev r12_in : Rect S10000x1 := Rect.unit (s := S10000x1) ![0, 0] S10000x1.size inb_S10000x1_S10000x1_0_0
/-- Columns 0 and 1 of the 10000x2 node block. -/
abbrev r12_c0 : Rect S10000x2 := Rect.unit (s := S10000x2) ![0, 0] S10000x1.size inb_S10000x2_S10000x1_0_0
abbrev r12_c1 : Rect S10000x2 := Rect.unit (s := S10000x2) ![0, 1] S10000x1.size inb_S10000x2_S10000x1_0_1
/-- The whole 1x2 accumulator, and its entries 0 and 1. -/
abbrev rs12_w : Rect S1x2 := Rect.unit (s := S1x2) ![0, 0] S1x2.size inb_S1x2_S1x2_0_0
abbrev rs12_0 : Rect S1x2 := Rect.unit (s := S1x2) ![0, 0] S1x1.size inb_S1x2_S1x1_0_0
abbrev rs12_1 : Rect S1x2 := Rect.unit (s := S1x2) ![0, 1] S1x1.size inb_S1x2_S1x1_0_1

theorem off00 : (![0, 0] : Fin 2 → ℕ) = fun _ => 0 := by
  funext a; fin_cases a <;> rfl

/-- The node block after the body: column 0 the first input block, column 1 the second (last store first). -/
def out12_2 (x0 x1 : Vec F S10000x1 .f32) : Vec F S10000x2 .f32 :=
  View.canon [⟨r12_c1, k12_pay3 x1⟩, ⟨r12_c0, k12_pay2 x0⟩]

/-- One point's update of the accumulator `a`: entry 0 increased by the first block's column sum, entry 1 by the
    second's (last store first). -/
def step12 (x0 x1 : Vec F S10000x1 .f32) (a : Vec F S1x2 .f32) : Vec F S1x2 .f32 :=
  View.canon [⟨rs12_1, k12_pay5 x1 (View.ld a rs12_1)⟩, ⟨rs12_0, k12_pay4 x0 (View.ld a rs12_0)⟩]

/-- The two column stores tile the node block. -/
theorem cover12_2 (p1 p0 : Vec F S10000x1 .f32) (y : S10000x2.Idx) :
    ∃ pc ∈ ([⟨r12_c1, p1⟩, ⟨r12_c0, p0⟩] : List (View.Piece (Elt F) S10000x2 .f32)), y ∈ pc.1.set :=
  View.cover_of_tiled [⟨r12_c1, p1⟩, ⟨r12_c0, p0⟩] S10000x1.size (by rfl) y

/-- The two entry stores tile the accumulator. -/
theorem cover12_s (p1 p0 : Vec F S1x1 .f32) (y : S1x2.Idx) :
    ∃ pc ∈ ([⟨rs12_1, p1⟩, ⟨rs12_0, p0⟩] : List (View.Piece (Elt F) S1x2 .f32)), y ∈ pc.1.set :=
  View.cover_of_tiled [⟨rs12_1, p1⟩, ⟨rs12_0, p0⟩] S1x1.size (by rfl) y

/-- A whole store covers the 1x2 buffer. -/
theorem cover12_w (p : Vec F S1x2 .f32) (y : S1x2.Idx) :
    ∃ pc ∈ ([⟨rs12_w, p⟩] : List (View.Piece (Elt F) S1x2 .f32)), y ∈ pc.1.set :=
  ⟨_, List.mem_singleton_self _, View.mem_set_unit_zero off00 inb_S1x2_S1x2_0_0 y⟩

section Reads
variable {sg : RefSig} {κ κ1 κ2 κ5 : Kind} {sp sp1 sp2 sp5 : Space}

/-- A load through the whole input block reads the block. -/
theorem readAt_in (v : View sg κ sp S10000x1 .f32) (f : v.ty.Contents (Elt F)) :
    View.readAt (Elt F) v r12_in.toLoadRect f = v.read (Elt F) f := by
  rw [View.readAt_eq_ld]; exact View.ld_unit_zero (S := S10000x1) off00 _ _

/-- What the two column stores leave in the node block, read through any view over any prior contents. -/
theorem read_out12_2 (v : View sg κ sp S10000x2 .f32) (g : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) g
        [⟨r12_c1, k12_pay3 (View.readAt (Elt F) v2 r12_in.toLoadRect f1)⟩,
         ⟨r12_c0, k12_pay2 (View.readAt (Elt F) v1 r12_in.toLoadRect f0)⟩])
      = out12_2 (v1.read (Elt F) f0) (v2.read (Elt F) f1) := by
  rw [readAt_in, readAt_in]
  exact View.read_writes_eq_canon _ _ _ (cover12_2 _ _)

/-- What the two entry stores leave in the accumulator when the entries they add to were loaded from the
    accumulator's prior contents `fs`. -/
theorem read_step12 (v : View sg κ sp S1x2 .f32) (fs : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) fs
        [⟨rs12_1, k12_pay5 (View.readAt (Elt F) v2 r12_in.toLoadRect f1) (View.readAt (Elt F) v rs12_1.toLoadRect fs)⟩,
         ⟨rs12_0, k12_pay4 (View.readAt (Elt F) v1 r12_in.toLoadRect f0) (View.readAt (Elt F) v rs12_0.toLoadRect fs)⟩])
      = step12 (v1.read (Elt F) f0) (v2.read (Elt F) f1) (v.read (Elt F) fs) := by
  rw [readAt_in, readAt_in, View.readAt_eq_ld, View.readAt_eq_ld]
  exact View.read_writes_eq_canon _ _ _ (cover12_s _ _)

/-- The entries loaded back after the zero fill are the fill's. -/
theorem readCov_zero_0 (v : View sg κ sp S1x2 .f32) :
    v.readCov [(⟨rs12_w, k12_pay1⟩ : View.Piece (Elt F) S1x2 .f32)] rs12_0.toLoadRect = View.ld (k12_pay1 (F := F)) rs12_0 := by
  rw [View.readCov_eq_canon_ld _ _ _ (cover12_w _), View.canon_unit_zero (S := S1x2) off00]

theorem disj12 : Disjoint rs12_0.set rs12_1.toLoadRect.set :=
  Rect.unit_disjoint (s := S1x2) (off := ![0, 0]) (size := S1x1.size) (off' := ![0, 1]) (size' := S1x1.size) (show Fin S1x2.rank from 1)
    (Or.inl (show (![0, 0] : Fin 2 → ℕ) 1 + S1x1.size 1 ≤ (![0, 1] : Fin 2 → ℕ) 1 by decide))

theorem readCov_zero_1 (v : View sg κ sp S1x2 .f32) (p0 : Vec F S1x1 .f32) :
    v.readCov [(⟨rs12_0, p0⟩ : View.Piece (Elt F) S1x2 .f32), ⟨rs12_w, k12_pay1⟩] rs12_1.toLoadRect = View.ld (k12_pay1 (F := F)) rs12_1 := by
  rw [View.readCov_cons_of_disjoint v (⟨rs12_0, p0⟩ : View.Piece (Elt F) S1x2 .f32) [⟨rs12_w, k12_pay1⟩] rs12_1.toLoadRect disj12,
    View.readCov_eq_canon_ld _ _ _ (cover12_w _), View.canon_unit_zero (S := S1x2) off00]

/-- The FIRST point's stores into the accumulator (the zero fill, then the two entry updates): what they leave. -/
theorem read_step12_first (v : View sg κ sp S1x2 .f32) (fs : v.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) fs
        [⟨rs12_1, k12_pay5 (View.readAt (Elt F) v2 r12_in.toLoadRect f1)
            (v.readCov [⟨rs12_0, k12_pay4 (View.readAt (Elt F) v1 r12_in.toLoadRect f0) (v.readCov [⟨rs12_w, k12_pay1⟩] rs12_0.toLoadRect)⟩,
                        ⟨rs12_w, k12_pay1⟩] rs12_1.toLoadRect)⟩,
         ⟨rs12_0, k12_pay4 (View.readAt (Elt F) v1 r12_in.toLoadRect f0) (v.readCov [⟨rs12_w, k12_pay1⟩] rs12_0.toLoadRect)⟩,
         ⟨rs12_w, k12_pay1⟩])
      = step12 (v1.read (Elt F) f0) (v2.read (Elt F) f1) (k12_pay1 (F := F)) := by
  rw [readAt_in, readAt_in, readCov_zero_1, readCov_zero_0]
  exact View.read_writes_eq_canon v (v.writes (Elt F) fs [⟨rs12_w, k12_pay1⟩]) _ (cover12_s _ _)

/-- The graph block's store at the last point: the scaled accumulator, loaded back whole after the two entry updates. -/
theorem read_out12_3 (v : View sg κ sp S1x2 .f32) (g : v.ty.Contents (Elt F)) (v5 : View sg κ5 sp5 S1x2 .f32) (fs : v5.ty.Contents (Elt F))
    (v1 : View sg κ1 sp1 S10000x1 .f32) (f0 : v1.ty.Contents (Elt F)) (v2 : View sg κ2 sp2 S10000x1 .f32) (f1 : v2.ty.Contents (Elt F)) :
    v.read (Elt F) (v.writes (Elt F) g
        [⟨rs12_w, k12_pay6 (v5.readCov
            [⟨rs12_1, k12_pay5 (View.readAt (Elt F) v2 r12_in.toLoadRect f1) (View.readAt (Elt F) v5 rs12_1.toLoadRect fs)⟩,
             ⟨rs12_0, k12_pay4 (View.readAt (Elt F) v1 r12_in.toLoadRect f0) (View.readAt (Elt F) v5 rs12_0.toLoadRect fs)⟩]
            rs12_w.toLoadRect)⟩])
      = k12_pay6 (step12 (v1.read (Elt F) f0) (v2.read (Elt F) f1) (v5.read (Elt F) fs)) := by
  rw [View.read_writes_eq_canon _ _ _ (cover12_w _), View.canon_unit_zero (S := S1x2) off00,
    View.readCov_eq_canon_ld _ _ _ (cover12_s _ _), View.ld_unit_zero (S := S1x2) off00,
    readAt_in, readAt_in, View.readAt_eq_ld, View.readAt_eq_ld]
  rfl

end Reads

/-! ## The body's triple, case by case -/

set_option maxHeartbeats 1000000 in
/-- The FIRST point: the accumulator, at anything, is zeroed and then updated; the graph block, at `y`, is untouched.
    The body runs to the continuation holding the inputs as they were, the node block at `out12_2 x0 x1`, the graph
    block at `y`, the accumulator at `step12 x0 x1` of the zero fill. -/
theorem run12_A (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : cond12_0 i) (hc1 : ¬cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y ∗ (∃ d, owns (c : Thread nD τ) arg5 fullShare d)
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare y ∗ owns (c : Thread nD τ) arg5 fullShare (step12 x0 x1 (k12_pay1 (F := F)))) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  subst hf0; subst hf1; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists f3; isplitr; · ipureintro; rfl
    iexact H3
  iexists _; isplitr
  swap; · iexact HS
  ipureintro
  exact read_step12_first _ _ _ _ _ _

set_option maxHeartbeats 1000000 in
/-- A MIDDLE point (neither first nor last): the accumulator, at `a`, is updated; the graph block, at `y`, is
    untouched. The body runs to the continuation holding the inputs as they were, the node block at `out12_2 x0 x1`,
    the graph block at `y`, the accumulator at `step12 x0 x1 a`. -/
theorem run12_B (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : ¬cond12_0 i) (hc1 : ¬cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y ∗ owns (c : Thread nD τ) arg5 fullShare a
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare y ∗ owns (c : Thread nD τ) arg5 fullShare (step12 x0 x1 a)) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  subst hf0; subst hf1; subst hf3; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists f3; isplitr; · ipureintro; rfl
    iexact H3
  iexists _; isplitr
  swap; · iexact HS
  ipureintro
  exact read_step12 _ _ _ _ _ _

set_option maxHeartbeats 1000000 in
/-- The LAST point: the accumulator, at `a`, is updated and then stored, scaled, into the graph block (at anything
    before). The body runs to the continuation holding the inputs as they were, the node block at `out12_2 x0 x1`, the
    graph block at the scaled `step12 x0 x1 a`, the accumulator at `step12 x0 x1 a`. -/
theorem run12_C (c : Dev nD) (i : grid12.Coords)
    (arg1 : Memref sig .tc .vmem S10000x1 .f32) (harg1 : arg1.IsWhole) (arg2 : Memref sig .tc .vmem S10000x1 .f32) (harg2 : arg2.IsWhole)
    (arg3 : Memref sig .tc .vmem S10000x2 .f32) (harg3 : arg3.IsWhole) (arg4 : Memref sig .tc .vmem S1x2 .f32) (harg4 : arg4.IsWhole)
    (arg5 : Memref sig .tc .vmem S1x2 .f32) (harg5 : arg5.IsWhole)
    (hc0 : ¬cond12_0 i) (hc1 : cond12_1 i)
    (x0 x1 : Vec F S10000x1 .f32) (y a : Vec F S1x2 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare (out12_2 x0 x1)
            ∗ owns (c : Thread nD τ) arg4 fullShare (k12_pay6 (step12 x0 x1 a)) ∗ owns (c : Thread nD τ) arg5 fullShare (step12 x0 x1 a)) -∗ K ⟨⟩))
      ⊢ wp frame (wpE (defs₀ (F := F)) Variants.none c none) E (cc12__concat_mean_kernel i arg1 harg1 arg2 harg2 arg3 harg3 arg4 harg4 arg5 harg5) K := by
  simp only [cc12__concat_mean_kernel_eq_skeleton]; unfold cc12__concat_mean_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_out12_2 _ _ _ _ _ _
  isplitl [H3]
  · iexists _; isplitr
    swap; · iexact H3
    ipureintro
    exact read_out12_3 _ _ _ _ _ _ _ _
  iexists _; isplitr
  swap; · iexact HS
  ipureintro
  exact read_step12 _ _ _ _ _ _

end Cert.KernelIdeal.Hand
end
-- ==== Proof.KI.R12.lean ====
/- Region 12 of the program `KernelIdeal` (the concatenation and column means), stated at a parameter `V` (the
   TensorCore's buffer contents when the region is entered): each window's block at a point, the scratch accumulator's
   contents after the first `n` points by recursion on `n`, the pipeline's proof data (whose invariant holds the
   accumulator whole at those contents beside the rest of the scoped buffers and the generator register), the body
   obligation at every point of the grid by cases on the point (first, middle, last), and what the invariant is at the
   region's two ends. -/
import proofs.«147273_j88914412962548_1_alg».proof.Proof.KI.R12Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, for any proof data whose array is `V`'s
    (`hA`) and whose body leaves the block in place (`hafter`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The accumulator, point by point -/

/-- The scratch accumulator's contents after the first `n` points: the zero fill, then one `step12` per point over
    that point's two input blocks. (The first point zeroes the accumulator before adding to it, so its contents
    before the first point do not matter: `acc12 V c 0` is the fill itself.) -/
def acc12 (c : Dev nD) : ℕ → Vec F S1x2 .f32
  | 0 => k12_pay1
  | n + 1 => if h : n < cfg12.N then step12 (iblk12 V c 0 ⟨n, h⟩) (iblk12 V c 1 ⟨n, h⟩) (acc12 c n) else acc12 c n

theorem acc12_zero (c : Dev nD) : acc12 V c 0 = k12_pay1 (F := F) := rfl

/-- After point `t`: one step over its blocks from what the points before it left. -/
theorem acc12_succ (c : Dev nD) (t : Fin cfg12.N) :
    acc12 V c (t.val + 1) = step12 (iblk12 V c 0 t) (iblk12 V c 1 t) (acc12 V c t.val) := by
  rw [acc12, dif_pos t.isLt]

/-! ## The branch conditions and the graph window's idle points, over the grid -/

/-- The first-point condition holds at point 0 only, -/
theorem hcond12_0 : ∀ t : Fin cfg12.N, cond12_0 (grid12.coords t) ↔ t.val = 0 :=
  (by decide +kernel : ∀ t : Fin grid12.N, cond12_0 (grid12.coords t) ↔ t.val = 0)
/-- the last-point condition at point 9 only. -/
theorem hcond12_1 : ∀ t : Fin cfg12.N, cond12_1 (grid12.coords t) ↔ t.val = 9 :=
  (by decide +kernel : ∀ t : Fin grid12.N, cond12_1 (grid12.coords t) ↔ t.val = 9)

/-- Windows 0, 1, 2 are never idle. -/
theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl
/-- Before the last point the graph window is idle (the body stores nothing into it) and is not written back; -/
theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
/-- at the last point it is live. -/
theorem liveAt12_3 : ∀ t : Fin cfg12.N, cond12_1 (grid12.coords t) → cfg12.idle 3 (grid12.coords t) = false := by decide +kernel

/-! ## The invariant -/

/-- The scratch operand: a whole scoped buffer of the kernel's own, passed beside the windows. -/
abbrev scM12 : Memref sig .tc .vmem S1x2 .f32 := Memref.whole cc12_scratch0

/-- The region invariant before position `n`: before the first point the class's (every scoped buffer that is no
    staging buffer at anything, the generator register at some state); afterwards the accumulator whole at
    `acc12 V c n`, the other such buffers at anything, the generator register at some state. -/
def PhiS12 (c : Dev nD) : ℕ → sProp 𝕄
  | 0 => Pipeline.ΦA spec12 c
  | n + 1 => iprop(owns (c : Thread nD τ) scM12 fullShare (acc12 V c (n + 1))
      ∗ Pipeline.scopedRestBut (Ix := Unit) (Name := ℕ) (U := UR sig nD τ) (Lvl := ℕ) (Val := Elt F) spec12 c [cc12_scratch0]
      ∗ ∃ r, prngReg c r)

theorem PhiS12_zero (c : Dev nD) : PhiS12 V c 0 = Pipeline.ΦA spec12 c := rfl

theorem PhiS12_pos (c : Dev nD) (n : ℕ) (hz : n ≠ 0) :
    PhiS12 V c n = iprop(owns (c : Thread nD τ) scM12 fullShare (acc12 V c n)
      ∗ Pipeline.scopedRestBut (Ix := Unit) (Name := ℕ) (U := UR sig nD τ) (Lvl := ℕ) (Val := Elt F) spec12 c [cc12_scratch0]
      ∗ ∃ r, prngReg c r) := by
  cases n with
  | zero => exact absurd rfl hz
  | succ n => rfl

/-- The class's invariant with the accumulator split out of the scoped rest, as a memref owned at some contents. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0])
          ∗ ∃ r, prngReg c r) := by
  unfold Pipeline.ΦA; rw [scopedRest12_split]; simp only [scM12, owns_whole]; try rfl

/-! ## The pipeline's proof data -/

/-- The proof data of pipeline 12 on core `c`: the arrays as the region finds them (`V`); after the body at point `t`
    each input's buffer at its block, the node block's at `out12_2` of the input blocks, the graph block's at the
    scaled accumulator (consulted at the last point only: before it the window is idle and not written back); the
    invariant `PhiS12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
    | ⟨3, _⟩ => k12_pay6 (acc12 V c (t.val + 1))
  Φ n := PhiS12 V c n.val
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]
theorem after12_3 (c : Dev nD) (t : Fin cfg12.N) : (dat12 V c).after 3 t = k12_pay6 (acc12 V c (t.val + 1)) := by dsimp only [dat12]

/-- The invariant at a point's start and end, restated at `t.val`. -/
theorem Phi12_castSucc (c : Dev nD) (t : Fin cfg12.N) : (dat12 V c).Φ t.castSucc = PhiS12 V c t.val := by
  dsimp only [dat12]; simp only [Fin.coe_castSucc]
theorem Phi12_succ (c : Dev nD) (t : Fin cfg12.N) : (dat12 V c).Φ t.succ = PhiS12 V c (t.val + 1) := rfl

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t` (the obligation's precondition, the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

set_option maxHeartbeats 2000000 in
/-- The body at any point. The inputs' memrefs hold their blocks; the node block's buffer is overwritten whole; by
    cases on the point: at the first the invariant hands the accumulator at anything and the run zeroes it, at a later
    point it hands it at what the points before left; before the last point the graph block's buffer is handed back as
    found (the window is idle there), at the last it is stored whole. The invariant takes the accumulator back at
    `acc12 V c (t.val + 1)`; the other scoped buffers, the generator register and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [Phi12_succ, PhiS12_pos V c _ (Nat.succ_ne_zero _), acc12_succ, Phi12_castSucc]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  have hN : t.val < 10 := lt_of_lt_of_eq t.isLt (show cfg12.N = 10 from N_12)
  by_cases h0 : t.val = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [show PhiS12 V c t.val = Pipeline.ΦA spec12 c from by rw [h0]; rfl,
      show acc12 V c t.val = k12_pay1 (F := F) from by rw [h0]; rfl, PhiA12_eq]
    iintro ⟨⟨⟨⟨%ds, HS⟩, Hrest⟩, Hg⟩, Ho, ⟨%d0, H0⟩, ⟨%d1, H1⟩, ⟨%d2, H2⟩, ⟨%d3, H3⟩⟩
    iapply (run12_A c (grid12.coords t) _ _ _ _ _ _ _ _ _ _ hc0 hc1 (iblk12 V c 0 t) (iblk12 V c 1 t) ((dat12 V c).before 3 t d3) (k12_pay1 (F := F)) Set.univ _)
    isplitl [H0]; · iexact H0
    isplitl [H1]; · iexact H1
    isplitl [H2]; · iexists _; iexact H2
    isplitl [H3]; · iexact H3
    isplitl [HS]; · iexists _; iexact HS
    iintro ⟨H0, H1, H2, H3, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    iexists _; iexact H3
  · have hc0 : ¬cond12_0 (grid12.coords t) := fun h => h0 ((hcond12_0 t).mp h)
    rw [PhiS12_pos V c _ h0]
    by_cases h1 : t.val = 9
    · have hc1 : cond12_1 (grid12.coords t) := (hcond12_1 t).mpr h1
      rw [show (dat12 V c).leavesExact 3 t = owns (c : Thread nD τ) (st12_3 t) fullShare ((dat12 V c).after 3 t) from by
        unfold Dat.leavesExact; rw [liveAt12_3 t hc1], after12_3, acc12_succ]
      iintro ⟨⟨HS, Hrest, Hg⟩, Ho, ⟨%d0, H0⟩, ⟨%d1, H1⟩, ⟨%d2, H2⟩, ⟨%d3, H3⟩⟩
      iapply (run12_C c (grid12.coords t) _ _ _ _ _ _ _ _ _ _ hc0 hc1 (iblk12 V c 0 t) (iblk12 V c 1 t) (k12_pay1 (F := F)) (acc12 V c t.val) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · have hc1 : ¬cond12_1 (grid12.coords t) := fun h => h1 ((hcond12_1 t).mp h)
      rw [Dat.leavesExact_idle (dat12 V c) 3 t (idleAt12_3 t hc1) (noFlush12_3 t hc1)]
      iintro ⟨⟨HS, Hrest, Hg⟩, Ho, ⟨%d0, H0⟩, ⟨%d1, H1⟩, ⟨%d2, H2⟩, ⟨%d3, H3⟩⟩
      iapply (run12_B c (grid12.coords t) _ _ _ _ _ _ _ _ _ _ hc0 hc1 (iblk12 V c 0 t) (iblk12 V c 1 t) ((dat12 V c).before 3 t d3) (acc12 V c t.val) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's two ends -/

/-- What the launch hands the region (the class's invariant) is the invariant before the first point. -/
theorem Phi12_in (c : Dev nD) : Pipeline.ΦA spec12 c ⊢ (dat12 V c).Φ 0 := by
  rw [show (dat12 V c).Φ 0 = PhiS12 V c 0 from rfl, PhiS12_zero]

/-- After any point the invariant gives the class's back: the accumulator's named contents are forgotten. -/
theorem Phi12_out_of (c : Dev nD) (n : Fin (cfg12.N + 1)) (hn : n.val ≠ 0) : (dat12 V c).Φ n ⊢ Pipeline.ΦA spec12 c := by
  rw [show (dat12 V c).Φ n = PhiS12 V c n.val from rfl, PhiS12_pos V c _ hn, PhiA12_eq]
  iintro ⟨HS, Hrest, Hg⟩
  isplitl [HS Hrest]
  · isplitl [HS]; · iexists _; iexact HS
    iexact Hrest
  iexact Hg

/-- The same after the last point. -/
theorem Phi12_out (c : Dev nD) : (dat12 V c).Φ (Fin.last cfg12.N) ⊢ Pipeline.ΦA spec12 c :=
  Phi12_out_of V c _ (by rw [Fin.val_last]; have : cfg12.N = 10 := N_12; omega)

end Cert.KernelIdeal.Hand
end
-- ==== Proof.KI.Chain.lean ====
import proofs.«147273_j88914412962548_1_alg».proof.Proof.Gen.KernelIdeal.Regions
import proofs.«147273_j88914412962548_1_alg».proof.Proof.KI.A0
import proofs.«147273_j88914412962548_1_alg».proof.Proof.KI.A1
import proofs.«147273_j88914412962548_1_alg».proof.Proof.KI.A2
import proofs.«147273_j88914412962548_1_alg».proof.Proof.KI.A3
import proofs.«147273_j88914412962548_1_alg».proof.Proof.KI.A4
import proofs.«147273_j88914412962548_1_alg».proof.Proof.KI.A5
import proofs.«147273_j88914412962548_1_alg».proof.Proof.KI.A6
import proofs.«147273_j88914412962548_1_alg».proof.Proof.KI.A7
import proofs.«147273_j88914412962548_1_alg».proof.Proof.KI.A8
import proofs.«147273_j88914412962548_1_alg».proof.Proof.KI.A9
import proofs.«147273_j88914412962548_1_alg».proof.Proof.KI.A10
import proofs.«147273_j88914412962548_1_alg».proof.Proof.KI.A11
import proofs.«147273_j88914412962548_1_alg».proof.Proof.KI.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The buffer contents between the items of @main

The contents of core `c`'s unscoped buffers after each item, as a chain from the launch memory `m`: a host stretch
applies its operations, a region replaces each of its output arrays by what its write-backs leave
(`Dat.arrAt … N` of that region's proof data at the region's entry contents). -/

variable (m : (ℓ : Loc nD τ sig) → Buf (Elt F) ℓ)

/-- a valuation read at the TensorCore's references -/
abbrev asTc (W : Dev nD → Valuation τ sig (Elt F)) : (c : Dev nD) → (b : Ref sig .tc) → Buf (Elt F) ((c : Thread nD τ).loc b) :=
  fun c b => W c b

/-- after the first host stretch -/
def W1 (c : Dev nD) : Valuation τ sig (Elt F) := StableHlo.after hostOps0 (fun b => m (c, b))
/-- what region 0 leaves in `main_v29` -/
def o2_2 (c : Dev nD) : Buf (Elt F) ((c : Thread nD τ).loc main_v29) := (dat0 (asTc (W1 m)) c).arrAt 2 cfg0.N
/-- after region 0 -/
def W2 (c : Dev nD) : Valuation τ sig (Elt F) := Function.update (W1 m c) main_v29 (o2_2 m c)
/-- after the host stretch `hostOps1` -/
def W3 (c : Dev nD) : Valuation τ sig (Elt F) := StableHlo.after hostOps1 (W2 m c)
/-- what region 1 leaves in `main_v44` -/
def o4_2 (c : Dev nD) : Buf (Elt F) ((c : Thread nD τ).loc main_v44) := (dat1 (asTc (W3 m)) c).arrAt 2 cfg1.N
/-- after region 1 -/
def W4 (c : Dev nD) : Valuation τ sig (Elt F) := Function.update (W3 m c) main_v44 (o4_2 m c)
/-- what region 2 leaves in `main_v45` -/
def o5_2 (c : Dev nD) : Buf (Elt F) ((c : Thread nD τ).loc main_v45) := (dat2 (asTc (W4 m)) c).arrAt 2 cfg2.N
/-- after region 2 -/
def W5 (c : Dev nD) : Valuation τ sig (Elt F) := Function.update (W4 m c) main_v45 (o5_2 m c)
/-- after the host stretch `hostOps3` -/
def W6 (c : Dev nD) : Valuation τ sig (Elt F) := StableHlo.after hostOps3 (W5 m c)
/-- what region 3 leaves in `main_v60` -/
def o7_2 (c : Dev nD) : Buf (Elt F) ((c : Thread nD τ).loc main_v60) := (dat3 (asTc (W6 m)) c).arrAt 2 cfg3.N
/-- after region 3 -/
def W7 (c : Dev nD) : Valuation τ sig (Elt F) := Function.update (W6 m c) main_v60 (o7_2 m c)
/-- what region 4 leaves in `main_v61` -/
def o8_2 (c : Dev nD) : Buf (Elt F) ((c : Thread nD τ).loc main_v61) := (dat4 (asTc (W7 m)) c).arrAt 2 cfg4.N
/-- after region 4 -/
def W8 (c : Dev nD) : Valuation τ sig (Elt F) := Function.update (W7 m c) main_v61 (o8_2 m c)
/-- after the host stretch `hostOps5` -/
def W9 (c : Dev nD) : Valuation τ sig (Elt F) := StableHlo.after hostOps5 (W8 m c)
/-- what region 5 leaves in `main_v75` -/
def o10_2 (c : Dev nD) : Buf (Elt F) ((c : Thread nD τ).loc main_v75) := (dat5 (asTc (W9 m)) c).arrAt 2 cfg5.N
/-- after region 5 -/
def W10 (c : Dev nD) : Valuation τ sig (Elt F) := Function.update (W9 m c) main_v75 (o10_2 m c)
/-- what region 6 leaves in `main_v76` -/
def o11_2 (c : Dev nD) : Buf (Elt F) ((c : Thread nD τ).loc main_v76) := (dat6 (asTc (W10 m)) c).arrAt 2 cfg6.N
/-- after region 6 -/
def W11 (c : Dev nD) : Valuation τ sig (Elt F) := Function.update (W10 m c) main_v76 (o11_2 m c)
/-- after the host stretch `hostOps7` -/
def W12 (c : Dev nD) : Valuation τ sig (Elt F) := StableHlo.after hostOps7 (W11 m c)
/-- what region 7 leaves in `main_v91` -/
def o13_2 (c : Dev nD) : Buf (Elt F) ((c : Thread nD τ).loc main_v91) := (dat7 (asTc (W12 m)) c).arrAt 2 cfg7.N
/-- after region 7 -/
def W13 (c : Dev nD) : Valuation τ sig (Elt F) := Function.update (W12 m c) main_v91 (o13_2 m c)
/-- what region 8 leaves in `main_v92` -/
def o14_2 (c : Dev nD) : Buf (Elt F) ((c : Thread nD τ).loc main_v92) := (dat8 (asTc (W13 m)) c).arrAt 2 cfg8.N
/-- after region 8 -/
def W14 (c : Dev nD) : Valuation τ sig (Elt F) := Function.update (W13 m c) main_v92 (o14_2 m c)
/-- after the host stretch `hostOps9` -/
def W15 (c : Dev nD) : Valuation τ sig (Elt F) := StableHlo.after hostOps9 (W14 m c)
/-- what region 9 leaves in `main_v107` -/
def o16_2 (c : Dev nD) : Buf (Elt F) ((c : Thread nD τ).loc main_v107) := (dat9 (asTc (W15 m)) c).arrAt 2 cfg9.N
/-- after region 9 -/
def W16 (c : Dev nD) : Valuation τ sig (Elt F) := Function.update (W15 m c) main_v107 (o16_2 m c)
/-- what region 10 leaves in `main_v108` -/
def o17_2 (c : Dev nD) : Buf (Elt F) ((c : Thread nD τ).loc main_v108) := (dat10 (asTc (W16 m)) c).arrAt 2 cfg10.N
/-- after region 10 -/
def W17 (c : Dev nD) : Valuation τ sig (Elt F) := Function.update (W16 m c) main_v108 (o17_2 m c)
/-- after the host stretch `hostOps11` -/
def W18 (c : Dev nD) : Valuation τ sig (Elt F) := StableHlo.after hostOps11 (W17 m c)
/-- what region 11 leaves in `main_v122` -/
def o19_2 (c : Dev nD) : Buf (Elt F) ((c : Thread nD τ).loc main_v122) := (dat11 (asTc (W18 m)) c).arrAt 2 cfg11.N
/-- after region 11 -/
def W19 (c : Dev nD) : Valuation τ sig (Elt F) := Function.update (W18 m c) main_v122 (o19_2 m c)
/-- what region 12 leaves in `main_v123_0` -/
def o20_2 (c : Dev nD) : Buf (Elt F) ((c : Thread nD τ).loc main_v123_0) := (dat12 (asTc (W19 m)) c).arrAt 2 cfg12.N
/-- what region 12 leaves in `main_v123_1` -/
def o20_3 (c : Dev nD) : Buf (Elt F) ((c : Thread nD τ).loc main_v123_1) := (dat12 (asTc (W19 m)) c).arrAt 3 cfg12.N
/-- after region 12 -/
def W20 (c : Dev nD) : Valuation τ sig (Elt F) := Function.update (Function.update (W19 m c) main_v123_0 (o20_2 m c)) main_v123_1 (o20_3 m c)
/-- after the last host stretch -/
def W21 (c : Dev nD) : Valuation τ sig (Elt F) := StableHlo.after hostOps13 (W20 m c)

/-- What each region leaves, as the family the conditional frame is stated over. -/
def outs : Outs (F := F) := fun J r c => match J with
  | 2 => Function.update (fun r' : Ref sig .tc => m ((c : Thread nD τ).loc r')) main_v29 (o2_2 m c) r
  | 4 => Function.update (fun r' : Ref sig .tc => m ((c : Thread nD τ).loc r')) main_v44 (o4_2 m c) r
  | 5 => Function.update (fun r' : Ref sig .tc => m ((c : Thread nD τ).loc r')) main_v45 (o5_2 m c) r
  | 7 => Function.update (fun r' : Ref sig .tc => m ((c : Thread nD τ).loc r')) main_v60 (o7_2 m c) r
  | 8 => Function.update (fun r' : Ref sig .tc => m ((c : Thread nD τ).loc r')) main_v61 (o8_2 m c) r
  | 10 => Function.update (fun r' : Ref sig .tc => m ((c : Thread nD τ).loc r')) main_v75 (o10_2 m c) r
  | 11 => Function.update (fun r' : Ref sig .tc => m ((c : Thread nD τ).loc r')) main_v76 (o11_2 m c) r
  | 13 => Function.update (fun r' : Ref sig .tc => m ((c : Thread nD τ).loc r')) main_v91 (o13_2 m c) r
  | 14 => Function.update (fun r' : Ref sig .tc => m ((c : Thread nD τ).loc r')) main_v92 (o14_2 m c) r
  | 16 => Function.update (fun r' : Ref sig .tc => m ((c : Thread nD τ).loc r')) main_v107 (o16_2 m c) r
  | 17 => Function.update (fun r' : Ref sig .tc => m ((c : Thread nD τ).loc r')) main_v108 (o17_2 m c) r
  | 19 => Function.update (fun r' : Ref sig .tc => m ((c : Thread nD τ).loc r')) main_v122 (o19_2 m c) r
  | 20 => Function.update (Function.update (fun r' : Ref sig .tc => m ((c : Thread nD τ).loc r')) main_v123_0 (o20_2 m c)) main_v123_1 (o20_3 m c) r
  | _ => m ((c : Thread nD τ).loc r)

theorem outs_2_2 (c : Dev nD) : outs m 2 main_v29 c = o2_2 m c := by
  exact Function.update_self main_v29 (o2_2 m c) (fun r' : Ref sig .tc => m ((c : Thread nD τ).loc r'))
theorem outs_4_2 (c : Dev nD) : outs m 4 main_v44 c = o4_2 m c := by
  exact Function.update_self main_v44 (o4_2 m c) (fun r' : Ref sig .tc => m ((c : Thread nD τ).loc r'))
theorem outs_5_2 (c : Dev nD) : outs m 5 main_v45 c = o5_2 m c := by
  exact Function.update_self main_v45 (o5_2 m c) (fun r' : Ref sig .tc => m ((c : Thread nD τ).loc r'))
theorem outs_7_2 (c : Dev nD) : outs m 7 main_v60 c = o7_2 m c := by
  exact Function.update_self main_v60 (o7_2 m c) (fun r' : Ref sig .tc => m ((c : Thread nD τ).loc r'))
theorem outs_8_2 (c : Dev nD) : outs m 8 main_v61 c = o8_2 m c := by
  exact Function.update_self main_v61 (o8_2 m c) (fun r' : Ref sig .tc => m ((c : Thread nD τ).loc r'))
theorem outs_10_2 (c : Dev nD) : outs m 10 main_v75 c = o10_2 m c := by
  exact Function.update_self main_v75 (o10_2 m c) (fun r' : Ref sig .tc => m ((c : Thread nD τ).loc r'))
theorem outs_11_2 (c : Dev nD) : outs m 11 main_v76 c = o11_2 m c := by
  exact Function.update_self main_v76 (o11_2 m c) (fun r' : Ref sig .tc => m ((c : Thread nD τ).loc r'))
theorem outs_13_2 (c : Dev nD) : outs m 13 main_v91 c = o13_2 m c := by
  exact Function.update_self main_v91 (o13_2 m c) (fun r' : Ref sig .tc => m ((c : Thread nD τ).loc r'))
theorem outs_14_2 (c : Dev nD) : outs m 14 main_v92 c = o14_2 m c := by
  exact Function.update_self main_v92 (o14_2 m c) (fun r' : Ref sig .tc => m ((c : Thread nD τ).loc r'))
theorem outs_16_2 (c : Dev nD) : outs m 16 main_v107 c = o16_2 m c := by
  exact Function.update_self main_v107 (o16_2 m c) (fun r' : Ref sig .tc => m ((c : Thread nD τ).loc r'))
theorem outs_17_2 (c : Dev nD) : outs m 17 main_v108 c = o17_2 m c := by
  exact Function.update_self main_v108 (o17_2 m c) (fun r' : Ref sig .tc => m ((c : Thread nD τ).loc r'))
theorem outs_19_2 (c : Dev nD) : outs m 19 main_v122 c = o19_2 m c := by
  exact Function.update_self main_v122 (o19_2 m c) (fun r' : Ref sig .tc => m ((c : Thread nD τ).loc r'))
theorem outs_20_2 (c : Dev nD) : outs m 20 main_v123_0 c = o20_2 m c := by
  exact (Function.update_of_ne (by decide : main_v123_0 ≠ main_v123_1) (o20_3 m c) (Function.update (fun r' : Ref sig .tc => m ((c : Thread nD τ).loc r')) main_v123_0 (o20_2 m c))).trans (Function.update_self main_v123_0 (o20_2 m c) (fun r' : Ref sig .tc => m ((c : Thread nD τ).loc r')))
theorem outs_20_3 (c : Dev nD) : outs m 20 main_v123_1 c = o20_3 m c := by
  exact Function.update_self main_v123_1 (o20_3 m c) (Function.update (fun r' : Ref sig .tc => m ((c : Thread nD τ).loc r')) main_v123_0 (o20_2 m c))

/-! The chain is the conditional frame's, at these contents. -/

theorem V1_eq (c : Dev nD) : V1 m c = W1 m c := rfl
theorem V2_eq (c : Dev nD) : V2 m (outs m) c = W2 m c := by
  unfold W2; show Function.update (V1 m c) main_v29 (outs m 2 main_v29 c) = _
  rw [outs_2_2, V1_eq]
theorem V3_eq (c : Dev nD) : V3 m (outs m) c = W3 m c := by
  unfold W3; exact congrArg (StableHlo.after hostOps1) (V2_eq m c)
theorem V4_eq (c : Dev nD) : V4 m (outs m) c = W4 m c := by
  unfold W4; show Function.update (V3 m (outs m) c) main_v44 (outs m 4 main_v44 c) = _
  rw [outs_4_2, V3_eq]
theorem V5_eq (c : Dev nD) : V5 m (outs m) c = W5 m c := by
  unfold W5; show Function.update (V4 m (outs m) c) main_v45 (outs m 5 main_v45 c) = _
  rw [outs_5_2, V4_eq]
theorem V6_eq (c : Dev nD) : V6 m (outs m) c = W6 m c := by
  unfold W6; exact congrArg (StableHlo.after hostOps3) (V5_eq m c)
theorem V7_eq (c : Dev nD) : V7 m (outs m) c = W7 m c := by
  unfold W7; show Function.update (V6 m (outs m) c) main_v60 (outs m 7 main_v60 c) = _
  rw [outs_7_2, V6_eq]
theorem V8_eq (c : Dev nD) : V8 m (outs m) c = W8 m c := by
  unfold W8; show Function.update (V7 m (outs m) c) main_v61 (outs m 8 main_v61 c) = _
  rw [outs_8_2, V7_eq]
theorem V9_eq (c : Dev nD) : V9 m (outs m) c = W9 m c := by
  unfold W9; exact congrArg (StableHlo.after hostOps5) (V8_eq m c)
theorem V10_eq (c : Dev nD) : V10 m (outs m) c = W10 m c := by
  unfold W10; show Function.update (V9 m (outs m) c) main_v75 (outs m 10 main_v75 c) = _
  rw [outs_10_2, V9_eq]
theorem V11_eq (c : Dev nD) : V11 m (outs m) c = W11 m c := by
  unfold W11; show Function.update (V10 m (outs m) c) main_v76 (outs m 11 main_v76 c) = _
  rw [outs_11_2, V10_eq]
theorem V12_eq (c : Dev nD) : V12 m (outs m) c = W12 m c := by
  unfold W12; exact congrArg (StableHlo.after hostOps7) (V11_eq m c)
theorem V13_eq (c : Dev nD) : V13 m (outs m) c = W13 m c := by
  unfold W13; show Function.update (V12 m (outs m) c) main_v91 (outs m 13 main_v91 c) = _
  rw [outs_13_2, V12_eq]
theorem V14_eq (c : Dev nD) : V14 m (outs m) c = W14 m c := by
  unfold W14; show Function.update (V13 m (outs m) c) main_v92 (outs m 14 main_v92 c) = _
  rw [outs_14_2, V13_eq]
theorem V15_eq (c : Dev nD) : V15 m (outs m) c = W15 m c := by
  unfold W15; exact congrArg (StableHlo.after hostOps9) (V14_eq m c)
theorem V16_eq (c : Dev nD) : V16 m (outs m) c = W16 m c := by
  unfold W16; show Function.update (V15 m (outs m) c) main_v107 (outs m 16 main_v107 c) = _
  rw [outs_16_2, V15_eq]
theorem V17_eq (c : Dev nD) : V17 m (outs m) c = W17 m c := by
  unfold W17; show Function.update (V16 m (outs m) c) main_v108 (outs m 17 main_v108 c) = _
  rw [outs_17_2, V16_eq]
theorem V18_eq (c : Dev nD) : V18 m (outs m) c = W18 m c := by
  unfold W18; exact congrArg (StableHlo.after hostOps11) (V17_eq m c)
theorem V19_eq (c : Dev nD) : V19 m (outs m) c = W19 m c := by
  unfold W19; show Function.update (V18 m (outs m) c) main_v122 (outs m 19 main_v122 c) = _
  rw [outs_19_2, V18_eq]
theorem V20_eq (c : Dev nD) : V20 m (outs m) c = W20 m c := by
  unfold W20; show Function.update (Function.update (V19 m (outs m) c) main_v123_0 (outs m 20 main_v123_0 c)) main_v123_1 (outs m 20 main_v123_1 c) = _
  rw [outs_20_2, outs_20_3, V19_eq]
theorem V21_eq (c : Dev nD) : V21 m (outs m) c = W21 m c := by
  unfold W21; exact congrArg (StableHlo.after hostOps13) (V20_eq m c)

end Cert.KernelIdeal.Hand
end
-- ==== Proof.KI.Regs.lean ====
import proofs.«147273_j88914412962548_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The kernel regions as segments of @main over the thread state "every unscoped buffer at the boundary's
contents, the generator register at some state, nothing owed" -/

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state and the core's dues, at nothing. -/
abbrev Rr (c : Dev nD) : sProp 𝕄 := iprop((∃ r, prngReg c r) ∗ ∃ W, owes (c : Thread nD τ) (0 : CellTallies nD τ sig Unit) W)

/-- Every pipeline's proof data, each at its region's entry contents: a literal match on the pipeline's number. -/
def pdats : (p : Fin 13) → (c : Dev nD) → Dat τ (Elt F) Unit ℕ (UR sig nD τ) ℕ (Pipeline.pin (pcfgs (F := F)) adm p) c
  | ⟨0, _⟩ => fun c => dat0 (asTc (W1 m)) c
  | ⟨1, _⟩ => fun c => dat1 (asTc (W3 m)) c
  | ⟨2, _⟩ => fun c => dat2 (asTc (W4 m)) c
  | ⟨3, _⟩ => fun c => dat3 (asTc (W6 m)) c
  | ⟨4, _⟩ => fun c => dat4 (asTc (W7 m)) c
  | ⟨5, _⟩ => fun c => dat5 (asTc (W9 m)) c
  | ⟨6, _⟩ => fun c => dat6 (asTc (W10 m)) c
  | ⟨7, _⟩ => fun c => dat7 (asTc (W12 m)) c
  | ⟨8, _⟩ => fun c => dat8 (asTc (W13 m)) c
  | ⟨9, _⟩ => fun c => dat9 (asTc (W15 m)) c
  | ⟨10, _⟩ => fun c => dat10 (asTc (W16 m)) c
  | ⟨11, _⟩ => fun c => dat11 (asTc (W18 m)) c
  | ⟨12, _⟩ => fun c => dat12 (asTc (W19 m)) c

/-! ## Region 0 -/

/-- At region 0's exit each of its arrays holds what the pipeline leaves: the inputs as entered, the output's
    write-backs folded. -/
theorem hF0 (c : Dev nD) (w : Fin cfg0.W) : (dat0 (asTc (W1 m)) c).arrAt w cfg0.N = asTc (W2 m) c (Pipeline.arrRef spec0 w) := by
  match w with
  | ⟨0, _⟩ => exact (((dat0 (asTc (W1 m)) c).arrAt_in 0 rfl _).trans (A_eq0 (asTc (W1 m)) c 0)).trans (by unfold W2; exact (Function.update_of_ne (StableHlo.devRef_ne_of_ne (by decide : Pipeline.arrRef spec0 0 ≠ main_v29)) _ _).symm)
  | ⟨1, _⟩ => exact (((dat0 (asTc (W1 m)) c).arrAt_in 1 rfl _).trans (A_eq0 (asTc (W1 m)) c 1)).trans (by unfold W2; exact (Function.update_of_ne (StableHlo.devRef_ne_of_ne (by decide : Pipeline.arrRef spec0 1 ≠ main_v29)) _ _).symm)
  | ⟨2, _⟩ =>
    unfold W2
    show o2_2 m c = Function.update (W1 m c) (Proc.devRef .tc main_v29) (o2_2 m c) (Proc.devRef .tc main_v29)
    exact (Function.update_self (Proc.devRef .tc main_v29) (o2_2 m c) (W1 m c)).symm
/-- Every other buffer is as entered. -/
theorem hrest0 (c : Dev nD) : ∀ b, b ∉ Finset.univ.image (Pipeline.arrRef spec0) → asTc (W2 m) c b = asTc (W1 m) c b := by
  intro b hb
  unfold W2
  exact Function.update_of_ne (StableHlo.devRef_ne_of_ne fun e => hb (Finset.mem_image.mpr ⟨2, Finset.mem_univ _, by rw [e]⟩)) _ _

set_option backward.isDefEq.respectTransparency.types false in
/-- Region 0 over the thread state: entered from every unscoped buffer at `W1`, left at `W2`; its arrays split
    out of the unscoped buffers and put back at the exit contents; the generator register into the class invariant and
    out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (asTc (W1 m)) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (asTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asTc (W1 m) c) (asTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the inputs as entered, the output's
    write-backs folded. -/
theorem hF1 (c : Dev nD) (w : Fin cfg1.W) : (dat1 (asTc (W3 m)) c).arrAt w cfg1.N = asTc (W4 m) c (Pipeline.arrRef spec1 w) := by
  match w with
  | ⟨0, _⟩ => exact (((dat1 (asTc (W3 m)) c).arrAt_in 0 rfl _).trans (A_eq1 (asTc (W3 m)) c 0)).trans (by unfold W4; exact (Function.update_of_ne (StableHlo.devRef_ne_of_ne (by decide : Pipeline.arrRef spec1 0 ≠ main_v44)) _ _).symm)
  | ⟨1, _⟩ => exact (((dat1 (asTc (W3 m)) c).arrAt_in 1 rfl _).trans (A_eq1 (asTc (W3 m)) c 1)).trans (by unfold W4; exact (Function.update_of_ne (StableHlo.devRef_ne_of_ne (by decide : Pipeline.arrRef spec1 1 ≠ main_v44)) _ _).symm)
  | ⟨2, _⟩ =>
    unfold W4
    show o4_2 m c = Function.update (W3 m c) (Proc.devRef .tc main_v44) (o4_2 m c) (Proc.devRef .tc main_v44)
    exact (Function.update_self (Proc.devRef .tc main_v44) (o4_2 m c) (W3 m c)).symm
/-- Every other buffer is as entered. -/
theorem hrest1 (c : Dev nD) : ∀ b, b ∉ Finset.univ.image (Pipeline.arrRef spec1) → asTc (W4 m) c b = asTc (W3 m) c b := by
  intro b hb
  unfold W4
  exact Function.update_of_ne (StableHlo.devRef_ne_of_ne fun e => hb (Finset.mem_image.mpr ⟨2, Finset.mem_univ _, by rw [e]⟩)) _ _

set_option backward.isDefEq.respectTransparency.types false in
/-- Region 1 over the thread state: entered from every unscoped buffer at `W3`, left at `W4`; its arrays split
    out of the unscoped buffers and put back at the exit contents; the generator register into the class invariant and
    out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (asTc (W3 m)) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (asTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asTc (W3 m) c) (asTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the inputs as entered, the output's
    write-backs folded. -/
theorem hF2 (c : Dev nD) (w : Fin cfg2.W) : (dat2 (asTc (W4 m)) c).arrAt w cfg2.N = asTc (W5 m) c (Pipeline.arrRef spec2 w) := by
  match w with
  | ⟨0, _⟩ => exact (((dat2 (asTc (W4 m)) c).arrAt_in 0 rfl _).trans (A_eq2 (asTc (W4 m)) c 0)).trans (by unfold W5; exact (Function.update_of_ne (StableHlo.devRef_ne_of_ne (by decide : Pipeline.arrRef spec2 0 ≠ main_v45)) _ _).symm)
  | ⟨1, _⟩ => exact (((dat2 (asTc (W4 m)) c).arrAt_in 1 rfl _).trans (A_eq2 (asTc (W4 m)) c 1)).trans (by unfold W5; exact (Function.update_of_ne (StableHlo.devRef_ne_of_ne (by decide : Pipeline.arrRef spec2 1 ≠ main_v45)) _ _).symm)
  | ⟨2, _⟩ =>
    unfold W5
    show o5_2 m c = Function.update (W4 m c) (Proc.devRef .tc main_v45) (o5_2 m c) (Proc.devRef .tc main_v45)
    exact (Function.update_self (Proc.devRef .tc main_v45) (o5_2 m c) (W4 m c)).symm
/-- Every other buffer is as entered. -/
theorem hrest2 (c : Dev nD) : ∀ b, b ∉ Finset.univ.image (Pipeline.arrRef spec2) → asTc (W5 m) c b = asTc (W4 m) c b := by
  intro b hb
  unfold W5
  exact Function.update_of_ne (StableHlo.devRef_ne_of_ne fun e => hb (Finset.mem_image.mpr ⟨2, Finset.mem_univ _, by rw [e]⟩)) _ _

set_option backward.isDefEq.respectTransparency.types false in
/-- Region 2 over the thread state: entered from every unscoped buffer at `W4`, left at `W5`; its arrays split
    out of the unscoped buffers and put back at the exit contents; the generator register into the class invariant and
    out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (asTc (W4 m)) c).loose
  hwaits := Pipeline.hwaits_of_owed_zero _ _ _ _ Lz lvz 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (asTc (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asTc (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asTc (W4 m) c) (asTc (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: the inputs as entered, the output's
    write-backs folded. -/
theorem hF3 (c : Dev nD) (w : Fin cfg3.W) : (dat3 (asTc (W6 m)) c).arrAt w cfg3.N = asTc (W7 m) c (Pipeline.arrRef spec3 w) := by
  match w with
  | ⟨0, _⟩ => exact (((dat3 (asTc (W6 m)) c).arrAt_in 0 rfl _).trans (A_eq3 (asTc (W6 m)) c 0)).trans (by unfold W7; exact (Function.update_of_ne (StableHlo.devRef_ne_of_ne (by decide : Pipeline.arrRef spec3 0 ≠ main_v60)) _ _).symm)
  | ⟨1, _⟩ => exact (((dat3 (asTc (W6 m)) c).arrAt_in 1 rfl _).trans (A_eq3 (asTc (W6 m)) c 1)).trans (by unfold W7; exact (Function.update_of_ne (StableHlo.devRef_ne_of_ne (by decide : Pipeline.arrRef spec3 1 ≠ main_v60)) _ _).symm)
  | ⟨2, _⟩ =>
    unfold W7
    show o7_2 m c = Function.update (W6 m c) (Proc.devRef .tc main_v60) (o7_2 m c) (Proc.devRef .tc main_v60)
    exact (Function.update_self (Proc.devRef .tc main_v60) (o7_2 m c) (W6 m c)).symm
/-- Every other buffer is as entered. -/
theorem hrest3 (c : Dev nD) : ∀ b, b ∉ Finset.univ.image (Pipeline.arrRef spec3) → asTc (W7 m) c b = asTc (W6 m) c b := by
  intro b hb
  unfold W7
  exact Function.update_of_ne (StableHlo.devRef_ne_of_ne fun e => hb (Finset.mem_image.mpr ⟨2, Finset.mem_univ _, by rw [e]⟩)) _ _

set_option backward.isDefEq.respectTransparency.types false in
/-- Region 3 over the thread state: entered from every unscoped buffer at `W6`, left at `W7`; its arrays split
    out of the unscoped buffers and put back at the exit contents; the generator register into the class invariant and
    out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (asTc (W6 m)) c).loose
  hwaits := Pipeline.hwaits_of_owed_zero _ _ _ _ Lz lvz 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec3 c (asTc (W6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asTc (W6 m) c) (asTc (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the inputs as entered, the output's
    write-backs folded. -/
theorem hF4 (c : Dev nD) (w : Fin cfg4.W) : (dat4 (asTc (W7 m)) c).arrAt w cfg4.N = asTc (W8 m) c (Pipeline.arrRef spec4 w) := by
  match w with
  | ⟨0, _⟩ => exact (((dat4 (asTc (W7 m)) c).arrAt_in 0 rfl _).trans (A_eq4 (asTc (W7 m)) c 0)).trans (by unfold W8; exact (Function.update_of_ne (StableHlo.devRef_ne_of_ne (by decide : Pipeline.arrRef spec4 0 ≠ main_v61)) _ _).symm)
  | ⟨1, _⟩ => exact (((dat4 (asTc (W7 m)) c).arrAt_in 1 rfl _).trans (A_eq4 (asTc (W7 m)) c 1)).trans (by unfold W8; exact (Function.update_of_ne (StableHlo.devRef_ne_of_ne (by decide : Pipeline.arrRef spec4 1 ≠ main_v61)) _ _).symm)
  | ⟨2, _⟩ =>
    unfold W8
    show o8_2 m c = Function.update (W7 m c) (Proc.devRef .tc main_v61) (o8_2 m c) (Proc.devRef .tc main_v61)
    exact (Function.update_self (Proc.devRef .tc main_v61) (o8_2 m c) (W7 m c)).symm
/-- Every other buffer is as entered. -/
theorem hrest4 (c : Dev nD) : ∀ b, b ∉ Finset.univ.image (Pipeline.arrRef spec4) → asTc (W8 m) c b = asTc (W7 m) c b := by
  intro b hb
  unfold W8
  exact Function.update_of_ne (StableHlo.devRef_ne_of_ne fun e => hb (Finset.mem_image.mpr ⟨2, Finset.mem_univ _, by rw [e]⟩)) _ _

set_option backward.isDefEq.respectTransparency.types false in
/-- Region 4 over the thread state: entered from every unscoped buffer at `W7`, left at `W8`; its arrays split
    out of the unscoped buffers and put back at the exit contents; the generator register into the class invariant and
    out; nothing owed; no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (asTc (W7 m)) c).loose
  hwaits := Pipeline.hwaits_of_owed_zero _ _ _ _ Lz lvz 4 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec4 c (asTc (W7 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asTc (W7 m) c) (asTc (W8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- At region 5's exit each of its arrays holds what the pipeline leaves: the inputs as entered, the output's
    write-backs folded. -/
theorem hF5 (c : Dev nD) (w : Fin cfg5.W) : (dat5 (asTc (W9 m)) c).arrAt w cfg5.N = asTc (W10 m) c (Pipeline.arrRef spec5 w) := by
  match w with
  | ⟨0, _⟩ => exact (((dat5 (asTc (W9 m)) c).arrAt_in 0 rfl _).trans (A_eq5 (asTc (W9 m)) c 0)).trans (by unfold W10; exact (Function.update_of_ne (StableHlo.devRef_ne_of_ne (by decide : Pipeline.arrRef spec5 0 ≠ main_v75)) _ _).symm)
  | ⟨1, _⟩ => exact (((dat5 (asTc (W9 m)) c).arrAt_in 1 rfl _).trans (A_eq5 (asTc (W9 m)) c 1)).trans (by unfold W10; exact (Function.update_of_ne (StableHlo.devRef_ne_of_ne (by decide : Pipeline.arrRef spec5 1 ≠ main_v75)) _ _).symm)
  | ⟨2, _⟩ =>
    unfold W10
    show o10_2 m c = Function.update (W9 m c) (Proc.devRef .tc main_v75) (o10_2 m c) (Proc.devRef .tc main_v75)
    exact (Function.update_self (Proc.devRef .tc main_v75) (o10_2 m c) (W9 m c)).symm
/-- Every other buffer is as entered. -/
theorem hrest5 (c : Dev nD) : ∀ b, b ∉ Finset.univ.image (Pipeline.arrRef spec5) → asTc (W10 m) c b = asTc (W9 m) c b := by
  intro b hb
  unfold W10
  exact Function.update_of_ne (StableHlo.devRef_ne_of_ne fun e => hb (Finset.mem_image.mpr ⟨2, Finset.mem_univ _, by rw [e]⟩)) _ _

set_option backward.isDefEq.respectTransparency.types false in
/-- Region 5 over the thread state: entered from every unscoped buffer at `W9`, left at `W10`; its arrays split
    out of the unscoped buffers and put back at the exit contents; the generator register into the class invariant and
    out; nothing owed; no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (asTc (W9 m)) c).loose
  hwaits := Pipeline.hwaits_of_owed_zero _ _ _ _ Lz lvz 5 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec5 c (asTc (W9 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asTc (W9 m) c) (asTc (W10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 6 -/

/-- At region 6's exit each of its arrays holds what the pipeline leaves: the inputs as entered, the output's
    write-backs folded. -/
theorem hF6 (c : Dev nD) (w : Fin cfg6.W) : (dat6 (asTc (W10 m)) c).arrAt w cfg6.N = asTc (W11 m) c (Pipeline.arrRef spec6 w) := by
  match w with
  | ⟨0, _⟩ => exact (((dat6 (asTc (W10 m)) c).arrAt_in 0 rfl _).trans (A_eq6 (asTc (W10 m)) c 0)).trans (by unfold W11; exact (Function.update_of_ne (StableHlo.devRef_ne_of_ne (by decide : Pipeline.arrRef spec6 0 ≠ main_v76)) _ _).symm)
  | ⟨1, _⟩ => exact (((dat6 (asTc (W10 m)) c).arrAt_in 1 rfl _).trans (A_eq6 (asTc (W10 m)) c 1)).trans (by unfold W11; exact (Function.update_of_ne (StableHlo.devRef_ne_of_ne (by decide : Pipeline.arrRef spec6 1 ≠ main_v76)) _ _).symm)
  | ⟨2, _⟩ =>
    unfold W11
    show o11_2 m c = Function.update (W10 m c) (Proc.devRef .tc main_v76) (o11_2 m c) (Proc.devRef .tc main_v76)
    exact (Function.update_self (Proc.devRef .tc main_v76) (o11_2 m c) (W10 m c)).symm
/-- Every other buffer is as entered. -/
theorem hrest6 (c : Dev nD) : ∀ b, b ∉ Finset.univ.image (Pipeline.arrRef spec6) → asTc (W11 m) c b = asTc (W10 m) c b := by
  intro b hb
  unfold W11
  exact Function.update_of_ne (StableHlo.devRef_ne_of_ne fun e => hb (Finset.mem_image.mpr ⟨2, Finset.mem_univ _, by rw [e]⟩)) _ _

set_option backward.isDefEq.respectTransparency.types false in
/-- Region 6 over the thread state: entered from every unscoped buffer at `W10`, left at `W11`; its arrays split
    out of the unscoped buffers and put back at the exit contents; the generator register into the class invariant and
    out; nothing owed; no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (asTc (W10 m)) c).loose
  hwaits := Pipeline.hwaits_of_owed_zero _ _ _ _ Lz lvz 6 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop(∃ r, prngReg c r)
  Z c := Pipeline.unscopedRest (Ix := Unit) (Name := ℕ) (U := UR sig nD τ) (Lvl := ℕ) spec6 c (asTc (W10 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (asTc (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (asTc (W10 m) c) (asTc (W11 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 7 -/

/-- At region 7's exit each of its arrays holds what the pipeline leaves: the inputs as entered, the output's
    write-backs folded. -/
theorem hF7 (c : Dev nD) (w : Fin cfg7.W) : (dat7 (asTc (W12 m)) c).arrAt w cfg7.N = asTc (W13 m) c (Pipeline.arrRef spec7 w) := by
  match w with
  | ⟨0, _⟩ => exact (((dat7 (asTc (W12 m)) c).arrAt_in 0 rfl _).trans (A_eq7 (asTc (W12 m)) c 0)).trans (by unfold W13; exact (Function.update_of_ne (StableHlo.devRef_ne_of_ne (by decide : Pipeline.arrRef spec7 0 ≠ main_v91)) _ _).symm)
  | ⟨1, _⟩ => exact (((dat7 (asTc (W12 m)) c).arrAt_in 1 rfl _).trans (A_eq7 (asTc (W12 m)) c 1)).trans (by unfold W13; exact (Function.update_of_ne (StableHlo.devRef_ne_of_ne (by decide : Pipeline.arrRef spec7 1 ≠ main_v91)) _ _).symm)
  | ⟨2, _⟩ =>
    unfold W13
    show o13_2 m c = Function.update (W12 m c) (Proc.devRef .tc main_v91) (o13_2 m c) (Proc.devRef .tc main_v91)
    exact (Function.update_self (Proc.devRef .tc main_v91) (o13_2 m c) (W12 m c)).symm
/-- Every other buffer is as entered. -/
theorem hrest7 (c : Dev nD) : ∀ b, b ∉ Finset.univ.image (Pipeline.arrRef spec7) → asTc (W13 m) c b = asTc (W12 m) c b := by
  intro b hb
  unfold W13
  exact Function.update_of_ne (StableHlo.devRef_ne_of_ne fun e => hb (Finset.mem_image.mpr ⟨2, Finset.mem_univ _, by rw [e]⟩)) _ _

set_option backward.isDefEq.respectTransparency.types false in
/-- Region 7 over the thread state: entered from every unscoped buffer at `W12`, left at `W13`; its arrays split
    out of the unscoped buffers and put back at the exit contents; the generator register into the class invariant and
    out; nothing owed; no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (asTc (W12 m)) c).loose
  hwaits := Pipeline.hwaits_of_owed_zero _ _ _ _ Lz lvz 7 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop(∃ r, prngReg c r)
  Z c := Pipeline.unscopedRest (Ix := Unit) (Name := ℕ) (U := UR sig nD τ) (Lvl := ℕ) spec7 c (asTc (W12 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (asTc (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (asTc (W12 m) c) (asTc (W13 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 8 -/

/-- At region 8's exit each of its arrays holds what the pipeline leaves: the inputs as entered, the output's
    write-backs folded. -/
theorem hF8 (c : Dev nD) (w : Fin cfg8.W) : (dat8 (asTc (W13 m)) c).arrAt w cfg8.N = asTc (W14 m) c (Pipeline.arrRef spec8 w) := by
  match w with
  | ⟨0, _⟩ => exact (((dat8 (asTc (W13 m)) c).arrAt_in 0 rfl _).trans (A_eq8 (asTc (W13 m)) c 0)).trans (by unfold W14; exact (Function.update_of_ne (StableHlo.devRef_ne_of_ne (by decide : Pipeline.arrRef spec8 0 ≠ main_v92)) _ _).symm)
  | ⟨1, _⟩ => exact (((dat8 (asTc (W13 m)) c).arrAt_in 1 rfl _).trans (A_eq8 (asTc (W13 m)) c 1)).trans (by unfold W14; exact (Function.update_of_ne (StableHlo.devRef_ne_of_ne (by decide : Pipeline.arrRef spec8 1 ≠ main_v92)) _ _).symm)
  | ⟨2, _⟩ =>
    unfold W14
    show o14_2 m c = Function.update (W13 m c) (Proc.devRef .tc main_v92) (o14_2 m c) (Proc.devRef .tc main_v92)
    exact (Function.update_self (Proc.devRef .tc main_v92) (o14_2 m c) (W13 m c)).symm
/-- Every other buffer is as entered. -/
theorem hrest8 (c : Dev nD) : ∀ b, b ∉ Finset.univ.image (Pipeline.arrRef spec8) → asTc (W14 m) c b = asTc (W13 m) c b := by
  intro b hb
  unfold W14
  exact Function.update_of_ne (StableHlo.devRef_ne_of_ne fun e => hb (Finset.mem_image.mpr ⟨2, Finset.mem_univ _, by rw [e]⟩)) _ _

set_option backward.isDefEq.respectTransparency.types false in
/-- Region 8 over the thread state: entered from every unscoped buffer at `W13`, left at `W14`; its arrays split
    out of the unscoped buffers and put back at the exit contents; the generator register into the class invariant and
    out; nothing owed; no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (asTc (W13 m)) c).loose
  hwaits := Pipeline.hwaits_of_owed_zero _ _ _ _ Lz lvz 8 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec8 c (asTc (W13 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (asTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (asTc (W13 m) c) (asTc (W14 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 9 -/

/-- At region 9's exit each of its arrays holds what the pipeline leaves: the inputs as entered, the output's
    write-backs folded. -/
theorem hF9 (c : Dev nD) (w : Fin cfg9.W) : (dat9 (asTc (W15 m)) c).arrAt w cfg9.N = asTc (W16 m) c (Pipeline.arrRef spec9 w) := by
  match w with
  | ⟨0, _⟩ => exact (((dat9 (asTc (W15 m)) c).arrAt_in 0 rfl _).trans (A_eq9 (asTc (W15 m)) c 0)).trans (by unfold W16; exact (Function.update_of_ne (StableHlo.devRef_ne_of_ne (by decide : Pipeline.arrRef spec9 0 ≠ main_v107)) _ _).symm)
  | ⟨1, _⟩ => exact (((dat9 (asTc (W15 m)) c).arrAt_in 1 rfl _).trans (A_eq9 (asTc (W15 m)) c 1)).trans (by unfold W16; exact (Function.update_of_ne (StableHlo.devRef_ne_of_ne (by decide : Pipeline.arrRef spec9 1 ≠ main_v107)) _ _).symm)
  | ⟨2, _⟩ =>
    unfold W16
    show o16_2 m c = Function.update (W15 m c) (Proc.devRef .tc main_v107) (o16_2 m c) (Proc.devRef .tc main_v107)
    exact (Function.update_self (Proc.devRef .tc main_v107) (o16_2 m c) (W15 m c)).symm
/-- Every other buffer is as entered. -/
theorem hrest9 (c : Dev nD) : ∀ b, b ∉ Finset.univ.image (Pipeline.arrRef spec9) → asTc (W16 m) c b = asTc (W15 m) c b := by
  intro b hb
  unfold W16
  exact Function.update_of_ne (StableHlo.devRef_ne_of_ne fun e => hb (Finset.mem_image.mpr ⟨2, Finset.mem_univ _, by rw [e]⟩)) _ _

set_option backward.isDefEq.respectTransparency.types false in
/-- Region 9 over the thread state: entered from every unscoped buffer at `W15`, left at `W16`; its arrays split
    out of the unscoped buffers and put back at the exit contents; the generator register into the class invariant and
    out; nothing owed; no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (asTc (W15 m)) c).loose
  hwaits := Pipeline.hwaits_of_owed_zero _ _ _ _ Lz lvz 9 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec9 c (asTc (W15 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (asTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (asTc (W15 m) c) (asTc (W16 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 10 -/

/-- At region 10's exit each of its arrays holds what the pipeline leaves: the inputs as entered, the output's
    write-backs folded. -/
theorem hF10 (c : Dev nD) (w : Fin cfg10.W) : (dat10 (asTc (W16 m)) c).arrAt w cfg10.N = asTc (W17 m) c (Pipeline.arrRef spec10 w) := by
  match w with
  | ⟨0, _⟩ => exact (((dat10 (asTc (W16 m)) c).arrAt_in 0 rfl _).trans (A_eq10 (asTc (W16 m)) c 0)).trans (by unfold W17; exact (Function.update_of_ne (StableHlo.devRef_ne_of_ne (by decide : Pipeline.arrRef spec10 0 ≠ main_v108)) _ _).symm)
  | ⟨1, _⟩ => exact (((dat10 (asTc (W16 m)) c).arrAt_in 1 rfl _).trans (A_eq10 (asTc (W16 m)) c 1)).trans (by unfold W17; exact (Function.update_of_ne (StableHlo.devRef_ne_of_ne (by decide : Pipeline.arrRef spec10 1 ≠ main_v108)) _ _).symm)
  | ⟨2, _⟩ =>
    unfold W17
    show o17_2 m c = Function.update (W16 m c) (Proc.devRef .tc main_v108) (o17_2 m c) (Proc.devRef .tc main_v108)
    exact (Function.update_self (Proc.devRef .tc main_v108) (o17_2 m c) (W16 m c)).symm
/-- Every other buffer is as entered. -/
theorem hrest10 (c : Dev nD) : ∀ b, b ∉ Finset.univ.image (Pipeline.arrRef spec10) → asTc (W17 m) c b = asTc (W16 m) c b := by
  intro b hb
  unfold W17
  exact Function.update_of_ne (StableHlo.devRef_ne_of_ne fun e => hb (Finset.mem_image.mpr ⟨2, Finset.mem_univ _, by rw [e]⟩)) _ _

set_option backward.isDefEq.respectTransparency.types false in
/-- Region 10 over the thread state: entered from every unscoped buffer at `W16`, left at `W17`; its arrays split
    out of the unscoped buffers and put back at the exit contents; the generator register into the class invariant and
    out; nothing owed; no semaphore of the kernel's own. -/
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (asTc (W16 m)) c).loose
  hwaits := Pipeline.hwaits_of_owed_zero _ _ _ _ Lz lvz 10 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop(∃ r, prngReg c r)
  Z c := Pipeline.unscopedRest (Ix := Unit) (Name := ℕ) (U := UR sig nD τ) (Lvl := ℕ) spec10 c (asTc (W16 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (asTc (W16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (asTc (W16 m) c) (asTc (W17 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 11 -/

/-- At region 11's exit each of its arrays holds what the pipeline leaves: the inputs as entered, the output's
    write-backs folded. -/
theorem hF11 (c : Dev nD) (w : Fin cfg11.W) : (dat11 (asTc (W18 m)) c).arrAt w cfg11.N = asTc (W19 m) c (Pipeline.arrRef spec11 w) := by
  match w with
  | ⟨0, _⟩ => exact (((dat11 (asTc (W18 m)) c).arrAt_in 0 rfl _).trans (A_eq11 (asTc (W18 m)) c 0)).trans (by unfold W19; exact (Function.update_of_ne (StableHlo.devRef_ne_of_ne (by decide : Pipeline.arrRef spec11 0 ≠ main_v122)) _ _).symm)
  | ⟨1, _⟩ => exact (((dat11 (asTc (W18 m)) c).arrAt_in 1 rfl _).trans (A_eq11 (asTc (W18 m)) c 1)).trans (by unfold W19; exact (Function.update_of_ne (StableHlo.devRef_ne_of_ne (by decide : Pipeline.arrRef spec11 1 ≠ main_v122)) _ _).symm)
  | ⟨2, _⟩ =>
    unfold W19
    show o19_2 m c = Function.update (W18 m c) (Proc.devRef .tc main_v122) (o19_2 m c) (Proc.devRef .tc main_v122)
    exact (Function.update_self (Proc.devRef .tc main_v122) (o19_2 m c) (W18 m c)).symm
/-- Every other buffer is as entered. -/
theorem hrest11 (c : Dev nD) : ∀ b, b ∉ Finset.univ.image (Pipeline.arrRef spec11) → asTc (W19 m) c b = asTc (W18 m) c b := by
  intro b hb
  unfold W19
  exact Function.update_of_ne (StableHlo.devRef_ne_of_ne fun e => hb (Finset.mem_image.mpr ⟨2, Finset.mem_univ _, by rw [e]⟩)) _ _

set_option backward.isDefEq.respectTransparency.types false in
/-- Region 11 over the thread state: entered from every unscoped buffer at `W18`, left at `W19`; its arrays split
    out of the unscoped buffers and put back at the exit contents; the generator register into the class invariant and
    out; nothing owed; no semaphore of the kernel's own. -/
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (asTc (W18 m)) c).loose
  hwaits := Pipeline.hwaits_of_owed_zero _ _ _ _ Lz lvz 11 fun _ _ => rfl
  pre c := iprop(StableHlo.held (c : Thread nD τ) (Pipeline.ucRefs τ sig) (W18 m c) ∗ Rr c)
  post c := iprop(StableHlo.held (c : Thread nD τ) (Pipeline.ucRefs τ sig) (W19 m c) ∗ Rr c)
  X c := iprop(∃ r, prngReg c r)
  Y c := iprop(∃ r, prngReg c r)
  Z c := Pipeline.unscopedRest (Ix := Unit) (Name := ℕ) (U := UR sig nD τ) (Lvl := ℕ) spec11 c (asTc (W18 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (asTc (W18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (asTc (W18 m) c) (asTc (W19 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 12 -/

/-- At region 12's exit each of its arrays holds what the pipeline leaves: the inputs as entered, each output's
    write-backs folded. -/
theorem hF12 (c : Dev nD) (w : Fin cfg12.W) : (dat12 (asTc (W19 m)) c).arrAt w cfg12.N = asTc (W20 m) c (Pipeline.arrRef spec12 w) := by
  match w with
  | ⟨0, _⟩ => exact (((dat12 (asTc (W19 m)) c).arrAt_in 0 rfl _).trans (A_eq12 (asTc (W19 m)) c 0)).trans (by unfold W20; exact ((Function.update_of_ne (StableHlo.devRef_ne_of_ne (by decide : Pipeline.arrRef spec12 0 ≠ main_v123_1)) _ _).trans (Function.update_of_ne (StableHlo.devRef_ne_of_ne (by decide : Pipeline.arrRef spec12 0 ≠ main_v123_0)) _ _)).symm)
  | ⟨1, _⟩ => exact (((dat12 (asTc (W19 m)) c).arrAt_in 1 rfl _).trans (A_eq12 (asTc (W19 m)) c 1)).trans (by unfold W20; exact ((Function.update_of_ne (StableHlo.devRef_ne_of_ne (by decide : Pipeline.arrRef spec12 1 ≠ main_v123_1)) _ _).trans (Function.update_of_ne (StableHlo.devRef_ne_of_ne (by decide : Pipeline.arrRef spec12 1 ≠ main_v123_0)) _ _)).symm)
  | ⟨2, _⟩ =>
    unfold W20
    show o20_2 m c = Function.update (Function.update (W19 m c) (Proc.devRef .tc main_v123_0) (o20_2 m c)) (Proc.devRef .tc main_v123_1) (o20_3 m c) (Proc.devRef .tc main_v123_0)
    exact ((Function.update_of_ne (StableHlo.devRef_ne_of_ne (by decide : main_v123_0 ≠ main_v123_1)) _ _).trans
      (Function.update_self (Proc.devRef .tc main_v123_0) (o20_2 m c) (W19 m c))).symm
  | ⟨3, _⟩ =>
    unfold W20
    show o20_3 m c = Function.update (Function.update (W19 m c) (Proc.devRef .tc main_v123_0) (o20_2 m c)) (Proc.devRef .tc main_v123_1) (o20_3 m c) (Proc.devRef .tc main_v123_1)
    exact (Function.update_self (Proc.devRef .tc main_v123_1) (o20_3 m c) (Function.update (W19 m c) (Proc.devRef .tc main_v123_0) (o20_2 m c))).symm
/-- Every other buffer is as entered. -/
theorem hrest12 (c : Dev nD) : ∀ b, b ∉ Finset.univ.image (Pipeline.arrRef spec12) → asTc (W20 m) c b = asTc (W19 m) c b := by
  intro b hb
  unfold W20
  exact (Function.update_of_ne (StableHlo.devRef_ne_of_ne fun e => hb (Finset.mem_image.mpr ⟨3, Finset.mem_univ _, by rw [e]⟩)) _ _).trans
    (Function.update_of_ne (StableHlo.devRef_ne_of_ne fun e => hb (Finset.mem_image.mpr ⟨2, Finset.mem_univ _, by rw [e]⟩)) _ _)

set_option backward.isDefEq.respectTransparency.types false in
/-- Region 12 over the thread state: as the other regions, except that its invariant also carries the scratch
    accumulator, taken out of the scoped buffers at the first point and put back after the last. -/
def reg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (asTc (W19 m)) c).loose
  hwaits := Pipeline.hwaits_of_owed_zero _ _ _ _ Lz lvz 12 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec12 c (asTc (W19 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (asTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi12_in (asTc (W19 m)) c)
    unfold Pipeline.ΦA
    iintro ⟨Hp, -, Hr⟩
    isplitl [Hr]; · iexact Hr
    iexact Hp
  hout c := by
    refine (Phi12_out (asTc (W19 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (asTc (W19 m) c) (asTc (W20 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Run.lean ====
import proofs.«147273_j88914412962548_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run with the results named: every weakly fair execution of @main terminates, nothing faulting, each result
buffer at the last boundary's contents, the argument arrays as launched -/

variable (m : (ℓ : Loc nD τ sig) → Buf (Elt F) ℓ) (ρ : Dev nD → PrngReg)

/-- The rest beside the buffers, the same between any two items. -/
abbrev Er : Fin 14 → Dev nD → sProp 𝕄 := fun _ c => Rr c

set_option backward.isDefEq.respectTransparency.types false in
set_option maxHeartbeats 2000000 in
theorem run_values : θ_run defs (onTc (τ := τ) (main (F := F))) ⟨m, fun _ => 0, ρ⟩ (fun r => ∀ c : Dev nD,
      r.2.mem ((c.tc : Thread nD τ).loc main_v124) = W21 m c main_v124
      ∧ r.2.mem ((c.tc : Thread nD τ).loc main_v123_0) = W21 m c main_v123_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ Variants.none Lz lvz m ρ main
    (segs m (outs m) Variants.none Lz lvz Er () (pdats m) (reg0 m) (reg1 m) (reg2 m) (reg3 m) (reg4 m) (reg5 m) (reg6 m) (reg7 m) (reg8 m) (reg9 m) (reg10 m) (reg11 m) (reg12 m))
    (fun c Q => by
      rewrite [main_chain c, Pipeline.Seg.run_eq_chain,
        show (segs m (outs m) Variants.none Lz lvz Er () (pdats m) (reg0 m) (reg1 m) (reg2 m) (reg3 m) (reg4 m) (reg5 m) (reg6 m) (reg7 m) (reg8 m) (reg9 m) (reg10 m) (reg11 m) (reg12 m) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          Prog.lift (.customCall (Pipeline.entry 10) ()),
          StableHlo.seq hostOps11,
          Prog.lift (.customCall (Pipeline.entry 11) ()),
          Prog.lift (.customCall (Pipeline.entry 12) ()),
          StableHlo.seq hostOps13 ] from rfl]
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Er 0 c))
    (Tₙ := fun c => StableHlo.held (c : Thread nD τ) (Pipeline.ucRefs τ sig) (V21 m (outs m) c))
    (hch := fun c => ⟨.rfl,
      (by rw [V1_eq]; exact .rfl : iprop(StableHlo.held (c : Thread nD τ) (Pipeline.ucRefs τ sig) (V1 m c) ∗ Er 0 c) ⊢ (reg0 m).pre c),
      (by rw [V2_eq]; exact .rfl : (reg0 m).post c ⊢ iprop(StableHlo.held (c : Thread nD τ) (Pipeline.ucRefs τ sig) (V2 m (outs m) c) ∗ Er 1 c)),
      (by rw [V3_eq]; exact .rfl : iprop(StableHlo.held (c : Thread nD τ) (Pipeline.ucRefs τ sig) (V3 m (outs m) c) ∗ Er 1 c) ⊢ (reg1 m).pre c),
      ((by rw [V4_eq]; exact .rfl : (reg1 m).post c ⊢ iprop(StableHlo.held (c : Thread nD τ) (Pipeline.ucRefs τ sig) (V4 m (outs m) c) ∗ Er 2 c))).trans (by rw [V4_eq]; exact .rfl : iprop(StableHlo.held (c : Thread nD τ) (Pipeline.ucRefs τ sig) (V4 m (outs m) c) ∗ Er 2 c) ⊢ (reg2 m).pre c),
      (by rw [V5_eq]; exact .rfl : (reg2 m).post c ⊢ iprop(StableHlo.held (c : Thread nD τ) (Pipeline.ucRefs τ sig) (V5 m (outs m) c) ∗ Er 3 c)),
      (by rw [V6_eq]; exact .rfl : iprop(StableHlo.held (c : Thread nD τ) (Pipeline.ucRefs τ sig) (V6 m (outs m) c) ∗ Er 3 c) ⊢ (reg3 m).pre c),
      ((by rw [V7_eq]; exact .rfl : (reg3 m).post c ⊢ iprop(StableHlo.held (c : Thread nD τ) (Pipeline.ucRefs τ sig) (V7 m (outs m) c) ∗ Er 4 c))).trans (by rw [V7_eq]; exact .rfl : iprop(StableHlo.held (c : Thread nD τ) (Pipeline.ucRefs τ sig) (V7 m (outs m) c) ∗ Er 4 c) ⊢ (reg4 m).pre c),
      (by rw [V8_eq]; exact .rfl : (reg4 m).post c ⊢ iprop(StableHlo.held (c : Thread nD τ) (Pipeline.ucRefs τ sig) (V8 m (outs m) c) ∗ Er 5 c)),
      (by rw [V9_eq]; exact .rfl : iprop(StableHlo.held (c : Thread nD τ) (Pipeline.ucRefs τ sig) (V9 m (outs m) c) ∗ Er 5 c) ⊢ (reg5 m).pre c),
      ((by rw [V10_eq]; exact .rfl : (reg5 m).post c ⊢ iprop(StableHlo.held (c : Thread nD τ) (Pipeline.ucRefs τ sig) (V10 m (outs m) c) ∗ Er 6 c))).trans (by rw [V10_eq]; exact .rfl : iprop(StableHlo.held (c : Thread nD τ) (Pipeline.ucRefs τ sig) (V10 m (outs m) c) ∗ Er 6 c) ⊢ (reg6 m).pre c),
      (by rw [V11_eq]; exact .rfl : (reg6 m).post c ⊢ iprop(StableHlo.held (c : Thread nD τ) (Pipeline.ucRefs τ sig) (V11 m (outs m) c) ∗ Er 7 c)),
      (by rw [V12_eq]; exact .rfl : iprop(StableHlo.held (c : Thread nD τ) (Pipeline.ucRefs τ sig) (V12 m (outs m) c) ∗ Er 7 c) ⊢ (reg7 m).pre c),
      ((by rw [V13_eq]; exact .rfl : (reg7 m).post c ⊢ iprop(StableHlo.held (c : Thread nD τ) (Pipeline.ucRefs τ sig) (V13 m (outs m) c) ∗ Er 8 c))).trans (by rw [V13_eq]; exact .rfl : iprop(StableHlo.held (c : Thread nD τ) (Pipeline.ucRefs τ sig) (V13 m (outs m) c) ∗ Er 8 c) ⊢ (reg8 m).pre c),
      (by rw [V14_eq]; exact .rfl : (reg8 m).post c ⊢ iprop(StableHlo.held (c : Thread nD τ) (Pipeline.ucRefs τ sig) (V14 m (outs m) c) ∗ Er 9 c)),
      (by rw [V15_eq]; exact .rfl : iprop(StableHlo.held (c : Thread nD τ) (Pipeline.ucRefs τ sig) (V15 m (outs m) c) ∗ Er 9 c) ⊢ (reg9 m).pre c),
      ((by rw [V16_eq]; exact .rfl : (reg9 m).post c ⊢ iprop(StableHlo.held (c : Thread nD τ) (Pipeline.ucRefs τ sig) (V16 m (outs m) c) ∗ Er 10 c))).trans (by rw [V16_eq]; exact .rfl : iprop(StableHlo.held (c : Thread nD τ) (Pipeline.ucRefs τ sig) (V16 m (outs m) c) ∗ Er 10 c) ⊢ (reg10 m).pre c),
      (by rw [V17_eq]; exact .rfl : (reg10 m).post c ⊢ iprop(StableHlo.held (c : Thread nD τ) (Pipeline.ucRefs τ sig) (V17 m (outs m) c) ∗ Er 11 c)),
      (by rw [V18_eq]; exact .rfl : iprop(StableHlo.held (c : Thread nD τ) (Pipeline.ucRefs τ sig) (V18 m (outs m) c) ∗ Er 11 c) ⊢ (reg11 m).pre c),
      ((by rw [V19_eq]; exact .rfl : (reg11 m).post c ⊢ iprop(StableHlo.held (c : Thread nD τ) (Pipeline.ucRefs τ sig) (V19 m (outs m) c) ∗ Er 12 c))).trans (by rw [V19_eq]; exact .rfl : iprop(StableHlo.held (c : Thread nD τ) (Pipeline.ucRefs τ sig) (V19 m (outs m) c) ∗ Er 12 c) ⊢ (reg12 m).pre c),
      (by rw [V20_eq]; exact .rfl : (reg12 m).post c ⊢ iprop(StableHlo.held (c : Thread nD τ) (Pipeline.ucRefs τ sig) (V20 m (outs m) c) ∗ Er 13 c)),
      sep_mono .rfl (by iintro ⟨-, HO⟩; iexact HO : Er 13 c ⊢ (iprop(∃ W, owes (c : Thread nD τ) (0 : CellTallies nD τ sig Unit) W) : sProp 𝕄))⟩)
    (hinit := ?_) (QY := fun c s => s.mem ((c.tc : Thread nD τ).loc main_v124) = W21 m c main_v124
      ∧ s.mem ((c.tc : Thread nD τ).loc main_v123_0) = W21 m c main_v123_0
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact ⟨(h (Proc.devRef .tc main_v124) (Finset.mem_filter.mpr ⟨StableHlo.devRef_mem_tcRefs main_v124, by decide⟩)).trans (congrFun (V21_eq m c) _),
        (h (Proc.devRef .tc main_v123_0) (Finset.mem_filter.mpr ⟨StableHlo.devRef_mem_tcRefs main_v123_0, by decide⟩)).trans (congrFun (V21_eq m c) _),
        (h (Proc.devRef .tc main_arg0) (Finset.mem_filter.mpr ⟨StableHlo.devRef_mem_tcRefs main_arg0, by decide⟩)).trans (V21_main_arg0 m (outs m) c),
        (h (Proc.devRef .tc main_arg1) (Finset.mem_filter.mpr ⟨StableHlo.devRef_mem_tcRefs main_arg1, by decide⟩)).trans (V21_main_arg1 m (outs m) c),
        (h (Proc.devRef .tc main_arg2) (Finset.mem_filter.mpr ⟨StableHlo.devRef_mem_tcRefs main_arg2, by decide⟩)).trans (V21_main_arg2 m (outs m) c),
        (h (Proc.devRef .tc main_arg3) (Finset.mem_filter.mpr ⟨StableHlo.devRef_mem_tcRefs main_arg3, by decide⟩)).trans (V21_main_arg3 m (outs m) c),
        (h (Proc.devRef .tc main_arg4) (Finset.mem_filter.mpr ⟨StableHlo.devRef_mem_tcRefs main_arg4, by decide⟩)).trans (V21_main_arg4 m (outs m) c),
        (h (Proc.devRef .tc main_arg5) (Finset.mem_filter.mpr ⟨StableHlo.devRef_mem_tcRefs main_arg5, by decide⟩)).trans (V21_main_arg5 m (outs m) c),
        (h (Proc.devRef .tc main_arg6) (Finset.mem_filter.mpr ⟨StableHlo.devRef_mem_tcRefs main_arg6, by decide⟩)).trans (V21_main_arg6 m (outs m) c),
        (h (Proc.devRef .tc main_arg7) (Finset.mem_filter.mpr ⟨StableHlo.devRef_mem_tcRefs main_arg7, by decide⟩)).trans (V21_main_arg7 m (outs m) c),
        (h (Proc.devRef .tc main_arg8) (Finset.mem_filter.mpr ⟨StableHlo.devRef_mem_tcRefs main_arg8, by decide⟩)).trans (V21_main_arg8 m (outs m) c),
        (h (Proc.devRef .tc main_arg9) (Finset.mem_filter.mpr ⟨StableHlo.devRef_mem_tcRefs main_arg9, by decide⟩)).trans (V21_main_arg9 m (outs m) c),
        (h (Proc.devRef .tc main_arg10) (Finset.mem_filter.mpr ⟨StableHlo.devRef_mem_tcRefs main_arg10, by decide⟩)).trans (V21_main_arg10 m (outs m) c),
        (h (Proc.devRef .tc main_arg11) (Finset.mem_filter.mpr ⟨StableHlo.devRef_mem_tcRefs main_arg11, by decide⟩)).trans (V21_main_arg11 m (outs m) c),
        (h (Proc.devRef .tc main_arg12) (Finset.mem_filter.mpr ⟨StableHlo.devRef_mem_tcRefs main_arg12, by decide⟩)).trans (V21_main_arg12 m (outs m) c),
        (h (Proc.devRef .tc main_arg13) (Finset.mem_filter.mpr ⟨StableHlo.devRef_mem_tcRefs main_arg13, by decide⟩)).trans (V21_main_arg13 m (outs m) c)⟩
    · iexact HSI

end Cert.KernelIdeal.Hand
end
-- ==== Proof.KI.Keep.lean ====
import proofs.«147273_j88914412962548_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # A buffer an item does not write keeps its contents across the item -/

variable (m : (ℓ : Loc nD τ sig) → Buf (Elt F) ℓ)

theorem keep2 (c : Dev nD) (r : Ref sig .tc) (h : r ∉ ([main_v29] : List (Ref sig .tc))) : W2 m c r = W1 m c r := by
  have e := V2_of m (outs m) c r h
  rw [V2_eq, V1_eq] at e
  exact e
theorem keep3 (c : Dev nD) (r : Ref sig .tc) (h : r ∉ hostOps1_W) : W3 m c r = W2 m c r := by
  have e := V3_of m (outs m) c r h
  rw [V3_eq, V2_eq] at e
  exact e
theorem keep4 (c : Dev nD) (r : Ref sig .tc) (h : r ∉ ([main_v44] : List (Ref sig .tc))) : W4 m c r = W3 m c r := by
  have e := V4_of m (outs m) c r h
  rw [V4_eq, V3_eq] at e
  exact e
theorem keep5 (c : Dev nD) (r : Ref sig .tc) (h : r ∉ ([main_v45] : List (Ref sig .tc))) : W5 m c r = W4 m c r := by
  have e := V5_of m (outs m) c r h
  rw [V5_eq, V4_eq] at e
  exact e
theorem keep6 (c : Dev nD) (r : Ref sig .tc) (h : r ∉ hostOps3_W) : W6 m c r = W5 m c r := by
  have e := V6_of m (outs m) c r h
  rw [V6_eq, V5_eq] at e
  exact e
theorem keep7 (c : Dev nD) (r : Ref sig .tc) (h : r ∉ ([main_v60] : List (Ref sig .tc))) : W7 m c r = W6 m c r := by
  have e := V7_of m (outs m) c r h
  rw [V7_eq, V6_eq] at e
  exact e
theorem keep8 (c : Dev nD) (r : Ref sig .tc) (h : r ∉ ([main_v61] : List (Ref sig .tc))) : W8 m c r = W7 m c r := by
  have e := V8_of m (outs m) c r h
  rw [V8_eq, V7_eq] at e
  exact e
theorem keep9 (c : Dev nD) (r : Ref sig .tc) (h : r ∉ hostOps5_W) : W9 m c r = W8 m c r := by
  have e := V9_of m (outs m) c r h
  rw [V9_eq, V8_eq] at e
  exact e
theorem keep10 (c : Dev nD) (r : Ref sig .tc) (h : r ∉ ([main_v75] : List (Ref sig .tc))) : W10 m c r = W9 m c r := by
  have e := V10_of m (outs m) c r h
  rw [V10_eq, V9_eq] at e
  exact e
theorem keep11 (c : Dev nD) (r : Ref sig .tc) (h : r ∉ ([main_v76] : List (Ref sig .tc))) : W11 m c r = W10 m c r := by
  have e := V11_of m (outs m) c r h
  rw [V11_eq, V10_eq] at e
  exact e
theorem keep12 (c : Dev nD) (r : Ref sig .tc) (h : r ∉ hostOps7_W) : W12 m c r = W11 m c r := by
  have e := V12_of m (outs m) c r h
  rw [V12_eq, V11_eq] at e
  exact e
theorem keep13 (c : Dev nD) (r : Ref sig .tc) (h : r ∉ ([main_v91] : List (Ref sig .tc))) : W13 m c r = W12 m c r := by
  have e := V13_of m (outs m) c r h
  rw [V13_eq, V12_eq] at e
  exact e
theorem keep14 (c : Dev nD) (r : Ref sig .tc) (h : r ∉ ([main_v92] : List (Ref sig .tc))) : W14 m c r = W13 m c r := by
  have e := V14_of m (outs m) c r h
  rw [V14_eq, V13_eq] at e
  exact e
theorem keep15 (c : Dev nD) (r : Ref sig .tc) (h : r ∉ hostOps9_W) : W15 m c r = W14 m c r := by
  have e := V15_of m (outs m) c r h
  rw [V15_eq, V14_eq] at e
  exact e
theorem keep16 (c : Dev nD) (r : Ref sig .tc) (h : r ∉ ([main_v107] : List (Ref sig .tc))) : W16 m c r = W15 m c r := by
  have e := V16_of m (outs m) c r h
  rw [V16_eq, V15_eq] at e
  exact e
theorem keep17 (c : Dev nD) (r : Ref sig .tc) (h : r ∉ ([main_v108] : List (Ref sig .tc))) : W17 m c r = W16 m c r := by
  have e := V17_of m (outs m) c r h
  rw [V17_eq, V16_eq] at e
  exact e
theorem keep18 (c : Dev nD) (r : Ref sig .tc) (h : r ∉ hostOps11_W) : W18 m c r = W17 m c r := by
  have e := V18_of m (outs m) c r h
  rw [V18_eq, V17_eq] at e
  exact e
theorem keep19 (c : Dev nD) (r : Ref sig .tc) (h : r ∉ ([main_v122] : List (Ref sig .tc))) : W19 m c r = W18 m c r := by
  have e := V19_of m (outs m) c r h
  rw [V19_eq, V18_eq] at e
  exact e
theorem keep20 (c : Dev nD) (r : Ref sig .tc) (h : r ∉ ([main_v123_0, main_v123_1] : List (Ref sig .tc))) : W20 m c r = W19 m c r := by
  have e := V20_of m (outs m) c r h
  rw [V20_eq, V19_eq] at e
  exact e
theorem keep21 (c : Dev nD) (r : Ref sig .tc) (h : r ∉ hostOps13_W) : W21 m c r = W20 m c r := by
  have e := V21_of m (outs m) c r h
  rw [V21_eq, V20_eq] at e
  exact e

end Cert.KernelIdeal.Hand
end
-- ==== Proof.KI.V0.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A0
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 0: its blocks as parts of its arrays -/

/-- The offsets of every access of the body are zero, on both axes. -/
theorem off_zero0 : (![0, 0] : Fin 2 → Nat) = fun _ => 0 := funext fun a => by fin_cases a <;> rfl

/-- The grid has ten points. -/
theorem point_lt0 (t : Fin cfg0.N) : t.val < 10 := by
  have h : t.val < grid0.N := t.isLt
  rw [N_0] at h; exact h

/-- Row `r` of block `t` is a row of the array: `10000 * t + r < 100000`. -/
theorem row_lt0 (t : Fin cfg0.N) (r : Fin 10000) : 10000 * t.val + r.val < 100000 := by
  have := point_lt0 t; omega

/-- The printed index maps, decided over the ten points: the output's and input 0's block index is the point on the row
    axis and zero on the column axis; input 1's is zero on both. -/
theorem index_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The output block at point `t`, index by index: row `r`, column `j` of the block is row `10000 * t + r`, column `j`
    of the array (a block's coordinate is its index times its extent plus the coordinate inside the block). -/
theorem emb0_2 (t : Fin cfg0.N) (r : Fin 10000) (j : Fin 4) :
    ((cfg0.win 2).blk t).view.emb (ValueIdx.ix2 r j) = (ValueIdx.ix2 ⟨10000 * t.val + r.val, row_lt0 t r⟩ j : S100000x4.Idx) := by
  obtain ⟨e0, e1, -, -, -, -⟩ := index_facts0 t
  funext a; apply Fin.ext
  match a with
  | ⟨0, _⟩ => show win0_2.index t (0 : Fin 2) * 10000 + 1 * r.val = 10000 * t.val + r.val; omega
  | ⟨1, _⟩ => show win0_2.index t (1 : Fin 2) * 4 + 1 * j.val = j.val; omega

/-- Input window 0's block at point `t`, likewise. -/
theorem emb0_0 (t : Fin cfg0.N) (r : Fin 10000) (k : Fin 1) :
    ((cfg0.win 0).blk t).view.emb (ValueIdx.ix2 r k) = (ValueIdx.ix2 ⟨10000 * t.val + r.val, row_lt0 t r⟩ k : S100000x1.Idx) := by
  obtain ⟨-, -, e0, e1, -, -⟩ := index_facts0 t
  funext a; apply Fin.ext
  match a with
  | ⟨0, _⟩ => show win0_0.index t (0 : Fin 2) * 10000 + 1 * r.val = 10000 * t.val + r.val; omega
  | ⟨1, _⟩ => show win0_0.index t (1 : Fin 2) * 1 + 1 * k.val = k.val; omega

/-- Input window 1's block is the whole of its array at every point. -/
theorem emb0_1 (t : Fin cfg0.N) (y : S1x4.Idx) : ((cfg0.win 1).blk t).view.emb y = y := by
  obtain ⟨-, -, -, -, e0, e1⟩ := index_facts0 t
  funext a; apply Fin.ext
  match a with
  | ⟨0, _⟩ => show win0_1.index t (0 : Fin 2) * 1 + 1 * (y 0).val = (y 0).val; omega
  | ⟨1, _⟩ => show win0_1.index t (1 : Fin 2) * 4 + 1 * (y 1).val = (y 1).val; omega

/-- Input 0's block at a point, read at a row and a column, is its array as the region finds it at the row of the array. -/
theorem iblk0_0_at (c : Dev nD) (t : Fin cfg0.N) (r : Fin 10000) (k : Fin 1) :
    iblk0 V c 0 t (ValueIdx.ix2 r k) = V c (Pipeline.arrRef spec0 0) (ValueIdx.ix2 ⟨10000 * t.val + r.val, row_lt0 t r⟩ k : S100000x1.Idx) := by
  show V c (Pipeline.arrRef spec0 0) (((cfg0.win 0).blk t).view.emb (ValueIdx.ix2 r k)) = _
  rw [emb0_0]

/-- Input 1's block at a point is its whole array as the region finds it. -/
theorem iblk0_1_at (c : Dev nD) (t : Fin cfg0.N) (y : S1x4.Idx) :
    iblk0 V c 1 t y = V c (Pipeline.arrRef spec0 1) y := by
  show V c (Pipeline.arrRef spec0 1) (((cfg0.win 1).blk t).view.emb y) = _
  rw [emb0_1]

/-! ## What a point writes back, and the array after the run -/

/-- A block's worth of values that agrees with `G` row by row and column by column is block `t` of `G`. -/
theorem read_blk0_2 (t : Fin cfg0.N) (G : S100000x4.Idx → Elt F .f32) (P : S10000x4.Idx → Elt F .f32)
    (h : ∀ (r : Fin 10000) (j : Fin 4), P (ValueIdx.ix2 r j) = G (ValueIdx.ix2 ⟨10000 * t.val + r.val, row_lt0 t r⟩ j)) :
    P = ((cfg0.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg0.win 2).blk t).view.emb (ValueIdx.ix2 r j))
  rw [emb0_2]

/-- What point `t` writes back to the output array is block `t` of `G`, when the payload at the point's input blocks
    agrees with `G` on that block: the one store leaves its payload, the two loads read the input blocks whole. -/
theorem flushed0_2_eq (c : Dev nD) (G : S100000x4.Idx → Elt F .f32)
    (hG : ∀ (t : Fin cfg0.N) (r : Fin 10000) (j : Fin 4),
      k0_pay1 (iblk0 V c 0 t) (iblk0 V c 1 t) (ValueIdx.ix2 r j) = G (ValueIdx.ix2 ⟨10000 * t.val + r.val, row_lt0 t r⟩ j))
    (t : Fin cfg0.N) :
    (dat0 V c).flushed 2 t = ((cfg0.win 2).blk t).view.read (Elt F) G := by
  show (cfg0.win 2).cut (grid0.coords t) ((dat0 V c).after 2 t) = _
  rw [after0_2]
  unfold out0_2
  rw [View.canon_unit_zero off_zero0]
  simp only [View.ld_unit_zero (S := S10000x1) off_zero0, View.ld_unit_zero (S := S1x4) off_zero0]
  exact read_blk0_2 t G _ (hG t)

/-- An index of the output array is in point `t`'s block iff each coordinate is in the block's range on its axis. -/
theorem mem_blk0_2 (t : Fin cfg0.N) (i : S100000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v29).slice (win0_2.rect t)).set ↔ _
  rw [View.set_slice_whole, Rect.mem_set_unit]
  exact Iff.rfl

/-- The ten blocks tile the output array: row `i 0` is in the block of point `i 0 / 10000`. -/
theorem blocks_cover0 (i : S100000x4.Idx) :
    ∃ t : Fin cfg0.N, (cfg0.win 2).flush t = true ∧ i ∈ ((cfg0.win 2).blk t).view.set := by
  have hi0 : (i 0).val < 100000 := (i 0).isLt
  have hi1 : (i 1).val < 4 := (i 1).isLt
  have hN : (i 0).val / 10000 < grid0.N := by rw [N_0]; omega
  refine ⟨⟨(i 0).val / 10000, hN⟩, flush0_2 _, ?_⟩
  rw [mem_blk0_2]
  obtain ⟨e0, e1, -, -, -, -⟩ := index_facts0 ⟨(i 0).val / 10000, hN⟩
  have e0' : win0_2.index ⟨(i 0).val / 10000, hN⟩ (0 : Fin 2) = (i 0).val / 10000 := e0
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 4 ≤ (i 1).val ∧ (i 1).val < win0_2.index ⟨(i 0).val / 10000, hN⟩ (1 : Fin 2) * 4 + 4; omega

/-- THE OUTPUT ARRAY after the region is `G`, for any `G` the payload agrees with block by block. -/
theorem arr0_eq (c : Dev nD) (G : S100000x4.Idx → Elt F .f32)
    (hG : ∀ (t : Fin cfg0.N) (r : Fin 10000) (j : Fin 4),
      k0_pay1 (iblk0 V c 0 t) (iblk0 V c 1 t) (ValueIdx.ix2 r j) = G (ValueIdx.ix2 ⟨10000 * t.val + r.val, row_lt0 t r⟩ j)) :
    (dat0 V c).arrAt 2 cfg0.N = G :=
  (dat0 V c).arrAt_eq_of_cover 2 G (fun t _ => flushed0_2_eq V c G hG t) (blocks_cover0)

end Cert.KernelIdeal.Hand
-- ==== Proof.B.Layout.lean ====
/-
  Layout readings at an index written with literal coordinates that the pointwise lemmas of this directory share:
  a column [a,1] broadcast to [a,b] reads its row's one entry; a column slice or a row slice of a matrix, broadcast
  to a block, reads one entry of the matrix. Also the two float words every stage meets: the zero word is 0, and
  the word of ten is kept under one name.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Idealize.ShloMosaic Idealize.ShloMosaic.ValueIdx

/-- The literal ten, kept as the extended real its word denotes. -/
abbrev ten : EReal := Ideal.ofBits .f32 0x41200000#32

/-- The zero word is the extended real 0. -/
theorem zeroWord : (FloatOps.ofBits FTy.f32 0#32 : Ideal .f32) = 0 := Ideal.ofBits_zero_f32

/-- The word of ten, as a scalar of the ideal instance, is `ten`. -/
theorem tenWord : (FloatOps.ofBits FTy.f32 0x41200000#32 : Ideal .f32) = ten := rfl

variable {α : Type}

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[n, A]` array, as an `[n, 1]` slice, read at `(r, c)`: the entry `(r, k)` with `k = o`. -/
theorem colSlice_apply {n A : ℕ} (o : ℕ) (x : (⟨2, ![n, A]⟩ : Shape).Idx → α)
    (hs : (⟨2, ![n, A]⟩ : Shape).Slices ![0, o] ⟨2, ![n, 1]⟩) (r : Fin n) (c : Fin 1) (k : Fin A) (hk : k.val = o) :
    extractStridedSlice ⟨2, ![n, 1]⟩ ![0, o] x hs (ix2 r c) = x (ix2 r k) :=
  slice2_axis1_apply o x hs r c k (by have := c.isLt; omega)

/-- Column `o` of an `[n, A]` array, as an `[n, 1]` slice broadcast to `[n, B]`, read at `(r, j)`: the entry `(r, k)`
    with `k = o`. -/
theorem colSlice_bcast_apply {n A B : ℕ} (o : ℕ) (x : (⟨2, ![n, A]⟩ : Shape).Idx → α)
    (hs : (⟨2, ![n, A]⟩ : Shape).Slices ![0, o] ⟨2, ![n, 1]⟩)
    (hb : (⟨2, ![n, 1]⟩ : Shape).Broadcasts ⟨2, ![n, B]⟩) (r : Fin n) (j : Fin B) (k : Fin A) (hk : k.val = o) :
    broadcastTo ⟨2, ![n, B]⟩ (extractStridedSlice ⟨2, ![n, 1]⟩ ![0, o] x hs) hb (ix2 r j) = x (ix2 r k) :=
  (broadcastTo_a1_ab_apply _ hb r j).trans (colSlice_apply o x hs r (0 : Fin 1) k hk)

/-- Row `o` of an `[A, B]` array, as a `[1, B]` slice broadcast to `[n, B]`, read at `(r, j)`: the entry `(k, j)`
    with `k = o`. -/
theorem rowSlice_bcast_apply {n A B : ℕ} (o : ℕ) (w : (⟨2, ![A, B]⟩ : Shape).Idx → α)
    (hs : (⟨2, ![A, B]⟩ : Shape).Slices ![o, 0] ⟨2, ![1, B]⟩)
    (hb : (⟨2, ![1, B]⟩ : Shape).Broadcasts ⟨2, ![n, B]⟩) (r : Fin n) (j : Fin B) (k : Fin A) (hk : k.val = o) :
    broadcastTo ⟨2, ![n, B]⟩ (extractStridedSlice ⟨2, ![1, B]⟩ ![o, 0] w hs) hb (ix2 r j) = w (ix2 k j) :=
  (broadcastTo_1b_ab_apply _ hb r j).trans (slice2_axis0_apply o w hs (0 : Fin 1) j k (by rw [hk]; rfl))

end Cert.Bridge

end
-- ==== Proof.B.Dense14.lean ====
/-
  The 1 → 4 dense bodies at an index: one rank-one update of a zero block, x(r,0)·w(0,j) — in the first layer
  with the input first multiplied by the literal ten.
-/
import proofs.«147273_j88914412962548_1_alg».proof.Proof.Gen.KernelIdeal.Skeleton
import proofs.«147273_j88914412962548_1_alg».proof.Proof.B.Layout

noncomputable section

open scoped BigOperators

namespace Cert.Bridge

open Cert.KernelIdeal Cert.KernelIdeal.Gen Idealize.ShloMosaic Idealize.ShloMosaic.ValueIdx

/-- Dense body 0 (1 → 4, its input first multiplied by ten): the payload at `(r, j)`. -/
theorem pay0_at (x : Vec Ideal S10000x1 .f32) (w : Vec Ideal S1x4 .f32) (r : Fin 10000) (j : Fin 4) :
    k0_pay1 (F := Ideal) x w (ix2 r j) = ∑ k : Fin 1, (x (ix2 r k) * ten) * w (ix2 k j) := by
  unfold k0_pay1
  simp only [addf_apply, mulf_apply, broadcast_apply]
  rw [broadcastTo_a1_ab_apply _ _ r j, broadcastTo_1b_ab_apply _ _ r j, Fin.sum_univ_one, zeroWord, zero_add]
  rfl

/-- Dense body 6 (1 → 4): the payload at `(r, j)`. -/
theorem pay6_at (x : Vec Ideal S10000x1 .f32) (w : Vec Ideal S1x4 .f32) (r : Fin 10000) (j : Fin 4) :
    k6_pay1 (F := Ideal) x w (ix2 r j) = ∑ k : Fin 1, x (ix2 r k) * w (ix2 k j) := by
  unfold k6_pay1
  simp only [addf_apply, mulf_apply, broadcast_apply, shapeCast_self]
  rw [broadcastTo_a1_ab_apply _ _ r j, broadcastTo_1b_ab_apply _ _ r j, Fin.sum_univ_one, zeroWord, zero_add]

end Cert.Bridge

end
-- ==== Proof.B.RefDense.lean ====
/-
  The reference's dense stages at an index, over variables: each `dot_general` with one contracted axis reads, at
  `(R, j)`, the sum over `k` of the left operand at `(R, k)` times the right operand at `(k, j)`; and the first
  layer's input, the argument times the broadcast literal ten, reads the argument's entry times ten.
-/
import proofs.«147273_j88914412962548_1_alg».proof.Proof.Gen.ReferenceIdeal
import proofs.«147273_j88914412962548_1_alg».proof.Proof.B.Layout
import Idealize.ShloMosaic.Lib.ValueIdx
import Idealize.ShloMosaic.Lib.Pipeline.Value
import Idealize.ShloMosaic.PureOps.Ideal.Laws

noncomputable section

open scoped BigOperators

namespace Cert.Bridge

open Cert.ReferenceIdeal Cert.ReferenceIdeal.Gen Idealize.ShloMosaic Idealize.ShloMosaic.ValueIdx

/-- The reference's `dot_general` [100000, 4] × [4, 4] at `(R, j)` is the sum over the contracted axis. -/
theorem refDot44_at (a : FVec Ideal S100000x4 .f32) (w : FVec Ideal S4x4 .f32) (R : Fin 100000) (j : Fin 4) :
    (Host.dotGeneral (F := Ideal) dot_S100000x4_S4x4_S100000x4_1_0_0_1_n_n none a w) (ix2 R j) = ∑ k : Fin 4, a (ix2 R k) * w (ix2 k j) := by
  simp only [Host.dotGeneral]
  rw [Ideal.dotGeneral_apply, ← Equiv.sum_comp (ValueIdx.contrEquiv1 dot_S100000x4_S4x4_S100000x4_1_0_0_1_n_n 4 rfl rfl).symm]
  refine Finset.sum_congr rfl fun k _ => ?_
  have hk := ValueIdx.contrEquiv1_symm_val dot_S100000x4_S4x4_S100000x4_1_0_0_1_n_n 4 rfl rfl k
  generalize (ValueIdx.contrEquiv1 dot_S100000x4_S4x4_S100000x4_1_0_0_1_n_n 4 rfl rfl).symm k = q at hk
  have l0 : (dot_S100000x4_S4x4_S100000x4_1_0_0_1_n_n.lhsIdx (ix2 R j) q 0).val = R.val := by
    unfold DotDims.lhsIdx
    rw [dif_neg (show ¬(0 : Fin S100000x4.rank) ∈ dot_S100000x4_S4x4_S100000x4_1_0_0_1_n_n.lhsBatch by decide), dif_pos (show (0 : Fin S100000x4.rank) ∈ dot_S100000x4_S4x4_S100000x4_1_0_0_1_n_n.lhsNonContracting by decide)]
    rfl
  have l1 : (dot_S100000x4_S4x4_S100000x4_1_0_0_1_n_n.lhsIdx (ix2 R j) q 1).val = (q ⟨0, by decide⟩).val := dot_S100000x4_S4x4_S100000x4_1_0_0_1_n_n.lhsIdx_val_of_single rfl (ix2 R j) q
  have r0 : (dot_S100000x4_S4x4_S100000x4_1_0_0_1_n_n.rhsIdx (ix2 R j) q 0).val = (q ⟨0, by decide⟩).val := dot_S100000x4_S4x4_S100000x4_1_0_0_1_n_n.rhsIdx_val_of_single rfl (ix2 R j) q
  have r1 : (dot_S100000x4_S4x4_S100000x4_1_0_0_1_n_n.rhsIdx (ix2 R j) q 1).val = j.val := by
    unfold DotDims.rhsIdx
    rw [dif_neg (show ¬(1 : Fin S4x4.rank) ∈ dot_S100000x4_S4x4_S100000x4_1_0_0_1_n_n.rhsBatch by decide), dif_pos (show (1 : Fin S4x4.rank) ∈ dot_S100000x4_S4x4_S100000x4_1_0_0_1_n_n.rhsNonContracting by decide)]
    rfl
  have el : dot_S100000x4_S4x4_S100000x4_1_0_0_1_n_n.lhsIdx (ix2 R j) q = ix2 R k := funext fun ax => Fin.ext (by
    match ax with
    | ⟨0, _⟩ => exact l0
    | ⟨1, _⟩ => exact l1.trans hk)
  have er : dot_S100000x4_S4x4_S100000x4_1_0_0_1_n_n.rhsIdx (ix2 R j) q = ix2 k j := funext fun ax => Fin.ext (by
    match ax with
    | ⟨0, _⟩ => exact r0.trans hk
    | ⟨1, _⟩ => exact r1)
  rw [el, er]

/-- The reference's `dot_general` [100000, 1] × [1, 4] at `(R, j)` is the sum over the contracted axis. -/
theorem refDot14_at (a : FVec Ideal S100000x1 .f32) (w : FVec Ideal S1x4 .f32) (R : Fin 100000) (j : Fin 4) :
    (Host.dotGeneral (F := Ideal) dot_S100000x1_S1x4_S100000x4_1_0_0_1_n_n none a w) (ix2 R j) = ∑ k : Fin 1, a (ix2 R k) * w (ix2 k j) := by
  simp only [Host.dotGeneral]
  rw [Ideal.dotGeneral_apply, ← Equiv.sum_comp (ValueIdx.contrEquiv1 dot_S100000x1_S1x4_S100000x4_1_0_0_1_n_n 1 rfl rfl).symm]
  refine Finset.sum_congr rfl fun k _ => ?_
  have hk := ValueIdx.contrEquiv1_symm_val dot_S100000x1_S1x4_S100000x4_1_0_0_1_n_n 1 rfl rfl k
  generalize (ValueIdx.contrEquiv1 dot_S100000x1_S1x4_S100000x4_1_0_0_1_n_n 1 rfl rfl).symm k = q at hk
  have l0 : (dot_S100000x1_S1x4_S100000x4_1_0_0_1_n_n.lhsIdx (ix2 R j) q 0).val = R.val := by
    unfold DotDims.lhsIdx
    rw [dif_neg (show ¬(0 : Fin S100000x1.rank) ∈ dot_S100000x1_S1x4_S100000x4_1_0_0_1_n_n.lhsBatch by decide), dif_pos (show (0 : Fin S100000x1.rank) ∈ dot_S100000x1_S1x4_S100000x4_1_0_0_1_n_n.lhsNonContracting by decide)]
    rfl
  have l1 : (dot_S100000x1_S1x4_S100000x4_1_0_0_1_n_n.lhsIdx (ix2 R j) q 1).val = (q ⟨0, by decide⟩).val := dot_S100000x1_S1x4_S100000x4_1_0_0_1_n_n.lhsIdx_val_of_single rfl (ix2 R j) q
  have r0 : (dot_S100000x1_S1x4_S100000x4_1_0_0_1_n_n.rhsIdx (ix2 R j) q 0).val = (q ⟨0, by decide⟩).val := dot_S100000x1_S1x4_S100000x4_1_0_0_1_n_n.rhsIdx_val_of_single rfl (ix2 R j) q
  have r1 : (dot_S100000x1_S1x4_S100000x4_1_0_0_1_n_n.rhsIdx (ix2 R j) q 1).val = j.val := by
    unfold DotDims.rhsIdx
    rw [dif_neg (show ¬(1 : Fin S1x4.rank) ∈ dot_S100000x1_S1x4_S100000x4_1_0_0_1_n_n.rhsBatch by decide), dif_pos (show (1 : Fin S1x4.rank) ∈ dot_S100000x1_S1x4_S100000x4_1_0_0_1_n_n.rhsNonContracting by decide)]
    rfl
  have el : dot_S100000x1_S1x4_S100000x4_1_0_0_1_n_n.lhsIdx (ix2 R j) q = ix2 R k := funext fun ax => Fin.ext (by
    match ax with
    | ⟨0, _⟩ => exact l0
    | ⟨1, _⟩ => exact l1.trans hk)
  have er : dot_S100000x1_S1x4_S100000x4_1_0_0_1_n_n.rhsIdx (ix2 R j) q = ix2 k j := funext fun ax => Fin.ext (by
    match ax with
    | ⟨0, _⟩ => exact r0.trans hk
    | ⟨1, _⟩ => exact r1)
  rw [el, er]

/-- The reference's `dot_general` [100000, 4] × [4, 1] at `(R, j)` is the sum over the contracted axis. -/
theorem refDot41_at (a : FVec Ideal S100000x4 .f32) (w : FVec Ideal S4x1 .f32) (R : Fin 100000) (j : Fin 1) :
    (Host.dotGeneral (F := Ideal) dot_S100000x4_S4x1_S100000x1_1_0_0_1_n_n none a w) (ix2 R j) = ∑ k : Fin 4, a (ix2 R k) * w (ix2 k j) := by
  simp only [Host.dotGeneral]
  rw [Ideal.dotGeneral_apply, ← Equiv.sum_comp (ValueIdx.contrEquiv1 dot_S100000x4_S4x1_S100000x1_1_0_0_1_n_n 4 rfl rfl).symm]
  refine Finset.sum_congr rfl fun k _ => ?_
  have hk := ValueIdx.contrEquiv1_symm_val dot_S100000x4_S4x1_S100000x1_1_0_0_1_n_n 4 rfl rfl k
  generalize (ValueIdx.contrEquiv1 dot_S100000x4_S4x1_S100000x1_1_0_0_1_n_n 4 rfl rfl).symm k = q at hk
  have l0 : (dot_S100000x4_S4x1_S100000x1_1_0_0_1_n_n.lhsIdx (ix2 R j) q 0).val = R.val := by
    unfold DotDims.lhsIdx
    rw [dif_neg (show ¬(0 : Fin S100000x4.rank) ∈ dot_S100000x4_S4x1_S100000x1_1_0_0_1_n_n.lhsBatch by decide), dif_pos (show (0 : Fin S100000x4.rank) ∈ dot_S100000x4_S4x1_S100000x1_1_0_0_1_n_n.lhsNonContracting by decide)]
    rfl
  have l1 : (dot_S100000x4_S4x1_S100000x1_1_0_0_1_n_n.lhsIdx (ix2 R j) q 1).val = (q ⟨0, by decide⟩).val := dot_S100000x4_S4x1_S100000x1_1_0_0_1_n_n.lhsIdx_val_of_single rfl (ix2 R j) q
  have r0 : (dot_S100000x4_S4x1_S100000x1_1_0_0_1_n_n.rhsIdx (ix2 R j) q 0).val = (q ⟨0, by decide⟩).val := dot_S100000x4_S4x1_S100000x1_1_0_0_1_n_n.rhsIdx_val_of_single rfl (ix2 R j) q
  have r1 : (dot_S100000x4_S4x1_S100000x1_1_0_0_1_n_n.rhsIdx (ix2 R j) q 1).val = j.val := by
    unfold DotDims.rhsIdx
    rw [dif_neg (show ¬(1 : Fin S4x1.rank) ∈ dot_S100000x4_S4x1_S100000x1_1_0_0_1_n_n.rhsBatch by decide), dif_pos (show (1 : Fin S4x1.rank) ∈ dot_S100000x4_S4x1_S100000x1_1_0_0_1_n_n.rhsNonContracting by decide)]
    rfl
  have el : dot_S100000x4_S4x1_S100000x1_1_0_0_1_n_n.lhsIdx (ix2 R j) q = ix2 R k := funext fun ax => Fin.ext (by
    match ax with
    | ⟨0, _⟩ => exact l0
    | ⟨1, _⟩ => exact l1.trans hk)
  have er : dot_S100000x4_S4x1_S100000x1_1_0_0_1_n_n.rhsIdx (ix2 R j) q = ix2 k j := funext fun ax => Fin.ext (by
    match ax with
    | ⟨0, _⟩ => exact r0.trans hk
    | ⟨1, _⟩ => exact r1)
  rw [el, er]

/-- The reference's first-layer input, the argument times the broadcast literal ten, at `(R, c)`. -/
theorem refTimesTen_at (x : FVec Ideal S100000x1 .f32) (R : Fin 100000) (c : Fin 1) :
    mulf x (broadcastInDim S100000x1 ![] bcast_S_S100000x1 (constant (F := Ideal) S_ .f32 0x41200000#32)) (ix2 R c)
      = x (ix2 R c) * ten := rfl

end Cert.Bridge

end
-- ==== Proof.KI.G0.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V0
import proofs.«147273_j88914412962548_1_alg».proof.Proof.B.Dense14
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 0 (a dense layer, 1 → 4, its input first multiplied by ten): the array it leaves is the reference's `dot_general` of the two arrays it
    finds (the first times the broadcast literal ten): both are, at row `R` and column `j`, the sum over the contracted axis of the products. -/
theorem val0 (c : Dev nD) :
    (dat0 (F := Ideal) V c).arrAt 2 cfg0.N
      = Host.dotGeneral (F := Ideal) (φ₁ := .f32) (φ₂ := .f32) Cert.ReferenceIdeal.dot_S100000x1_S1x4_S100000x4_1_0_0_1_n_n none
          (mulf (V c (Pipeline.arrRef spec0 0) : FVec Ideal Cert.ReferenceIdeal.S100000x1 .f32) (broadcastInDim Cert.ReferenceIdeal.S100000x1 ![] Cert.ReferenceIdeal.Gen.bcast_S_S100000x1 (constant (F := Ideal) Cert.ReferenceIdeal.S_ .f32 0x41200000#32)))
          (V c (Pipeline.arrRef spec0 1) : FVec Ideal Cert.ReferenceIdeal.S1x4 .f32) :=
  arr0_eq V c _ (fun t r j => by
    refine (Cert.Bridge.pay0_at (iblk0 V c 0 t) (iblk0 V c 1 t) r j).trans ?_
    refine Eq.trans ?_ (Cert.Bridge.refDot14_at _ _ ⟨10000 * t.val + r.val, row_lt0 t r⟩ j).symm
    refine Finset.sum_congr rfl fun k _ => ?_
    rw [iblk0_0_at V c t r k, iblk0_1_at V c t (ValueIdx.ix2 k j)]
    rw [Cert.Bridge.refTimesTen_at])

end Cert.KernelIdeal.Hand
-- ==== Proof.KI.V1.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A1
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 1: its blocks as parts of its arrays -/

/-- The offsets of every access of the body are zero, on both axes. -/
theorem off_zero1 : (![0, 0] : Fin 2 → Nat) = fun _ => 0 := funext fun a => by fin_cases a <;> rfl

/-- The grid has ten points. -/
theorem point_lt1 (t : Fin cfg1.N) : t.val < 10 := by
  have h : t.val < grid1.N := t.isLt
  rw [N_1] at h; exact h

/-- Row `r` of block `t` is a row of the array: `10000 * t + r < 100000`. -/
theorem row_lt1 (t : Fin cfg1.N) (r : Fin 10000) : 10000 * t.val + r.val < 100000 := by
  have := point_lt1 t; omega

/-- The printed index maps, decided over the ten points: the output's and input 0's block index is the point on the row
    axis and zero on the column axis; input 1's is zero on both. -/
theorem index_facts1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The output block at point `t`, index by index: row `r`, column `j` of the block is row `10000 * t + r`, column `j`
    of the array (a block's coordinate is its index times its extent plus the coordinate inside the block). -/
theorem emb1_2 (t : Fin cfg1.N) (r : Fin 10000) (j : Fin 4) :
    ((cfg1.win 2).blk t).view.emb (ValueIdx.ix2 r j) = (ValueIdx.ix2 ⟨10000 * t.val + r.val, row_lt1 t r⟩ j : S100000x4.Idx) := by
  obtain ⟨e0, e1, -, -, -, -⟩ := index_facts1 t
  funext a; apply Fin.ext
  match a with
  | ⟨0, _⟩ => show win1_2.index t (0 : Fin 2) * 10000 + 1 * r.val = 10000 * t.val + r.val; omega
  | ⟨1, _⟩ => show win1_2.index t (1 : Fin 2) * 4 + 1 * j.val = j.val; omega

/-- Input window 0's block at point `t`, likewise. -/
theorem emb1_0 (t : Fin cfg1.N) (r : Fin 10000) (k : Fin 4) :
    ((cfg1.win 0).blk t).view.emb (ValueIdx.ix2 r k) = (ValueIdx.ix2 ⟨10000 * t.val + r.val, row_lt1 t r⟩ k : S100000x4.Idx) := by
  obtain ⟨-, -, e0, e1, -, -⟩ := index_facts1 t
  funext a; apply Fin.ext
  match a with
  | ⟨0, _⟩ => show win1_0.index t (0 : Fin 2) * 10000 + 1 * r.val = 10000 * t.val + r.val; omega
  | ⟨1, _⟩ => show win1_0.index t (1 : Fin 2) * 4 + 1 * k.val = k.val; omega

/-- Input window 1's block is the whole of its array at every point. -/
theorem emb1_1 (t : Fin cfg1.N) (y : S1x4.Idx) : ((cfg1.win 1).blk t).view.emb y = y := by
  obtain ⟨-, -, -, -, e0, e1⟩ := index_facts1 t
  funext a; apply Fin.ext
  match a with
  | ⟨0, _⟩ => show win1_1.index t (0 : Fin 2) * 1 + 1 * (y 0).val = (y 0).val; omega
  | ⟨1, _⟩ => show win1_1.index t (1 : Fin 2) * 4 + 1 * (y 1).val = (y 1).val; omega

/-- Input 0's block at a point, read at a row and a column, is its array as the region finds it at the row of the array. -/
theorem iblk1_0_at (c : Dev nD) (t : Fin cfg1.N) (r : Fin 10000) (k : Fin 4) :
    iblk1 V c 0 t (ValueIdx.ix2 r k) = V c (Pipeline.arrRef spec1 0) (ValueIdx.ix2 ⟨10000 * t.val + r.val, row_lt1 t r⟩ k : S100000x4.Idx) := by
  show V c (Pipeline.arrRef spec1 0) (((cfg1.win 0).blk t).view.emb (ValueIdx.ix2 r k)) = _
  rw [emb1_0]

/-- Input 1's block at a point is its whole array as the region finds it. -/
theorem iblk1_1_at (c : Dev nD) (t : Fin cfg1.N) (y : S1x4.Idx) :
    iblk1 V c 1 t y = V c (Pipeline.arrRef spec1 1) y := by
  show V c (Pipeline.arrRef spec1 1) (((cfg1.win 1).blk t).view.emb y) = _
  rw [emb1_1]

/-! ## What a point writes back, and the array after the run -/

/-- A block's worth of values that agrees with `G` row by row and column by column is block `t` of `G`. -/
theorem read_blk1_2 (t : Fin cfg1.N) (G : S100000x4.Idx → Elt F .f32) (P : S10000x4.Idx → Elt F .f32)
    (h : ∀ (r : Fin 10000) (j : Fin 4), P (ValueIdx.ix2 r j) = G (ValueIdx.ix2 ⟨10000 * t.val + r.val, row_lt1 t r⟩ j)) :
    P = ((cfg1.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg1.win 2).blk t).view.emb (ValueIdx.ix2 r j))
  rw [emb1_2]

/-- What point `t` writes back to the output array is block `t` of `G`, when the payload at the point's input blocks
    agrees with `G` on that block: the one store leaves its payload, the two loads read the input blocks whole. -/
theorem flushed1_2_eq (c : Dev nD) (G : S100000x4.Idx → Elt F .f32)
    (hG : ∀ (t : Fin cfg1.N) (r : Fin 10000) (j : Fin 4),
      k1_pay1 (iblk1 V c 0 t) (iblk1 V c 1 t) (ValueIdx.ix2 r j) = G (ValueIdx.ix2 ⟨10000 * t.val + r.val, row_lt1 t r⟩ j))
    (t : Fin cfg1.N) :
    (dat1 V c).flushed 2 t = ((cfg1.win 2).blk t).view.read (Elt F) G := by
  show (cfg1.win 2).cut (grid1.coords t) ((dat1 V c).after 2 t) = _
  rw [after1_2]
  unfold out1_2
  rw [View.canon_unit_zero off_zero1]
  simp only [View.ld_unit_zero (S := S10000x4) off_zero1, View.ld_unit_zero (S := S1x4) off_zero1]
  exact read_blk1_2 t G _ (hG t)

/-- An index of the output array is in point `t`'s block iff each coordinate is in the block's range on its axis. -/
theorem mem_blk1_2 (t : Fin cfg1.N) (i : S100000x4.Idx) :
    i ∈ ((cfg1.win 2).blk t).view.set ↔ ∀ a : Fin 2, win1_2.index t a * S10000x4.size a ≤ (i a).val ∧ (i a).val < win1_2.index t a * S10000x4.size a + S10000x4.size a := by
  show i ∈ ((View.whole main_v44).slice (win1_2.rect t)).set ↔ _
  rw [View.set_slice_whole, Rect.mem_set_unit]
  exact Iff.rfl

/-- The ten blocks tile the output array: row `i 0` is in the block of point `i 0 / 10000`. -/
theorem blocks_cover1 (i : S100000x4.Idx) :
    ∃ t : Fin cfg1.N, (cfg1.win 2).flush t = true ∧ i ∈ ((cfg1.win 2).blk t).view.set := by
  have hi0 : (i 0).val < 100000 := (i 0).isLt
  have hi1 : (i 1).val < 4 := (i 1).isLt
  have hN : (i 0).val / 10000 < grid1.N := by rw [N_1]; omega
  refine ⟨⟨(i 0).val / 10000, hN⟩, flush1_2 _, ?_⟩
  rw [mem_blk1_2]
  obtain ⟨e0, e1, -, -, -, -⟩ := index_facts1 ⟨(i 0).val / 10000, hN⟩
  have e0' : win1_2.index ⟨(i 0).val / 10000, hN⟩ (0 : Fin 2) = (i 0).val / 10000 := e0
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 4 ≤ (i 1).val ∧ (i 1).val < win1_2.index ⟨(i 0).val / 10000, hN⟩ (1 : Fin 2) * 4 + 4; omega

/-- THE OUTPUT ARRAY after the region is `G`, for any `G` the payload agrees with block by block. -/
theorem arr1_eq (c : Dev nD) (G : S100000x4.Idx → Elt F .f32)
    (hG : ∀ (t : Fin cfg1.N) (r : Fin 10000) (j : Fin 4),
      k1_pay1 (iblk1 V c 0 t) (iblk1 V c 1 t) (ValueIdx.ix2 r j) = G (ValueIdx.ix2 ⟨10000 * t.val + r.val, row_lt1 t r⟩ j)) :
    (dat1 V c).arrAt 2 cfg1.N = G :=
  (dat1 V c).arrAt_eq_of_cover 2 G (fun t _ => flushed1_2_eq V c G hG t) (blocks_cover1)

end Cert.KernelIdeal.Hand
-- ==== Proof.B.Bias.lean ====
/-
  The bias-and-activation bodies at an index: the block entry plus the bias row's entry, then relu (max with 0),
  or the sine of ten times it, or nothing; and the host reshape that presents a bias vector as a one-row matrix.
-/
import proofs.«147273_j88914412962548_1_alg».proof.Proof.Gen.KernelIdeal.Skeleton
import proofs.«147273_j88914412962548_1_alg».proof.Proof.B.Layout

noncomputable section

open scoped BigOperators

namespace Cert.Bridge

open Cert.KernelIdeal Cert.KernelIdeal.Gen Idealize.ShloMosaic Idealize.ShloMosaic.ValueIdx

/-- Bias body 1 (width 4, relu): the payload at `(r, j)`. -/
theorem pay1_at (a : Vec Ideal S10000x4 .f32) (b : Vec Ideal S1x4 .f32) (r : Fin 10000) (j : Fin 4) :
    k1_pay1 (F := Ideal) a b (ix2 r j) = max (a (ix2 r j) + b (ix2 (0 : Fin 1) j)) 0 := by
  unfold k1_pay1
  simp only [maximumf_apply, addf_apply, broadcast_apply, shapeCast_self]
  rw [broadcastTo_1b_ab_apply _ _ r j, zeroWord]

/-- Bias body 3 (width 4, relu): the payload at `(r, j)`. -/
theorem pay3_at (a : Vec Ideal S10000x4 .f32) (b : Vec Ideal S1x4 .f32) (r : Fin 10000) (j : Fin 4) :
    k3_pay1 (F := Ideal) a b (ix2 r j) = max (a (ix2 r j) + b (ix2 (0 : Fin 1) j)) 0 := by
  unfold k3_pay1
  simp only [maximumf_apply, addf_apply, broadcast_apply, shapeCast_self]
  rw [broadcastTo_1b_ab_apply _ _ r j, zeroWord]

/-- Bias body 7 (width 4, relu): the payload at `(r, j)`. -/
theorem pay7_at (a : Vec Ideal S10000x4 .f32) (b : Vec Ideal S1x4 .f32) (r : Fin 10000) (j : Fin 4) :
    k7_pay1 (F := Ideal) a b (ix2 r j) = max (a (ix2 r j) + b (ix2 (0 : Fin 1) j)) 0 := by
  unfold k7_pay1
  simp only [maximumf_apply, addf_apply, broadcast_apply, shapeCast_self]
  rw [broadcastTo_1b_ab_apply _ _ r j, zeroWord]

/-- Bias body 9 (width 4, relu): the payload at `(r, j)`. -/
theorem pay9_at (a : Vec Ideal S10000x4 .f32) (b : Vec Ideal S1x4 .f32) (r : Fin 10000) (j : Fin 4) :
    k9_pay1 (F := Ideal) a b (ix2 r j) = max (a (ix2 r j) + b (ix2 (0 : Fin 1) j)) 0 := by
  unfold k9_pay1
  simp only [maximumf_apply, addf_apply, broadcast_apply, shapeCast_self]
  rw [broadcastTo_1b_ab_apply _ _ r j, zeroWord]

/-- The vector sine at an index, at the ideal instance. -/
theorem sin_at {s : Shape} {φ : FTy} (v : FVec Ideal s φ) (i : s.Idx) : Idealize.ShloMosaic.sin v i = Ideal.sin (v i) := rfl

/-- Bias body 5 (width 1, the sine of ten times the sum): the payload at `(r, j)`. -/
theorem pay5_at (a : Vec Ideal S10000x1 .f32) (b : Vec Ideal S1x1 .f32) (r : Fin 10000) (j : Fin 1) :
    k5_pay1 (F := Ideal) a b (ix2 r j) = Ideal.sin ((a (ix2 r j) + b (ix2 (0 : Fin 1) j)) * ten) := by
  unfold k5_pay1
  simp only [sin_at, mulf_apply, addf_apply, broadcast_apply, shapeCast_self]
  rw [broadcastTo_1b_ab_apply _ _ r j, tenWord]

/-- Bias body 11 (width 1, no activation): the payload at `(r, j)`. -/
theorem pay11_at (a : Vec Ideal S10000x1 .f32) (b : Vec Ideal S1x1 .f32) (r : Fin 10000) (j : Fin 1) :
    k11_pay1 (F := Ideal) a b (ix2 r j) = a (ix2 r j) + b (ix2 (0 : Fin 1) j) := by
  unfold k11_pay1
  simp only [addf_apply, shapeCast_self]
  rw [broadcastTo_1b_ab_apply _ _ r j]

/-- The host reshape of a width-4 bias `[4] → [1, 4]`, read at `(u, j)`. -/
theorem biasReshape4_at (bias : Vec Ideal S4 .f32) (u : Fin 1) (j : Fin 4) :
    shapeCast S1x4 bias shapeCasts_S4_S1x4 (ix2 u j) = bias (ix1 j) :=
  shapeCast_a_1a_apply bias shapeCasts_S4_S1x4 u j

/-- The host reshape of a width-1 bias `[1] → [1, 1]`, read at `(u, j)`. -/
theorem biasReshape1_at (bias : Vec Ideal S1 .f32) (u : Fin 1) (j : Fin 1) :
    shapeCast S1x1 bias shapeCasts_S1_S1x1 (ix2 u j) = bias (ix1 j) :=
  shapeCast_a_1a_apply bias shapeCasts_S1_S1x1 u j

end Cert.Bridge

end
-- ==== Proof.B.RefBias.lean ====
/-
  The reference's bias-and-activation chains at an index, over variables: a bias vector broadcast over the rows
  (through a one-row matrix), added, then relu against a broadcast zero, or the sine of ten times it.
-/
import proofs.«147273_j88914412962548_1_alg».proof.Proof.Gen.ReferenceIdeal
import proofs.«147273_j88914412962548_1_alg».proof.Proof.B.Layout
import Idealize.ShloMosaic.Lib.Pipeline.Value

noncomputable section

open scoped BigOperators

namespace Cert.Bridge

open Cert.ReferenceIdeal Cert.ReferenceIdeal.Gen Idealize.ShloMosaic Idealize.ShloMosaic.ValueIdx

/-- The reference's width-4 bias, `[4] → [1, 4] → [100000, 4]` by two broadcasts, read at `(R, j)`. -/
theorem refBias4_at (bias : FVec Ideal S4 .f32) (R : Fin 100000) (j : Fin 4) :
    broadcastInDim S100000x4 ![0, 1] bcast_S1x4_S100000x4_0_1 (broadcastInDim S1x4 ![1] bcast_S4_S1x4_1 bias) (ix2 R j)
      = bias (ix1 j) :=
  (broadcastInDim_apply _ bcast_S1x4_S100000x4_0_1 _ (ix2 R j) (ix2 (0 : Fin 1) j)
      (fun a => by match a with | ⟨0, _⟩ => rfl | ⟨1, _⟩ => rfl)).trans
    (broadcastInDim_apply _ bcast_S4_S1x4_1 bias (ix2 (0 : Fin 1) j) (ix1 j) (fun a => by match a with | ⟨0, _⟩ => rfl))

/-- The reference's width-1 bias, `[1] → [1, 1] → [100000, 1]` by two broadcasts, read at `(R, c)`. -/
theorem refBias1_at (bias : FVec Ideal S1 .f32) (R : Fin 100000) (c : Fin 1) :
    broadcastInDim S100000x1 ![0, 1] bcast_S1x1_S100000x1_0_1 (broadcastInDim S1x1 ![1] bcast_S1_S1x1_1 bias) (ix2 R c)
      = bias (ix1 (0 : Fin 1)) :=
  (broadcastInDim_apply _ bcast_S1x1_S100000x1_0_1 _ (ix2 R c) (ix2 (0 : Fin 1) (0 : Fin 1))
      (fun a => by match a with | ⟨0, _⟩ => rfl | ⟨1, _⟩ => rfl)).trans
    (broadcastInDim_apply _ bcast_S1_S1x1_1 bias (ix2 (0 : Fin 1) (0 : Fin 1)) (ix1 (0 : Fin 1)) (fun a => by match a with | ⟨0, _⟩ => rfl))

/-- A broadcast scalar constant reads the extended real of its word everywhere. -/
theorem refSplat_at {t : Shape} (h : S_.BroadcastsInDim t (![] : Fin 0 → Fin t.rank)) (b : BitVec 32) (i : t.Idx) :
    broadcastInDim t ![] h (constant (F := Ideal) S_ .f32 b) i = Ideal.ofBits .f32 b :=
  broadcastInDim_apply _ h _ i ix0 (fun a => a.elim0)

/-- The reference's width-4 bias and relu at `(R, j)`. -/
theorem refRelu4_at (A : FVec Ideal S100000x4 .f32) (bias : FVec Ideal S4 .f32) (R : Fin 100000) (j : Fin 4) :
    maximumf (addf A (broadcastInDim S100000x4 ![0, 1] bcast_S1x4_S100000x4_0_1 (broadcastInDim S1x4 ![1] bcast_S4_S1x4_1 bias)))
      (broadcastInDim S100000x4 ![] bcast_S_S100000x4 (constant (F := Ideal) S_ .f32 0x00000000#32)) (ix2 R j)
      = max (A (ix2 R j) + bias (ix1 j)) 0 := by
  simp only [maximumf_apply, addf_apply]
  rw [refBias4_at, refSplat_at, Ideal.ofBits_zero_f32]

/-- The reference's width-1 bias at `(R, c)`. -/
theorem refAddBias1_at (A : FVec Ideal S100000x1 .f32) (bias : FVec Ideal S1 .f32) (R : Fin 100000) (c : Fin 1) :
    addf A (broadcastInDim S100000x1 ![0, 1] bcast_S1x1_S100000x1_0_1 (broadcastInDim S1x1 ![1] bcast_S1_S1x1_1 bias)) (ix2 R c)
      = A (ix2 R c) + bias (ix1 (0 : Fin 1)) := by
  simp only [addf_apply]
  rw [refBias1_at]

/-- The reference's sine layer at `(R, c)`: the sine of ten times the biased entry. -/
theorem refSin_at (A : FVec Ideal S100000x1 .f32) (bias : FVec Ideal S1 .f32) (R : Fin 100000) (c : Fin 1) :
    Host.sin (mulf (addf A (broadcastInDim S100000x1 ![0, 1] bcast_S1x1_S100000x1_0_1 (broadcastInDim S1x1 ![1] bcast_S1_S1x1_1 bias)))
      (broadcastInDim S100000x1 ![] bcast_S_S100000x1 (constant (F := Ideal) S_ .f32 0x41200000#32))) (ix2 R c)
      = Ideal.sin ((A (ix2 R c) + bias (ix1 (0 : Fin 1))) * ten) := by
  simp only [Host.sin, Ideal.hostUnary_sin_def, mulf_apply, addf_apply]
  rw [refBias1_at, refSplat_at]

end Cert.Bridge

end
-- ==== Proof.KI.G1.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V1
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 1 (a bias layer of width 4: the bias added and the result clamped below at zero): when the small array it finds is the host's reshape of a
    width-4 bias vector, the array it leaves is the reference's operations of the array it finds and that vector:
    both are, at row `R` and column `j`, the same expression of the entry and the bias's `j`-th entry. -/
theorem val1 (c : Dev nD) (bias : FVec Ideal Cert.ReferenceIdeal.S4 .f32)
    (hb : V c (Pipeline.arrRef spec1 1) = shapeCast S1x4 bias shapeCasts_S4_S1x4) :
    (dat1 (F := Ideal) V c).arrAt 2 cfg1.N
      = maximumf (addf (V c (Pipeline.arrRef spec1 0) : FVec Ideal Cert.ReferenceIdeal.S100000x4 .f32) (broadcastInDim Cert.ReferenceIdeal.S100000x4 ![0, 1] Cert.ReferenceIdeal.Gen.bcast_S1x4_S100000x4_0_1 (broadcastInDim Cert.ReferenceIdeal.S1x4 ![1] Cert.ReferenceIdeal.Gen.bcast_S4_S1x4_1 bias)))
          (broadcastInDim Cert.ReferenceIdeal.S100000x4 ![] Cert.ReferenceIdeal.Gen.bcast_S_S100000x4 (constant (F := Ideal) Cert.ReferenceIdeal.S_ .f32 0x00000000#32)) :=
  arr1_eq V c _ (fun t r j => by
    refine (Cert.Bridge.pay1_at (iblk1 V c 0 t) (iblk1 V c 1 t) r j).trans ?_
    refine Eq.trans ?_ (Cert.Bridge.refRelu4_at _ bias ⟨10000 * t.val + r.val, row_lt1 t r⟩ j).symm
    rw [iblk1_0_at V c t r j, iblk1_1_at V c t (ValueIdx.ix2 (0 : Fin 1) j), hb, Cert.Bridge.biasReshape4_at])

end Cert.KernelIdeal.Hand
-- ==== Proof.KI.V2.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A2
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 2: its blocks as parts of its arrays -/

/-- The offsets of every access of the body are zero, on both axes. -/
theorem off_zero2 : (![0, 0] : Fin 2 → Nat) = fun _ => 0 := funext fun a => by fin_cases a <;> rfl

/-- The grid has ten points. -/
theorem point_lt2 (t : Fin cfg2.N) : t.val < 10 := by
  have h : t.val < grid2.N := t.isLt
  rw [N_2] at h; exact h

/-- Row `r` of block `t` is a row of the array: `10000 * t + r < 100000`. -/
theorem row_lt2 (t : Fin cfg2.N) (r : Fin 10000) : 10000 * t.val + r.val < 100000 := by
  have := point_lt2 t; omega

/-- The printed index maps, decided over the ten points: the output's and input 0's block index is the point on the row
    axis and zero on the column axis; input 1's is zero on both. -/
theorem index_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- The output block at point `t`, index by index: row `r`, column `j` of the block is row `10000 * t + r`, column `j`
    of the array (a block's coordinate is its index times its extent plus the coordinate inside the block). -/
theorem emb2_2 (t : Fin cfg2.N) (r : Fin 10000) (j : Fin 4) :
    ((cfg2.win 2).blk t).view.emb (ValueIdx.ix2 r j) = (ValueIdx.ix2 ⟨10000 * t.val + r.val, row_lt2 t r⟩ j : S100000x4.Idx) := by
  obtain ⟨e0, e1, -, -, -, -⟩ := index_facts2 t
  funext a; apply Fin.ext
  match a with
  | ⟨0, _⟩ => show win2_2.index t (0 : Fin 2) * 10000 + 1 * r.val = 10000 * t.val + r.val; omega
  | ⟨1, _⟩ => show win2_2.index t (1 : Fin 2) * 4 + 1 * j.val = j.val; omega

/-- Input window 0's block at point `t`, likewise. -/
theorem emb2_0 (t : Fin cfg2.N) (r : Fin 10000) (k : Fin 4) :
    ((cfg2.win 0).blk t).view.emb (ValueIdx.ix2 r k) = (ValueIdx.ix2 ⟨10000 * t.val + r.val, row_lt2 t r⟩ k : S100000x4.Idx) := by
  obtain ⟨-, -, e0, e1, -, -⟩ := index_facts2 t
  funext a; apply Fin.ext
  match a with
  | ⟨0, _⟩ => show win2_0.index t (0 : Fin 2) * 10000 + 1 * r.val = 10000 * t.val + r.val; omega
  | ⟨1, _⟩ => show win2_0.index t (1 : Fin 2) * 4 + 1 * k.val = k.val; omega

/-- Input window 1's block is the whole of its array at every point. -/
theorem emb2_1 (t : Fin cfg2.N) (y : S4x4.Idx) : ((cfg2.win 1).blk t).view.emb y = y := by
  obtain ⟨-, -, -, -, e0, e1⟩ := index_facts2 t
  funext a; apply Fin.ext
  match a with
  | ⟨0, _⟩ => show win2_1.index t (0 : Fin 2) * 4 + 1 * (y 0).val = (y 0).val; omega
  | ⟨1, _⟩ => show win2_1.index t (1 : Fin 2) * 4 + 1 * (y 1).val = (y 1).val; omega

/-- Input 0's block at a point, read at a row and a column, is its array as the region finds it at the row of the array. -/
theorem iblk2_0_at (c : Dev nD) (t : Fin cfg2.N) (r : Fin 10000) (k : Fin 4) :
    iblk2 V c 0 t (ValueIdx.ix2 r k) = V c (Pipeline.arrRef spec2 0) (ValueIdx.ix2 ⟨10000 * t.val + r.val, row_lt2 t r⟩ k : S100000x4.Idx) := by
  show V c (Pipeline.arrRef spec2 0) (((cfg2.win 0).blk t).view.emb (ValueIdx.ix2 r k)) = _
  rw [emb2_0]

/-- Input 1's block at a point is its whole array as the region finds it. -/
theorem iblk2_1_at (c : Dev nD) (t : Fin cfg2.N) (y : S4x4.Idx) :
    iblk2 V c 1 t y = V c (Pipeline.arrRef spec2 1) y := by
  show V c (Pipeline.arrRef spec2 1) (((cfg2.win 1).blk t).view.emb y) = _
  rw [emb2_1]

/-! ## What a point writes back, and the array after the run -/

/-- A block's worth of values that agrees with `G` row by row and column by column is block `t` of `G`. -/
theorem read_blk2_2 (t : Fin cfg2.N) (G : S100000x4.Idx → Elt F .f32) (P : S10000x4.Idx → Elt F .f32)
    (h : ∀ (r : Fin 10000) (j : Fin 4), P (ValueIdx.ix2 r j) = G (ValueIdx.ix2 ⟨10000 * t.val + r.val, row_lt2 t r⟩ j)) :
    P = ((cfg2.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg2.win 2).blk t).view.emb (ValueIdx.ix2 r j))
  rw [emb2_2]

/-- What point `t` writes back to the output array is block `t` of `G`, when the payload at the point's input blocks
    agrees with `G` on that block: the one store leaves its payload, the two loads read the input blocks whole. -/
theorem flushed2_2_eq (c : Dev nD) (G : S100000x4.Idx → Elt F .f32)
    (hG : ∀ (t : Fin cfg2.N) (r : Fin 10000) (j : Fin 4),
      k2_pay1 (iblk2 V c 0 t) (iblk2 V c 1 t) (ValueIdx.ix2 r j) = G (ValueIdx.ix2 ⟨10000 * t.val + r.val, row_lt2 t r⟩ j))
    (t : Fin cfg2.N) :
    (dat2 V c).flushed 2 t = ((cfg2.win 2).blk t).view.read (Elt F) G := by
  show (cfg2.win 2).cut (grid2.coords t) ((dat2 V c).after 2 t) = _
  rw [after2_2]
  unfold out2_2
  rw [View.canon_unit_zero off_zero2]
  simp only [View.ld_unit_zero (S := S10000x4) off_zero2, View.ld_unit_zero (S := S4x4) off_zero2]
  exact read_blk2_2 t G _ (hG t)

/-- An index of the output array is in point `t`'s block iff each coordinate is in the block's range on its axis. -/
theorem mem_blk2_2 (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v45).slice (win2_2.rect t)).set ↔ _
  rw [View.set_slice_whole, Rect.mem_set_unit]
  exact Iff.rfl

/-- The ten blocks tile the output array: row `i 0` is in the block of point `i 0 / 10000`. -/
theorem blocks_cover2 (i : S100000x4.Idx) :
    ∃ t : Fin cfg2.N, (cfg2.win 2).flush t = true ∧ i ∈ ((cfg2.win 2).blk t).view.set := by
  have hi0 : (i 0).val < 100000 := (i 0).isLt
  have hi1 : (i 1).val < 4 := (i 1).isLt
  have hN : (i 0).val / 10000 < grid2.N := by rw [N_2]; omega
  refine ⟨⟨(i 0).val / 10000, hN⟩, flush2_2 _, ?_⟩
  rw [mem_blk2_2]
  obtain ⟨e0, e1, -, -, -, -⟩ := index_facts2 ⟨(i 0).val / 10000, hN⟩
  have e0' : win2_2.index ⟨(i 0).val / 10000, hN⟩ (0 : Fin 2) = (i 0).val / 10000 := e0
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 4 ≤ (i 1).val ∧ (i 1).val < win2_2.index ⟨(i 0).val / 10000, hN⟩ (1 : Fin 2) * 4 + 4; omega

/-- THE OUTPUT ARRAY after the region is `G`, for any `G` the payload agrees with block by block. -/
theorem arr2_eq (c : Dev nD) (G : S100000x4.Idx → Elt F .f32)
    (hG : ∀ (t : Fin cfg2.N) (r : Fin 10000) (j : Fin 4),
      k2_pay1 (iblk2 V c 0 t) (iblk2 V c 1 t) (ValueIdx.ix2 r j) = G (ValueIdx.ix2 ⟨10000 * t.val + r.val, row_lt2 t r⟩ j)) :
    (dat2 V c).arrAt 2 cfg2.N = G :=
  (dat2 V c).arrAt_eq_of_cover 2 G (fun t _ => flushed2_2_eq V c G hG t) (blocks_cover2)

end Cert.KernelIdeal.Hand
-- ==== Proof.B.Dense44.lean ====
/-
  The 4 → 4 dense bodies at an index. A body forms the product by four rank-one updates of a zero block,
  0 + x(·,0)·w(0,·) + x(·,1)·w(1,·) + x(·,2)·w(2,·) + x(·,3)·w(3,·); at an index (r, j) this is the sum over k of
  x(r,k)·w(k,j).
-/
import proofs.«147273_j88914412962548_1_alg».proof.Proof.Gen.KernelIdeal.Skeleton
import proofs.«147273_j88914412962548_1_alg».proof.Proof.B.Layout

noncomputable section

open scoped BigOperators

namespace Cert.Bridge

open Cert.KernelIdeal Cert.KernelIdeal.Gen Idealize.ShloMosaic Idealize.ShloMosaic.ValueIdx

/-- Dense body 2 (4 → 4): the payload at `(r, j)` is the contraction over the four columns. -/
theorem pay2_at (x : Vec Ideal S10000x4 .f32) (w : Vec Ideal S4x4 .f32) (r : Fin 10000) (j : Fin 4) :
    k2_pay1 (F := Ideal) x w (ix2 r j) = ∑ k : Fin 4, x (ix2 r k) * w (ix2 k j) := by
  unfold k2_pay1
  simp only [addf_apply, mulf_apply, broadcast_apply, shapeCast_self]
  rw [colSlice_bcast_apply 0 x _ _ r j (0 : Fin 4) rfl, rowSlice_bcast_apply 0 w _ _ r j (0 : Fin 4) rfl,
    colSlice_bcast_apply 1 x _ _ r j (1 : Fin 4) rfl, rowSlice_bcast_apply 1 w _ _ r j (1 : Fin 4) rfl,
    colSlice_bcast_apply 2 x _ _ r j (2 : Fin 4) rfl, rowSlice_bcast_apply 2 w _ _ r j (2 : Fin 4) rfl,
    colSlice_bcast_apply 3 x _ _ r j (3 : Fin 4) rfl, rowSlice_bcast_apply 3 w _ _ r j (3 : Fin 4) rfl,
    Fin.sum_univ_four, zeroWord, zero_add]

/-- Dense body 8 (4 → 4): the payload at `(r, j)` is the contraction over the four columns. -/
theorem pay8_at (x : Vec Ideal S10000x4 .f32) (w : Vec Ideal S4x4 .f32) (r : Fin 10000) (j : Fin 4) :
    k8_pay1 (F := Ideal) x w (ix2 r j) = ∑ k : Fin 4, x (ix2 r k) * w (ix2 k j) := by
  unfold k8_pay1
  simp only [addf_apply, mulf_apply, broadcast_apply, shapeCast_self]
  rw [colSlice_bcast_apply 0 x _ _ r j (0 : Fin 4) rfl, rowSlice_bcast_apply 0 w _ _ r j (0 : Fin 4) rfl,
    colSlice_bcast_apply 1 x _ _ r j (1 : Fin 4) rfl, rowSlice_bcast_apply 1 w _ _ r j (1 : Fin 4) rfl,
    colSlice_bcast_apply 2 x _ _ r j (2 : Fin 4) rfl, rowSlice_bcast_apply 2 w _ _ r j (2 : Fin 4) rfl,
    colSlice_bcast_apply 3 x _ _ r j (3 : Fin 4) rfl, rowSlice_bcast_apply 3 w _ _ r j (3 : Fin 4) rfl,
    Fin.sum_univ_four, zeroWord, zero_add]

end Cert.Bridge

end
-- ==== Proof.KI.G2.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V2
import proofs.«147273_j88914412962548_1_alg».proof.Proof.B.Dense44
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 2 (a dense layer, 4 → 4): the array it leaves is the reference's `dot_general` of the two arrays it
    finds: both are, at row `R` and column `j`, the sum over the contracted axis of the products. -/
theorem val2 (c : Dev nD) :
    (dat2 (F := Ideal) V c).arrAt 2 cfg2.N
      = Host.dotGeneral (F := Ideal) (φ₁ := .f32) (φ₂ := .f32) Cert.ReferenceIdeal.dot_S100000x4_S4x4_S100000x4_1_0_0_1_n_n none
          (V c (Pipeline.arrRef spec2 0) : FVec Ideal Cert.ReferenceIdeal.S100000x4 .f32)
          (V c (Pipeline.arrRef spec2 1) : FVec Ideal Cert.ReferenceIdeal.S4x4 .f32) :=
  arr2_eq V c _ (fun t r j => by
    refine (Cert.Bridge.pay2_at (iblk2 V c 0 t) (iblk2 V c 1 t) r j).trans ?_
    refine Eq.trans ?_ (Cert.Bridge.refDot44_at _ _ ⟨10000 * t.val + r.val, row_lt2 t r⟩ j).symm
    refine Finset.sum_congr rfl fun k _ => ?_
    rw [iblk2_0_at V c t r k, iblk2_1_at V c t (ValueIdx.ix2 k j)])

end Cert.KernelIdeal.Hand
-- ==== Proof.KI.V3.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A3
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 3: its blocks as parts of its arrays -/

/-- The offsets of every access of the body are zero, on both axes. -/
theorem off_zero3 : (![0, 0] : Fin 2 → Nat) = fun _ => 0 := funext fun a => by fin_cases a <;> rfl

/-- The grid has ten points. -/
theorem point_lt3 (t : Fin cfg3.N) : t.val < 10 := by
  have h : t.val < grid3.N := t.isLt
  rw [N_3] at h; exact h

/-- Row `r` of block `t` is a row of the array: `10000 * t + r < 100000`. -/
theorem row_lt3 (t : Fin cfg3.N) (r : Fin 10000) : 10000 * t.val + r.val < 100000 := by
  have := point_lt3 t; omega

/-- The printed index maps, decided over the ten points: the output's and input 0's block index is the point on the row
    axis and zero on the column axis; input 1's is zero on both. -/
theorem index_facts3 : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- The output block at point `t`, index by index: row `r`, column `j` of the block is row `10000 * t + r`, column `j`
    of the array (a block's coordinate is its index times its extent plus the coordinate inside the block). -/
theorem emb3_2 (t : Fin cfg3.N) (r : Fin 10000) (j : Fin 4) :
    ((cfg3.win 2).blk t).view.emb (ValueIdx.ix2 r j) = (ValueIdx.ix2 ⟨10000 * t.val + r.val, row_lt3 t r⟩ j : S100000x4.Idx) := by
  obtain ⟨e0, e1, -, -, -, -⟩ := index_facts3 t
  funext a; apply Fin.ext
  match a with
  | ⟨0, _⟩ => show win3_2.index t (0 : Fin 2) * 10000 + 1 * r.val = 10000 * t.val + r.val; omega
  | ⟨1, _⟩ => show win3_2.index t (1 : Fin 2) * 4 + 1 * j.val = j.val; omega

/-- Input window 0's block at point `t`, likewise. -/
theorem emb3_0 (t : Fin cfg3.N) (r : Fin 10000) (k : Fin 4) :
    ((cfg3.win 0).blk t).view.emb (ValueIdx.ix2 r k) = (ValueIdx.ix2 ⟨10000 * t.val + r.val, row_lt3 t r⟩ k : S100000x4.Idx) := by
  obtain ⟨-, -, e0, e1, -, -⟩ := index_facts3 t
  funext a; apply Fin.ext
  match a with
  | ⟨0, _⟩ => show win3_0.index t (0 : Fin 2) * 10000 + 1 * r.val = 10000 * t.val + r.val; omega
  | ⟨1, _⟩ => show win3_0.index t (1 : Fin 2) * 4 + 1 * k.val = k.val; omega

/-- Input window 1's block is the whole of its array at every point. -/
theorem emb3_1 (t : Fin cfg3.N) (y : S1x4.Idx) : ((cfg3.win 1).blk t).view.emb y = y := by
  obtain ⟨-, -, -, -, e0, e1⟩ := index_facts3 t
  funext a; apply Fin.ext
  match a with
  | ⟨0, _⟩ => show win3_1.index t (0 : Fin 2) * 1 + 1 * (y 0).val = (y 0).val; omega
  | ⟨1, _⟩ => show win3_1.index t (1 : Fin 2) * 4 + 1 * (y 1).val = (y 1).val; omega

/-- Input 0's block at a point, read at a row and a column, is its array as the region finds it at the row of the array. -/
theorem iblk3_0_at (c : Dev nD) (t : Fin cfg3.N) (r : Fin 10000) (k : Fin 4) :
    iblk3 V c 0 t (ValueIdx.ix2 r k) = V c (Pipeline.arrRef spec3 0) (ValueIdx.ix2 ⟨10000 * t.val + r.val, row_lt3 t r⟩ k : S100000x4.Idx) := by
  show V c (Pipeline.arrRef spec3 0) (((cfg3.win 0).blk t).view.emb (ValueIdx.ix2 r k)) = _
  rw [emb3_0]

/-- Input 1's block at a point is its whole array as the region finds it. -/
theorem iblk3_1_at (c : Dev nD) (t : Fin cfg3.N) (y : S1x4.Idx) :
    iblk3 V c 1 t y = V c (Pipeline.arrRef spec3 1) y := by
  show V c (Pipeline.arrRef spec3 1) (((cfg3.win 1).blk t).view.emb y) = _
  rw [emb3_1]

/-! ## What a point writes back, and the array after the run -/

/-- A block's worth of values that agrees with `G` row by row and column by column is block `t` of `G`. -/
theorem read_blk3_2 (t : Fin cfg3.N) (G : S100000x4.Idx → Elt F .f32) (P : S10000x4.Idx → Elt F .f32)
    (h : ∀ (r : Fin 10000) (j : Fin 4), P (ValueIdx.ix2 r j) = G (ValueIdx.ix2 ⟨10000 * t.val + r.val, row_lt3 t r⟩ j)) :
    P = ((cfg3.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg3.win 2).blk t).view.emb (ValueIdx.ix2 r j))
  rw [emb3_2]

/-- What point `t` writes back to the output array is block `t` of `G`, when the payload at the point's input blocks
    agrees with `G` on that block: the one store leaves its payload, the two loads read the input blocks whole. -/
theorem flushed3_2_eq (c : Dev nD) (G : S100000x4.Idx → Elt F .f32)
    (hG : ∀ (t : Fin cfg3.N) (r : Fin 10000) (j : Fin 4),
      k3_pay1 (iblk3 V c 0 t) (iblk3 V c 1 t) (ValueIdx.ix2 r j) = G (ValueIdx.ix2 ⟨10000 * t.val + r.val, row_lt3 t r⟩ j))
    (t : Fin cfg3.N) :
    (dat3 V c).flushed 2 t = ((cfg3.win 2).blk t).view.read (Elt F) G := by
  show (cfg3.win 2).cut (grid3.coords t) ((dat3 V c).after 2 t) = _
  rw [after3_2]
  unfold out3_2
  rw [View.canon_unit_zero off_zero3]
  simp only [View.ld_unit_zero (S := S10000x4) off_zero3, View.ld_unit_zero (S := S1x4) off_zero3]
  exact read_blk3_2 t G _ (hG t)

/-- An index of the output array is in point `t`'s block iff each coordinate is in the block's range on its axis. -/
theorem mem_blk3_2 (t : Fin cfg3.N) (i : S100000x4.Idx) :
    i ∈ ((cfg3.win 2).blk t).view.set ↔ ∀ a : Fin 2, win3_2.index t a * S10000x4.size a ≤ (i a).val ∧ (i a).val < win3_2.index t a * S10000x4.size a + S10000x4.size a := by
  show i ∈ ((View.whole main_v60).slice (win3_2.rect t)).set ↔ _
  rw [View.set_slice_whole, Rect.mem_set_unit]
  exact Iff.rfl

/-- The ten blocks tile the output array: row `i 0` is in the block of point `i 0 / 10000`. -/
theorem blocks_cover3 (i : S100000x4.Idx) :
    ∃ t : Fin cfg3.N, (cfg3.win 2).flush t = true ∧ i ∈ ((cfg3.win 2).blk t).view.set := by
  have hi0 : (i 0).val < 100000 := (i 0).isLt
  have hi1 : (i 1).val < 4 := (i 1).isLt
  have hN : (i 0).val / 10000 < grid3.N := by rw [N_3]; omega
  refine ⟨⟨(i 0).val / 10000, hN⟩, flush3_2 _, ?_⟩
  rw [mem_blk3_2]
  obtain ⟨e0, e1, -, -, -, -⟩ := index_facts3 ⟨(i 0).val / 10000, hN⟩
  have e0' : win3_2.index ⟨(i 0).val / 10000, hN⟩ (0 : Fin 2) = (i 0).val / 10000 := e0
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 4 ≤ (i 1).val ∧ (i 1).val < win3_2.index ⟨(i 0).val / 10000, hN⟩ (1 : Fin 2) * 4 + 4; omega

/-- THE OUTPUT ARRAY after the region is `G`, for any `G` the payload agrees with block by block. -/
theorem arr3_eq (c : Dev nD) (G : S100000x4.Idx → Elt F .f32)
    (hG : ∀ (t : Fin cfg3.N) (r : Fin 10000) (j : Fin 4),
      k3_pay1 (iblk3 V c 0 t) (iblk3 V c 1 t) (ValueIdx.ix2 r j) = G (ValueIdx.ix2 ⟨10000 * t.val + r.val, row_lt3 t r⟩ j)) :
    (dat3 V c).arrAt 2 cfg3.N = G :=
  (dat3 V c).arrAt_eq_of_cover 2 G (fun t _ => flushed3_2_eq V c G hG t) (blocks_cover3)

end Cert.KernelIdeal.Hand
-- ==== Proof.KI.G3.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V3
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 3 (a bias layer of width 4: the bias added and the result clamped below at zero): when the small array it finds is the host's reshape of a
    width-4 bias vector, the array it leaves is the reference's operations of the array it finds and that vector:
    both are, at row `R` and column `j`, the same expression of the entry and the bias's `j`-th entry. -/
theorem val3 (c : Dev nD) (bias : FVec Ideal Cert.ReferenceIdeal.S4 .f32)
    (hb : V c (Pipeline.arrRef spec3 1) = shapeCast S1x4 bias shapeCasts_S4_S1x4) :
    (dat3 (F := Ideal) V c).arrAt 2 cfg3.N
      = maximumf (addf (V c (Pipeline.arrRef spec3 0) : FVec Ideal Cert.ReferenceIdeal.S100000x4 .f32) (broadcastInDim Cert.ReferenceIdeal.S100000x4 ![0, 1] Cert.ReferenceIdeal.Gen.bcast_S1x4_S100000x4_0_1 (broadcastInDim Cert.ReferenceIdeal.S1x4 ![1] Cert.ReferenceIdeal.Gen.bcast_S4_S1x4_1 bias)))
          (broadcastInDim Cert.ReferenceIdeal.S100000x4 ![] Cert.ReferenceIdeal.Gen.bcast_S_S100000x4 (constant (F := Ideal) Cert.ReferenceIdeal.S_ .f32 0x00000000#32)) :=
  arr3_eq V c _ (fun t r j => by
    refine (Cert.Bridge.pay3_at (iblk3 V c 0 t) (iblk3 V c 1 t) r j).trans ?_
    refine Eq.trans ?_ (Cert.Bridge.refRelu4_at _ bias ⟨10000 * t.val + r.val, row_lt3 t r⟩ j).symm
    rw [iblk3_0_at V c t r j, iblk3_1_at V c t (ValueIdx.ix2 (0 : Fin 1) j), hb, Cert.Bridge.biasReshape4_at])

end Cert.KernelIdeal.Hand
-- ==== Proof.KI.V4.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A4
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 4: its blocks as parts of its arrays -/

/-- The offsets of every access of the body are zero, on both axes. -/
theorem off_zero4 : (![0, 0] : Fin 2 → Nat) = fun _ => 0 := funext fun a => by fin_cases a <;> rfl

/-- The grid has ten points. -/
theorem point_lt4 (t : Fin cfg4.N) : t.val < 10 := by
  have h : t.val < grid4.N := t.isLt
  rw [N_4] at h; exact h

/-- Row `r` of block `t` is a row of the array: `10000 * t + r < 100000`. -/
theorem row_lt4 (t : Fin cfg4.N) (r : Fin 10000) : 10000 * t.val + r.val < 100000 := by
  have := point_lt4 t; omega

/-- The printed index maps, decided over the ten points: the output's and input 0's block index is the point on the row
    axis and zero on the column axis; input 1's is zero on both. -/
theorem index_facts4 : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- The output block at point `t`, index by index: row `r`, column `j` of the block is row `10000 * t + r`, column `j`
    of the array (a block's coordinate is its index times its extent plus the coordinate inside the block). -/
theorem emb4_2 (t : Fin cfg4.N) (r : Fin 10000) (j : Fin 1) :
    ((cfg4.win 2).blk t).view.emb (ValueIdx.ix2 r j) = (ValueIdx.ix2 ⟨10000 * t.val + r.val, row_lt4 t r⟩ j : S100000x1.Idx) := by
  obtain ⟨e0, e1, -, -, -, -⟩ := index_facts4 t
  funext a; apply Fin.ext
  match a with
  | ⟨0, _⟩ => show win4_2.index t (0 : Fin 2) * 10000 + 1 * r.val = 10000 * t.val + r.val; omega
  | ⟨1, _⟩ => show win4_2.index t (1 : Fin 2) * 1 + 1 * j.val = j.val; omega

/-- Input window 0's block at point `t`, likewise. -/
theorem emb4_0 (t : Fin cfg4.N) (r : Fin 10000) (k : Fin 4) :
    ((cfg4.win 0).blk t).view.emb (ValueIdx.ix2 r k) = (ValueIdx.ix2 ⟨10000 * t.val + r.val, row_lt4 t r⟩ k : S100000x4.Idx) := by
  obtain ⟨-, -, e0, e1, -, -⟩ := index_facts4 t
  funext a; apply Fin.ext
  match a with
  | ⟨0, _⟩ => show win4_0.index t (0 : Fin 2) * 10000 + 1 * r.val = 10000 * t.val + r.val; omega
  | ⟨1, _⟩ => show win4_0.index t (1 : Fin 2) * 4 + 1 * k.val = k.val; omega

/-- Input window 1's block is the whole of its array at every point. -/
theorem emb4_1 (t : Fin cfg4.N) (y : S4x1.Idx) : ((cfg4.win 1).blk t).view.emb y = y := by
  obtain ⟨-, -, -, -, e0, e1⟩ := index_facts4 t
  funext a; apply Fin.ext
  match a with
  | ⟨0, _⟩ => show win4_1.index t (0 : Fin 2) * 4 + 1 * (y 0).val = (y 0).val; omega
  | ⟨1, _⟩ => show win4_1.index t (1 : Fin 2) * 1 + 1 * (y 1).val = (y 1).val; omega

/-- Input 0's block at a point, read at a row and a column, is its array as the region finds it at the row of the array. -/
theorem iblk4_0_at (c : Dev nD) (t : Fin cfg4.N) (r : Fin 10000) (k : Fin 4) :
    iblk4 V c 0 t (ValueIdx.ix2 r k) = V c (Pipeline.arrRef spec4 0) (ValueIdx.ix2 ⟨10000 * t.val + r.val, row_lt4 t r⟩ k : S100000x4.Idx) := by
  show V c (Pipeline.arrRef spec4 0) (((cfg4.win 0).blk t).view.emb (ValueIdx.ix2 r k)) = _
  rw [emb4_0]

/-- Input 1's block at a point is its whole array as the region finds it. -/
theorem iblk4_1_at (c : Dev nD) (t : Fin cfg4.N) (y : S4x1.Idx) :
    iblk4 V c 1 t y = V c (Pipeline.arrRef spec4 1) y := by
  show V c (Pipeline.arrRef spec4 1) (((cfg4.win 1).blk t).view.emb y) = _
  rw [emb4_1]

/-! ## What a point writes back, and the array after the run -/

/-- A block's worth of values that agrees with `G` row by row and column by column is block `t` of `G`. -/
theorem read_blk4_2 (t : Fin cfg4.N) (G : S100000x1.Idx → Elt F .f32) (P : S10000x1.Idx → Elt F .f32)
    (h : ∀ (r : Fin 10000) (j : Fin 1), P (ValueIdx.ix2 r j) = G (ValueIdx.ix2 ⟨10000 * t.val + r.val, row_lt4 t r⟩ j)) :
    P = ((cfg4.win 2).blk t).view.read (Elt F) G := by
  funext y
  obtain ⟨r, j, rfl⟩ : ∃ (r : Fin 10000) (j : Fin 1), y = ValueIdx.ix2 r j := ⟨y 0, y 1, ValueIdx.eq_ix2 y⟩
  rw [h]
  show G _ = G (((cfg4.win 2).blk t).view.emb (ValueIdx.ix2 r j))
  rw [emb4_2]

/-- What point `t` writes back to the output array is block `t` of `G`, when the payload at the point's input blocks
    agrees with `G` on that block: the one store leaves its payload, the two loads read the input blocks whole. -/
theorem flushed4_2_eq (c : Dev nD) (G : S100000x1.Idx → Elt F .f32)
    (hG : ∀ (t : Fin cfg4.N) (r : Fin 10000) (j : Fin 1),
      k4_pay1 (iblk4 V c 0 t) (iblk4 V c 1 t) (ValueIdx.ix2 r j) = G (ValueIdx.ix2 ⟨10000 * t.val + r.val, row_lt4 t r⟩ j))
    (t : Fin cfg4.N) :
    (dat4 V c).flushed 2 t = ((cfg4.win 2).blk t).view.read (Elt F) G := by
  show (cfg4.win 2).cut (grid4.coords t) ((dat4 V c).after 2 t) = _
  rw [after4_2]
  unfold out4_2
  rw [View.canon_unit_zero off_zero4]
  simp only [View.ld_unit_zero (S := S10000x4) off_zero4, View.ld_unit_zero (S := S4x1) off_zero4]
  exact read_blk4_2 t G _ (hG t)

/-- An index of the output array is in point `t`'s block iff each coordinate is in the block's range on its axis. -/
theorem mem_blk4_2 (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v61).slice (win4_2.rect t)).set ↔ _
  rw [View.set_slice_whole, Rect.mem_set_unit]
  exact Iff.rfl

/-- The ten blocks tile the output array: row `i 0` is in the block of point `i 0 / 10000`. -/
theorem blocks_cover4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : (i 0).val / 10000 < grid4.N := by rw [N_4]; omega
  refine ⟨⟨(i 0).val / 10000, hN⟩, flush4_2 _, ?_⟩
  rw [mem_blk4_2]
  obtain ⟨e0, e1, -, -, -, -⟩ := index_facts4 ⟨(i 0).val / 10000, hN⟩
  have e0' : win4_2.index ⟨(i 0).val / 10000, hN⟩ (0 : Fin 2) = (i 0).val / 10000 := e0
  intro a
  match a with
  | ⟨0, _⟩ => show win4_2.index ⟨(i 0).val / 10000, hN⟩ (0 : Fin 2) * 10000 ≤ (i 0).val ∧ (i 0).val < win4_2.index ⟨(i 0).val / 10000, hN⟩ (0 : Fin 2) * 10000 + 10000; omega
  | ⟨1, _⟩ => show win4_2.index ⟨(i 0).val / 10000, hN⟩ (1 : Fin 2) * 1 ≤ (i 1).val ∧ (i 1).val < win4_2.index ⟨(i 0).val / 10000, hN⟩ (1 : Fin 2) * 1 + 1; omega

/-- THE OUTPUT ARRAY after the region is `G`, for any `G` the payload agrees with block by block. -/
theorem arr4_eq (c : Dev nD) (G : S100000x1.Idx → Elt F .f32)
    (hG : ∀ (t : Fin cfg4.N) (r : Fin 10000) (j : Fin 1),
      k4_pay1 (iblk4 V c 0 t) (iblk4 V c 1 t) (ValueIdx.ix2 r j) = G (ValueIdx.ix2 ⟨10000 * t.val + r.val, row_lt4 t r⟩ j)) :
    (dat4 V c).arrAt 2 cfg4.N = G :=
  (dat4 V c).arrAt_eq_of_cover 2 G (fun t _ => flushed4_2_eq V c G hG t) (blocks_cover4)

end Cert.KernelIdeal.Hand
-- ==== Proof.B.Dense41.lean ====
/-
  The 4 → 1 dense bodies at an index: four rank-one updates of a zero column, the sum over k of x(r,k)·w(k,0).
-/
import proofs.«147273_j88914412962548_1_alg».proof.Proof.Gen.KernelIdeal.Skeleton
import proofs.«147273_j88914412962548_1_alg».proof.Proof.B.Layout

noncomputable section

open scoped BigOperators

namespace Cert.Bridge

open Cert.KernelIdeal Cert.KernelIdeal.Gen Idealize.ShloMosaic Idealize.ShloMosaic.ValueIdx

/-- Dense body 4 (4 → 1): the payload at `(r, j)` is the contraction over the four columns. -/
theorem pay4_at (x : Vec Ideal S10000x4 .f32) (w : Vec Ideal S4x1 .f32) (r : Fin 10000) (j : Fin 1) :
    k4_pay1 (F := Ideal) x w (ix2 r j) = ∑ k : Fin 4, x (ix2 r k) * w (ix2 k j) := by
  unfold k4_pay1
  simp only [addf_apply, mulf_apply, broadcast_apply, shapeCast_self]
  rw [colSlice_apply 0 x _ r j (0 : Fin 4) rfl, rowSlice_bcast_apply 0 w _ _ r j (0 : Fin 4) rfl,
    colSlice_apply 1 x _ r j (1 : Fin 4) rfl, rowSlice_bcast_apply 1 w _ _ r j (1 : Fin 4) rfl,
    colSlice_apply 2 x _ r j (2 : Fin 4) rfl, rowSlice_bcast_apply 2 w _ _ r j (2 : Fin 4) rfl,
    colSlice_apply 3 x _ r j (3 : Fin 4) rfl, rowSlice_bcast_apply 3 w _ _ r j (3 : Fin 4) rfl,
    Fin.sum_univ_four, zeroWord, zero_add]

/-- Dense body 10 (4 → 1): the payload at `(r, j)` is the contraction over the four columns. -/
theorem pay10_at (x : Vec Ideal S10000x4 .f32) (w : Vec Ideal S4x1 .f32) (r : Fin 10000) (j : Fin 1) :
    k10_pay1 (F := Ideal) x w (ix2 r j) = ∑ k : Fin 4, x (ix2 r k) * w (ix2 k j) := by
  unfold k10_pay1
  simp only [addf_apply, mulf_apply, broadcast_apply, shapeCast_self]
  rw [colSlice_apply 0 x _ r j (0 : Fin 4) rfl, rowSlice_bcast_apply 0 w _ _ r j (0 : Fin 4) rfl,
    colSlice_apply 1 x _ r j (1 : Fin 4) rfl, rowSlice_bcast_apply 1 w _ _ r j (1 : Fin 4) rfl,
    colSlice_apply 2 x _ r j (2 : Fin 4) rfl, rowSlice_bcast_apply 2 w _ _ r j (2 : Fin 4) rfl,
    colSlice_apply 3 x _ r j (3 : Fin 4) rfl, rowSlice_bcast_apply 3 w _ _ r j (3 : Fin 4) rfl,
    Fin.sum_univ_four, zeroWord, zero_add]

end Cert.Bridge

end
-- ==== Proof.KI.G4.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V4
import proofs.«147273_j88914412962548_1_alg».proof.Proof.B.Dense41
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 4 (a dense layer, 4 → 1): the array it leaves is the reference's `dot_general` of the two arrays it
    finds: both are, at row `R` and column `j`, the sum over the contracted axis of the products. -/
theorem val4 (c : Dev nD) :
    (dat4 (F := Ideal) V c).arrAt 2 cfg4.N
      = Host.dotGeneral (F := Ideal) (φ₁ := .f32) (φ₂ := .f32) Cert.ReferenceIdeal.dot_S100000x4_S4x1_S100000x1_1_0_0_1_n_n none
          (V c (Pipeline.arrRef spec4 0) : FVec Ideal Cert.ReferenceIdeal.S100000x4 .f32)
          (V c (Pipeline.arrRef spec4 1) : FVec Ideal Cert.ReferenceIdeal.S4x1 .f32) :=
  arr4_eq V c _ (fun t r j => by
    refine (Cert.Bridge.pay4_at (iblk4 V c 0 t) (iblk4 V c 1 t) r j).trans ?_
    refine Eq.trans ?_ (Cert.Bridge.refDot41_at _ _ ⟨10000 * t.val + r.val, row_lt4 t r⟩ j).symm
    refine Finset.sum_congr rfl fun k _ => ?_
    rw [iblk4_0_at V c t r k, iblk4_1_at V c t (ValueIdx.ix2 k j)])

end Cert.KernelIdeal.Hand
-- ==== Proof.KI.V5.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A5
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 5: its blocks as parts of its arrays -/

/-- The offsets of every access of the body are zero, on both axes. -/
theorem off_zero5 : (![0, 0] : Fin 2 → Nat) = fun _ => 0 := funext fun a => by fin_cases a <;> rfl

/-- The grid has ten points. -/
theorem point_lt5 (t : Fin cfg5.N) : t.val < 10 := by
  have h : t.val < grid5.N := t.isLt
  rw [N_5] at h; exact h

/-- Row `r` of block `t` is a row of the array: `10000 * t + r < 100000`. -/
theorem row_lt5 (t : Fin cfg5.N) (r : Fin 10000) : 10000 * t.val + r.val < 100000 := by
  have := point_lt5 t; omega

/-- The printed index maps, decided over the ten points: the output's and input 0's block index is the point on the row
    axis and zero on the column axis; input 1's is zero on both. -/
theorem index_facts5 : ∀ t : Fin cfg5.N, win5_2.index t (0 : Fin 2) = t.val ∧ win5_2.index t (1 : Fin 2) = 0
    ∧ win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- The output block at point `t`, index by index: row `r`, column `j` of the block is row `10000 * t + r`, column `j`
    of the array (a block's coordinate is its index times its extent plus the coordinate inside the block). -/
theorem emb5_2 (t : Fin cfg5.N) (r : Fin 10000) (j : Fin 1) :
    ((cfg5.win 2).blk t).view.emb (ValueIdx.ix2 r j) = (ValueIdx.ix2 ⟨10000 * t.val + r.val, row_lt5 t r⟩ j : S100000x1.Idx) := by
  obtain ⟨e0, e1, -, -, -, -⟩ := index_facts5 t
  funext a; apply Fin.ext
  match a with
  | ⟨0, _⟩ => show win5_2.index t (0 : Fin 2) * 10000 + 1 * r.val = 10000 * t.val + r.val; omega
  | ⟨1, _⟩ => show win5_2.index t (1 : Fin 2) * 1 + 1 * j.val = j.val; omega

/-- Input window 0's block at point `t`, likewise. -/
theorem emb5_0 (t : Fin cfg5.N) (r : Fin 10000) (k : Fin 1) :
    ((cfg5.win 0).blk t).view.emb (ValueIdx.ix2 r k) = (ValueIdx.ix2 ⟨10000 * t.val + r.val, row_lt5 t r⟩ k : S100000x1.Idx) := by
  obtain ⟨-, -, e0, e1, -, -⟩ := index_facts5 t
  funext a; apply Fin.ext
  match a with
  | ⟨0, _⟩ => show win5_0.index t (0 : Fin 2) * 10000 + 1 * r.val = 10000 * t.val + r.val; omega
  | ⟨1, _⟩ => show win5_0.index t (1 : Fin 2) * 1 + 1 * k.val = k.val; omega

/-- Input window 1's block is the whole of its array at every point. -/
theorem emb5_1 (t : Fin cfg5.N) (y : S1x1.Idx) : ((cfg5.win 1).blk t).view.emb y = y := by
  obtain ⟨-, -, -, -, e0, e1⟩ := index_facts5 t
  funext a; apply Fin.ext
  match a with
  | ⟨0, _⟩ => show win5_1.index t (0 : Fin 2) * 1 + 1 * (y 0).val = (y 0).val; omega
  | ⟨1, _⟩ => show win5_1.index t (1 : Fin 2) * 1 + 1 * (y 1).val = (y 1).val; omega

/-- Input 0's block at a point, read at a row and a column, is its array as the region finds it at the row of the array. -/
theorem iblk5_0_at (c : Dev nD) (t : Fin cfg5.N) (r : Fin 10000) (k : Fin 1) :
    iblk5 V c 0 t (ValueIdx.ix2 r k) = V c (Pipeline.arrRef spec5 0) (ValueIdx.ix2 ⟨10000 * t.val + r.val, row_lt5 t r⟩ k : S100000x1.Idx) := by
  show V c (Pipeline.arrRef spec5 0) (((cfg5.win 0).blk t).view.emb (ValueIdx.ix2 r k)) = _
  rw [emb5_0]

/-- Input 1's block at a point is its whole array as the region finds it. -/
theorem iblk5_1_at (c : Dev nD) (t : Fin cfg5.N) (y : S1x1.Idx) :
    iblk5 V c 1 t y = V c (Pipeline.arrRef spec5 1) y := by
  show V c (Pipeline.arrRef spec5 1) (((cfg5.win 1).blk t).view.emb y) = _
  rw [emb5_1]

/-! ## What a point writes back, and the array after the run -/

/-- A block's worth of values that agrees with `G` row by row and column by column is block `t` of `G`. -/
theorem read_blk5_2 (t : Fin cfg5.N) (G : S100000x1.Idx → Elt F .f32) (P : S10000x1.Idx → Elt F .f32)
    (h : ∀ (r : Fin 10000) (j : Fin 1), P (ValueIdx.ix2 r j) = G (ValueIdx.ix2 ⟨10000 * t.val + r.val, row_lt5 t r⟩ j)) :
    P = ((cfg5.win 2).blk t).view.read (Elt F) G := by
  funext y
  obtain ⟨r, j, rfl⟩ : ∃ (r : Fin 10000) (j : Fin 1), y = ValueIdx.ix2 r j := ⟨y 0, y 1, ValueIdx.eq_ix2 y⟩
  rw [h]
  show G _ = G (((cfg5.win 2).blk t).view.emb (ValueIdx.ix2 r j))
  rw [emb5_2]

/-- What point `t` writes back to the output array is block `t` of `G`, when the payload at the point's input blocks
    agrees with `G` on that block: the one store leaves its payload, the two loads read the input blocks whole. -/
theorem flushed5_2_eq (c : Dev nD) (G : S100000x1.Idx → Elt F .f32)
    (hG : ∀ (t : Fin cfg5.N) (r : Fin 10000) (j : Fin 1),
      k5_pay1 (iblk5 V c 0 t) (iblk5 V c 1 t) (ValueIdx.ix2 r j) = G (ValueIdx.ix2 ⟨10000 * t.val + r.val, row_lt5 t r⟩ j))
    (t : Fin cfg5.N) :
    (dat5 V c).flushed 2 t = ((cfg5.win 2).blk t).view.read (Elt F) G := by
  show (cfg5.win 2).cut (grid5.coords t) ((dat5 V c).after 2 t) = _
  rw [after5_2]
  unfold out5_2
  rw [View.canon_unit_zero off_zero5]
  simp only [View.ld_unit_zero (S := S10000x1) off_zero5, View.ld_unit_zero (S := S1x1) off_zero5]
  exact read_blk5_2 t G _ (hG t)

/-- An index of the output array is in point `t`'s block iff each coordinate is in the block's range on its axis. -/
theorem mem_blk5_2 (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v75).slice (win5_2.rect t)).set ↔ _
  rw [View.set_slice_whole, Rect.mem_set_unit]
  exact Iff.rfl

/-- The ten blocks tile the output array: row `i 0` is in the block of point `i 0 / 10000`. -/
theorem blocks_cover5 (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hN : (i 0).val / 10000 < grid5.N := by rw [N_5]; omega
  refine ⟨⟨(i 0).val / 10000, hN⟩, flush5_2 _, ?_⟩
  rw [mem_blk5_2]
  obtain ⟨e0, e1, -, -, -, -⟩ := index_facts5 ⟨(i 0).val / 10000, hN⟩
  have e0' : win5_2.index ⟨(i 0).val / 10000, hN⟩ (0 : Fin 2) = (i 0).val / 10000 := e0
  intro a
  match a with
  | ⟨0, _⟩ => show win5_2.index ⟨(i 0).val / 10000, hN⟩ (0 : Fin 2) * 10000 ≤ (i 0).val ∧ (i 0).val < win5_2.index ⟨(i 0).val / 10000, hN⟩ (0 : Fin 2) * 10000 + 10000; omega
  | ⟨1, _⟩ => show win5_2.index ⟨(i 0).val / 10000, hN⟩ (1 : Fin 2) * 1 ≤ (i 1).val ∧ (i 1).val < win5_2.index ⟨(i 0).val / 10000, hN⟩ (1 : Fin 2) * 1 + 1; omega

/-- THE OUTPUT ARRAY after the region is `G`, for any `G` the payload agrees with block by block. -/
theorem arr5_eq (c : Dev nD) (G : S100000x1.Idx → Elt F .f32)
    (hG : ∀ (t : Fin cfg5.N) (r : Fin 10000) (j : Fin 1),
      k5_pay1 (iblk5 V c 0 t) (iblk5 V c 1 t) (ValueIdx.ix2 r j) = G (ValueIdx.ix2 ⟨10000 * t.val + r.val, row_lt5 t r⟩ j)) :
    (dat5 V c).arrAt 2 cfg5.N = G :=
  (dat5 V c).arrAt_eq_of_cover 2 G (fun t _ => flushed5_2_eq V c G hG t) (blocks_cover5)

end Cert.KernelIdeal.Hand
-- ==== Proof.KI.G5.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V5
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 5 (a bias layer of width 1: the sine of ten times the biased entry): when the small array it finds is the host's reshape of a
    width-1 bias vector, the array it leaves is the reference's operations of the array it finds and that vector:
    both are, at row `R` and column `j`, the same expression of the entry and the bias's `j`-th entry. -/
theorem val5 (c : Dev nD) (bias : FVec Ideal Cert.ReferenceIdeal.S1 .f32)
    (hb : V c (Pipeline.arrRef spec5 1) = shapeCast S1x1 bias shapeCasts_S1_S1x1) :
    (dat5 (F := Ideal) V c).arrAt 2 cfg5.N
      = Host.sin (mulf (addf (V c (Pipeline.arrRef spec5 0) : FVec Ideal Cert.ReferenceIdeal.S100000x1 .f32) (broadcastInDim Cert.ReferenceIdeal.S100000x1 ![0, 1] Cert.ReferenceIdeal.Gen.bcast_S1x1_S100000x1_0_1 (broadcastInDim Cert.ReferenceIdeal.S1x1 ![1] Cert.ReferenceIdeal.Gen.bcast_S1_S1x1_1 bias)))
          (broadcastInDim Cert.ReferenceIdeal.S100000x1 ![] Cert.ReferenceIdeal.Gen.bcast_S_S100000x1 (constant (F := Ideal) Cert.ReferenceIdeal.S_ .f32 0x41200000#32))) :=
  arr5_eq V c _ (fun t r j => by
    refine (Cert.Bridge.pay5_at (iblk5 V c 0 t) (iblk5 V c 1 t) r j).trans ?_
    refine Eq.trans ?_ (Cert.Bridge.refSin_at _ bias ⟨10000 * t.val + r.val, row_lt5 t r⟩ j).symm
    rw [iblk5_0_at V c t r j, iblk5_1_at V c t (ValueIdx.ix2 (0 : Fin 1) j), hb, Cert.Bridge.biasReshape1_at,
      Subsingleton.elim j (0 : Fin 1)])

end Cert.KernelIdeal.Hand
-- ==== Proof.KI.V6.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A6
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 6: its blocks as parts of its arrays -/

/-- The offsets of every access of the body are zero, on both axes. -/
theorem off_zero6 : (![0, 0] : Fin 2 → Nat) = fun _ => 0 := funext fun a => by fin_cases a <;> rfl

/-- The grid has ten points. -/
theorem point_lt6 (t : Fin cfg6.N) : t.val < 10 := by
  have h : t.val < grid6.N := t.isLt
  rw [N_6] at h; exact h

/-- Row `r` of block `t` is a row of the array: `10000 * t + r < 100000`. -/
theorem row_lt6 (t : Fin cfg6.N) (r : Fin 10000) : 10000 * t.val + r.val < 100000 := by
  have := point_lt6 t; omega

/-- The printed index maps, decided over the ten points: the output's and input 0's block index is the point on the row
    axis and zero on the column axis; input 1's is zero on both. -/
theorem index_facts6 : ∀ t : Fin cfg6.N, win6_2.index t (0 : Fin 2) = t.val ∧ win6_2.index t (1 : Fin 2) = 0
    ∧ win6_0.index t (0 : Fin 2) = t.val ∧ win6_0.index t (1 : Fin 2) = 0
    ∧ win6_1.index t (0 : Fin 2) = 0 ∧ win6_1.index t (1 : Fin 2) = 0 :=
  (by decide +kernel : ∀ t : Fin grid6.N, _)

/-- The output block at point `t`, index by index: row `r`, column `j` of the block is row `10000 * t + r`, column `j`
    of the array (a block's coordinate is its index times its extent plus the coordinate inside the block). -/
theorem emb6_2 (t : Fin cfg6.N) (r : Fin 10000) (j : Fin 4) :
    ((cfg6.win 2).blk t).view.emb (ValueIdx.ix2 r j) = (ValueIdx.ix2 ⟨10000 * t.val + r.val, row_lt6 t r⟩ j : S100000x4.Idx) := by
  obtain ⟨e0, e1, -, -, -, -⟩ := index_facts6 t
  funext a; apply Fin.ext
  match a with
  | ⟨0, _⟩ => show win6_2.index t (0 : Fin 2) * 10000 + 1 * r.val = 10000 * t.val + r.val; omega
  | ⟨1, _⟩ => show win6_2.index t (1 : Fin 2) * 4 + 1 * j.val = j.val; omega

/-- Input window 0's block at point `t`, likewise. -/
theorem emb6_0 (t : Fin cfg6.N) (r : Fin 10000) (k : Fin 1) :
    ((cfg6.win 0).blk t).view.emb (ValueIdx.ix2 r k) = (ValueIdx.ix2 ⟨10000 * t.val + r.val, row_lt6 t r⟩ k : S100000x1.Idx) := by
  obtain ⟨-, -, e0, e1, -, -⟩ := index_facts6 t
  funext a; apply Fin.ext
  match a with
  | ⟨0, _⟩ => show win6_0.index t (0 : Fin 2) * 10000 + 1 * r.val = 10000 * t.val + r.val; omega
  | ⟨1, _⟩ => show win6_0.index t (1 : Fin 2) * 1 + 1 * k.val = k.val; omega

/-- Input window 1's block is the whole of its array at every point. -/
theorem emb6_1 (t : Fin cfg6.N) (y : S1x4.Idx) : ((cfg6.win 1).blk t).view.emb y = y := by
  obtain ⟨-, -, -, -, e0, e1⟩ := index_facts6 t
  funext a; apply Fin.ext
  match a with
  | ⟨0, _⟩ => show win6_1.index t (0 : Fin 2) * 1 + 1 * (y 0).val = (y 0).val; omega
  | ⟨1, _⟩ => show win6_1.index t (1 : Fin 2) * 4 + 1 * (y 1).val = (y 1).val; omega

/-- Input 0's block at a point, read at a row and a column, is its array as the region finds it at the row of the array. -/
theorem iblk6_0_at (c : Dev nD) (t : Fin cfg6.N) (r : Fin 10000) (k : Fin 1) :
    iblk6 V c 0 t (ValueIdx.ix2 r k) = V c (Pipeline.arrRef spec6 0) (ValueIdx.ix2 ⟨10000 * t.val + r.val, row_lt6 t r⟩ k : S100000x1.Idx) := by
  show V c (Pipeline.arrRef spec6 0) (((cfg6.win 0).blk t).view.emb (ValueIdx.ix2 r k)) = _
  rw [emb6_0]

/-- Input 1's block at a point is its whole array as the region finds it. -/
theorem iblk6_1_at (c : Dev nD) (t : Fin cfg6.N) (y : S1x4.Idx) :
    iblk6 V c 1 t y = V c (Pipeline.arrRef spec6 1) y := by
  show V c (Pipeline.arrRef spec6 1) (((cfg6.win 1).blk t).view.emb y) = _
  rw [emb6_1]

/-! ## What a point writes back, and the array after the run -/

/-- A block's worth of values that agrees with `G` row by row and column by column is block `t` of `G`. -/
theorem read_blk6_2 (t : Fin cfg6.N) (G : S100000x4.Idx → Elt F .f32) (P : S10000x4.Idx → Elt F .f32)
    (h : ∀ (r : Fin 10000) (j : Fin 4), P (ValueIdx.ix2 r j) = G (ValueIdx.ix2 ⟨10000 * t.val + r.val, row_lt6 t r⟩ j)) :
    P = ((cfg6.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg6.win 2).blk t).view.emb (ValueIdx.ix2 r j))
  rw [emb6_2]

/-- What point `t` writes back to the output array is block `t` of `G`, when the payload at the point's input blocks
    agrees with `G` on that block: the one store leaves its payload, the two loads read the input blocks whole. -/
theorem flushed6_2_eq (c : Dev nD) (G : S100000x4.Idx → Elt F .f32)
    (hG : ∀ (t : Fin cfg6.N) (r : Fin 10000) (j : Fin 4),
      k6_pay1 (iblk6 V c 0 t) (iblk6 V c 1 t) (ValueIdx.ix2 r j) = G (ValueIdx.ix2 ⟨10000 * t.val + r.val, row_lt6 t r⟩ j))
    (t : Fin cfg6.N) :
    (dat6 V c).flushed 2 t = ((cfg6.win 2).blk t).view.read (Elt F) G := by
  show (cfg6.win 2).cut (grid6.coords t) ((dat6 V c).after 2 t) = _
  rw [after6_2]
  unfold out6_2
  rw [View.canon_unit_zero off_zero6]
  simp only [View.ld_unit_zero (S := S10000x1) off_zero6, View.ld_unit_zero (S := S1x4) off_zero6]
  exact read_blk6_2 t G _ (hG t)

/-- An index of the output array is in point `t`'s block iff each coordinate is in the block's range on its axis. -/
theorem mem_blk6_2 (t : Fin cfg6.N) (i : S100000x4.Idx) :
    i ∈ ((cfg6.win 2).blk t).view.set ↔ ∀ a : Fin 2, win6_2.index t a * S10000x4.size a ≤ (i a).val ∧ (i a).val < win6_2.index t a * S10000x4.size a + S10000x4.size a := by
  show i ∈ ((View.whole main_v76).slice (win6_2.rect t)).set ↔ _
  rw [View.set_slice_whole, Rect.mem_set_unit]
  exact Iff.rfl

/-- The ten blocks tile the output array: row `i 0` is in the block of point `i 0 / 10000`. -/
theorem blocks_cover6 (i : S100000x4.Idx) :
    ∃ t : Fin cfg6.N, (cfg6.win 2).flush t = true ∧ i ∈ ((cfg6.win 2).blk t).view.set := by
  have hi0 : (i 0).val < 100000 := (i 0).isLt
  have hi1 : (i 1).val < 4 := (i 1).isLt
  have hN : (i 0).val / 10000 < grid6.N := by rw [N_6]; omega
  refine ⟨⟨(i 0).val / 10000, hN⟩, flush6_2 _, ?_⟩
  rw [mem_blk6_2]
  obtain ⟨e0, e1, -, -, -, -⟩ := index_facts6 ⟨(i 0).val / 10000, hN⟩
  have e0' : win6_2.index ⟨(i 0).val / 10000, hN⟩ (0 : Fin 2) = (i 0).val / 10000 := e0
  intro a
  match a with
  | ⟨0, _⟩ => show win6_2.index ⟨(i 0).val / 10000, hN⟩ (0 : Fin 2) * 10000 ≤ (i 0).val ∧ (i 0).val < win6_2.index ⟨(i 0).val / 10000, hN⟩ (0 : Fin 2) * 10000 + 10000; omega
  | ⟨1, _⟩ => show win6_2.index ⟨(i 0).val / 10000, hN⟩ (1 : Fin 2) * 4 ≤ (i 1).val ∧ (i 1).val < win6_2.index ⟨(i 0).val / 10000, hN⟩ (1 : Fin 2) * 4 + 4; omega

/-- THE OUTPUT ARRAY after the region is `G`, for any `G` the payload agrees with block by block. -/
theorem arr6_eq (c : Dev nD) (G : S100000x4.Idx → Elt F .f32)
    (hG : ∀ (t : Fin cfg6.N) (r : Fin 10000) (j : Fin 4),
      k6_pay1 (iblk6 V c 0 t) (iblk6 V c 1 t) (ValueIdx.ix2 r j) = G (ValueIdx.ix2 ⟨10000 * t.val + r.val, row_lt6 t r⟩ j)) :
    (dat6 V c).arrAt 2 cfg6.N = G :=
  (dat6 V c).arrAt_eq_of_cover 2 G (fun t _ => flushed6_2_eq V c G hG t) (blocks_cover6)

end Cert.KernelIdeal.Hand
-- ==== Proof.KI.G6.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V6
import proofs.«147273_j88914412962548_1_alg».proof.Proof.B.Dense14
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 6 (a dense layer, 1 → 4): the array it leaves is the reference's `dot_general` of the two arrays it
    finds: both are, at row `R` and column `j`, the sum over the contracted axis of the products. -/
theorem val6 (c : Dev nD) :
    (dat6 (F := Ideal) V c).arrAt 2 cfg6.N
      = Host.dotGeneral (F := Ideal) (φ₁ := .f32) (φ₂ := .f32) Cert.ReferenceIdeal.dot_S100000x1_S1x4_S100000x4_1_0_0_1_n_n none
          (V c (Pipeline.arrRef spec6 0) : FVec Ideal Cert.ReferenceIdeal.S100000x1 .f32)
          (V c (Pipeline.arrRef spec6 1) : FVec Ideal Cert.ReferenceIdeal.S1x4 .f32) :=
  arr6_eq V c _ (fun t r j => by
    refine (Cert.Bridge.pay6_at (iblk6 V c 0 t) (iblk6 V c 1 t) r j).trans ?_
    refine Eq.trans ?_ (Cert.Bridge.refDot14_at _ _ ⟨10000 * t.val + r.val, row_lt6 t r⟩ j).symm
    refine Finset.sum_congr rfl fun k _ => ?_
    rw [iblk6_0_at V c t r k, iblk6_1_at V c t (ValueIdx.ix2 k j)])

end Cert.KernelIdeal.Hand
-- ==== Proof.KI.V7.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A7
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 7: its blocks as parts of its arrays -/

/-- The offsets of every access of the body are zero, on both axes. -/
theorem off_zero7 : (![0, 0] : Fin 2 → Nat) = fun _ => 0 := funext fun a => by fin_cases a <;> rfl

/-- The grid has ten points. -/
theorem point_lt7 (t : Fin cfg7.N) : t.val < 10 := by
  have h : t.val < grid7.N := t.isLt
  rw [N_7] at h; exact h

/-- Row `r` of block `t` is a row of the array: `10000 * t + r < 100000`. -/
theorem row_lt7 (t : Fin cfg7.N) (r : Fin 10000) : 10000 * t.val + r.val < 100000 := by
  have := point_lt7 t; omega

/-- The printed index maps, decided over the ten points: the output's and input 0's block index is the point on the row
    axis and zero on the column axis; input 1's is zero on both. -/
theorem index_facts7 : ∀ t : Fin cfg7.N, win7_2.index t (0 : Fin 2) = t.val ∧ win7_2.index t (1 : Fin 2) = 0
    ∧ win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- The output block at point `t`, index by index: row `r`, column `j` of the block is row `10000 * t + r`, column `j`
    of the array (a block's coordinate is its index times its extent plus the coordinate inside the block). -/
theorem emb7_2 (t : Fin cfg7.N) (r : Fin 10000) (j : Fin 4) :
    ((cfg7.win 2).blk t).view.emb (ValueIdx.ix2 r j) = (ValueIdx.ix2 ⟨10000 * t.val + r.val, row_lt7 t r⟩ j : S100000x4.Idx) := by
  obtain ⟨e0, e1, -, -, -, -⟩ := index_facts7 t
  funext a; apply Fin.ext
  match a with
  | ⟨0, _⟩ => show win7_2.index t (0 : Fin 2) * 10000 + 1 * r.val = 10000 * t.val + r.val; omega
  | ⟨1, _⟩ => show win7_2.index t (1 : Fin 2) * 4 + 1 * j.val = j.val; omega

/-- Input window 0's block at point `t`, likewise. -/
theorem emb7_0 (t : Fin cfg7.N) (r : Fin 10000) (k : Fin 4) :
    ((cfg7.win 0).blk t).view.emb (ValueIdx.ix2 r k) = (ValueIdx.ix2 ⟨10000 * t.val + r.val, row_lt7 t r⟩ k : S100000x4.Idx) := by
  obtain ⟨-, -, e0, e1, -, -⟩ := index_facts7 t
  funext a; apply Fin.ext
  match a with
  | ⟨0, _⟩ => show win7_0.index t (0 : Fin 2) * 10000 + 1 * r.val = 10000 * t.val + r.val; omega
  | ⟨1, _⟩ => show win7_0.index t (1 : Fin 2) * 4 + 1 * k.val = k.val; omega

/-- Input window 1's block is the whole of its array at every point. -/
theorem emb7_1 (t : Fin cfg7.N) (y : S1x4.Idx) : ((cfg7.win 1).blk t).view.emb y = y := by
  obtain ⟨-, -, -, -, e0, e1⟩ := index_facts7 t
  funext a; apply Fin.ext
  match a with
  | ⟨0, _⟩ => show win7_1.index t (0 : Fin 2) * 1 + 1 * (y 0).val = (y 0).val; omega
  | ⟨1, _⟩ => show win7_1.index t (1 : Fin 2) * 4 + 1 * (y 1).val = (y 1).val; omega

/-- Input 0's block at a point, read at a row and a column, is its array as the region finds it at the row of the array. -/
theorem iblk7_0_at (c : Dev nD) (t : Fin cfg7.N) (r : Fin 10000) (k : Fin 4) :
    iblk7 V c 0 t (ValueIdx.ix2 r k) = V c (Pipeline.arrRef spec7 0) (ValueIdx.ix2 ⟨10000 * t.val + r.val, row_lt7 t r⟩ k : S100000x4.Idx) := by
  show V c (Pipeline.arrRef spec7 0) (((cfg7.win 0).blk t).view.emb (ValueIdx.ix2 r k)) = _
  rw [emb7_0]

/-- Input 1's block at a point is its whole array as the region finds it. -/
theorem iblk7_1_at (c : Dev nD) (t : Fin cfg7.N) (y : S1x4.Idx) :
    iblk7 V c 1 t y = V c (Pipeline.arrRef spec7 1) y := by
  show V c (Pipeline.arrRef spec7 1) (((cfg7.win 1).blk t).view.emb y) = _
  rw [emb7_1]

/-! ## What a point writes back, and the array after the run -/

/-- A block's worth of values that agrees with `G` row by row and column by column is block `t` of `G`. -/
theorem read_blk7_2 (t : Fin cfg7.N) (G : S100000x4.Idx → Elt F .f32) (P : S10000x4.Idx → Elt F .f32)
    (h : ∀ (r : Fin 10000) (j : Fin 4), P (ValueIdx.ix2 r j) = G (ValueIdx.ix2 ⟨10000 * t.val + r.val, row_lt7 t r⟩ j)) :
    P = ((cfg7.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg7.win 2).blk t).view.emb (ValueIdx.ix2 r j))
  rw [emb7_2]

/-- What point `t` writes back to the output array is block `t` of `G`, when the payload at the point's input blocks
    agrees with `G` on that block: the one store leaves its payload, the two loads read the input blocks whole. -/
theorem flushed7_2_eq (c : Dev nD) (G : S100000x4.Idx → Elt F .f32)
    (hG : ∀ (t : Fin cfg7.N) (r : Fin 10000) (j : Fin 4),
      k7_pay1 (iblk7 V c 0 t) (iblk7 V c 1 t) (ValueIdx.ix2 r j) = G (ValueIdx.ix2 ⟨10000 * t.val + r.val, row_lt7 t r⟩ j))
    (t : Fin cfg7.N) :
    (dat7 V c).flushed 2 t = ((cfg7.win 2).blk t).view.read (Elt F) G := by
  show (cfg7.win 2).cut (grid7.coords t) ((dat7 V c).after 2 t) = _
  rw [after7_2]
  unfold out7_2
  rw [View.canon_unit_zero off_zero7]
  simp only [View.ld_unit_zero (S := S10000x4) off_zero7, View.ld_unit_zero (S := S1x4) off_zero7]
  exact read_blk7_2 t G _ (hG t)

/-- An index of the output array is in point `t`'s block iff each coordinate is in the block's range on its axis. -/
theorem mem_blk7_2 (t : Fin cfg7.N) (i : S100000x4.Idx) :
    i ∈ ((cfg7.win 2).blk t).view.set ↔ ∀ a : Fin 2, win7_2.index t a * S10000x4.size a ≤ (i a).val ∧ (i a).val < win7_2.index t a * S10000x4.size a + S10000x4.size a := by
  show i ∈ ((View.whole main_v91).slice (win7_2.rect t)).set ↔ _
  rw [View.set_slice_whole, Rect.mem_set_unit]
  exact Iff.rfl

/-- The ten blocks tile the output array: row `i 0` is in the block of point `i 0 / 10000`. -/
theorem blocks_cover7 (i : S100000x4.Idx) :
    ∃ t : Fin cfg7.N, (cfg7.win 2).flush t = true ∧ i ∈ ((cfg7.win 2).blk t).view.set := by
  have hi0 : (i 0).val < 100000 := (i 0).isLt
  have hi1 : (i 1).val < 4 := (i 1).isLt
  have hN : (i 0).val / 10000 < grid7.N := by rw [N_7]; omega
  refine ⟨⟨(i 0).val / 10000, hN⟩, flush7_2 _, ?_⟩
  rw [mem_blk7_2]
  obtain ⟨e0, e1, -, -, -, -⟩ := index_facts7 ⟨(i 0).val / 10000, hN⟩
  have e0' : win7_2.index ⟨(i 0).val / 10000, hN⟩ (0 : Fin 2) = (i 0).val / 10000 := e0
  intro a
  match a with
  | ⟨0, _⟩ => show win7_2.index ⟨(i 0).val / 10000, hN⟩ (0 : Fin 2) * 10000 ≤ (i 0).val ∧ (i 0).val < win7_2.index ⟨(i 0).val / 10000, hN⟩ (0 : Fin 2) * 10000 + 10000; omega
  | ⟨1, _⟩ => show win7_2.index ⟨(i 0).val / 10000, hN⟩ (1 : Fin 2) * 4 ≤ (i 1).val ∧ (i 1).val < win7_2.index ⟨(i 0).val / 10000, hN⟩ (1 : Fin 2) * 4 + 4; omega

/-- THE OUTPUT ARRAY after the region is `G`, for any `G` the payload agrees with block by block. -/
theorem arr7_eq (c : Dev nD) (G : S100000x4.Idx → Elt F .f32)
    (hG : ∀ (t : Fin cfg7.N) (r : Fin 10000) (j : Fin 4),
      k7_pay1 (iblk7 V c 0 t) (iblk7 V c 1 t) (ValueIdx.ix2 r j) = G (ValueIdx.ix2 ⟨10000 * t.val + r.val, row_lt7 t r⟩ j)) :
    (dat7 V c).arrAt 2 cfg7.N = G :=
  (dat7 V c).arrAt_eq_of_cover 2 G (fun t _ => flushed7_2_eq V c G hG t) (blocks_cover7)

end Cert.KernelIdeal.Hand
-- ==== Proof.KI.G7.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V7
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 7 (a bias layer of width 4: the bias added and the result clamped below at zero): when the small array it finds is the host's reshape of a
    width-4 bias vector, the array it leaves is the reference's operations of the array it finds and that vector:
    both are, at row `R` and column `j`, the same expression of the entry and the bias's `j`-th entry. -/
theorem val7 (c : Dev nD) (bias : FVec Ideal Cert.ReferenceIdeal.S4 .f32)
    (hb : V c (Pipeline.arrRef spec7 1) = shapeCast S1x4 bias shapeCasts_S4_S1x4) :
    (dat7 (F := Ideal) V c).arrAt 2 cfg7.N
      = maximumf (addf (V c (Pipeline.arrRef spec7 0) : FVec Ideal Cert.ReferenceIdeal.S100000x4 .f32) (broadcastInDim Cert.ReferenceIdeal.S100000x4 ![0, 1] Cert.ReferenceIdeal.Gen.bcast_S1x4_S100000x4_0_1 (broadcastInDim Cert.ReferenceIdeal.S1x4 ![1] Cert.ReferenceIdeal.Gen.bcast_S4_S1x4_1 bias)))
          (broadcastInDim Cert.ReferenceIdeal.S100000x4 ![] Cert.ReferenceIdeal.Gen.bcast_S_S100000x4 (constant (F := Ideal) Cert.ReferenceIdeal.S_ .f32 0x00000000#32)) :=
  arr7_eq V c _ (fun t r j => by
    refine (Cert.Bridge.pay7_at (iblk7 V c 0 t) (iblk7 V c 1 t) r j).trans ?_
    refine Eq.trans ?_ (Cert.Bridge.refRelu4_at _ bias ⟨10000 * t.val + r.val, row_lt7 t r⟩ j).symm
    rw [iblk7_0_at V c t r j, iblk7_1_at V c t (ValueIdx.ix2 (0 : Fin 1) j), hb, Cert.Bridge.biasReshape4_at])

end Cert.KernelIdeal.Hand
-- ==== Proof.KI.V8.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A8
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 8: its blocks as parts of its arrays -/

/-- The offsets of every access of the body are zero, on both axes. -/
theorem off_zero8 : (![0, 0] : Fin 2 → Nat) = fun _ => 0 := funext fun a => by fin_cases a <;> rfl

/-- The grid has ten points. -/
theorem point_lt8 (t : Fin cfg8.N) : t.val < 10 := by
  have h : t.val < grid8.N := t.isLt
  rw [N_8] at h; exact h

/-- Row `r` of block `t` is a row of the array: `10000 * t + r < 100000`. -/
theorem row_lt8 (t : Fin cfg8.N) (r : Fin 10000) : 10000 * t.val + r.val < 100000 := by
  have := point_lt8 t; omega

/-- The printed index maps, decided over the ten points: the output's and input 0's block index is the point on the row
    axis and zero on the column axis; input 1's is zero on both. -/
theorem index_facts8 : ∀ t : Fin cfg8.N, win8_2.index t (0 : Fin 2) = t.val ∧ win8_2.index t (1 : Fin 2) = 0
    ∧ win8_0.index t (0 : Fin 2) = t.val ∧ win8_0.index t (1 : Fin 2) = 0
    ∧ win8_1.index t (0 : Fin 2) = 0 ∧ win8_1.index t (1 : Fin 2) = 0 :=
  (by decide +kernel : ∀ t : Fin grid8.N, _)

/-- The output block at point `t`, index by index: row `r`, column `j` of the block is row `10000 * t + r`, column `j`
    of the array (a block's coordinate is its index times its extent plus the coordinate inside the block). -/
theorem emb8_2 (t : Fin cfg8.N) (r : Fin 10000) (j : Fin 4) :
    ((cfg8.win 2).blk t).view.emb (ValueIdx.ix2 r j) = (ValueIdx.ix2 ⟨10000 * t.val + r.val, row_lt8 t r⟩ j : S100000x4.Idx) := by
  obtain ⟨e0, e1, -, -, -, -⟩ := index_facts8 t
  funext a; apply Fin.ext
  match a with
  | ⟨0, _⟩ => show win8_2.index t (0 : Fin 2) * 10000 + 1 * r.val = 10000 * t.val + r.val; omega
  | ⟨1, _⟩ => show win8_2.index t (1 : Fin 2) * 4 + 1 * j.val = j.val; omega

/-- Input window 0's block at point `t`, likewise. -/
theorem emb8_0 (t : Fin cfg8.N) (r : Fin 10000) (k : Fin 4) :
    ((cfg8.win 0).blk t).view.emb (ValueIdx.ix2 r k) = (ValueIdx.ix2 ⟨10000 * t.val + r.val, row_lt8 t r⟩ k : S100000x4.Idx) := by
  obtain ⟨-, -, e0, e1, -, -⟩ := index_facts8 t
  funext a; apply Fin.ext
  match a with
  | ⟨0, _⟩ => show win8_0.index t (0 : Fin 2) * 10000 + 1 * r.val = 10000 * t.val + r.val; omega
  | ⟨1, _⟩ => show win8_0.index t (1 : Fin 2) * 4 + 1 * k.val = k.val; omega

/-- Input window 1's block is the whole of its array at every point. -/
theorem emb8_1 (t : Fin cfg8.N) (y : S4x4.Idx) : ((cfg8.win 1).blk t).view.emb y = y := by
  obtain ⟨-, -, -, -, e0, e1⟩ := index_facts8 t
  funext a; apply Fin.ext
  match a with
  | ⟨0, _⟩ => show win8_1.index t (0 : Fin 2) * 4 + 1 * (y 0).val = (y 0).val; omega
  | ⟨1, _⟩ => show win8_1.index t (1 : Fin 2) * 4 + 1 * (y 1).val = (y 1).val; omega

/-- Input 0's block at a point, read at a row and a column, is its array as the region finds it at the row of the array. -/
theorem iblk8_0_at (c : Dev nD) (t : Fin cfg8.N) (r : Fin 10000) (k : Fin 4) :
    iblk8 V c 0 t (ValueIdx.ix2 r k) = V c (Pipeline.arrRef spec8 0) (ValueIdx.ix2 ⟨10000 * t.val + r.val, row_lt8 t r⟩ k : S100000x4.Idx) := by
  show V c (Pipeline.arrRef spec8 0) (((cfg8.win 0).blk t).view.emb (ValueIdx.ix2 r k)) = _
  rw [emb8_0]

/-- Input 1's block at a point is its whole array as the region finds it. -/
theorem iblk8_1_at (c : Dev nD) (t : Fin cfg8.N) (y : S4x4.Idx) :
    iblk8 V c 1 t y = V c (Pipeline.arrRef spec8 1) y := by
  show V c (Pipeline.arrRef spec8 1) (((cfg8.win 1).blk t).view.emb y) = _
  rw [emb8_1]

/-! ## What a point writes back, and the array after the run -/

/-- A block's worth of values that agrees with `G` row by row and column by column is block `t` of `G`. -/
theorem read_blk8_2 (t : Fin cfg8.N) (G : S100000x4.Idx → Elt F .f32) (P : S10000x4.Idx → Elt F .f32)
    (h : ∀ (r : Fin 10000) (j : Fin 4), P (ValueIdx.ix2 r j) = G (ValueIdx.ix2 ⟨10000 * t.val + r.val, row_lt8 t r⟩ j)) :
    P = ((cfg8.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg8.win 2).blk t).view.emb (ValueIdx.ix2 r j))
  rw [emb8_2]

/-- What point `t` writes back to the output array is block `t` of `G`, when the payload at the point's input blocks
    agrees with `G` on that block: the one store leaves its payload, the two loads read the input blocks whole. -/
theorem flushed8_2_eq (c : Dev nD) (G : S100000x4.Idx → Elt F .f32)
    (hG : ∀ (t : Fin cfg8.N) (r : Fin 10000) (j : Fin 4),
      k8_pay1 (iblk8 V c 0 t) (iblk8 V c 1 t) (ValueIdx.ix2 r j) = G (ValueIdx.ix2 ⟨10000 * t.val + r.val, row_lt8 t r⟩ j))
    (t : Fin cfg8.N) :
    (dat8 V c).flushed 2 t = ((cfg8.win 2).blk t).view.read (Elt F) G := by
  show (cfg8.win 2).cut (grid8.coords t) ((dat8 V c).after 2 t) = _
  rw [after8_2]
  unfold out8_2
  rw [View.canon_unit_zero off_zero8]
  simp only [View.ld_unit_zero (S := S10000x4) off_zero8, View.ld_unit_zero (S := S4x4) off_zero8]
  exact read_blk8_2 t G _ (hG t)

/-- An index of the output array is in point `t`'s block iff each coordinate is in the block's range on its axis. -/
theorem mem_blk8_2 (t : Fin cfg8.N) (i : S100000x4.Idx) :
    i ∈ ((cfg8.win 2).blk t).view.set ↔ ∀ a : Fin 2, win8_2.index t a * S10000x4.size a ≤ (i a).val ∧ (i a).val < win8_2.index t a * S10000x4.size a + S10000x4.size a := by
  show i ∈ ((View.whole main_v92).slice (win8_2.rect t)).set ↔ _
  rw [View.set_slice_whole, Rect.mem_set_unit]
  exact Iff.rfl

/-- The ten blocks tile the output array: row `i 0` is in the block of point `i 0 / 10000`. -/
theorem blocks_cover8 (i : S100000x4.Idx) :
    ∃ t : Fin cfg8.N, (cfg8.win 2).flush t = true ∧ i ∈ ((cfg8.win 2).blk t).view.set := by
  have hi0 : (i 0).val < 100000 := (i 0).isLt
  have hi1 : (i 1).val < 4 := (i 1).isLt
  have hN : (i 0).val / 10000 < grid8.N := by rw [N_8]; omega
  refine ⟨⟨(i 0).val / 10000, hN⟩, flush8_2 _, ?_⟩
  rw [mem_blk8_2]
  obtain ⟨e0, e1, -, -, -, -⟩ := index_facts8 ⟨(i 0).val / 10000, hN⟩
  have e0' : win8_2.index ⟨(i 0).val / 10000, hN⟩ (0 : Fin 2) = (i 0).val / 10000 := e0
  intro a
  match a with
  | ⟨0, _⟩ => show win8_2.index ⟨(i 0).val / 10000, hN⟩ (0 : Fin 2) * 10000 ≤ (i 0).val ∧ (i 0).val < win8_2.index ⟨(i 0).val / 10000, hN⟩ (0 : Fin 2) * 10000 + 10000; omega
  | ⟨1, _⟩ => show win8_2.index ⟨(i 0).val / 10000, hN⟩ (1 : Fin 2) * 4 ≤ (i 1).val ∧ (i 1).val < win8_2.index ⟨(i 0).val / 10000, hN⟩ (1 : Fin 2) * 4 + 4; omega

/-- THE OUTPUT ARRAY after the region is `G`, for any `G` the payload agrees with block by block. -/
theorem arr8_eq (c : Dev nD) (G : S100000x4.Idx → Elt F .f32)
    (hG : ∀ (t : Fin cfg8.N) (r : Fin 10000) (j : Fin 4),
      k8_pay1 (iblk8 V c 0 t) (iblk8 V c 1 t) (ValueIdx.ix2 r j) = G (ValueIdx.ix2 ⟨10000 * t.val + r.val, row_lt8 t r⟩ j)) :
    (dat8 V c).arrAt 2 cfg8.N = G :=
  (dat8 V c).arrAt_eq_of_cover 2 G (fun t _ => flushed8_2_eq V c G hG t) (blocks_cover8)

end Cert.KernelIdeal.Hand
-- ==== Proof.KI.G8.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V8
import proofs.«147273_j88914412962548_1_alg».proof.Proof.B.Dense44
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 8 (a dense layer, 4 → 4): the array it leaves is the reference's `dot_general` of the two arrays it
    finds: both are, at row `R` and column `j`, the sum over the contracted axis of the products. -/
theorem val8 (c : Dev nD) :
    (dat8 (F := Ideal) V c).arrAt 2 cfg8.N
      = Host.dotGeneral (F := Ideal) (φ₁ := .f32) (φ₂ := .f32) Cert.ReferenceIdeal.dot_S100000x4_S4x4_S100000x4_1_0_0_1_n_n none
          (V c (Pipeline.arrRef spec8 0) : FVec Ideal Cert.ReferenceIdeal.S100000x4 .f32)
          (V c (Pipeline.arrRef spec8 1) : FVec Ideal Cert.ReferenceIdeal.S4x4 .f32) :=
  arr8_eq V c _ (fun t r j => by
    refine (Cert.Bridge.pay8_at (iblk8 V c 0 t) (iblk8 V c 1 t) r j).trans ?_
    refine Eq.trans ?_ (Cert.Bridge.refDot44_at _ _ ⟨10000 * t.val + r.val, row_lt8 t r⟩ j).symm
    refine Finset.sum_congr rfl fun k _ => ?_
    rw [iblk8_0_at V c t r k, iblk8_1_at V c t (ValueIdx.ix2 k j)])

end Cert.KernelIdeal.Hand
-- ==== Proof.KI.V9.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A9
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 9: its blocks as parts of its arrays -/

/-- The offsets of every access of the body are zero, on both axes. -/
theorem off_zero9 : (![0, 0] : Fin 2 → Nat) = fun _ => 0 := funext fun a => by fin_cases a <;> rfl

/-- The grid has ten points. -/
theorem point_lt9 (t : Fin cfg9.N) : t.val < 10 := by
  have h : t.val < grid9.N := t.isLt
  rw [N_9] at h; exact h

/-- Row `r` of block `t` is a row of the array: `10000 * t + r < 100000`. -/
theorem row_lt9 (t : Fin cfg9.N) (r : Fin 10000) : 10000 * t.val + r.val < 100000 := by
  have := point_lt9 t; omega

/-- The printed index maps, decided over the ten points: the output's and input 0's block index is the point on the row
    axis and zero on the column axis; input 1's is zero on both. -/
theorem index_facts9 : ∀ t : Fin cfg9.N, win9_2.index t (0 : Fin 2) = t.val ∧ win9_2.index t (1 : Fin 2) = 0
    ∧ win9_0.index t (0 : Fin 2) = t.val ∧ win9_0.index t (1 : Fin 2) = 0
    ∧ win9_1.index t (0 : Fin 2) = 0 ∧ win9_1.index t (1 : Fin 2) = 0 :=
  (by decide +kernel : ∀ t : Fin grid9.N, _)

/-- The output block at point `t`, index by index: row `r`, column `j` of the block is row `10000 * t + r`, column `j`
    of the array (a block's coordinate is its index times its extent plus the coordinate inside the block). -/
theorem emb9_2 (t : Fin cfg9.N) (r : Fin 10000) (j : Fin 4) :
    ((cfg9.win 2).blk t).view.emb (ValueIdx.ix2 r j) = (ValueIdx.ix2 ⟨10000 * t.val + r.val, row_lt9 t r⟩ j : S100000x4.Idx) := by
  obtain ⟨e0, e1, -, -, -, -⟩ := index_facts9 t
  funext a; apply Fin.ext
  match a with
  | ⟨0, _⟩ => show win9_2.index t (0 : Fin 2) * 10000 + 1 * r.val = 10000 * t.val + r.val; omega
  | ⟨1, _⟩ => show win9_2.index t (1 : Fin 2) * 4 + 1 * j.val = j.val; omega

/-- Input window 0's block at point `t`, likewise. -/
theorem emb9_0 (t : Fin cfg9.N) (r : Fin 10000) (k : Fin 4) :
    ((cfg9.win 0).blk t).view.emb (ValueIdx.ix2 r k) = (ValueIdx.ix2 ⟨10000 * t.val + r.val, row_lt9 t r⟩ k : S100000x4.Idx) := by
  obtain ⟨-, -, e0, e1, -, -⟩ := index_facts9 t
  funext a; apply Fin.ext
  match a with
  | ⟨0, _⟩ => show win9_0.index t (0 : Fin 2) * 10000 + 1 * r.val = 10000 * t.val + r.val; omega
  | ⟨1, _⟩ => show win9_0.index t (1 : Fin 2) * 4 + 1 * k.val = k.val; omega

/-- Input window 1's block is the whole of its array at every point. -/
theorem emb9_1 (t : Fin cfg9.N) (y : S1x4.Idx) : ((cfg9.win 1).blk t).view.emb y = y := by
  obtain ⟨-, -, -, -, e0, e1⟩ := index_facts9 t
  funext a; apply Fin.ext
  match a with
  | ⟨0, _⟩ => show win9_1.index t (0 : Fin 2) * 1 + 1 * (y 0).val = (y 0).val; omega
  | ⟨1, _⟩ => show win9_1.index t (1 : Fin 2) * 4 + 1 * (y 1).val = (y 1).val; omega

/-- Input 0's block at a point, read at a row and a column, is its array as the region finds it at the row of the array. -/
theorem iblk9_0_at (c : Dev nD) (t : Fin cfg9.N) (r : Fin 10000) (k : Fin 4) :
    iblk9 V c 0 t (ValueIdx.ix2 r k) = V c (Pipeline.arrRef spec9 0) (ValueIdx.ix2 ⟨10000 * t.val + r.val, row_lt9 t r⟩ k : S100000x4.Idx) := by
  show V c (Pipeline.arrRef spec9 0) (((cfg9.win 0).blk t).view.emb (ValueIdx.ix2 r k)) = _
  rw [emb9_0]

/-- Input 1's block at a point is its whole array as the region finds it. -/
theorem iblk9_1_at (c : Dev nD) (t : Fin cfg9.N) (y : S1x4.Idx) :
    iblk9 V c 1 t y = V c (Pipeline.arrRef spec9 1) y := by
  show V c (Pipeline.arrRef spec9 1) (((cfg9.win 1).blk t).view.emb y) = _
  rw [emb9_1]

/-! ## What a point writes back, and the array after the run -/

/-- A block's worth of values that agrees with `G` row by row and column by column is block `t` of `G`. -/
theorem read_blk9_2 (t : Fin cfg9.N) (G : S100000x4.Idx → Elt F .f32) (P : S10000x4.Idx → Elt F .f32)
    (h : ∀ (r : Fin 10000) (j : Fin 4), P (ValueIdx.ix2 r j) = G (ValueIdx.ix2 ⟨10000 * t.val + r.val, row_lt9 t r⟩ j)) :
    P = ((cfg9.win 2).blk t).view.read (Elt F) G := by
  funext y
  obtain ⟨r, j, rfl⟩ : ∃ (r : Fin 10000) (j : Fin 4), y = ValueIdx.ix2 r j := ⟨y 0, y 1, ValueIdx.eq_ix2 y⟩
  rw [h]
  show G _ = G (((cfg9.win 2).blk t).view.emb (ValueIdx.ix2 r j))
  rw [emb9_2]

/-- What point `t` writes back to the output array is block `t` of `G`, when the payload at the point's input blocks
    agrees with `G` on that block: the one store leaves its payload, the two loads read the input blocks whole. -/
theorem flushed9_2_eq (c : Dev nD) (G : S100000x4.Idx → Elt F .f32)
    (hG : ∀ (t : Fin cfg9.N) (r : Fin 10000) (j : Fin 4),
      k9_pay1 (iblk9 V c 0 t) (iblk9 V c 1 t) (ValueIdx.ix2 r j) = G (ValueIdx.ix2 ⟨10000 * t.val + r.val, row_lt9 t r⟩ j))
    (t : Fin cfg9.N) :
    (dat9 V c).flushed 2 t = ((cfg9.win 2).blk t).view.read (Elt F) G := by
  show (cfg9.win 2).cut (grid9.coords t) ((dat9 V c).after 2 t) = _
  rw [after9_2]
  unfold out9_2
  rw [View.canon_unit_zero off_zero9]
  simp only [View.ld_unit_zero (S := S10000x4) off_zero9, View.ld_unit_zero (S := S1x4) off_zero9]
  exact read_blk9_2 t G _ (hG t)

/-- An index of the output array is in point `t`'s block iff each coordinate is in the block's range on its axis. -/
theorem mem_blk9_2 (t : Fin cfg9.N) (i : S100000x4.Idx) :
    i ∈ ((cfg9.win 2).blk t).view.set ↔ ∀ a : Fin 2, win9_2.index t a * S10000x4.size a ≤ (i a).val ∧ (i a).val < win9_2.index t a * S10000x4.size a + S10000x4.size a := by
  show i ∈ ((View.whole main_v107).slice (win9_2.rect t)).set ↔ _
  rw [View.set_slice_whole, Rect.mem_set_unit]
  exact Iff.rfl

/-- The ten blocks tile the output array: row `i 0` is in the block of point `i 0 / 10000`. -/
theorem blocks_cover9 (i : S100000x4.Idx) :
    ∃ t : Fin cfg9.N, (cfg9.win 2).flush t = true ∧ i ∈ ((cfg9.win 2).blk t).view.set := by
  have hi0 : (i 0).val < 100000 := (i 0).isLt
  have hi1 : (i 1).val < 4 := (i 1).isLt
  have hN : (i 0).val / 10000 < grid9.N := by rw [N_9]; omega
  refine ⟨⟨(i 0).val / 10000, hN⟩, flush9_2 _, ?_⟩
  rw [mem_blk9_2]
  obtain ⟨e0, e1, -, -, -, -⟩ := index_facts9 ⟨(i 0).val / 10000, hN⟩
  have e0' : win9_2.index ⟨(i 0).val / 10000, hN⟩ (0 : Fin 2) = (i 0).val / 10000 := e0
  intro a
  match a with
  | ⟨0, _⟩ => show win9_2.index ⟨(i 0).val / 10000, hN⟩ (0 : Fin 2) * 10000 ≤ (i 0).val ∧ (i 0).val < win9_2.index ⟨(i 0).val / 10000, hN⟩ (0 : Fin 2) * 10000 + 10000; omega
  | ⟨1, _⟩ => show win9_2.index ⟨(i 0).val / 10000, hN⟩ (1 : Fin 2) * 4 ≤ (i 1).val ∧ (i 1).val < win9_2.index ⟨(i 0).val / 10000, hN⟩ (1 : Fin 2) * 4 + 4; omega

/-- THE OUTPUT ARRAY after the region is `G`, for any `G` the payload agrees with block by block. -/
theorem arr9_eq (c : Dev nD) (G : S100000x4.Idx → Elt F .f32)
    (hG : ∀ (t : Fin cfg9.N) (r : Fin 10000) (j : Fin 4),
      k9_pay1 (iblk9 V c 0 t) (iblk9 V c 1 t) (ValueIdx.ix2 r j) = G (ValueIdx.ix2 ⟨10000 * t.val + r.val, row_lt9 t r⟩ j)) :
    (dat9 V c).arrAt 2 cfg9.N = G :=
  (dat9 V c).arrAt_eq_of_cover 2 G (fun t _ => flushed9_2_eq V c G hG t) (blocks_cover9)

end Cert.KernelIdeal.Hand
-- ==== Proof.KI.G9.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V9
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 9 (a bias layer of width 4: the bias added and the result clamped below at zero): when the small array it finds is the host's reshape of a
    width-4 bias vector, the array it leaves is the reference's operations of the array it finds and that vector:
    both are, at row `R` and column `j`, the same expression of the entry and the bias's `j`-th entry. -/
theorem val9 (c : Dev nD) (bias : FVec Ideal Cert.ReferenceIdeal.S4 .f32)
    (hb : V c (Pipeline.arrRef spec9 1) = shapeCast S1x4 bias shapeCasts_S4_S1x4) :
    (dat9 (F := Ideal) V c).arrAt 2 cfg9.N
      = maximumf (addf (V c (Pipeline.arrRef spec9 0) : FVec Ideal Cert.ReferenceIdeal.S100000x4 .f32) (broadcastInDim Cert.ReferenceIdeal.S100000x4 ![0, 1] Cert.ReferenceIdeal.Gen.bcast_S1x4_S100000x4_0_1 (broadcastInDim Cert.ReferenceIdeal.S1x4 ![1] Cert.ReferenceIdeal.Gen.bcast_S4_S1x4_1 bias)))
          (broadcastInDim Cert.ReferenceIdeal.S100000x4 ![] Cert.ReferenceIdeal.Gen.bcast_S_S100000x4 (constant (F := Ideal) Cert.ReferenceIdeal.S_ .f32 0x00000000#32)) :=
  arr9_eq V c _ (fun t r j => by
    refine (Cert.Bridge.pay9_at (iblk9 V c 0 t) (iblk9 V c 1 t) r j).trans ?_
    refine Eq.trans ?_ (Cert.Bridge.refRelu4_at _ bias ⟨10000 * t.val + r.val, row_lt9 t r⟩ j).symm
    rw [iblk9_0_at V c t r j, iblk9_1_at V c t (ValueIdx.ix2 (0 : Fin 1) j), hb, Cert.Bridge.biasReshape4_at])

end Cert.KernelIdeal.Hand
-- ==== Proof.KI.V10.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A10
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 10: its blocks as parts of its arrays -/

/-- The offsets of every access of the body are zero, on both axes. -/
theorem off_zero10 : (![0, 0] : Fin 2 → Nat) = fun _ => 0 := funext fun a => by fin_cases a <;> rfl

/-- The grid has ten points. -/
theorem point_lt10 (t : Fin cfg10.N) : t.val < 10 := by
  have h : t.val < grid10.N := t.isLt
  rw [N_10] at h; exact h

/-- Row `r` of block `t` is a row of the array: `10000 * t + r < 100000`. -/
theorem row_lt10 (t : Fin cfg10.N) (r : Fin 10000) : 10000 * t.val + r.val < 100000 := by
  have := point_lt10 t; omega

/-- The printed index maps, decided over the ten points: the output's and input 0's block index is the point on the row
    axis and zero on the column axis; input 1's is zero on both. -/
theorem index_facts10 : ∀ t : Fin cfg10.N, win10_2.index t (0 : Fin 2) = t.val ∧ win10_2.index t (1 : Fin 2) = 0
    ∧ win10_0.index t (0 : Fin 2) = t.val ∧ win10_0.index t (1 : Fin 2) = 0
    ∧ win10_1.index t (0 : Fin 2) = 0 ∧ win10_1.index t (1 : Fin 2) = 0 :=
  (by decide +kernel : ∀ t : Fin grid10.N, _)

/-- The output block at point `t`, index by index: row `r`, column `j` of the block is row `10000 * t + r`, column `j`
    of the array (a block's coordinate is its index times its extent plus the coordinate inside the block). -/
theorem emb10_2 (t : Fin cfg10.N) (r : Fin 10000) (j : Fin 1) :
    ((cfg10.win 2).blk t).view.emb (ValueIdx.ix2 r j) = (ValueIdx.ix2 ⟨10000 * t.val + r.val, row_lt10 t r⟩ j : S100000x1.Idx) := by
  obtain ⟨e0, e1, -, -, -, -⟩ := index_facts10 t
  funext a; apply Fin.ext
  match a with
  | ⟨0, _⟩ => show win10_2.index t (0 : Fin 2) * 10000 + 1 * r.val = 10000 * t.val + r.val; omega
  | ⟨1, _⟩ => show win10_2.index t (1 : Fin 2) * 1 + 1 * j.val = j.val; omega

/-- Input window 0's block at point `t`, likewise. -/
theorem emb10_0 (t : Fin cfg10.N) (r : Fin 10000) (k : Fin 4) :
    ((cfg10.win 0).blk t).view.emb (ValueIdx.ix2 r k) = (ValueIdx.ix2 ⟨10000 * t.val + r.val, row_lt10 t r⟩ k : S100000x4.Idx) := by
  obtain ⟨-, -, e0, e1, -, -⟩ := index_facts10 t
  funext a; apply Fin.ext
  match a with
  | ⟨0, _⟩ => show win10_0.index t (0 : Fin 2) * 10000 + 1 * r.val = 10000 * t.val + r.val; omega
  | ⟨1, _⟩ => show win10_0.index t (1 : Fin 2) * 4 + 1 * k.val = k.val; omega

/-- Input window 1's block is the whole of its array at every point. -/
theorem emb10_1 (t : Fin cfg10.N) (y : S4x1.Idx) : ((cfg10.win 1).blk t).view.emb y = y := by
  obtain ⟨-, -, -, -, e0, e1⟩ := index_facts10 t
  funext a; apply Fin.ext
  match a with
  | ⟨0, _⟩ => show win10_1.index t (0 : Fin 2) * 4 + 1 * (y 0).val = (y 0).val; omega
  | ⟨1, _⟩ => show win10_1.index t (1 : Fin 2) * 1 + 1 * (y 1).val = (y 1).val; omega

/-- Input 0's block at a point, read at a row and a column, is its array as the region finds it at the row of the array. -/
theorem iblk10_0_at (c : Dev nD) (t : Fin cfg10.N) (r : Fin 10000) (k : Fin 4) :
    iblk10 V c 0 t (ValueIdx.ix2 r k) = V c (Pipeline.arrRef spec10 0) (ValueIdx.ix2 ⟨10000 * t.val + r.val, row_lt10 t r⟩ k : S100000x4.Idx) := by
  show V c (Pipeline.arrRef spec10 0) (((cfg10.win 0).blk t).view.emb (ValueIdx.ix2 r k)) = _
  rw [emb10_0]

/-- Input 1's block at a point is its whole array as the region finds it. -/
theorem iblk10_1_at (c : Dev nD) (t : Fin cfg10.N) (y : S4x1.Idx) :
    iblk10 V c 1 t y = V c (Pipeline.arrRef spec10 1) y := by
  show V c (Pipeline.arrRef spec10 1) (((cfg10.win 1).blk t).view.emb y) = _
  rw [emb10_1]

/-! ## What a point writes back, and the array after the run -/

/-- A block's worth of values that agrees with `G` row by row and column by column is block `t` of `G`. -/
theorem read_blk10_2 (t : Fin cfg10.N) (G : S100000x1.Idx → Elt F .f32) (P : S10000x1.Idx → Elt F .f32)
    (h : ∀ (r : Fin 10000) (j : Fin 1), P (ValueIdx.ix2 r j) = G (ValueIdx.ix2 ⟨10000 * t.val + r.val, row_lt10 t r⟩ j)) :
    P = ((cfg10.win 2).blk t).view.read (Elt F) G := by
  funext y
  obtain ⟨r, j, rfl⟩ : ∃ (r : Fin 10000) (j : Fin 1), y = ValueIdx.ix2 r j := ⟨y 0, y 1, ValueIdx.eq_ix2 y⟩
  rw [h]
  show G _ = G (((cfg10.win 2).blk t).view.emb (ValueIdx.ix2 r j))
  rw [emb10_2]

/-- What point `t` writes back to the output array is block `t` of `G`, when the payload at the point's input blocks
    agrees with `G` on that block: the one store leaves its payload, the two loads read the input blocks whole. -/
theorem flushed10_2_eq (c : Dev nD) (G : S100000x1.Idx → Elt F .f32)
    (hG : ∀ (t : Fin cfg10.N) (r : Fin 10000) (j : Fin 1),
      k10_pay1 (iblk10 V c 0 t) (iblk10 V c 1 t) (ValueIdx.ix2 r j) = G (ValueIdx.ix2 ⟨10000 * t.val + r.val, row_lt10 t r⟩ j))
    (t : Fin cfg10.N) :
    (dat10 V c).flushed 2 t = ((cfg10.win 2).blk t).view.read (Elt F) G := by
  show (cfg10.win 2).cut (grid10.coords t) ((dat10 V c).after 2 t) = _
  rw [after10_2]
  unfold out10_2
  rw [View.canon_unit_zero off_zero10]
  simp only [View.ld_unit_zero (S := S10000x4) off_zero10, View.ld_unit_zero (S := S4x1) off_zero10]
  exact read_blk10_2 t G _ (hG t)

/-- An index of the output array is in point `t`'s block iff each coordinate is in the block's range on its axis. -/
theorem mem_blk10_2 (t : Fin cfg10.N) (i : S100000x1.Idx) :
    i ∈ ((cfg10.win 2).blk t).view.set ↔ ∀ a : Fin 2, win10_2.index t a * S10000x1.size a ≤ (i a).val ∧ (i a).val < win10_2.index t a * S10000x1.size a + S10000x1.size a := by
  show i ∈ ((View.whole main_v108).slice (win10_2.rect t)).set ↔ _
  rw [View.set_slice_whole, Rect.mem_set_unit]
  exact Iff.rfl

/-- The ten blocks tile the output array: row `i 0` is in the block of point `i 0 / 10000`. -/
theorem blocks_cover10 (i : S100000x1.Idx) :
    ∃ t : Fin cfg10.N, (cfg10.win 2).flush t = true ∧ i ∈ ((cfg10.win 2).blk t).view.set := by
  have hi0 : (i 0).val < 100000 := (i 0).isLt
  have hi1 : (i 1).val < 1 := (i 1).isLt
  have hN : (i 0).val / 10000 < grid10.N := by rw [N_10]; omega
  refine ⟨⟨(i 0).val / 10000, hN⟩, flush10_2 _, ?_⟩
  rw [mem_blk10_2]
  obtain ⟨e0, e1, -, -, -, -⟩ := index_facts10 ⟨(i 0).val / 10000, hN⟩
  have e0' : win10_2.index ⟨(i 0).val / 10000, hN⟩ (0 : Fin 2) = (i 0).val / 10000 := e0
  intro a
  match a with
  | ⟨0, _⟩ => show win10_2.index ⟨(i 0).val / 10000, hN⟩ (0 : Fin 2) * 10000 ≤ (i 0).val ∧ (i 0).val < win10_2.index ⟨(i 0).val / 10000, hN⟩ (0 : Fin 2) * 10000 + 10000; omega
  | ⟨1, _⟩ => show win10_2.index ⟨(i 0).val / 10000, hN⟩ (1 : Fin 2) * 1 ≤ (i 1).val ∧ (i 1).val < win10_2.index ⟨(i 0).val / 10000, hN⟩ (1 : Fin 2) * 1 + 1; omega

/-- THE OUTPUT ARRAY after the region is `G`, for any `G` the payload agrees with block by block. -/
theorem arr10_eq (c : Dev nD) (G : S100000x1.Idx → Elt F .f32)
    (hG : ∀ (t : Fin cfg10.N) (r : Fin 10000) (j : Fin 1),
      k10_pay1 (iblk10 V c 0 t) (iblk10 V c 1 t) (ValueIdx.ix2 r j) = G (ValueIdx.ix2 ⟨10000 * t.val + r.val, row_lt10 t r⟩ j)) :
    (dat10 V c).arrAt 2 cfg10.N = G :=
  (dat10 V c).arrAt_eq_of_cover 2 G (fun t _ => flushed10_2_eq V c G hG t) (blocks_cover10)

end Cert.KernelIdeal.Hand
-- ==== Proof.KI.G10.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V10
import proofs.«147273_j88914412962548_1_alg».proof.Proof.B.Dense41
import proofs.«147273_j88914412962548_1_alg».proof.Proof.B.RefDense
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 10 (a dense layer, 4 → 1): the array it leaves is the reference's `dot_general` of the two arrays it
    finds: both are, at row `R` and column `j`, the sum over the contracted axis of the products. -/
theorem val10 (c : Dev nD) :
    (dat10 (F := Ideal) V c).arrAt 2 cfg10.N
      = Host.dotGeneral (F := Ideal) (φ₁ := .f32) (φ₂ := .f32) Cert.ReferenceIdeal.dot_S100000x4_S4x1_S100000x1_1_0_0_1_n_n none
          (V c (Pipeline.arrRef spec10 0) : FVec Ideal Cert.ReferenceIdeal.S100000x4 .f32)
          (V c (Pipeline.arrRef spec10 1) : FVec Ideal Cert.ReferenceIdeal.S4x1 .f32) :=
  arr10_eq V c _ (fun t r j => by
    refine (Cert.Bridge.pay10_at (iblk10 V c 0 t) (iblk10 V c 1 t) r j).trans ?_
    refine Eq.trans ?_ (Cert.Bridge.refDot41_at _ _ ⟨10000 * t.val + r.val, row_lt10 t r⟩ j).symm
    refine Finset.sum_congr rfl fun k _ => ?_
    rw [iblk10_0_at V c t r k, iblk10_1_at V c t (ValueIdx.ix2 k j)])

end Cert.KernelIdeal.Hand
-- ==== Proof.KI.V11.lean ====
/- From blocks to the array, for one kernel region of the program `KernelIdeal`: output block `t` of the region is rows
   `10000 * t .. 10000 * t + 9999` of the output array (all columns), input window 0's block the same rows of its array,
   input window 1's block the whole of its small array at every point. So if the body's payload at the two input blocks
   of point `t`, read at row `r` and column `j`, is `G` at row `10000 * t + r` and column `j` — for a function `G` on the
   whole output array, given as a parameter — then the array the region leaves is `G`: the ten blocks tile the array. -/
import proofs.«147273_j88914412962548_1_alg».proof.Proof.KI.A11
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

-- the TensorCore's buffer contents when the region is entered
variable (V : (c : Dev nD) → (b : Ref sig .tc) → Buf (Elt F) ((c : Thread nD τ).loc b))

/-! # Region 11: its blocks as parts of its arrays -/

/-- The offsets of every access of the body are zero, on both axes. -/
theorem off_zero11 : (![0, 0] : Fin 2 → Nat) = fun _ => 0 := funext fun a => by fin_cases a <;> rfl

/-- The grid has ten points. -/
theorem point_lt11 (t : Fin cfg11.N) : t.val < 10 := by
  have h : t.val < grid11.N := t.isLt
  rw [N_11] at h; exact h

/-- Row `r` of block `t` is a row of the array: `10000 * t + r < 100000`. -/
theorem row_lt11 (t : Fin cfg11.N) (r : Fin 10000) : 10000 * t.val + r.val < 100000 := by
  have := point_lt11 t; omega

/-- The printed index maps, decided over the ten points: the output's and input 0's block index is the point on the row
    axis and zero on the column axis; input 1's is zero on both. -/
theorem index_facts11 : ∀ t : Fin cfg11.N, win11_2.index t (0 : Fin 2) = t.val ∧ win11_2.index t (1 : Fin 2) = 0
    ∧ win11_0.index t (0 : Fin 2) = t.val ∧ win11_0.index t (1 : Fin 2) = 0
    ∧ win11_1.index t (0 : Fin 2) = 0 ∧ win11_1.index t (1 : Fin 2) = 0 :=
  (by decide +kernel : ∀ t : Fin grid11.N, _)

/-- The output block at point `t`, index by index: row `r`, column `j` of the block is row `10000 * t + r`, column `j`
    of the array (a block's coordinate is its index times its extent plus the coordinate inside the block). -/
theorem emb11_2 (t : Fin cfg11.N) (r : Fin 10000) (j : Fin 1) :
    ((cfg11.win 2).blk t).view.emb (ValueIdx.ix2 r j) = (ValueIdx.ix2 ⟨10000 * t.val + r.val, row_lt11 t r⟩ j : S100000x1.Idx) := by
  obtain ⟨e0, e1, -, -, -, -⟩ := index_facts11 t
  funext a; apply Fin.ext
  match a with
  | ⟨0, _⟩ => show win11_2.index t (0 : Fin 2) * 10000 + 1 * r.val = 10000 * t.val + r.val; omega
  | ⟨1, _⟩ => show win11_2.index t (1 : Fin 2) * 1 + 1 * j.val = j.val; omega

/-- Input window 0's block at point `t`, likewise. -/
theorem emb11_0 (t : Fin cfg11.N) (r : Fin 10000) (k : Fin 1) :
    ((cfg11.win 0).blk t).view.emb (ValueIdx.ix2 r k) = (ValueIdx.ix2 ⟨10000 * t.val + r.val, row_lt11 t r⟩ k : S100000x1.Idx) := by
  obtain ⟨-, -, e0, e1, -, -⟩ := index_facts11 t
  funext a; apply Fin.ext
  match a with
  | ⟨0, _⟩ => show win11_0.index t (0 : Fin 2) * 10000 + 1 * r.val = 10000 * t.val + r.val; omega
  | ⟨1, _⟩ => show win11_0.index t (1 : Fin 2) * 1 + 1 * k.val = k.val; omega

/-- Input window 1's block is the whole of its array at every point. -/
theorem emb11_1 (t : Fin cfg11.N) (y : S1x1.Idx) : ((cfg11.win 1).blk t).view.emb y = y := by
  obtain ⟨-, -, -, -, e0, e1⟩ := index_facts11 t
  funext a; apply Fin.ext
  match a with
  | ⟨0, _⟩ => show win11_1.index t (0 : Fin 2) * 1 + 1 * (y 0).val = (y 0).val; omega
  | ⟨1, _⟩ => show win11_1.index t (1 : Fin 2) * 1 + 1 * (y 1).val = (y 1).val; omega

/-- Input 0's block at a point, read at a row and a column, is its array as the region finds it at the row of the array. -/
theorem iblk11_0_at (c : Dev nD) (t : Fin cfg11.N) (r : Fin 10000) (k : Fin 1) :
    iblk11 V c 0 t (ValueIdx.ix2 r k) = V c (Pipeline.arrRef spec11 0) (ValueIdx.ix2 ⟨10000 * t.val + r.val, row_lt11 t r⟩ k : S100000x1.Idx) := by
  show V c (Pipeline.arrRef spec11 0) (((cfg11.win 0).blk t).view.emb (ValueIdx.ix2 r k)) = _
  rw [emb11_0]

/-- Input 1's block at a point is its whole array as the region finds it. -/
theorem iblk11_1_at (c : Dev nD) (t : Fin cfg11.N) (y : S1x1.Idx) :
    iblk11 V c 1 t y = V c (Pipeline.arrRef spec11 1) y := by
  show V c (Pipeline.arrRef spec11 1) (((cfg11.win 1).blk t).view.emb y) = _
  rw [emb11_1]

/-! ## What a point writes back, and the array after the run -/

/-- A block's worth of values that agrees with `G` row by row and column by column is block `t` of `G`. -/
theorem read_blk11_2 (t : Fin cfg11.N) (G : S100000x1.Idx → Elt F .f32) (P : S10000x1.Idx → Elt F .f32)
    (h : ∀ (r : Fin 10000) (j : Fin 1), P (ValueIdx.ix2 r j) = G (ValueIdx.ix2 ⟨10000 * t.val + r.val, row_lt11 t r⟩ j)) :
    P = ((cfg11.win 2).blk t).view.read (Elt F) G := by
  funext y
  obtain ⟨r, j, rfl⟩ : ∃ (r : Fin 10000) (j : Fin 1), y = ValueIdx.ix2 r j := ⟨y 0, y 1, ValueIdx.eq_ix2 y⟩
  rw [h]
  show G _ = G (((cfg11.win 2).blk t).view.emb (ValueIdx.ix2 r j))
  rw [emb11_2]

/-- What point `t` writes back to the output array is block `t` of `G`, when the payload at the point's input blocks
    agrees with `G` on that block: the one store leaves its payload, the two loads read the input blocks whole. -/
theorem flushed11_2_eq (c : Dev nD) (G : S100000x1.Idx → Elt F .f32)
    (hG : ∀ (t : Fin cfg11.N) (r : Fin 10000) (j : Fin 1),
      k11_pay1 (iblk11 V c 0 t) (iblk11 V c 1 t) (ValueIdx.ix2 r j) = G (ValueIdx.ix2 ⟨10000 * t.val + r.val, row_lt11 t r⟩ j))
    (t : Fin cfg11.N) :
    (dat11 V c).flushed 2 t = ((cfg11.win 2).blk t).view.read (Elt F) G := by
  show (cfg11.win 2).cut (grid11.coords t) ((dat11 V c).after 2 t) = _
  rw [after11_2]
  unfold out11_2
  rw [View.canon_unit_zero off_zero11]
  simp only [View.ld_unit_zero (S := S10000x1) off_zero11, View.ld_unit_zero (S := S1x1) off_zero11]
  exact read_blk11_2 t G _ (hG t)

/-- An index of the output array is in point `t`'s block iff each coordinate is in the block's range on its axis. -/
theorem mem_blk11_2 (t : Fin cfg11.N) (i : S100000x1.Idx) :
    i ∈ ((cfg11.win 2).blk t).view.set ↔ ∀ a : Fin 2, win11_2.index t a * S10000x1.size a ≤ (i a).val ∧ (i a).val < win11_2.index t a * S10000x1.size a + S10000x1.size a := by
  show i ∈ ((View.whole main_v122).slice (win11_2.rect t)).set ↔ _
  rw [View.set_slice_whole, Rect.mem_set_unit]
  exact Iff.rfl

/-- The ten blocks tile the output array: row `i 0` is in the block of point `i 0 / 10000`. -/
theorem blocks_cover11 (i : S100000x1.Idx) :
    ∃ t : Fin cfg11.N, (cfg11.win 2).flush t = true ∧ i ∈ ((cfg11.win 2).blk t).view.set := by
  have hi0 : (i 0).val < 100000 := (i 0).isLt
  have hi1 : (i 1).val < 1 := (i 1).isLt
  have hN : (i 0).val / 10000 < grid11.N := by rw [N_11]; omega
  refine ⟨⟨(i 0).val / 10000, hN⟩, flush11_2 _, ?_⟩
  rw [mem_blk11_2]
  obtain ⟨e0, e1, -, -, -, -⟩ := index_facts11 ⟨(i 0).val / 10000, hN⟩
  have e0' : win11_2.index ⟨(i 0).val / 10000, hN⟩ (0 : Fin 2) = (i 0).val / 10000 := e0
  intro a
  match a with
  | ⟨0, _⟩ => show win11_2.index ⟨(i 0).val / 10000, hN⟩ (0 : Fin 2) * 10000 ≤ (i 0).val ∧ (i 0).val < win11_2.index ⟨(i 0).val / 10000, hN⟩ (0 : Fin 2) * 10000 + 10000; omega
  | ⟨1, _⟩ => show win11_2.index ⟨(i 0).val / 10000, hN⟩ (1 : Fin 2) * 1 ≤ (i 1).val ∧ (i 1).val < win11_2.index ⟨(i 0).val / 10000, hN⟩ (1 : Fin 2) * 1 + 1; omega

/-- THE OUTPUT ARRAY after the region is `G`, for any `G` the payload agrees with block by block. -/
theorem arr11_eq (c : Dev nD) (G : S100000x1.Idx → Elt F .f32)
    (hG : ∀ (t : Fin cfg11.N) (r : Fin 10000) (j : Fin 1),
      k11_pay1 (iblk11 V c 0 t) (iblk11 V c 1 t) (ValueIdx.ix2 r j) = G (ValueIdx.ix2 ⟨10000 * t.val + r.val, row_lt11 t r⟩ j)) :
    (dat11 V c).arrAt 2 cfg11.N = G :=
  (dat11 V c).arrAt_eq_of_cover 2 G (fun t _ => flushed11_2_eq V c G hG t) (blocks_cover11)

end Cert.KernelIdeal.Hand
-- ==== Proof.KI.G11.lean ====
/- The value of the output array of one kernel region of the program `KernelIdeal`, read at the extended reals and stated
   with the reference's operations: the body's payload at the two input blocks of a grid point, entry by entry, is the
   reference's operation of the whole arrays at the corresponding row, so the array the region leaves is that operation
   of the arrays the region finds. -/
import proofs.«147273_j88914412962548_1_alg».proof.Proof.KI.V11
import proofs.«147273_j88914412962548_1_alg».proof.Proof.B.Bias
import proofs.«147273_j88914412962548_1_alg».proof.Proof.B.RefBias
import proofs.«147273_j88914412962548_1_alg».proof.Proof.Gen.ReferenceIdeal

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- Region 11 (a bias layer of width 1: the bias added): when the small array it finds is the host's reshape of a
    width-1 bias vector, the array it leaves is the reference's operations of the array it finds and that vector:
    both are, at row `R` and column `j`, the same expression of the entry and the bias's `j`-th entry. -/
theorem val11 (c : Dev nD) (bias : FVec Ideal Cert.ReferenceIdeal.S1 .f32)
    (hb : V c (Pipeline.arrRef spec11 1) = shapeCast S1x1 bias shapeCasts_S1_S1x1) :
    (dat11 (F := Ideal) V c).arrAt 2 cfg11.N
      = addf (V c (Pipeline.arrRef spec11 0) : FVec Ideal Cert.ReferenceIdeal.S100000x1 .f32)
          (broadcastInDim Cert.ReferenceIdeal.S100000x1 ![0, 1] Cert.ReferenceIdeal.Gen.bcast_S1x1_S100000x1_0_1 (broadcastInDim Cert.ReferenceIdeal.S1x1 ![1] Cert.ReferenceIdeal.Gen.bcast_S1_S1x1_1 bias)) :=
  arr11_eq V c _ (fun t r j => by
    refine (Cert.Bridge.pay11_at (iblk11 V c 0 t) (iblk11 V c 1 t) r j).trans ?_
    refine Eq.trans ?_ (Cert.Bridge.refAddBias1_at _ bias ⟨10000 * t.val + r.val, row_lt11 t r⟩ j).symm
    rw [iblk11_0_at V c t r j, iblk11_1_at V c t (ValueIdx.ix2 (0 : Fin 1) j), hb, Cert.Bridge.biasReshape1_at,
      Subsingleton.elim j (0 : Fin 1)])

end Cert.KernelIdeal.Hand
-- ==== Proof.KI.Val.lean ====
import proofs.«147273_j88914412962548_1_alg».proof.Proof.KI.Keep
import proofs.«147273_j88914412962548_1_alg».proof.Proof.KI.G0
import proofs.«147273_j88914412962548_1_alg».proof.Proof.KI.G1
import proofs.«147273_j88914412962548_1_alg».proof.Proof.KI.G2
import proofs.«147273_j88914412962548_1_alg».proof.Proof.KI.G3
import proofs.«147273_j88914412962548_1_alg».proof.Proof.KI.G4
import proofs.«147273_j88914412962548_1_alg».proof.Proof.KI.G5
import proofs.«147273_j88914412962548_1_alg».proof.Proof.KI.G6
import proofs.«147273_j88914412962548_1_alg».proof.Proof.KI.G7
import proofs.«147273_j88914412962548_1_alg».proof.Proof.KI.G8
import proofs.«147273_j88914412962548_1_alg».proof.Proof.KI.G9
import proofs.«147273_j88914412962548_1_alg».proof.Proof.KI.G10
import proofs.«147273_j88914412962548_1_alg».proof.Proof.KI.G11
import proofs.«147273_j88914412962548_1_alg».proof.Proof.Gen.ReferenceIdeal.Read
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The contents of the kernel program's buffers, stage by stage, are the reference's stages of the same arguments

At the ideal instance. The host stretches between the regions are the reference's own operations on the same
operands; each dense region's output array is the reference's contraction of its operands, each bias region's the
reference's bias-and-activation chain. -/

variable (m : (ℓ : Loc nD τ sig) → Buf (Elt Ideal) ℓ) (c : Dev nD)

theorem keep1 (r : Ref sig .tc) (h : r ∉ hostOps0_W) : W1 m c r = m ((c : Thread nD τ).loc r) := by
  have e := V1_of m c r h
  rw [V1_eq] at e
  exact e

/-! ## The edge lists and the normalisation, computed by the first host stretch -/

set_option maxHeartbeats 4000000 in
theorem W1_v3 : W1 m c main_v3 = Cert.ReferenceIdeal.Read.val_main_v3 (F := Ideal) (m ((c.tc : Thread nD τ).loc main_arg1)) := by
  unfold W1; after_results_simp; rfl
set_option maxHeartbeats 4000000 in
theorem W1_v6 : W1 m c main_v6 = Cert.ReferenceIdeal.Read.val_main_v6 (F := Ideal) (m ((c.tc : Thread nD τ).loc main_arg1)) := by
  unfold W1; after_results_simp; rfl
set_option maxHeartbeats 8000000 in
theorem W1_v28 : W1 m c main_v28 = Cert.ReferenceIdeal.Read.val_main_v28 (F := Ideal) (m ((c.tc : Thread nD τ).loc main_arg1)) := by
  unfold W1; after_results_simp; rfl
theorem W2_v3 : W2 m c main_v3 = Cert.ReferenceIdeal.Read.val_main_v3 (F := Ideal) (m ((c.tc : Thread nD τ).loc main_arg1)) := (keep2 m c main_v3 (by decide)).trans (W1_v3 m c)
theorem W2_v6 : W2 m c main_v6 = Cert.ReferenceIdeal.Read.val_main_v6 (F := Ideal) (m ((c.tc : Thread nD τ).loc main_arg1)) := (keep2 m c main_v6 (by decide)).trans (W1_v6 m c)
theorem W2_v28 : W2 m c main_v28 = Cert.ReferenceIdeal.Read.val_main_v28 (F := Ideal) (m ((c.tc : Thread nD τ).loc main_arg1)) := (keep2 m c main_v28 (by decide)).trans (W1_v28 m c)
theorem W5_v3 : W5 m c main_v3 = Cert.ReferenceIdeal.Read.val_main_v3 (F := Ideal) (m ((c.tc : Thread nD τ).loc main_arg1)) := (keep5 m c main_v3 (by decide)).trans <| (keep4 m c main_v3 (by decide)).trans <| (keep3 m c main_v3 (by decide)).trans <| (keep2 m c main_v3 (by decide)).trans (W1_v3 m c)
theorem W5_v6 : W5 m c main_v6 = Cert.ReferenceIdeal.Read.val_main_v6 (F := Ideal) (m ((c.tc : Thread nD τ).loc main_arg1)) := (keep5 m c main_v6 (by decide)).trans <| (keep4 m c main_v6 (by decide)).trans <| (keep3 m c main_v6 (by decide)).trans <| (keep2 m c main_v6 (by decide)).trans (W1_v6 m c)
theorem W5_v28 : W5 m c main_v28 = Cert.ReferenceIdeal.Read.val_main_v28 (F := Ideal) (m ((c.tc : Thread nD τ).loc main_arg1)) := (keep5 m c main_v28 (by decide)).trans <| (keep4 m c main_v28 (by decide)).trans <| (keep3 m c main_v28 (by decide)).trans <| (keep2 m c main_v28 (by decide)).trans (W1_v28 m c)
theorem W8_v3 : W8 m c main_v3 = Cert.ReferenceIdeal.Read.val_main_v3 (F := Ideal) (m ((c.tc : Thread nD τ).loc main_arg1)) := (keep8 m c main_v3 (by decide)).trans <| (keep7 m c main_v3 (by decide)).trans <| (keep6 m c main_v3 (by decide)).trans <| (keep5 m c main_v3 (by decide)).trans <| (keep4 m c main_v3 (by decide)).trans <| (keep3 m c main_v3 (by decide)).trans <| (keep2 m c main_v3 (by decide)).trans (W1_v3 m c)
theorem W8_v6 : W8 m c main_v6 = Cert.ReferenceIdeal.Read.val_main_v6 (F := Ideal) (m ((c.tc : Thread nD τ).loc main_arg1)) := (keep8 m c main_v6 (by decide)).trans <| (keep7 m c main_v6 (by decide)).trans <| (keep6 m c main_v6 (by decide)).trans <| (keep5 m c main_v6 (by decide)).trans <| (keep4 m c main_v6 (by decide)).trans <| (keep3 m c main_v6 (by decide)).trans <| (keep2 m c main_v6 (by decide)).trans (W1_v6 m c)
theorem W8_v28 : W8 m c main_v28 = Cert.ReferenceIdeal.Read.val_main_v28 (F := Ideal) (m ((c.tc : Thread nD τ).loc main_arg1)) := (keep8 m c main_v28 (by decide)).trans <| (keep7 m c main_v28 (by decide)).trans <| (keep6 m c main_v28 (by decide)).trans <| (keep5 m c main_v28 (by decide)).trans <| (keep4 m c main_v28 (by decide)).trans <| (keep3 m c main_v28 (by decide)).trans <| (keep2 m c main_v28 (by decide)).trans (W1_v28 m c)
theorem W11_v3 : W11 m c main_v3 = Cert.ReferenceIdeal.Read.val_main_v3 (F := Ideal) (m ((c.tc : Thread nD τ).loc main_arg1)) := (keep11 m c main_v3 (by decide)).trans <| (keep10 m c main_v3 (by decide)).trans <| (keep9 m c main_v3 (by decide)).trans <| (keep8 m c main_v3 (by decide)).trans <| (keep7 m c main_v3 (by decide)).trans <| (keep6 m c main_v3 (by decide)).trans <| (keep5 m c main_v3 (by decide)).trans <| (keep4 m c main_v3 (by decide)).trans <| (keep3 m c main_v3 (by decide)).trans <| (keep2 m c main_v3 (by decide)).trans (W1_v3 m c)
theorem W11_v6 : W11 m c main_v6 = Cert.ReferenceIdeal.Read.val_main_v6 (F := Ideal) (m ((c.tc : Thread nD τ).loc main_arg1)) := (keep11 m c main_v6 (by decide)).trans <| (keep10 m c main_v6 (by decide)).trans <| (keep9 m c main_v6 (by decide)).trans <| (keep8 m c main_v6 (by decide)).trans <| (keep7 m c main_v6 (by decide)).trans <| (keep6 m c main_v6 (by decide)).trans <| (keep5 m c main_v6 (by decide)).trans <| (keep4 m c main_v6 (by decide)).trans <| (keep3 m c main_v6 (by decide)).trans <| (keep2 m c main_v6 (by decide)).trans (W1_v6 m c)
theorem W11_v28 : W11 m c main_v28 = Cert.ReferenceIdeal.Read.val_main_v28 (F := Ideal) (m ((c.tc : Thread nD τ).loc main_arg1)) := (keep11 m c main_v28 (by decide)).trans <| (keep10 m c main_v28 (by decide)).trans <| (keep9 m c main_v28 (by decide)).trans <| (keep8 m c main_v28 (by decide)).trans <| (keep7 m c main_v28 (by decide)).trans <| (keep6 m c main_v28 (by decide)).trans <| (keep5 m c main_v28 (by decide)).trans <| (keep4 m c main_v28 (by decide)).trans <| (keep3 m c main_v28 (by decide)).trans <| (keep2 m c main_v28 (by decide)).trans (W1_v28 m c)
theorem W14_v3 : W14 m c main_v3 = Cert.ReferenceIdeal.Read.val_main_v3 (F := Ideal) (m ((c.tc : Thread nD τ).loc main_arg1)) := (keep14 m c main_v3 (by decide)).trans <| (keep13 m c main_v3 (by decide)).trans <| (keep12 m c main_v3 (by decide)).trans <| (keep11 m c main_v3 (by decide)).trans <| (keep10 m c main_v3 (by decide)).trans <| (keep9 m c main_v3 (by decide)).trans <| (keep8 m c main_v3 (by decide)).trans <| (keep7 m c main_v3 (by decide)).trans <| (keep6 m c main_v3 (by decide)).trans <| (keep5 m c main_v3 (by decide)).trans <| (keep4 m c main_v3 (by decide)).trans <| (keep3 m c main_v3 (by decide)).trans <| (keep2 m c main_v3 (by decide)).trans (W1_v3 m c)
theorem W14_v6 : W14 m c main_v6 = Cert.ReferenceIdeal.Read.val_main_v6 (F := Ideal) (m ((c.tc : Thread nD τ).loc main_arg1)) := (keep14 m c main_v6 (by decide)).trans <| (keep13 m c main_v6 (by decide)).trans <| (keep12 m c main_v6 (by decide)).trans <| (keep11 m c main_v6 (by decide)).trans <| (keep10 m c main_v6 (by decide)).trans <| (keep9 m c main_v6 (by decide)).trans <| (keep8 m c main_v6 (by decide)).trans <| (keep7 m c main_v6 (by decide)).trans <| (keep6 m c main_v6 (by decide)).trans <| (keep5 m c main_v6 (by decide)).trans <| (keep4 m c main_v6 (by decide)).trans <| (keep3 m c main_v6 (by decide)).trans <| (keep2 m c main_v6 (by decide)).trans (W1_v6 m c)
theorem W14_v28 : W14 m c main_v28 = Cert.ReferenceIdeal.Read.val_main_v28 (F := Ideal) (m ((c.tc : Thread nD τ).loc main_arg1)) := (keep14 m c main_v28 (by decide)).trans <| (keep13 m c main_v28 (by decide)).trans <| (keep12 m c main_v28 (by decide)).trans <| (keep11 m c main_v28 (by decide)).trans <| (keep10 m c main_v28 (by decide)).trans <| (keep9 m c main_v28 (by decide)).trans <| (keep8 m c main_v28 (by decide)).trans <| (keep7 m c main_v28 (by decide)).trans <| (keep6 m c main_v28 (by decide)).trans <| (keep5 m c main_v28 (by decide)).trans <| (keep4 m c main_v28 (by decide)).trans <| (keep3 m c main_v28 (by decide)).trans <| (keep2 m c main_v28 (by decide)).trans (W1_v28 m c)
theorem W17_v3 : W17 m c main_v3 = Cert.ReferenceIdeal.Read.val_main_v3 (F := Ideal) (m ((c.tc : Thread nD τ).loc main_arg1)) := (keep17 m c main_v3 (by decide)).trans <| (keep16 m c main_v3 (by decide)).trans <| (keep15 m c main_v3 (by decide)).trans <| (keep14 m c main_v3 (by decide)).trans <| (keep13 m c main_v3 (by decide)).trans <| (keep12 m c main_v3 (by decide)).trans <| (keep11 m c main_v3 (by decide)).trans <| (keep10 m c main_v3 (by decide)).trans <| (keep9 m c main_v3 (by decide)).trans <| (keep8 m c main_v3 (by decide)).trans <| (keep7 m c main_v3 (by decide)).trans <| (keep6 m c main_v3 (by decide)).trans <| (keep5 m c main_v3 (by decide)).trans <| (keep4 m c main_v3 (by decide)).trans <| (keep3 m c main_v3 (by decide)).trans <| (keep2 m c main_v3 (by decide)).trans (W1_v3 m c)
theorem W17_v6 : W17 m c main_v6 = Cert.ReferenceIdeal.Read.val_main_v6 (F := Ideal) (m ((c.tc : Thread nD τ).loc main_arg1)) := (keep17 m c main_v6 (by decide)).trans <| (keep16 m c main_v6 (by decide)).trans <| (keep15 m c main_v6 (by decide)).trans <| (keep14 m c main_v6 (by decide)).trans <| (keep13 m c main_v6 (by decide)).trans <| (keep12 m c main_v6 (by decide)).trans <| (keep11 m c main_v6 (by decide)).trans <| (keep10 m c main_v6 (by decide)).trans <| (keep9 m c main_v6 (by decide)).trans <| (keep8 m c main_v6 (by decide)).trans <| (keep7 m c main_v6 (by decide)).trans <| (keep6 m c main_v6 (by decide)).trans <| (keep5 m c main_v6 (by decide)).trans <| (keep4 m c main_v6 (by decide)).trans <| (keep3 m c main_v6 (by decide)).trans <| (keep2 m c main_v6 (by decide)).trans (W1_v6 m c)
theorem W17_v28 : W17 m c main_v28 = Cert.ReferenceIdeal.Read.val_main_v28 (F := Ideal) (m ((c.tc : Thread nD τ).loc main_arg1)) := (keep17 m c main_v28 (by decide)).trans <| (keep16 m c main_v28 (by decide)).trans <| (keep15 m c main_v28 (by decide)).trans <| (keep14 m c main_v28 (by decide)).trans <| (keep13 m c main_v28 (by decide)).trans <| (keep12 m c main_v28 (by decide)).trans <| (keep11 m c main_v28 (by decide)).trans <| (keep10 m c main_v28 (by decide)).trans <| (keep9 m c main_v28 (by decide)).trans <| (keep8 m c main_v28 (by decide)).trans <| (keep7 m c main_v28 (by decide)).trans <| (keep6 m c main_v28 (by decide)).trans <| (keep5 m c main_v28 (by decide)).trans <| (keep4 m c main_v28 (by decide)).trans <| (keep3 m c main_v28 (by decide)).trans <| (keep2 m c main_v28 (by decide)).trans (W1_v28 m c)

/-! ## Region 0 -/
theorem W1_arg2 : W1 m c main_arg2 = (m ((c.tc : Thread nD τ).loc main_arg2)) := (keep1 m c main_arg2 (by decide))
theorem W1_arg0 : W1 m c main_arg0 = (m ((c.tc : Thread nD τ).loc main_arg0)) := (keep1 m c main_arg0 (by decide))
theorem o2_2_eq : o2_2 m c = Cert.ReferenceIdeal.Read.val_main_v31 (F := Ideal) (m ((c.tc : Thread nD τ).loc main_arg0)) (m ((c.tc : Thread nD τ).loc main_arg2)) := by
  unfold o2_2
  refine (val0 (asTc (W1 m)) c).trans ?_
  rw [show asTc (W1 m) c (Pipeline.arrRef spec0 0) = _ from W1_arg0 m c, show asTc (W1 m) c (Pipeline.arrRef spec0 1) = _ from W1_arg2 m c]
  rfl
theorem W2_v29 : W2 m c main_v29 = Cert.ReferenceIdeal.Read.val_main_v31 (F := Ideal) (m ((c.tc : Thread nD τ).loc main_arg0)) (m ((c.tc : Thread nD τ).loc main_arg2)) := by
  unfold W2
  exact (Function.update_self (Proc.devRef .tc main_v29) (o2_2 m c) (W1 m c)).trans (o2_2_eq m c)

/-! ## The host stretch `hostOps1` -/
theorem W2_arg3 : W2 m c main_arg3 = (m ((c.tc : Thread nD τ).loc main_arg3)) := (keep2 m c main_arg3 (by decide)).trans <| (keep1 m c main_arg3 (by decide))
set_option maxHeartbeats 4000000 in
theorem W3_v42 : W3 m c main_v42 = Cert.ReferenceIdeal.Read.val_main_v44 (F := Ideal) (m ((c.tc : Thread nD τ).loc main_arg0)) (m ((c.tc : Thread nD τ).loc main_arg1)) (m ((c.tc : Thread nD τ).loc main_arg2)) := by
  unfold W3; after_results_simp
  rw [W2_v6, W2_v28, W2_v29, W2_v3]
  rfl
set_option maxHeartbeats 4000000 in
theorem W3_v43 : W3 m c main_v43 = shapeCast S1x4 (m ((c.tc : Thread nD τ).loc main_arg3)) shapeCasts_S4_S1x4 := by
  unfold W3; after_results_simp
  rw [W2_arg3]
  rfl

/-! ## Region 1 -/
theorem o4_2_eq : o4_2 m c = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  unfold o4_2
  refine (val1 (asTc (W3 m)) c (m ((c.tc : Thread nD τ).loc main_arg3)) (W3_v43 m c)).trans ?_
  rw [show asTc (W3 m) c (Pipeline.arrRef spec1 0) = _ from W3_v42 m c]
  rfl
theorem W4_v44 : W4 m c main_v44 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  unfold W4
  exact (Function.update_self (Proc.devRef .tc main_v44) (o4_2 m c) (W3 m c)).trans (o4_2_eq m c)

/-! ## Region 2 -/
theorem W4_arg4 : W4 m c main_arg4 = (m ((c.tc : Thread nD τ).loc main_arg4)) := (keep4 m c main_arg4 (by decide)).trans <| (keep3 m c main_arg4 (by decide)).trans <| (keep2 m c main_arg4 (by decide)).trans <| (keep1 m c main_arg4 (by decide))
theorem o5_2_eq : o5_2 m c = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold o5_2
  refine (val2 (asTc (W4 m)) c).trans ?_
  rw [show asTc (W4 m) c (Pipeline.arrRef spec2 0) = _ from W4_v44 m c, show asTc (W4 m) c (Pipeline.arrRef spec2 1) = _ from W4_arg4 m c]
  rfl
theorem W5_v45 : W5 m c main_v45 = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5
  exact (Function.update_self (Proc.devRef .tc main_v45) (o5_2 m c) (W4 m c)).trans (o5_2_eq m c)

/-! ## The host stretch `hostOps3` -/
theorem W5_arg5 : W5 m c main_arg5 = (m ((c.tc : Thread nD τ).loc main_arg5)) := (keep5 m c main_arg5 (by decide)).trans <| (keep4 m c main_arg5 (by decide)).trans <| (keep3 m c main_arg5 (by decide)).trans <| (keep2 m c main_arg5 (by decide)).trans <| (keep1 m c main_arg5 (by decide))
set_option maxHeartbeats 4000000 in
theorem W6_v58 : W6 m c main_v58 = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results_simp
  rw [W5_v6, W5_v28, W5_v45, W5_v3]
  rfl
set_option maxHeartbeats 4000000 in
theorem W6_v59 : W6 m c main_v59 = shapeCast S1x4 (m ((c.tc : Thread nD τ).loc main_arg5)) shapeCasts_S4_S1x4 := by
  unfold W6; after_results_simp
  rw [W5_arg5]
  rfl

/-! ## Region 3 -/
theorem o7_2_eq : o7_2 m c = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold o7_2
  refine (val3 (asTc (W6 m)) c (m ((c.tc : Thread nD τ).loc main_arg5)) (W6_v59 m c)).trans ?_
  rw [show asTc (W6 m) c (Pipeline.arrRef spec3 0) = _ from W6_v58 m c]
  rfl
theorem W7_v60 : W7 m c main_v60 = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold W7
  exact (Function.update_self (Proc.devRef .tc main_v60) (o7_2 m c) (W6 m c)).trans (o7_2_eq m c)

/-! ## Region 4 -/
theorem W7_arg6 : W7 m c main_arg6 = (m ((c.tc : Thread nD τ).loc main_arg6)) := (keep7 m c main_arg6 (by decide)).trans <| (keep6 m c main_arg6 (by decide)).trans <| (keep5 m c main_arg6 (by decide)).trans <| (keep4 m c main_arg6 (by decide)).trans <| (keep3 m c main_arg6 (by decide)).trans <| (keep2 m c main_arg6 (by decide)).trans <| (keep1 m c main_arg6 (by decide))
theorem o8_2_eq : o8_2 m c = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold o8_2
  refine (val4 (asTc (W7 m)) c).trans ?_
  rw [show asTc (W7 m) c (Pipeline.arrRef spec4 0) = _ from W7_v60 m c, show asTc (W7 m) c (Pipeline.arrRef spec4 1) = _ from W7_arg6 m c]
  rfl
theorem W8_v61 : W8 m c main_v61 = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold W8
  exact (Function.update_self (Proc.devRef .tc main_v61) (o8_2 m c) (W7 m c)).trans (o8_2_eq m c)

/-! ## The host stretch `hostOps5` -/
theorem W8_arg7 : W8 m c main_arg7 = (m ((c.tc : Thread nD τ).loc main_arg7)) := (keep8 m c main_arg7 (by decide)).trans <| (keep7 m c main_arg7 (by decide)).trans <| (keep6 m c main_arg7 (by decide)).trans <| (keep5 m c main_arg7 (by decide)).trans <| (keep4 m c main_arg7 (by decide)).trans <| (keep3 m c main_arg7 (by decide)).trans <| (keep2 m c main_arg7 (by decide)).trans <| (keep1 m c main_arg7 (by decide))
set_option maxHeartbeats 4000000 in
theorem W9_v73 : W9 m c main_v73 = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold W9; after_results_simp
  rw [W8_v6, W8_v28, W8_v61, W8_v3]
  rfl
set_option maxHeartbeats 4000000 in
theorem W9_v74 : W9 m c main_v74 = shapeCast S1x1 (m ((c.tc : Thread nD τ).loc main_arg7)) shapeCasts_S1_S1x1 := by
  unfold W9; after_results_simp
  rw [W8_arg7]
  rfl

/-! ## Region 5 -/
theorem o10_2_eq : o10_2 m c = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold o10_2
  refine (val5 (asTc (W9 m)) c (m ((c.tc : Thread nD τ).loc main_arg7)) (W9_v74 m c)).trans ?_
  rw [show asTc (W9 m) c (Pipeline.arrRef spec5 0) = _ from W9_v73 m c]
  rfl
theorem W10_v75 : W10 m c main_v75 = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold W10
  exact (Function.update_self (Proc.devRef .tc main_v75) (o10_2 m c) (W9 m c)).trans (o10_2_eq m c)

/-! ## Region 6 -/
theorem W10_arg8 : W10 m c main_arg8 = (m ((c.tc : Thread nD τ).loc main_arg8)) := (keep10 m c main_arg8 (by decide)).trans <| (keep9 m c main_arg8 (by decide)).trans <| (keep8 m c main_arg8 (by decide)).trans <| (keep7 m c main_arg8 (by decide)).trans <| (keep6 m c main_arg8 (by decide)).trans <| (keep5 m c main_arg8 (by decide)).trans <| (keep4 m c main_arg8 (by decide)).trans <| (keep3 m c main_arg8 (by decide)).trans <| (keep2 m c main_arg8 (by decide)).trans <| (keep1 m c main_arg8 (by decide))
theorem o11_2_eq : o11_2 m c = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold o11_2
  refine (val6 (asTc (W10 m)) c).trans ?_
  rw [show asTc (W10 m) c (Pipeline.arrRef spec6 0) = _ from W10_v75 m c, show asTc (W10 m) c (Pipeline.arrRef spec6 1) = _ from W10_arg8 m c]
  rfl
theorem W11_v76 : W11 m c main_v76 = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold W11
  exact (Function.update_self (Proc.devRef .tc main_v76) (o11_2 m c) (W10 m c)).trans (o11_2_eq m c)

/-! ## The host stretch `hostOps7` -/
theorem W11_arg9 : W11 m c main_arg9 = (m ((c.tc : Thread nD τ).loc main_arg9)) := (keep11 m c main_arg9 (by decide)).trans <| (keep10 m c main_arg9 (by decide)).trans <| (keep9 m c main_arg9 (by decide)).trans <| (keep8 m c main_arg9 (by decide)).trans <| (keep7 m c main_arg9 (by decide)).trans <| (keep6 m c main_arg9 (by decide)).trans <| (keep5 m c main_arg9 (by decide)).trans <| (keep4 m c main_arg9 (by decide)).trans <| (keep3 m c main_arg9 (by decide)).trans <| (keep2 m c main_arg9 (by decide)).trans <| (keep1 m c main_arg9 (by decide))
set_option maxHeartbeats 4000000 in
theorem W12_v89 : W12 m c main_v89 = Cert.ReferenceIdeal.Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold W12; after_results_simp
  rw [W11_v6, W11_v28, W11_v76, W11_v3]
  rfl
set_option maxHeartbeats 4000000 in
theorem W12_v90 : W12 m c main_v90 = shapeCast S1x4 (m ((c.tc : Thread nD τ).loc main_arg9)) shapeCasts_S4_S1x4 := by
  unfold W12; after_results_simp
  rw [W11_arg9]
  rfl

/-! ## Region 7 -/
theorem o13_2_eq : o13_2 m c = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold o13_2
  refine (val7 (asTc (W12 m)) c (m ((c.tc : Thread nD τ).loc main_arg9)) (W12_v90 m c)).trans ?_
  rw [show asTc (W12 m) c (Pipeline.arrRef spec7 0) = _ from W12_v89 m c]
  rfl
theorem W13_v91 : W13 m c main_v91 = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold W13
  exact (Function.update_self (Proc.devRef .tc main_v91) (o13_2 m c) (W12 m c)).trans (o13_2_eq m c)

/-! ## Region 8 -/
theorem W13_arg10 : W13 m c main_arg10 = (m ((c.tc : Thread nD τ).loc main_arg10)) := (keep13 m c main_arg10 (by decide)).trans <| (keep12 m c main_arg10 (by decide)).trans <| (keep11 m c main_arg10 (by decide)).trans <| (keep10 m c main_arg10 (by decide)).trans <| (keep9 m c main_arg10 (by decide)).trans <| (keep8 m c main_arg10 (by decide)).trans <| (keep7 m c main_arg10 (by decide)).trans <| (keep6 m c main_arg10 (by decide)).trans <| (keep5 m c main_arg10 (by decide)).trans <| (keep4 m c main_arg10 (by decide)).trans <| (keep3 m c main_arg10 (by decide)).trans <| (keep2 m c main_arg10 (by decide)).trans <| (keep1 m c main_arg10 (by decide))
theorem o14_2_eq : o14_2 m c = Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold o14_2
  refine (val8 (asTc (W13 m)) c).trans ?_
  rw [show asTc (W13 m) c (Pipeline.arrRef spec8 0) = _ from W13_v91 m c, show asTc (W13 m) c (Pipeline.arrRef spec8 1) = _ from W13_arg10 m c]
  rfl
theorem W14_v92 : W14 m c main_v92 = Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold W14
  exact (Function.update_self (Proc.devRef .tc main_v92) (o14_2 m c) (W13 m c)).trans (o14_2_eq m c)

/-! ## The host stretch `hostOps9` -/
theorem W14_arg11 : W14 m c main_arg11 = (m ((c.tc : Thread nD τ).loc main_arg11)) := (keep14 m c main_arg11 (by decide)).trans <| (keep13 m c main_arg11 (by decide)).trans <| (keep12 m c main_arg11 (by decide)).trans <| (keep11 m c main_arg11 (by decide)).trans <| (keep10 m c main_arg11 (by decide)).trans <| (keep9 m c main_arg11 (by decide)).trans <| (keep8 m c main_arg11 (by decide)).trans <| (keep7 m c main_arg11 (by decide)).trans <| (keep6 m c main_arg11 (by decide)).trans <| (keep5 m c main_arg11 (by decide)).trans <| (keep4 m c main_arg11 (by decide)).trans <| (keep3 m c main_arg11 (by decide)).trans <| (keep2 m c main_arg11 (by decide)).trans <| (keep1 m c main_arg11 (by decide))
set_option maxHeartbeats 4000000 in
theorem W15_v105 : W15 m c main_v105 = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold W15; after_results_simp
  rw [W14_v6, W14_v28, W14_v92, W14_v3]
  rfl
set_option maxHeartbeats 4000000 in
theorem W15_v106 : W15 m c main_v106 = shapeCast S1x4 (m ((c.tc : Thread nD τ).loc main_arg11)) shapeCasts_S4_S1x4 := by
  unfold W15; after_results_simp
  rw [W14_arg11]
  rfl

/-! ## Region 9 -/
theorem o16_2_eq : o16_2 m c = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold o16_2
  refine (val9 (asTc (W15 m)) c (m ((c.tc : Thread nD τ).loc main_arg11)) (W15_v106 m c)).trans ?_
  rw [show asTc (W15 m) c (Pipeline.arrRef spec9 0) = _ from W15_v105 m c]
  rfl
theorem W16_v107 : W16 m c main_v107 = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold W16
  exact (Function.update_self (Proc.devRef .tc main_v107) (o16_2 m c) (W15 m c)).trans (o16_2_eq m c)

/-! ## Region 10 -/
theorem W16_arg12 : W16 m c main_arg12 = (m ((c.tc : Thread nD τ).loc main_arg12)) := (keep16 m c main_arg12 (by decide)).trans <| (keep15 m c main_arg12 (by decide)).trans <| (keep14 m c main_arg12 (by decide)).trans <| (keep13 m c main_arg12 (by decide)).trans <| (keep12 m c main_arg12 (by decide)).trans <| (keep11 m c main_arg12 (by decide)).trans <| (keep10 m c main_arg12 (by decide)).trans <| (keep9 m c main_arg12 (by decide)).trans <| (keep8 m c main_arg12 (by decide)).trans <| (keep7 m c main_arg12 (by decide)).trans <| (keep6 m c main_arg12 (by decide)).trans <| (keep5 m c main_arg12 (by decide)).trans <| (keep4 m c main_arg12 (by decide)).trans <| (keep3 m c main_arg12 (by decide)).trans <| (keep2 m c main_arg12 (by decide)).trans <| (keep1 m c main_arg12 (by decide))
theorem o17_2_eq : o17_2 m c = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold o17_2
  refine (val10 (asTc (W16 m)) c).trans ?_
  rw [show asTc (W16 m) c (Pipeline.arrRef spec10 0) = _ from W16_v107 m c, show asTc (W16 m) c (Pipeline.arrRef spec10 1) = _ from W16_arg12 m c]
  rfl
theorem W17_v108 : W17 m c main_v108 = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold W17
  exact (Function.update_self (Proc.devRef .tc main_v108) (o17_2 m c) (W16 m c)).trans (o17_2_eq m c)

/-! ## The host stretch `hostOps11` -/
theorem W17_arg13 : W17 m c main_arg13 = (m ((c.tc : Thread nD τ).loc main_arg13)) := (keep17 m c main_arg13 (by decide)).trans <| (keep16 m c main_arg13 (by decide)).trans <| (keep15 m c main_arg13 (by decide)).trans <| (keep14 m c main_arg13 (by decide)).trans <| (keep13 m c main_arg13 (by decide)).trans <| (keep12 m c main_arg13 (by decide)).trans <| (keep11 m c main_arg13 (by decide)).trans <| (keep10 m c main_arg13 (by decide)).trans <| (keep9 m c main_arg13 (by decide)).trans <| (keep8 m c main_arg13 (by decide)).trans <| (keep7 m c main_arg13 (by decide)).trans <| (keep6 m c main_arg13 (by decide)).trans <| (keep5 m c main_arg13 (by decide)).trans <| (keep4 m c main_arg13 (by decide)).trans <| (keep3 m c main_arg13 (by decide)).trans <| (keep2 m c main_arg13 (by decide)).trans <| (keep1 m c main_arg13 (by decide))
set_option maxHeartbeats 4000000 in
theorem W18_v120 : W18 m c main_v120 = Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold W18; after_results_simp
  rw [W17_v6, W17_v28, W17_v108, W17_v3]
  rfl
set_option maxHeartbeats 4000000 in
theorem W18_v121 : W18 m c main_v121 = shapeCast S1x1 (m ((c.tc : Thread nD τ).loc main_arg13)) shapeCasts_S1_S1x1 := by
  unfold W18; after_results_simp
  rw [W17_arg13]
  rfl

/-! ## Region 11 -/
theorem o19_2_eq : o19_2 m c = Cert.ReferenceIdeal.Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold o19_2
  refine (val11 (asTc (W18 m)) c (m ((c.tc : Thread nD τ).loc main_arg13)) (W18_v121 m c)).trans ?_
  rw [show asTc (W18 m) c (Pipeline.arrRef spec11 0) = _ from W18_v120 m c]
  rfl
theorem W19_v122 : W19 m c main_v122 = Cert.ReferenceIdeal.Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold W19
  exact (Function.update_self (Proc.devRef .tc main_v122) (o19_2 m c) (W18 m c)).trans (o19_2_eq m c)

end Cert.KernelIdeal.Hand
end
-- ==== Proof.B.Mean.lean ====
/-
  The concat-and-mean region's payloads at an index: the zero row, the two identity casts, the accumulator entry
  plus the sum of the block's column over its 10000 rows, and the final product with 1/100000.
-/
import proofs.«147273_j88914412962548_1_alg».proof.Proof.Gen.KernelIdeal.Skeleton
import proofs.«147273_j88914412962548_1_alg».proof.Proof.B.Layout
import Idealize.ShloMosaic.PureOps.Ideal.Laws

noncomputable section

open scoped BigOperators

namespace Cert.Bridge

open Cert.KernelIdeal Cert.KernelIdeal.Gen Idealize.ShloMosaic Idealize.ShloMosaic.ValueIdx

/-- Region 12's first payload: the zero row the accumulator starts from. -/
theorem pay12_1_at (u : Fin 1) (j : Fin 2) : k12_pay1 (F := Ideal) (ix2 u j) = 0 := by
  unfold k12_pay1
  simp only [shapeCast_self, broadcast_apply]
  exact zeroWord

/-- Region 12's second payload is its input block (an identity cast). -/
theorem pay12_2_eq (v : Vec Ideal S10000x1 .f32) : k12_pay2 (F := Ideal) v = v := by
  unfold k12_pay2
  exact shapeCast_self v _

/-- Region 12's third payload is its input block (an identity cast). -/
theorem pay12_3_eq (v : Vec Ideal S10000x1 .f32) : k12_pay3 (F := Ideal) v = v := by
  unfold k12_pay3
  exact shapeCast_self v _

/-- The sum over the rows of a `[10000, 1]` block's one column, as the vector unit's add-reduction along axis 0. -/
theorem colSum_at (src : FVec Ideal S10000x1 .f32) (h : S10000x1.Reduces [0] S1) (hφ : FKind.Formats FTy.f32)
    (hacc : (0x00000000#32 : BitVec 32) = FKind.add.neutral FTy.f32 hφ) (u : Fin 1) :
    multiReduction .add [0] S1 src 0x00000000#32 h hφ hacc (ix1 u) = ∑ r : Fin 10000, src (ix2 r (0 : Fin 1)) := by
  refine (Ideal.multiReduction_add_single src 0x00000000#32 h hφ hacc (ix1 u)).trans ?_
  show ∑ r : Fin 10000, src (h.lift (ix1 u) r) = _
  refine Finset.sum_congr rfl fun r _ => congrArg src ?_
  funext a
  apply Fin.ext
  match a with
  | ⟨0, _⟩ => rfl
  | ⟨1, _⟩ =>
    show ((h.lift (ix1 u) r) 1).val = 0
    have := ((h.lift (ix1 u) r) 1).isLt
    have h1 : S10000x1.size 1 = 1 := rfl
    omega

/-- Region 12's fourth payload: the accumulator's entry plus the block column's sum. -/
theorem pay12_4_at (v : Vec Ideal S10000x1 .f32) (acc : Vec Ideal S1x1 .f32) (u c : Fin 1) :
    k12_pay4 (F := Ideal) v acc (ix2 u c) = acc (ix2 u c) + ∑ r : Fin 10000, v (ix2 r (0 : Fin 1)) := by
  unfold k12_pay4
  simp only [shapeCast_self, addf_apply, pay12_2_eq]
  refine congrArg (acc (ix2 u c) + ·) ?_
  refine (shapeCast_a_1a_apply _ shapeCasts_S1_S1x1 u c).trans ?_
  exact colSum_at v _ _ _ c

/-- Region 12's fifth payload: the accumulator's entry plus the block column's sum. -/
theorem pay12_5_at (v : Vec Ideal S10000x1 .f32) (acc : Vec Ideal S1x1 .f32) (u c : Fin 1) :
    k12_pay5 (F := Ideal) v acc (ix2 u c) = acc (ix2 u c) + ∑ r : Fin 10000, v (ix2 r (0 : Fin 1)) := by
  unfold k12_pay5
  simp only [shapeCast_self, addf_apply, pay12_3_eq]
  refine congrArg (acc (ix2 u c) + ·) ?_
  refine (shapeCast_a_1a_apply _ shapeCasts_S1_S1x1 u c).trans ?_
  exact colSum_at v _ _ _ c

/-- The named reciprocal is the rational 1/100000 at the ideal instance, by the certificate's table. -/
theorem inv_100000 : Named.named (F := Ideal) Cert.KernelIdeal.κ "inv_100000" (φ := .f32) 0x3727C5AC#32 = ((1 / 100000 : ℝ) : EReal) :=
  IdealRules.named_const.ideal_named_scalar _ _ _ _ rfl

/-- Region 12's last payload: the accumulated entry times 1/100000. -/
theorem pay12_6_at (v : Vec Ideal S1x2 .f32) (u : Fin 1) (j : Fin 2) :
    k12_pay6 (F := Ideal) v (ix2 u j) = v (ix2 u j) * ((1 / 100000 : ℝ) : EReal) := by
  unfold k12_pay6
  simp only [mulf_apply, broadcast_apply]
  rw [inv_100000]

end Cert.Bridge

end
-- ==== Proof.B.Sums.lean ====
/-
  Sums regrouped, on any additive commutative monoid: a sum over 100000 rows as ten block sums of 10000 rows (row
  `10000 * t + r` is row `r` of block `t`), and an accumulator that starts at zero and adds one term per step as the
  sum of the terms.
-/
import Mathlib.Algebra.BigOperators.Fin
import Mathlib.Algebra.BigOperators.Intervals
import Mathlib.Logic.Equiv.Fin.Basic

open scoped BigOperators

namespace Cert.Bridge

variable {M : Type*} [AddCommMonoid M]

/-- A sum over the 100000 rows, regrouped into ten blocks of 10000 rows: row `10000 * t + r` is row `r` of block `t`. -/
theorem sum_rows_blocks (f : Fin 100000 → M) :
    ∑ R : Fin 100000, f R
      = ∑ t : Fin 10, ∑ r : Fin 10000, f ⟨10000 * t.val + r.val, by have := t.isLt; have := r.isLt; omega⟩ := by
  rw [← Fintype.sum_prod_type']
  refine (Fintype.sum_equiv (finProdFinEquiv (m := 10) (n := 10000)) _ _ fun p => ?_).symm
  refine congrArg f (Fin.ext ?_)
  show 10000 * p.1.val + p.2.val = p.2.val + 10000 * p.1.val
  omega

/-- The same regrouping with the row written `t * 10000 + r` (block index times block size plus the row in the block). -/
theorem sum_rows_blocks' (f : Fin 100000 → M) :
    ∑ R : Fin 100000, f R
      = ∑ t : Fin 10, ∑ r : Fin 10000, f ⟨t.val * 10000 + r.val, by have := t.isLt; have := r.isLt; omega⟩ := by
  rw [sum_rows_blocks]
  refine Finset.sum_congr rfl fun t _ => Finset.sum_congr rfl fun r _ => congrArg f (Fin.ext ?_)
  show 10000 * t.val + r.val = t.val * 10000 + r.val
  omega

/-- An accumulator that starts at `a` and adds `g t` at step `t` holds, after `n` steps, `a` plus the sum of the first `n` terms. -/
theorem acc_eq_add_sum_range (g : ℕ → M) (A : ℕ → M) (a : M) (h0 : A 0 = a) (hs : ∀ t, A (t + 1) = A t + g t) (n : ℕ) :
    A n = a + ∑ t ∈ Finset.range n, g t := by
  induction n with
  | zero => rw [Finset.range_zero, Finset.sum_empty, add_zero, h0]
  | succ n ih => rw [hs, ih, Finset.sum_range_succ, add_assoc]

/-- The same for an accumulator that starts at zero, over the ten grid steps, as a sum over `Fin 10`. -/
theorem acc_ten_eq_sum (g : Fin 10 → M) (A : ℕ → M) (h0 : A 0 = 0)
    (hs : ∀ t : Fin 10, A (t.val + 1) = A t.val + g t) : A 10 = ∑ t : Fin 10, g t := by
  have key : ∀ n (hn : n ≤ 10), A n = ∑ t ∈ Finset.range n, (if h : t < 10 then g ⟨t, h⟩ else 0) := by
    intro n
    induction n with
    | zero => intro _; rw [Finset.range_zero, Finset.sum_empty, h0]
    | succ n ih =>
      intro hn
      have hlt : n < 10 := by omega
      rw [Finset.sum_range_succ, ← ih (by omega), dif_pos hlt]
      exact hs ⟨n, hlt⟩
  rw [key 10 (le_refl _), ← Fin.sum_univ_eq_sum_range (fun t => if h : t < 10 then g ⟨t, h⟩ else 0) 10]
  refine Finset.sum_congr rfl fun t _ => ?_
  rw [dif_pos t.isLt]

end Cert.Bridge
-- ==== Proof.B.R12Val.lean ====
/-
  Region 12 at an index, at the ideal instance. The node block the body leaves has the first input block as its
  column 0 and the second as its column 1. One point's update of the 1x2 accumulator adds to entry j the sum over
  the 10000 rows of input block j. The region's windows, index by index: row r of block t of the two inputs and of
  the node output is row 10000 * t + r of the array; the graph output's block is its whole 1x2 array.
-/
import proofs.«147273_j88914412962548_1_alg».proof.Proof.KI.R12Body
import proofs.«147273_j88914412962548_1_alg».proof.Proof.B.Mean
import proofs.«147273_j88914412962548_1_alg».proof.Proof.B.Sums
import Idealize.ShloMosaic.Lib.ValueIdxCoords

noncomputable section

open scoped BigOperators

set_option maxRecDepth 16384

namespace Cert.KernelIdeal.Hand

open Cert.KernelIdeal Cert.KernelIdeal.Gen Cert.Bridge
open Idealize.ShloMosaic Idealize.ShloMosaic.TcCoe Idealize.SL.Sem Idealize.ShloMosaic.ValueIdx
open Idealize.ShloMosaic.Pipeline (Dat)

/-! ## The two column stores into the node block -/

theorem emb_r12_c0 (r : Fin 10000) : r12_c0.emb (ix2 r (0 : Fin 1)) = (ix2 r (0 : Fin 2) : S10000x2.Idx) := by
  funext a; apply Fin.ext
  match a with
  | ⟨0, _⟩ => show 0 + 1 * r.val = r.val; omega
  | ⟨1, _⟩ => rfl

theorem emb_r12_c1 (r : Fin 10000) : r12_c1.emb (ix2 r (0 : Fin 1)) = (ix2 r (1 : Fin 2) : S10000x2.Idx) := by
  funext a; apply Fin.ext
  match a with
  | ⟨0, _⟩ => show 0 + 1 * r.val = r.val; omega
  | ⟨1, _⟩ => rfl

/-- Column 0 of the node block is the first input block. -/
theorem out12_2_at0 (x0 x1 : Vec Ideal S10000x1 .f32) (r : Fin 10000) :
    out12_2 (F := Ideal) x0 x1 (ix2 r (0 : Fin 2)) = x0 (ix2 r (0 : Fin 1)) := by
  unfold out12_2
  refine (View.canon_cons_of_not_mem _ _ ?_).trans ?_
  · intro h
    have h' := ((Rect.mem_set_unit (inb := inb_S10000x2_S10000x1_0_1)).mp h (1 : Fin 2)).1
    exact absurd (show (1 : ℕ) ≤ 0 from h') (by omega)
  · rw [← emb_r12_c0, View.canon_cons_emb, pay12_2_eq]

/-- Column 1 of the node block is the second input block. -/
theorem out12_2_at1 (x0 x1 : Vec Ideal S10000x1 .f32) (r : Fin 10000) :
    out12_2 (F := Ideal) x0 x1 (ix2 r (1 : Fin 2)) = x1 (ix2 r (0 : Fin 1)) := by
  unfold out12_2
  rw [← emb_r12_c1, View.canon_cons_emb, pay12_3_eq]

/-! ## One point's update of the accumulator -/

theorem emb_rs12_0 (u : Fin 1) : rs12_0.emb (ix2 u (0 : Fin 1)) = (ix2 u (0 : Fin 2) : S1x2.Idx) := by
  funext a; apply Fin.ext
  match a with
  | ⟨0, _⟩ => show 0 + 1 * u.val = u.val; omega
  | ⟨1, _⟩ => rfl

theorem emb_rs12_1 (u : Fin 1) : rs12_1.emb (ix2 u (0 : Fin 1)) = (ix2 u (1 : Fin 2) : S1x2.Idx) := by
  funext a; apply Fin.ext
  match a with
  | ⟨0, _⟩ => show 0 + 1 * u.val = u.val; omega
  | ⟨1, _⟩ => rfl

/-- Entry 0 of the accumulator after a point: its prior value plus the first input block's column sum. -/
theorem step12_at0 (x0 x1 : Vec Ideal S10000x1 .f32) (a : Vec Ideal S1x2 .f32) (u : Fin 1) :
    step12 (F := Ideal) x0 x1 a (ix2 u (0 : Fin 2))
      = a (ix2 u (0 : Fin 2)) + ∑ r : Fin 10000, x0 (ix2 r (0 : Fin 1)) := by
  unfold step12
  refine (View.canon_cons_of_not_mem _ _ ?_).trans ?_
  · intro h
    have h' := ((Rect.mem_set_unit (inb := inb_S1x2_S1x1_0_1)).mp h (1 : Fin 2)).1
    exact absurd (show (1 : ℕ) ≤ 0 from h') (by omega)
  · rw [← emb_rs12_0, View.canon_cons_emb, pay12_4_at]
    rfl

/-- Entry 1 of the accumulator after a point: its prior value plus the second input block's column sum. -/
theorem step12_at1 (x0 x1 : Vec Ideal S10000x1 .f32) (a : Vec Ideal S1x2 .f32) (u : Fin 1) :
    step12 (F := Ideal) x0 x1 a (ix2 u (1 : Fin 2))
      = a (ix2 u (1 : Fin 2)) + ∑ r : Fin 10000, x1 (ix2 r (0 : Fin 1)) := by
  unfold step12
  rw [← emb_rs12_1, View.canon_cons_emb, pay12_5_at]
  rfl

/-! ## The windows' blocks as parts of their arrays -/

/-- The grid has ten points. -/
theorem point_lt12 (t : Fin cfg12.N) : t.val < 10 := by
  have h : t.val < grid12.N := t.isLt
  rw [N_12] at h; exact h

/-- Row `r` of block `t` is a row of the array. -/
theorem row_lt12 (t : Fin cfg12.N) (r : Fin 10000) : 10000 * t.val + r.val < 100000 := by
  have := point_lt12 t; omega

/-- The printed index maps, decided over the ten points: the two inputs' and the node output's block index is the
    point on the row axis and zero on the column axis; the graph output's is zero on both. -/
theorem index_facts12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0 :=
  (by decide +kernel : ∀ t : Fin grid12.N, _)

/-- Input window 0's block at point `t`, index by index. -/
theorem emb12_0 (t : Fin cfg12.N) (r : Fin 10000) (k : Fin 1) :
    ((cfg12.win 0).blk t).view.emb (ix2 r k) = (ix2 ⟨10000 * t.val + r.val, row_lt12 t r⟩ k : S100000x1.Idx) := by
  obtain ⟨e0, e1, -, -, -, -, -, -⟩ := index_facts12 t
  funext a; apply Fin.ext
  match a with
  | ⟨0, _⟩ => show win12_0.index t (0 : Fin 2) * 10000 + 1 * r.val = 10000 * t.val + r.val; omega
  | ⟨1, _⟩ => show win12_0.index t (1 : Fin 2) * 1 + 1 * k.val = k.val; omega

/-- Input window 1's block at point `t`, index by index. -/
theorem emb12_1 (t : Fin cfg12.N) (r : Fin 10000) (k : Fin 1) :
    ((cfg12.win 1).blk t).view.emb (ix2 r k) = (ix2 ⟨10000 * t.val + r.val, row_lt12 t r⟩ k : S100000x1.Idx) := by
  obtain ⟨-, -, e0, e1, -, -, -, -⟩ := index_facts12 t
  funext a; apply Fin.ext
  match a with
  | ⟨0, _⟩ => show win12_1.index t (0 : Fin 2) * 10000 + 1 * r.val = 10000 * t.val + r.val; omega
  | ⟨1, _⟩ => show win12_1.index t (1 : Fin 2) * 1 + 1 * k.val = k.val; omega

/-- The node output's block at point `t`, index by index. -/
theorem emb12_2 (t : Fin cfg12.N) (r : Fin 10000) (j : Fin 2) :
    ((cfg12.win 2).blk t).view.emb (ix2 r j) = (ix2 ⟨10000 * t.val + r.val, row_lt12 t r⟩ j : S100000x2.Idx) := by
  obtain ⟨-, -, -, -, e0, e1, -, -⟩ := index_facts12 t
  funext a; apply Fin.ext
  match a with
  | ⟨0, _⟩ => show win12_2.index t (0 : Fin 2) * 10000 + 1 * r.val = 10000 * t.val + r.val; omega
  | ⟨1, _⟩ => show win12_2.index t (1 : Fin 2) * 2 + 1 * j.val = j.val; omega

/-- The graph output's block is the whole of its array at every point. -/
theorem emb12_3 (t : Fin cfg12.N) (y : S1x2.Idx) : ((cfg12.win 3).blk t).view.emb y = y := by
  obtain ⟨-, -, -, -, -, -, e0, e1⟩ := index_facts12 t
  funext a; apply Fin.ext
  match a with
  | ⟨0, _⟩ => show win12_3.index t (0 : Fin 2) * 1 + 1 * (y 0).val = (y 0).val; omega
  | ⟨1, _⟩ => show win12_3.index t (1 : Fin 2) * 2 + 1 * (y 1).val = (y 1).val; omega

end Cert.KernelIdeal.Hand

end
-- ==== Proof.B.RefTail.lean ====
/-
  The reference's tail at an index, over variables: two columns concatenated, summed over the 100000 rows from a
  zero initial value, divided by the literal 100000 (the product with 1/100000).
-/
import proofs.«147273_j88914412962548_1_alg».proof.Proof.Gen.ReferenceIdeal
import proofs.«147273_j88914412962548_1_alg».proof.Proof.B.Layout
import Idealize.ShloMosaic.Lib.Pipeline.Value

noncomputable section

open scoped BigOperators

namespace Cert.Bridge

open Cert.ReferenceIdeal Cert.ReferenceIdeal.Gen Idealize.ShloMosaic Idealize.ShloMosaic.ValueIdx

/-- The reference's concatenation of two columns into `[100000, 2]`, read at column 0: the first column. -/
theorem refConcat_left (a b : FVec Ideal S100000x1 .f32) (R : Fin 100000) :
    concatenate S100000x2 1 [⟨S100000x1, a⟩, ⟨S100000x1, b⟩] concatenates_S100000x1_S100000x1_S100000x2_d1 (ix2 R (0 : Fin 2))
      = a (ix2 R (0 : Fin 1)) :=
  concatenate_pair_apply_left (1 : Fin S100000x2.rank) a b concatenates_S100000x1_S100000x1_S100000x2_d1 (ix2 R (0 : Fin 2)) rfl
    (ix2 R (0 : Fin 1)) (fun ax => by match ax with | ⟨0, _⟩ => rfl | ⟨1, _⟩ => rfl)

/-- … and read at column 1: the second column. -/
theorem refConcat_right (a b : FVec Ideal S100000x1 .f32) (R : Fin 100000) :
    concatenate S100000x2 1 [⟨S100000x1, a⟩, ⟨S100000x1, b⟩] concatenates_S100000x1_S100000x1_S100000x2_d1 (ix2 R (1 : Fin 2))
      = b (ix2 R (0 : Fin 1)) :=
  concatenate_pair_apply_right (1 : Fin S100000x2.rank) a b concatenates_S100000x1_S100000x1_S100000x2_d1 (ix2 R (1 : Fin 2)) rfl rfl
    (ix2 R (0 : Fin 1)) (fun ax hax => by match ax with | ⟨0, _⟩ => rfl | ⟨1, _⟩ => exact absurd rfl hax) rfl

/-- The reference's column sums: the host's add-reduction over the rows from a zero initial value, at `j`. -/
theorem refColSum_at (x : FVec Ideal S100000x2 .f32) (j : Fin 2) :
    Host.reduceAdd (F := Ideal) x (constant (F := Ideal) S_ .f32 0x00000000#32) reducesTo_S100000x2_S2_d0 h_S_ (ix1 j)
      = ∑ R : Fin 100000, x (ix2 R j) := by
  simp only [Host.reduceAdd, Ideal.hostReduceAdd_def]
  rw [Ideal.hostReduceAdd_single reducesTo_S100000x2_S2_d0 (by decide)]
  refine (congrArg (· + _) (show constant (F := Ideal) S_ .f32 0x00000000#32 (Shape.Idx.first h_S_) = 0 from Ideal.ofBits_zero_f32)).trans ?_
  rw [zero_add]
  show ∑ R : Fin 100000, x _ = _
  refine Finset.sum_congr rfl fun R _ => congrArg x ?_
  funext a
  apply Fin.ext
  match a with
  | ⟨0, _⟩ => rfl
  | ⟨1, _⟩ => rfl

/-- The word `0x47C35000` denotes the real 100000. -/
theorem ofBits_100000 : Ideal.ofBits .f32 0x47C35000#32 = ((100000 : ℝ) : EReal) := by
  simp [Ideal.ofBits, Ideal.ieee, -EReal.coe_mul]; norm_num

/-- The reference's division by the broadcast literal 100000 is the product with 1/100000, at `j`. -/
theorem refDiv_at (y : FVec Ideal S2 .f32) (j : Fin 2) :
    Host.divf y (broadcastInDim S2 ![] bcast_S_S2 (constant (F := Ideal) S_ .f32 0x47C35000#32)) (ix1 j)
      = y (ix1 j) * ((1 / 100000 : ℝ) : EReal) := by
  simp only [Host.divf, Ideal.hostDivf_def]
  rw [show broadcastInDim S2 ![] bcast_S_S2 (constant (F := Ideal) S_ .f32 0x47C35000#32) (ix1 j) = Ideal.ofBits .f32 0x47C35000#32 from
      broadcastInDim_apply _ bcast_S_S2 _ (ix1 j) ix0 (fun a => a.elim0),
    ofBits_100000, Ideal.div_coe (by norm_num : (100000 : ℝ) ≠ 0)]

/-- The reference's whole tail at column 0: the mean of the first column. -/
theorem refTail_at0 (a b : FVec Ideal S100000x1 .f32) :
    Host.divf (Host.reduceAdd (F := Ideal)
        (concatenate S100000x2 1 [⟨S100000x1, a⟩, ⟨S100000x1, b⟩] concatenates_S100000x1_S100000x1_S100000x2_d1)
        (constant (F := Ideal) S_ .f32 0x00000000#32) reducesTo_S100000x2_S2_d0 h_S_)
      (broadcastInDim S2 ![] bcast_S_S2 (constant (F := Ideal) S_ .f32 0x47C35000#32)) (ix1 (0 : Fin 2))
      = (∑ R : Fin 100000, a (ix2 R (0 : Fin 1))) * ((1 / 100000 : ℝ) : EReal) := by
  refine (refDiv_at _ (0 : Fin 2)).trans ?_
  refine congrArg (· * ((1 / 100000 : ℝ) : EReal)) ?_
  refine (refColSum_at _ (0 : Fin 2)).trans ?_
  exact Finset.sum_congr rfl fun R _ => refConcat_left a b R

/-- The reference's whole tail at column 1: the mean of the second column. -/
theorem refTail_at1 (a b : FVec Ideal S100000x1 .f32) :
    Host.divf (Host.reduceAdd (F := Ideal)
        (concatenate S100000x2 1 [⟨S100000x1, a⟩, ⟨S100000x1, b⟩] concatenates_S100000x1_S100000x1_S100000x2_d1)
        (constant (F := Ideal) S_ .f32 0x00000000#32) reducesTo_S100000x2_S2_d0 h_S_)
      (broadcastInDim S2 ![] bcast_S_S2 (constant (F := Ideal) S_ .f32 0x47C35000#32)) (ix1 (1 : Fin 2))
      = (∑ R : Fin 100000, b (ix2 R (0 : Fin 1))) * ((1 / 100000 : ℝ) : EReal) := by
  refine (refDiv_at _ (1 : Fin 2)).trans ?_
  refine congrArg (· * ((1 / 100000 : ℝ) : EReal)) ?_
  refine (refColSum_at _ (1 : Fin 2)).trans ?_
  exact Finset.sum_congr rfl fun R _ => refConcat_right a b R

end Cert.Bridge

end
-- ==== Proof.KI.G12.lean ====
/- The value of region 12 (the concatenation and column means) at the ideal instance, as the reference's operations
   of the region's two input arrays: the node array the region leaves is the two input columns side by side, and the
   graph array, viewed as a vector of length 2, is the column sums over the 100000 rows divided by 100000. The ten
   blocks of 10000 rows tile the node array; the graph array is written back once, whole, at the last point, holding
   the accumulator scaled by 1/100000, and the accumulator at the end holds, per column, the ten block sums. -/
import proofs.«147273_j88914412962548_1_alg».proof.Proof.KI.R12
import proofs.«147273_j88914412962548_1_alg».proof.Proof.B.R12Val
import proofs.«147273_j88914412962548_1_alg».proof.Proof.B.RefTail
import proofs.«147273_j88914412962548_1_alg».proof.Proof.Gen.ReferenceIdeal
import Idealize.ShloMosaic.Lib.Pipeline.Value
import Idealize.ShloMosaic.Lib.ValueIdx
import Idealize.ShloMosaic.Lib.ValueIdxCoords
import Idealize.ShloMosaic.Lib.ValueLayout

set_option maxRecDepth 16384

noncomputable section

open scoped BigOperators

namespace Cert.KernelIdeal.Hand

open Cert.KernelIdeal Cert.KernelIdeal.Gen Cert.Bridge
open Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

/-! ## The input blocks as parts of their arrays -/

/-- Input 0's block at a point, read at a row, is its array as the region finds it at the row of the array. -/
theorem iblk12_0_at (c : Dev nD) (t : Fin cfg12.N) (r : Fin 10000) (k : Fin 1) :
    iblk12 V c 0 t (ix2 r k) = V c (Pipeline.arrRef spec12 0) (ix2 ⟨10000 * t.val + r.val, row_lt12 t r⟩ k : S100000x1.Idx) := by
  show V c (Pipeline.arrRef spec12 0) (((cfg12.win 0).blk t).view.emb (ix2 r k)) = _
  rw [emb12_0]

/-- Input 1's block likewise. -/
theorem iblk12_1_at (c : Dev nD) (t : Fin cfg12.N) (r : Fin 10000) (k : Fin 1) :
    iblk12 V c 1 t (ix2 r k) = V c (Pipeline.arrRef spec12 1) (ix2 ⟨10000 * t.val + r.val, row_lt12 t r⟩ k : S100000x1.Idx) := by
  show V c (Pipeline.arrRef spec12 1) (((cfg12.win 1).blk t).view.emb (ix2 r k)) = _
  rw [emb12_1]

/-! ## The node array -/

/-- A block's worth of values that agrees with `G` row by row and column by column is block `t` of `G`. -/
theorem read_blk12_2 (t : Fin cfg12.N) (G : S100000x2.Idx → Elt Ideal .f32) (P : S10000x2.Idx → Elt Ideal .f32)
    (h : ∀ (r : Fin 10000) (j : Fin 2), P (ix2 r j) = G (ix2 ⟨10000 * t.val + r.val, row_lt12 t r⟩ j)) :
    P = ((cfg12.win 2).blk t).view.read (Elt Ideal) G := by
  funext y
  obtain ⟨r, j, rfl⟩ : ∃ (r : Fin 10000) (j : Fin 2), y = ix2 r j := ⟨y 0, y 1, eq_ix2 y⟩
  rw [h]
  show G _ = G (((cfg12.win 2).blk t).view.emb (ix2 r j))
  rw [emb12_2]

/-- An index of the node array is in point `t`'s block iff each coordinate is in the block's range on its axis. -/
theorem mem_blk12_2 (t : Fin cfg12.N) (i : S100000x2.Idx) :
    i ∈ ((cfg12.win 2).blk t).view.set ↔ ∀ a : Fin 2, win12_2.index t a * S10000x2.size a ≤ (i a).val ∧ (i a).val < win12_2.index t a * S10000x2.size a + S10000x2.size a := by
  show i ∈ ((View.whole main_v123_0).slice (win12_2.rect t)).set ↔ _
  rw [View.set_slice_whole, Rect.mem_set_unit]
  exact Iff.rfl

/-- The ten blocks tile the node array. -/
theorem blocks_cover12_2 (i : S100000x2.Idx) :
    ∃ t : Fin cfg12.N, (cfg12.win 2).flush t = true ∧ i ∈ ((cfg12.win 2).blk t).view.set := by
  have hi0 : (i 0).val < 100000 := (i 0).isLt
  have hi1 : (i 1).val < 2 := (i 1).isLt
  have hN : (i 0).val / 10000 < grid12.N := by rw [N_12]; omega
  refine ⟨⟨(i 0).val / 10000, hN⟩, flush12_2 _, ?_⟩
  rw [mem_blk12_2]
  obtain ⟨-, -, -, -, e0, e1, -, -⟩ := index_facts12 ⟨(i 0).val / 10000, hN⟩
  have e0' : win12_2.index ⟨(i 0).val / 10000, hN⟩ (0 : Fin 2) = (i 0).val / 10000 := e0
  intro a
  match a with
  | ⟨0, _⟩ => show win12_2.index ⟨(i 0).val / 10000, hN⟩ (0 : Fin 2) * 10000 ≤ (i 0).val ∧ (i 0).val < win12_2.index ⟨(i 0).val / 10000, hN⟩ (0 : Fin 2) * 10000 + 10000; omega
  | ⟨1, _⟩ => show win12_2.index ⟨(i 0).val / 10000, hN⟩ (1 : Fin 2) * 2 ≤ (i 1).val ∧ (i 1).val < win12_2.index ⟨(i 0).val / 10000, hN⟩ (1 : Fin 2) * 2 + 2; omega

/-- THE NODE ARRAY after the region: the two input arrays' columns side by side. -/
theorem val12_node (c : Dev nD) :
    (dat12 (F := Ideal) V c).arrAt 2 cfg12.N
      = concatenate Cert.ReferenceIdeal.S100000x2 1 [⟨Cert.ReferenceIdeal.S100000x1, V c (Pipeline.arrRef spec12 0)⟩, ⟨Cert.ReferenceIdeal.S100000x1, V c (Pipeline.arrRef spec12 1)⟩] Cert.ReferenceIdeal.Gen.concatenates_S100000x1_S100000x1_S100000x2_d1 := by
  refine (dat12 V c).arrAt_eq_of_cover 2 _ (fun t _ => ?_) blocks_cover12_2
  show (cfg12.win 2).cut (grid12.coords t) ((dat12 V c).after 2 t) = _
  rw [after12_2]
  refine read_blk12_2 t _ _ fun r j => ?_
  match j with
  | ⟨0, _⟩ =>
    refine (out12_2_at0 _ _ r).trans ?_
    refine (iblk12_0_at V c t r 0).trans ?_
    exact (refConcat_left _ _ ⟨10000 * t.val + r.val, row_lt12 t r⟩).symm
  | ⟨1, _⟩ =>
    refine (out12_2_at1 _ _ r).trans ?_
    refine (iblk12_1_at V c t r 0).trans ?_
    exact (refConcat_right _ _ ⟨10000 * t.val + r.val, row_lt12 t r⟩).symm

/-! ## The accumulator at the end, and the graph array -/

/-- After the ten points the accumulator's entry 0 is the sum over the 100000 rows of the column `a0` whose blocks
    input 0's blocks are. -/
theorem acc12_end0 (c : Dev nD) (u : Fin 1) (a0 : Vec Ideal S100000x1 .f32)
    (h0 : ∀ (t : Fin cfg12.N) (r : Fin 10000),
      iblk12 V c 0 t (ix2 r (0 : Fin 1)) = a0 (ix2 ⟨10000 * t.val + r.val, row_lt12 t r⟩ (0 : Fin 1))) :
    acc12 V c 10 (ix2 u (0 : Fin 2)) = ∑ R : Fin 100000, a0 (ix2 R (0 : Fin 1)) := by
  rw [sum_rows_blocks]
  refine acc_ten_eq_sum _ (fun n => acc12 V c n (ix2 u (0 : Fin 2))) ?_ fun t => ?_
  · show acc12 V c 0 (ix2 u (0 : Fin 2)) = 0
    rw [acc12_zero]; exact pay12_1_at u 0
  · show acc12 V c (t.val + 1) (ix2 u (0 : Fin 2)) = acc12 V c t.val (ix2 u (0 : Fin 2)) + _
    refine (congrFun (acc12_succ V c (Fin.cast N_12.symm t)) _).trans ?_
    refine (step12_at0 _ _ _ u).trans ?_
    refine congrArg (acc12 V c t.val (ix2 u (0 : Fin 2)) + ·) (Finset.sum_congr rfl fun r _ => ?_)
    exact h0 (Fin.cast N_12.symm t) r

/-- … and its entry 1 the sum of the column `a1` whose blocks input 1's blocks are. -/
theorem acc12_end1 (c : Dev nD) (u : Fin 1) (a1 : Vec Ideal S100000x1 .f32)
    (h1 : ∀ (t : Fin cfg12.N) (r : Fin 10000),
      iblk12 V c 1 t (ix2 r (0 : Fin 1)) = a1 (ix2 ⟨10000 * t.val + r.val, row_lt12 t r⟩ (0 : Fin 1))) :
    acc12 V c 10 (ix2 u (1 : Fin 2)) = ∑ R : Fin 100000, a1 (ix2 R (0 : Fin 1)) := by
  rw [sum_rows_blocks]
  refine acc_ten_eq_sum _ (fun n => acc12 V c n (ix2 u (1 : Fin 2))) ?_ fun t => ?_
  · show acc12 V c 0 (ix2 u (1 : Fin 2)) = 0
    rw [acc12_zero]; exact pay12_1_at u 1
  · show acc12 V c (t.val + 1) (ix2 u (1 : Fin 2)) = acc12 V c t.val (ix2 u (1 : Fin 2)) + _
    refine (congrFun (acc12_succ V c (Fin.cast N_12.symm t)) _).trans ?_
    refine (step12_at1 _ _ _ u).trans ?_
    refine congrArg (acc12 V c t.val (ix2 u (1 : Fin 2)) + ·) (Finset.sum_congr rfl fun r _ => ?_)
    exact h1 (Fin.cast N_12.symm t) r

/-- The graph output's block is its whole array: a block's worth of values equal to `G` is the block of `G`. -/
theorem read_blk12_3 (t : Fin cfg12.N) (G : S1x2.Idx → Elt Ideal .f32) :
    G = ((cfg12.win 3).blk t).view.read (Elt Ideal) G := by
  funext y
  show G y = G (((cfg12.win 3).blk t).view.emb y)
  rw [emb12_3]

/-- Every index of the graph array is in the last point's block. -/
theorem mem_blk12_3 (t : Fin cfg12.N) (i : S1x2.Idx) : i ∈ ((cfg12.win 3).blk t).view.set := by
  show i ∈ ((View.whole main_v123_1).slice (win12_3.rect t)).set
  rw [View.set_slice_whole, Rect.mem_set_unit]
  obtain ⟨-, -, -, -, -, -, e0, e1⟩ := index_facts12 t
  have hi0 : (i 0).val < 1 := (i 0).isLt
  have hi1 : (i 1).val < 2 := (i 1).isLt
  intro a
  match a with
  | ⟨0, _⟩ => show win12_3.index t (0 : Fin 2) * 1 ≤ (i 0).val ∧ (i 0).val < win12_3.index t (0 : Fin 2) * 1 + 1; omega
  | ⟨1, _⟩ => show win12_3.index t (1 : Fin 2) * 2 ≤ (i 1).val ∧ (i 1).val < win12_3.index t (1 : Fin 2) * 2 + 2; omega

/-- The graph array after the region: the accumulator at the end, scaled by 1/100000. -/
theorem arr12_3_eq (c : Dev nD) : (dat12 (F := Ideal) V c).arrAt 3 cfg12.N = k12_pay6 (acc12 V c 10) := by
  refine (dat12 V c).arrAt_eq_of_cover 3 _ (fun t hf => ?_) (fun i => ?_)
  · have h9 : t.val = 9 := by have := (flush12_3 t).mp hf; have := point_lt12 t; omega
    show (cfg12.win 3).cut (grid12.coords t) ((dat12 V c).after 3 t) = _
    rw [after12_3, show t.val + 1 = 10 by omega]
    exact read_blk12_3 t _
  · have hN : 9 < grid12.N := by rw [N_12]; omega
    exact ⟨⟨9, hN⟩, (flush12_3 _).mpr rfl, mem_blk12_3 _ i⟩

/-- THE GRAPH ARRAY after the region, viewed as a vector of length 2: the reference's column means. -/
theorem val12_graph (c : Dev nD) :
    shapeCast S2 ((dat12 (F := Ideal) V c).arrAt 3 cfg12.N) shapeCasts_S1x2_S2
      = Host.divf (Host.reduceAdd (F := Ideal)
          (concatenate Cert.ReferenceIdeal.S100000x2 1 [⟨Cert.ReferenceIdeal.S100000x1, V c (Pipeline.arrRef spec12 0)⟩, ⟨Cert.ReferenceIdeal.S100000x1, V c (Pipeline.arrRef spec12 1)⟩] Cert.ReferenceIdeal.Gen.concatenates_S100000x1_S100000x1_S100000x2_d1)
          (constant (F := Ideal) Cert.ReferenceIdeal.S_ .f32 0x00000000#32) Cert.ReferenceIdeal.Gen.reducesTo_S100000x2_S2_d0 Cert.ReferenceIdeal.Gen.h_S_)
        (broadcastInDim Cert.ReferenceIdeal.S2 ![] Cert.ReferenceIdeal.Gen.bcast_S_S2 (constant (F := Ideal) Cert.ReferenceIdeal.S_ .f32 0x47C35000#32)) := by
  rw [arr12_3_eq]
  funext i
  obtain ⟨j, rfl⟩ : ∃ j : Fin 2, i = ix1 j := ⟨i 0, eq_ix1 i⟩
  refine (shapeCast_1a_a_apply _ shapeCasts_S1x2_S2 j).trans ?_
  refine (pay12_6_at _ (0 : Fin 1) j).trans ?_
  match j with
  | ⟨0, _⟩ =>
    refine Eq.trans ?_ (refTail_at0 _ _).symm
    exact congrArg (· * ((1 / 100000 : ℝ) : EReal)) (acc12_end0 V c 0 _ fun t r => iblk12_0_at V c t r 0)
  | ⟨1, _⟩ =>
    refine Eq.trans ?_ (refTail_at1 _ _).symm
    exact congrArg (· * ((1 / 100000 : ℝ) : EReal)) (acc12_end1 V c 0 _ fun t r => iblk12_1_at V c t r 0)

end Cert.KernelIdeal.Hand

end
-- ==== Proof.KI.ValTail.lean ====
import proofs.«147273_j88914412962548_1_alg».proof.Proof.KI.Val
import proofs.«147273_j88914412962548_1_alg».proof.Proof.KI.G12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 12 and the last host operation: the two results are the reference's -/

variable (m : (ℓ : Loc nD τ sig) → Buf (Elt Ideal) ℓ) (c : Dev nD)

theorem W19_v75 : W19 m c main_v75 = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (keep19 m c main_v75 (by decide)).trans <| (keep18 m c main_v75 (by decide)).trans <| (keep17 m c main_v75 (by decide)).trans <| (keep16 m c main_v75 (by decide)).trans <| (keep15 m c main_v75 (by decide)).trans <| (keep14 m c main_v75 (by decide)).trans <| (keep13 m c main_v75 (by decide)).trans <| (keep12 m c main_v75 (by decide)).trans <| (keep11 m c main_v75 (by decide)).trans (W10_v75 m c)

theorem o20_2_eq : o20_2 m c = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold o20_2
  refine (val12_node (asTc (W19 m)) c).trans ?_
  rw [show asTc (W19 m) c (Pipeline.arrRef spec12 0) = _ from W19_v75 m c, show asTc (W19 m) c (Pipeline.arrRef spec12 1) = _ from W19_v122 m c]
  rfl

theorem W20_v123_0 : W20 m c main_v123_0 = o20_2 m c := by
  unfold W20
  exact (Function.update_of_ne (StableHlo.devRef_ne_of_ne (by decide : main_v123_0 ≠ main_v123_1)) _ _).trans
    (Function.update_self (Proc.devRef .tc main_v123_0) (o20_2 m c) (W19 m c))
theorem W20_v123_1 : W20 m c main_v123_1 = o20_3 m c := by
  unfold W20
  exact Function.update_self (Proc.devRef .tc main_v123_1) (o20_3 m c) (Function.update (W19 m c) (Proc.devRef .tc main_v123_0) (o20_2 m c))

/-- The node embeddings. -/
theorem W21_v123_0 : W21 m c main_v123_0 = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (keep21 m c main_v123_0 (by decide)).trans <| (W20_v123_0 m c).trans (o20_2_eq m c)

set_option maxHeartbeats 4000000 in
/-- The graph embedding. -/
theorem W21_v124 : W21 m c main_v124 = Cert.ReferenceIdeal.Read.val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold W21; after_results_simp
  rw [W20_v123_1]
  refine Eq.trans ?_ ((val12_graph (asTc (W19 m)) c).trans ?_)
  · unfold o20_3; rfl
  · rw [show asTc (W19 m) c (Pipeline.arrRef spec12 0) = _ from W19_v75 m c, show asTc (W19 m) c (Pipeline.arrRef spec12 1) = _ from W19_v122 m c]
    rfl

end Cert.KernelIdeal.Hand
end
-- ==== Proof.lean ====
/-
  The kernel program — a two-block, three-layer graph convolution whose dense projections, bias-and-activation steps and
  final concatenation with column means are thirteen kernel regions, the edge gathers and scatter-adds between them host
  operations — against its reference in plain array operations, at the ideal instance (floats are extended reals,
  operations exact).

  The frames of the two kernel programs: each region is entered from "every unscoped buffer at the contents the items
  before it leave" and left with its output arrays replaced by what its write-backs leave; the last region also carries
  a scratch accumulator through its grid. The reference's frame is its run with the results dropped.

  The values: a dense region's output array is the contraction of its operand rows with the small weight matrix (a sum
  of at most four products, in either order: additions and multiplications of extended reals are commutative and
  associative, and 0 + a = a, so no finiteness is needed); a bias region's is the reference's broadcast sum followed by
  max(·, 0), sin(10 ·) or nothing; the host stretches between regions are the reference's own operations on the same
  operands; the column means are the sum over ten blocks of ten thousand rows times the named constant 1/100000, which
  is the reference's sum over a hundred thousand rows divided by 100000.
-/
import proofs.«147273_j88914412962548_1_alg».proof.Defs
import proofs.«147273_j88914412962548_1_alg».proof.Proof.Gen.Kernel
import proofs.«147273_j88914412962548_1_alg».proof.Proof.Gen.KernelIdeal
import proofs.«147273_j88914412962548_1_alg».proof.Proof.Gen.ReferenceIdeal
import proofs.«147273_j88914412962548_1_alg».proof.Proof.Gen.Pre_finite_inputs
import proofs.«147273_j88914412962548_1_alg».proof.Proof.Gen.ReferenceIdeal.Read
import proofs.«147273_j88914412962548_1_alg».proof.Proof.K.Frame
import proofs.«147273_j88914412962548_1_alg».proof.Proof.KI.Run
import proofs.«147273_j88914412962548_1_alg».proof.Proof.KI.ValTail
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.Hand.run_values (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The one rewrite of the ideal pass: the kernel's literal for the reciprocal of the node count is read as the
    rational 1/100000. -/
theorem preserves : Cert.preserves_Kernel_KernelIdeal :=
  IdealRules.named_const.statement Cert.KernelIdeal.κ "inv_100000" .f32 0x3727C5AC#32 ((1 / 100000 : ℝ) : EReal) rfl

/-- Both runs end with the same two results: the reference's stages of the shared arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W21 m c Cert.KernelIdeal.main_v124, fun c => Cert.KernelIdeal.Hand.W21 m c Cert.KernelIdeal.main_v123_0,
    Cert.KernelIdeal.Hand.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v141_eq]
    obtain ⟨e0, e1, e2, e3, e4, e5, e6, e7, e8, e9, e10, e11, e12, e13⟩ := hagree c
    rw [e0, e1, e2, e3, e4, e5, e6, e7, e8, e9, e10, e11, e12, e13]
    exact (Cert.KernelIdeal.Hand.W21_v124 m c).symm
  · rw [Cert.ReferenceIdeal.Read.val_main_v138_eq]
    obtain ⟨e0, e1, e2, e3, e4, e5, e6, e7, e8, e9, e10, e11, e12, e13⟩ := hagree c
    rw [e0, e1, e2, e3, e4, e5, e6, e7, e8, e9, e10, e11, e12, e13]
    exact (Cert.KernelIdeal.Hand.W21_v123_0 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
